-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x4096 : Shape := ⟨3, ![2, 1024, 4096]⟩
abbrev S3x1024x128 : Shape := ⟨3, ![3, 1024, 128]⟩
abbrev S4096x4096 : Shape := ⟨2, ![4096, 4096]⟩
abbrev S1024x4096 : Shape := ⟨2, ![1024, 4096]⟩
abbrev S128 : Shape := ⟨1, ![128]⟩
abbrev S_ : Shape := ⟨0, ![]⟩

class Facts : Prop where
  bcast_S_S2x1024x4096 : S_.BroadcastsInDim S2x1024x4096 (![] : Fin 0 → Fin S2x1024x4096.rank)
  reducesTo_S2x1024x4096_S_d0_1_2 : S2x1024x4096.ReducesTo [0, 1, 2] S_
  h_S_ : 0 < S_.numel
  bcast_S_S3x1024x128 : S_.BroadcastsInDim S3x1024x128 (![] : Fin 0 → Fin S3x1024x128.rank)
  reducesTo_S3x1024x128_S_d0_1_2 : S3x1024x128.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S1024x4096 .f32) (main_arg5 : FVec F S4096x4096 .f32) (main_arg6 : FVec F S128 .f32) (main_arg7 : FVec F S128 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S2x1024x4096 .f32) (main_arg1 : FVec F S3x1024x128 .f32) (main_arg2 : FVec F S4096x4096 .f32) (main_arg3 : FVec F S1024x4096 .f32) (main_arg4 : FVec F S1024x4096 .f32) (main_arg5 : FVec F S4096x4096 .f32) (main_arg6 : FVec F S128 .f32) (main_arg7 : FVec F S128 .f32) : IVec S_ 1 :=
  let main_v0 : FVec F S2x1024x4096 .f32 := Host.absf main_arg0
  let main_cst : FVec F S_ .f32 := constant S_ .f32 0x7F800000#32
  let main_v1 : FVec F S2x1024x4096 .f32 := broadcastInDim S2x1024x4096 ![] bcast_S_S2x1024x4096 main_cst
  let main_v2 : IVec S2x1024x4096 1 := cmpf .olt main_v0 main_v1
  let main_c : IVec S_ 1 := constantI S_ 1 1#1
  let main_v3 : IVec S_ 1 := (fun x v => Host.reduce IntOp.andi x v reducesTo_S2x1024x4096_S_d0_1_2 h_S_) main_v2 main_c
  let main_v4 : FVec F S3x1024x128 .f32 := Host.absf main_arg1
  let main_cst_0 : FVec F S_ .f32 := constant S_ .f32 0x7F800000#32
  let main_v5 : FVec F S3x1024x128 .f32 := broadcastInDim S3x1024x128 ![] bcast_S_S3x1024x128 main_cst_0
  let main_v6 : IVec S3x1024x128 1 := cmpf .olt main_v4 main_v5
  let main_c_1 : IVec S_ 1 := constantI S_ 1 1#1
  let main_v7 : IVec S_ 1 := (fun x v => Host.reduce IntOp.andi x v reducesTo_S3x1024x128_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_v13 main_v16
-- ==== Kernel.lean ====
abbrev S2x1024x4096 : Shape := ⟨3, ![2, 1024, 4096]⟩
abbrev S3x1024x128 : Shape := ⟨3, ![3, 1024, 128]⟩
abbrev S4096x4096 : Shape := ⟨2, ![4096, 4096]⟩
abbrev S1024x4096 : Shape := ⟨2, ![1024, 4096]⟩
abbrev S128 : Shape := ⟨1, ![128]⟩
abbrev S2048x4096 : Shape := ⟨2, ![2048, 4096]⟩
abbrev S6144x4096 : Shape := ⟨2, ![6144, 4096]⟩
abbrev S2048x6144 : Shape := ⟨2, ![2048, 6144]⟩
abbrev S512x1024 : Shape := ⟨2, ![512, 1024]⟩
abbrev S1024x1024 : Shape := ⟨2, ![1024, 1024]⟩
abbrev S2x1024x6144 : Shape := ⟨3, ![2, 1024, 6144]⟩
abbrev S2x1024x32x128 : Shape := ⟨4, ![2, 1024, 32, 128]⟩
abbrev S2x32x1024x128 : Shape := ⟨4, ![2, 32, 1024, 128]⟩
abbrev S2x1024x1024 : Shape := ⟨3, ![2, 1024, 1024]⟩
abbrev S2x1024x8x128 : Shape := ⟨4, ![2, 1024, 8, 128]⟩
abbrev S2x8x1024x128 : Shape := ⟨4, ![2, 8, 1024, 128]⟩
abbrev S1x1x1024x128 : Shape := ⟨4, ![1, 1, 1024, 128]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S1x128 : Shape := ⟨2, ![1, 128]⟩
abbrev S1024x64 : Shape := ⟨2, ![1024, 64]⟩

abbrev nBuf : Space → Nat
  | .hbm => 26
  | .vmem => 25
  | .smem => 0
  | _ => 0

abbrev bufTy : (tb : Table) → Fin (tcTables nBuf tb) → BufTy
  | .hbm, ⟨0, _⟩ => ⟨S2x1024x4096, .f32⟩
  | .hbm, ⟨1, _⟩ => ⟨S3x1024x128, .f32⟩
  | .hbm, ⟨2, _⟩ => ⟨S4096x4096, .f32⟩
  | .hbm, ⟨3, _⟩ => ⟨S1024x4096, .f32⟩
  | .hbm, ⟨4, _⟩ => ⟨S1024x4096, .f32⟩
  | .hbm, ⟨5, _⟩ => ⟨S4096x4096, .f32⟩
  | .hbm, ⟨6, _⟩ => ⟨S128, .f32⟩
  | .hbm, ⟨7, _⟩ => ⟨S128, .f32⟩
  | .hbm, ⟨8, _⟩ => ⟨S2048x4096, .f32⟩
  | .hbm, ⟨9, _⟩ => ⟨S6144x4096, .f32⟩
  | .hbm, ⟨10, _⟩ => ⟨S2048x6144, .f32⟩
  | .hbm, ⟨11, _⟩ => ⟨S2x1024x6144, .f32⟩
  | .hbm, ⟨12, _⟩ => ⟨S2x1024x4096, .f32⟩
  | .hbm, ⟨13, _⟩ => ⟨S2x1024x32x128, .f32⟩
  | .hbm, ⟨14, _⟩ => ⟨S2x32x1024x128, .f32⟩
  | .hbm, ⟨15, _⟩ => ⟨S2x1024x1024, .f32⟩
  | .hbm, ⟨16, _⟩ => ⟨S2x1024x8x128, .f32⟩
  | .hbm, ⟨17, _⟩ => ⟨S2x8x1024x128, .f32⟩
  | .hbm, ⟨18, _⟩ => ⟨S2x1024x1024, .f32⟩
  | .hbm, ⟨19, _⟩ => ⟨S2x1024x8x128, .f32⟩
  | .hbm, ⟨20, _⟩ => ⟨S2x8x1024x128, .f32⟩
  | .hbm, ⟨21, _⟩ => ⟨S2x32x1024x128, .f32⟩
  | .hbm, ⟨22, _⟩ => ⟨S2x1024x32x128, .f32⟩
  | .hbm, ⟨23, _⟩ => ⟨S2048x4096, .f32⟩
  | .hbm, ⟨24, _⟩ => ⟨S2048x4096, .f32⟩
  | .hbm, ⟨25, _⟩ => ⟨S2x1024x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024x128, .f32⟩
  | .local _ .vmem, ⟨8, _⟩ => ⟨S1x1x1024x128, .f32⟩
  | .local _ .vmem, ⟨9, _⟩ => ⟨S1x1x1024x128, .f32⟩
  | .local _ .vmem, ⟨10, _⟩ => ⟨S1x1x1024x128, .f32⟩
  | .local _ .vmem, ⟨11, _⟩ => ⟨S1x1x1024x128, .f32⟩
  | .local _ .vmem, ⟨12, _⟩ => ⟨S1x1x1024x128, .f32⟩
  | .local _ .vmem, ⟨13, _⟩ => ⟨S3x1024x128, .f32⟩
  | .local _ .vmem, ⟨14, _⟩ => ⟨S128, .f32⟩
  | .local _ .vmem, ⟨15, _⟩ => ⟨S128, .f32⟩
  | .local _ .vmem, ⟨16, _⟩ => ⟨S1x1x1024x128, .f32⟩
  | .local _ .vmem, ⟨17, _⟩ => ⟨S1x1x1024x128, .f32⟩
  | .local _ .vmem, ⟨18, _⟩ => ⟨S512x1024, .f32⟩
  | .local _ .vmem, ⟨19, _⟩ => ⟨S512x1024, .f32⟩
  | .local _ .vmem, ⟨20, _⟩ => ⟨S1024x1024, .f32⟩
  | .local _ .vmem, ⟨21, _⟩ => ⟨S1024x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨3, ![4, 6, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![2, 32], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc1_transform_2 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S3x1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  shapeCasts_S2x1024x4096_S2048x4096 : S2x1024x4096.ShapeCasts S2048x4096
  concatenates_S4096x4096_S1024x4096_S1024x4096_S6144x4096_d0 : Shape.Concatenates [S4096x4096, S1024x4096, S1024x4096] S6144x4096 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x6144_S2x1024x6144 : S2048x6144.ShapeCasts S2x1024x6144
  slices_S2x1024x6144_S2x1024x4096_0_0_0 : S2x1024x6144.Slices ![0, 0, 0] S2x1024x4096
  shapeCasts_S2x1024x4096_S2x1024x32x128 : S2x1024x4096.ShapeCasts S2x1024x32x128
  transposes_S2x1024x32x128_S2x32x1024x128_0_2_1_3 : S2x1024x32x128.Transposes [0, 2, 1, 3] S2x32x1024x128
  slices_S2x1024x6144_S2x1024x1024_0_0_4096 : S2x1024x6144.Slices ![0, 0, 4096] S2x1024x1024
  shapeCasts_S2x1024x1024_S2x1024x8x128 : S2x1024x1024.ShapeCasts S2x1024x8x128
  transposes_S2x1024x8x128_S2x8x1024x128_0_2_1_3 : S2x1024x8x128.Transposes [0, 2, 1, 3] S2x8x1024x128
  slices_S2x1024x6144_S2x1024x1024_0_0_5120 : S2x1024x6144.Slices ![0, 0, 5120] S2x1024x1024
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  inb_S3x1024x128_S1x1024x128_0_0_0 : ∀ a, (![0, 0, 0] : Fin 3 → Nat) a + S1x1024x128.size a ≤ S3x1024x128.size a
  h_S1x1024x128 : 0 < S1x1024x128.numel
  shapeCasts_S1x1024x128_S1024x128 : S1x1024x128.ShapeCasts S1024x128
  inb_S3x1024x128_S1x1024x128_1_0_0 : ∀ a, (![1, 0, 0] : Fin 3 → Nat) a + S1x1024x128.size a ≤ S3x1024x128.size a
  inb_S3x1024x128_S1x1024x128_2_0_0 : ∀ a, (![2, 0, 0] : Fin 3 → Nat) a + S1x1024x128.size a ≤ S3x1024x128.size a
  inb_S128_S128_0 : ∀ a, (![0] : Fin 1 → Nat) a + S128.size a ≤ S128.size a
  h_S128 : 0 < S128.numel
  reduces_S1024x128_S1024 : S1024x128.Reduces [1] S1024
  shapeCasts_S1024_S1024x1 : S1024.ShapeCasts S1024x1
  broadcasts_S1024x1_S1024x128 : S1024x1.Broadcasts S1024x128
  shapeCasts_S128_S1x128 : S128.ShapeCasts S1x128
  broadcasts_S1x128_S1024x128 : S1x128.Broadcasts S1024x128
  slices_S1024x128_o0_0_S1024x64 : S1024x128.Slices ![0, 0] S1024x64
  slices_S1024x128_o0_64_S1024x64 : S1024x128.Slices ![0, 64] S1024x64
  concatenates_S1024x64_S1024x64_S1024x128_d1 : Shape.Concatenates [S1024x64, S1024x64] S1024x128 1
  reduces_S1024x1024_S1024 : S1024x1024.Reduces [1] S1024
  broadcasts_S1024x1_S1024x1024 : S1024x1.Broadcasts S1024x1024
  shapeCasts_S1024x128_S1x1x1024x128 : S1024x128.ShapeCasts S1x1x1024x128
  transposes_S2x32x1024x128_S2x1024x32x128_0_2_1_3 : S2x32x1024x128.Transposes [0, 2, 1, 3] S2x1024x32x128
  shapeCasts_S2x1024x32x128_S2048x4096 : S2x1024x32x128.ShapeCasts S2048x4096
  shapeCasts_S2048x4096_S2x1024x4096 : S2048x4096.ShapeCasts S2x1024x4096
  dot_S512x1024_S1024x1024_S512x1024_1_1_0_0_n_n_wf : DotDims.WF S512x1024 S1024x1024 S512x1024 [1] [1] [0] [0] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x4096.size a
  hwx0_0 : ∀ i : grid0.Coords, EltTy.bits .f32 = 32 ∨ (Rect.block (s := S2048x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S6144x4096.size a
  hwx0_1 : ∀ i : grid0.Coords, EltTy.bits .f32 = 32 ∨ (Rect.block (s := S6144x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x6144.size a
  hwx0_2 : ∀ i : grid0.Coords, EltTy.bits .f32 = 32 ∨ (Rect.block (s := S2048x6144) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x128.size a ≤ S2x32x1024x128.size a
  hwx1_0 : ∀ i : grid1.Coords, EltTy.bits .f32 = 32 ∨ (Rect.block (s := S2x32x1024x128) S1x1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x128.size a ≤ S2x8x1024x128.size a
  hwx1_1 : ∀ i : grid1.Coords, EltTy.bits .f32 = 32 ∨ (Rect.block (s := S2x8x1024x128) S1x1x1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x128.size a ≤ S2x8x1024x128.size a
  hwx1_2 : ∀ i : grid1.Coords, EltTy.bits .f32 = 32 ∨ (Rect.block (s := S2x8x1024x128) S1x1x1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x1024x128.size a ≤ S3x1024x128.size a
  hwx1_3 : ∀ i : grid1.Coords, EltTy.bits .f32 = 32 ∨ (Rect.block (s := S3x1024x128) S3x1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1024x128.size a ≤ S2x32x1024x128.size a
  hwx1_6 : ∀ i : grid1.Coords, EltTy.bits .f32 = 32 ∨ (Rect.block (s := S2x32x1024x128) S1x1x1024x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x4096.size a
  hwx2_0 : ∀ i : grid2.Coords, EltTy.bits .f32 = 32 ∨ (Rect.block (s := S2048x4096) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .f32 = 32 ∨ (Rect.block (s := S4096x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S2048x4096.size a
  hwx2_2 : ∀ i : grid2.Coords, EltTy.bits .f32 = 32 ∨ (Rect.block (s := S2048x4096) S512x1024.size (cc2_transform_2 i) (hinb2_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S1x1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S3x1024x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x1x1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S2x1024x4096 : Shape := ⟨3, ![2, 1024, 4096]⟩
abbrev S3x1024x128 : Shape := ⟨3, ![3, 1024, 128]⟩
abbrev S4096x4096 : Shape := ⟨2, ![4096, 4096]⟩
abbrev S1024x4096 : Shape := ⟨2, ![1024, 4096]⟩
abbrev S128 : Shape := ⟨1, ![128]⟩
abbrev S2x1024x32x128 : Shape := ⟨4, ![2, 1024, 32, 128]⟩
abbrev S2x32x1024x128 : Shape := ⟨4, ![2, 32, 1024, 128]⟩
abbrev S2x1024x1024 : Shape := ⟨3, ![2, 1024, 1024]⟩
abbrev S2x1024x8x128 : Shape := ⟨4, ![2, 1024, 8, 128]⟩
abbrev S2x8x1024x128 : Shape := ⟨4, ![2, 8, 1024, 128]⟩
abbrev S_ : Shape := ⟨0, ![]⟩
abbrev S2x32x1024 : Shape := ⟨3, ![2, 32, 1024]⟩
abbrev S2x32x1024x1 : Shape := ⟨4, ![2, 32, 1024, 1]⟩
abbrev S1x1x1x128 : Shape := ⟨4, ![1, 1, 1, 128]⟩
abbrev S2x8x1024 : Shape := ⟨3, ![2, 8, 1024]⟩
abbrev S2x8x1024x1 : Shape := ⟨4, ![2, 8, 1024, 1]⟩
abbrev S1x1024x128 : Shape := ⟨3, ![1, 1024, 128]⟩
abbrev S1024x128 : Shape := ⟨2, ![1024, 128]⟩
abbrev S1x1x1024x128 : Shape := ⟨4, ![1, 1, 1024, 128]⟩
abbrev S2x32x1024x64 : Shape := ⟨4, ![2, 32, 1024, 64]⟩
abbrev S1024x64 : Shape := ⟨2, ![1024, 64]⟩
abbrev S1x1x1024x64 : Shape := ⟨4, ![1, 1, 1024, 64]⟩
abbrev S2x8x1024x64 : Shape := ⟨4, ![2, 8, 1024, 64]⟩
abbrev S2x8x4x1024x128 : Shape := ⟨5, ![2, 8, 4, 1024, 128]⟩
abbrev S2x32x1024x1024 : Shape := ⟨4, ![2, 32, 1024, 1024]⟩

abbrev nBuf : Space → Nat
  | .hbm => 117
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S3x1024x128, .f32⟩
  | .hbm, ⟨2, _⟩ => ⟨S4096x4096, .f32⟩
  | .hbm, ⟨3, _⟩ => ⟨S1024x4096, .f32⟩
  | .hbm, ⟨4, _⟩ => ⟨S1024x4096, .f32⟩
  | .hbm, ⟨5, _⟩ => ⟨S4096x4096, .f32⟩
  | .hbm, ⟨6, _⟩ => ⟨S128, .f32⟩
  | .hbm, ⟨7, _⟩ => ⟨S128, .f32⟩
  | .hbm, ⟨8, _⟩ => ⟨S2x1024x4096, .f32⟩
  | .hbm, ⟨9, _⟩ => ⟨S2x1024x32x128, .f32⟩
  | .hbm, ⟨10, _⟩ => ⟨S2x32x1024x128, .f32⟩
  | .hbm, ⟨11, _⟩ => ⟨S2x1024x1024, .f32⟩
  | .hbm, ⟨12, _⟩ => ⟨S2x1024x8x128, .f32⟩
  | .hbm, ⟨13, _⟩ => ⟨S2x8x1024x128, .f32⟩
  | .hbm, ⟨14, _⟩ => ⟨S2x1024x1024, .f32⟩
  | .hbm, ⟨15, _⟩ => ⟨S2x1024x8x128, .f32⟩
  | .hbm, ⟨16, _⟩ => ⟨S2x8x1024x128, .f32⟩
  | .hbm, ⟨17, _⟩ => ⟨S2x32x1024x128, .f32⟩
  | .hbm, ⟨18, _⟩ => ⟨S_, .f32⟩
  | .hbm, ⟨19, _⟩ => ⟨S2x32x1024, .f32⟩
  | .hbm, ⟨20, _⟩ => ⟨S2x32x1024x1, .f32⟩
  | .hbm, ⟨21, _⟩ => ⟨S_, .f32⟩
  | .hbm, ⟨22, _⟩ => ⟨S2x32x1024x1, .f32⟩
  | .hbm, ⟨23, _⟩ => ⟨S2x32x1024x1, .f32⟩
  | .hbm, ⟨24, _⟩ => ⟨S_, .f32⟩
  | .hbm, ⟨25, _⟩ => ⟨S2x32x1024x1, .f32⟩
  | .hbm, ⟨26, _⟩ => ⟨S2x32x1024x1, .f32⟩
  | .hbm, ⟨27, _⟩ => ⟨S2x32x1024x1, .f32⟩
  | .hbm, ⟨28, _⟩ => ⟨S2x32x1024x128, .f32⟩
  | .hbm, ⟨29, _⟩ => ⟨S2x32x1024x128, .f32⟩
  | .hbm, ⟨30, _⟩ => ⟨S1x1x1x128, .f32⟩
  | .hbm, ⟨31, _⟩ => ⟨S2x32x1024x128, .f32⟩
  | .hbm, ⟨32, _⟩ => ⟨S2x32x1024x128, .f32⟩
  | .hbm, ⟨33, _⟩ => ⟨S2x8x1024x128, .f32⟩
  | .hbm, ⟨34, _⟩ => ⟨S_, .f32⟩
  | .hbm, ⟨35, _⟩ => ⟨S2x8x1024, .f32⟩
  | .hbm, ⟨36, _⟩ => ⟨S2x8x1024x1, .f32⟩
  | .hbm, ⟨37, _⟩ => ⟨S_, .f32⟩
  | .hbm, ⟨38, _⟩ => ⟨S2x8x1024x1, .f32⟩
  | .hbm, ⟨39, _⟩ => ⟨S2x8x1024x1, .f32⟩
  | .hbm, ⟨40, _⟩ => ⟨S_, .f32⟩
  | .hbm, ⟨41, _⟩ => ⟨S2x8x1024x1, .f32⟩
  | .hbm, ⟨42, _⟩ => ⟨S2x8x1024x1, .f32⟩
  | .hbm, ⟨43, _⟩ => ⟨S2x8x1024x1, .f32⟩
  | .hbm, ⟨44, _⟩ => ⟨S2x8x1024x128, .f32⟩
  | .hbm, ⟨45, _⟩ => ⟨S2x8x1024x128, .f32⟩
  | .hbm, ⟨46, _⟩ => ⟨S1x1x1x128, .f32⟩
  | .hbm, ⟨47, _⟩ => ⟨S2x8x1024x128, .f32⟩
  | .hbm, ⟨48, _⟩ => ⟨S2x8x1024x128, .f32⟩
  | .hbm, ⟨49, _⟩ => ⟨S1x1024x128, .f32⟩
  | .hbm, ⟨50, _⟩ => ⟨S1024x128, .f32⟩
  | .hbm, ⟨51, _⟩ => ⟨S1x1024x128, .f32⟩
  | .hbm, ⟨52, _⟩ => ⟨S1024x128, .f32⟩
  | .hbm, ⟨53, _⟩ => ⟨S1x1024x128, .f32⟩
  | .hbm, ⟨54, _⟩ => ⟨S1024x128, .f32⟩
  | .hbm, ⟨55, _⟩ => ⟨S1x1x1024x128, .f32⟩
  | .hbm, ⟨56, _⟩ => ⟨S2x32x1024x128, .f32⟩
  | .hbm, ⟨57, _⟩ => ⟨S2x32x1024x128, .f32⟩
  | .hbm, ⟨58, _⟩ => ⟨S2x32x1024x64, .f32⟩
  | .hbm, ⟨59, _⟩ => ⟨S2x32x1024x64, .f32⟩
  | .hbm, ⟨60, _⟩ => ⟨S1024x64, .f32⟩
  | .hbm, ⟨61, _⟩ => ⟨S1x1x1024x64, .f32⟩
  | .hbm, ⟨62, _⟩ => ⟨S2x32x1024x64, .f32⟩
  | .hbm, ⟨63, _⟩ => ⟨S2x32x1024x64, .f32⟩
  | .hbm, ⟨64, _⟩ => ⟨S2x32x1024x64, .f32⟩
  | .hbm, ⟨65, _⟩ => ⟨S2x32x1024x64, .f32⟩
  | .hbm, ⟨66, _⟩ => ⟨S2x32x1024x64, .f32⟩
  | .hbm, ⟨67, _⟩ => ⟨S1024x64, .f32⟩
  | .hbm, ⟨68, _⟩ => ⟨S1x1x1024x64, .f32⟩
  | .hbm, ⟨69, _⟩ => ⟨S2x32x1024x64, .f32⟩
  | .hbm, ⟨70, _⟩ => ⟨S2x32x1024x64, .f32⟩
  | .hbm, ⟨71, _⟩ => ⟨S2x32x1024x64, .f32⟩
  | .hbm, ⟨72, _⟩ => ⟨S2x32x1024x128, .f32⟩
  | .hbm, ⟨73, _⟩ => ⟨S1x1x1024x128, .f32⟩
  | .hbm, ⟨74, _⟩ => ⟨S2x8x1024x128, .f32⟩
  | .hbm, ⟨75, _⟩ => ⟨S2x8x1024x128, .f32⟩
  | .hbm, ⟨76, _⟩ => ⟨S2x8x1024x64, .f32⟩
  | .hbm, ⟨77, _⟩ => ⟨S2x8x1024x64, .f32⟩
  | .hbm, ⟨78, _⟩ => ⟨S1024x64, .f32⟩
  | .hbm, ⟨79, _⟩ => ⟨S1x1x1024x64, .f32⟩
  | .hbm, ⟨80, _⟩ => ⟨S2x8x1024x64, .f32⟩
  | .hbm, ⟨81, _⟩ => ⟨S2x8x1024x64, .f32⟩
  | .hbm, ⟨82, _⟩ => ⟨S2x8x1024x64, .f32⟩
  | .hbm, ⟨83, _⟩ => ⟨S2x8x1024x64, .f32⟩
  | .hbm, ⟨84, _⟩ => ⟨S2x8x1024x64, .f32⟩
  | .hbm, ⟨85, _⟩ => ⟨S1024x64, .f32⟩
  | .hbm, ⟨86, _⟩ => ⟨S1x1x1024x64, .f32⟩
  | .hbm, ⟨87, _⟩ => ⟨S2x8x1024x64, .f32⟩
  | .hbm, ⟨88, _⟩ => ⟨S2x8x1024x64, .f32⟩
  | .hbm, ⟨89, _⟩ => ⟨S2x8x1024x64, .f32⟩
  | .hbm, ⟨90, _⟩ => ⟨S2x8x1024x128, .f32⟩
  | .hbm, ⟨91, _⟩ => ⟨S2x8x4x1024x128, .f32⟩
  | .hbm, ⟨92, _⟩ => ⟨S2x32x1024x128, .f32⟩
  | .hbm, ⟨93, _⟩ => ⟨S2x8x4x1024x128, .f32⟩
  | .hbm, ⟨94, _⟩ => ⟨S2x32x1024x128, .f32⟩
  | .hbm, ⟨95, _⟩ => ⟨S2x32x1024x1024, .f32⟩
  | .hbm, ⟨96, _⟩ => ⟨S_, .f32⟩
  | .hbm, ⟨97, _⟩ => ⟨S2x32x1024x1024, .f32⟩
  | .hbm, ⟨98, _⟩ => ⟨S2x32x1024x1024, .f32⟩
  | .hbm, ⟨99, _⟩ => ⟨S_, .f32⟩
  | .hbm, ⟨100, _⟩ => ⟨S2x32x1024, .f32⟩
  | .hbm, ⟨101, _⟩ => ⟨S_, .f32⟩
  | .hbm, ⟨102, _⟩ => ⟨S2x32x1024, .f32⟩
  | .hbm, ⟨103, _⟩ => ⟨S2x32x1024, .f32⟩
  | .hbm, ⟨104, _⟩ => ⟨S2x32x1024x1, .f32⟩
  | .hbm, ⟨105, _⟩ => ⟨S2x32x1024x1024, .f32⟩
  | .hbm, ⟨106, _⟩ => ⟨S2x32x1024x1024, .f32⟩
  | .hbm, ⟨107, _⟩ => ⟨S2x32x1024x1024, .f32⟩
  | .hbm, ⟨108, _⟩ => ⟨S_, .f32⟩
  | .hbm, ⟨109, _⟩ => ⟨S2x32x1024, .f32⟩
  | .hbm, ⟨110, _⟩ => ⟨S2x32x1024x1, .f32⟩
  | .hbm, ⟨111, _⟩ => ⟨S2x32x1024x1024, .f32⟩
  | .hbm, ⟨112, _⟩ => ⟨S2x32x1024x1024, .f32⟩
  | .hbm, ⟨113, _⟩ => ⟨S2x32x1024x128, .f32⟩
  | .hbm, ⟨114, _⟩ => ⟨S2x1024x32x128, .f32⟩
  | .hbm, ⟨115, _⟩ => ⟨S2x1024x4096, .f32⟩
  | .hbm, ⟨116, _⟩ => ⟨S2x1024x4096, .f32⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_5 : Ref sig .tc := ⟨.hbm, 96, rfl⟩
abbrev main_v82 : Ref sig .tc := ⟨.hbm, 97, rfl⟩
abbrev main_v83 : Ref sig .tc := ⟨.hbm, 98, rfl⟩
abbrev main_cst_6 : Ref sig .tc := ⟨.hbm, 99, rfl⟩
abbrev main_v84 : Ref sig .tc := ⟨.hbm, 100, rfl⟩
abbrev main_cst_7 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_8 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩

abbrev nD : Nat := 1
abbrev τ : Topo := Topo.v7x

variable {F : FTy → Type} [FloatOps F]

class Facts₀ : Prop where
  shapeCasts_S2x1024x4096_S2x1024x32x128 : S2x1024x4096.ShapeCasts S2x1024x32x128
  transposes_S2x1024x32x128_S2x32x1024x128_0_2_1_3 : S2x1024x32x128.Transposes [0, 2, 1, 3] S2x32x1024x128
  shapeCasts_S2x1024x1024_S2x1024x8x128 : S2x1024x1024.ShapeCasts S2x1024x8x128
  transposes_S2x1024x8x128_S2x8x1024x128_0_2_1_3 : S2x1024x8x128.Transposes [0, 2, 1, 3] S2x8x1024x128
  reducesTo_S2x32x1024x128_S2x32x1024_d3 : S2x32x1024x128.ReducesTo [3] S2x32x1024
  h_S_ : 0 < S_.numel
  bcast_S2x32x1024_S2x32x1024x1_0_1_2 : S2x32x1024.BroadcastsInDim S2x32x1024x1 (![0, 1, 2] : Fin 3 → Fin S2x32x1024x1.rank)
  bcast_S_S2x32x1024x1 : S_.BroadcastsInDim S2x32x1024x1 (![] : Fin 0 → Fin S2x32x1024x1.rank)
  bcast_S2x32x1024x1_S2x32x1024x128_0_1_2_3 : S2x32x1024x1.BroadcastsInDim S2x32x1024x128 (![0, 1, 2, 3] : Fin 4 → Fin S2x32x1024x128.rank)
  bcast_S128_S1x1x1x128_3 : S128.BroadcastsInDim S1x1x1x128 (![3] : Fin 1 → Fin S1x1x1x128.rank)
  bcast_S1x1x1x128_S2x32x1024x128_0_1_2_3 : S1x1x1x128.BroadcastsInDim S2x32x1024x128 (![0, 1, 2, 3] : Fin 4 → Fin S2x32x1024x128.rank)
  reducesTo_S2x8x1024x128_S2x8x1024_d3 : S2x8x1024x128.ReducesTo [3] S2x8x1024
  bcast_S2x8x1024_S2x8x1024x1_0_1_2 : S2x8x1024.BroadcastsInDim S2x8x1024x1 (![0, 1, 2] : Fin 3 → Fin S2x8x1024x1.rank)
  bcast_S_S2x8x1024x1 : S_.BroadcastsInDim S2x8x1024x1 (![] : Fin 0 → Fin S2x8x1024x1.rank)
  bcast_S2x8x1024x1_S2x8x1024x128_0_1_2_3 : S2x8x1024x1.BroadcastsInDim S2x8x1024x128 (![0, 1, 2, 3] : Fin 4 → Fin S2x8x1024x128.rank)
  bcast_S1x1x1x128_S2x8x1024x128_0_1_2_3 : S1x1x1x128.BroadcastsInDim S2x8x1024x128 (![0, 1, 2, 3] : Fin 4 → Fin S2x8x1024x128.rank)
  slices_S3x1024x128_S1x1024x128_0_0_0 : S3x1024x128.Slices ![0, 0, 0] S1x1024x128
  shapeCasts_S1x1024x128_S1024x128 : S1x1024x128.ShapeCasts S1024x128
  slices_S3x1024x128_S1x1024x128_1_0_0 : S3x1024x128.Slices ![1, 0, 0] S1x1024x128
  slices_S3x1024x128_S1x1024x128_2_0_0 : S3x1024x128.Slices ![2, 0, 0] S1x1024x128
  bcast_S1024x128_S1x1x1024x128_2_3 : S1024x128.BroadcastsInDim S1x1x1024x128 (![2, 3] : Fin 2 → Fin S1x1x1024x128.rank)
  bcast_S1x1x1024x128_S2x32x1024x128_0_1_2_3 : S1x1x1024x128.BroadcastsInDim S2x32x1024x128 (![0, 1, 2, 3] : Fin 4 → Fin S2x32x1024x128.rank)
  slices_S2x32x1024x128_S2x32x1024x64_0_0_0_0 : S2x32x1024x128.Slices ![0, 0, 0, 0] S2x32x1024x64
  slices_S2x32x1024x128_S2x32x1024x64_0_0_0_64 : S2x32x1024x128.Slices ![0, 0, 0, 64] S2x32x1024x64
  slices_S1024x128_S1024x64_0_0 : S1024x128.Slices ![0, 0] S1024x64
  bcast_S1024x64_S1x1x1024x64_2_3 : S1024x64.BroadcastsInDim S1x1x1024x64 (![2, 3] : Fin 2 → Fin S1x1x1024x64.rank)
  bcast_S1x1x1024x64_S2x32x1024x64_0_1_2_3 : S1x1x1024x64.BroadcastsInDim S2x32x1024x64 (![0, 1, 2, 3] : Fin 4 → Fin S2x32x1024x64.rank)
  slices_S1024x128_S1024x64_0_64 : S1024x128.Slices ![0, 64] S1024x64
  concatenates_S2x32x1024x64_S2x32x1024x64_S2x32x1024x128_d3 : Shape.Concatenates [S2x32x1024x64, S2x32x1024x64] S2x32x1024x128 3
  bcast_S1x1x1024x128_S2x8x1024x128_0_1_2_3 : S1x1x1024x128.BroadcastsInDim S2x8x1024x128 (![0, 1, 2, 3] : Fin 4 → Fin S2x8x1024x128.rank)
  slices_S2x8x1024x128_S2x8x1024x64_0_0_0_0 : S2x8x1024x128.Slices ![0, 0, 0, 0] S2x8x1024x64
  slices_S2x8x1024x128_S2x8x1024x64_0_0_0_64 : S2x8x1024x128.Slices ![0, 0, 0, 64] S2x8x1024x64
  bcast_S1x1x1024x64_S2x8x1024x64_0_1_2_3 : S1x1x1024x64.BroadcastsInDim S2x8x1024x64 (![0, 1, 2, 3] : Fin 4 → Fin S2x8x1024x64.rank)
  concatenates_S2x8x1024x64_S2x8x1024x64_S2x8x1024x128_d3 : Shape.Concatenates [S2x8x1024x64, S2x8x1024x64] S2x8x1024x128 3
  bcast_S2x8x1024x128_S2x8x4x1024x128_0_1_3_4 : S2x8x1024x128.BroadcastsInDim S2x8x4x1024x128 (![0, 1, 3, 4] : Fin 4 → Fin S2x8x4x1024x128.rank)
  shapeCasts_S2x8x4x1024x128_S2x32x1024x128 : S2x8x4x1024x128.ShapeCasts S2x32x1024x128
  bcast_S_S2x32x1024x1024 : S_.BroadcastsInDim S2x32x1024x1024 (![] : Fin 0 → Fin S2x32x1024x1024.rank)
  reducesTo_S2x32x1024x1024_S2x32x1024_d3 : S2x32x1024x1024.ReducesTo [3] S2x32x1024
  bcast_S_S2x32x1024 : S_.BroadcastsInDim S2x32x1024 (![] : Fin 0 → Fin S2x32x1024.rank)
  bcast_S2x32x1024x1_S2x32x1024x1024_0_1_2_3 : S2x32x1024x1.BroadcastsInDim S2x32x1024x1024 (![0, 1, 2, 3] : Fin 4 → Fin S2x32x1024x1024.rank)
  transposes_S2x32x1024x128_S2x1024x32x128_0_2_1_3 : S2x32x1024x128.Transposes [0, 2, 1, 3] S2x1024x32x128
  shapeCasts_S2x1024x32x128_S2x1024x4096 : S2x1024x32x128.ShapeCasts S2x1024x4096
  dot_S2x1024x4096_S4096x4096_S2x1024x4096_2_1_01_0_n_n_wf : DotDims.WF S2x1024x4096 S4096x4096 S2x1024x4096 [2] [1] [0, 1] [0] [] []
  dot_S2x1024x4096_S1024x4096_S2x1024x1024_2_1_01_0_n_n_wf : DotDims.WF S2x1024x4096 S1024x4096 S2x1024x1024 [2] [1] [0, 1] [0] [] []
  dot_S2x32x1024x128_S2x32x1024x128_S2x32x1024x1024_3_3_2_2_01_01_wf : DotDims.WF S2x32x1024x128 S2x32x1024x128 S2x32x1024x1024 [3] [3] [2] [2] [0, 1] [0, 1]
  dot_S2x32x1024x1024_S2x32x1024x128_S2x32x1024x128_3_2_2_3_01_01_wf : DotDims.WF S2x32x1024x1024 S2x32x1024x128 S2x32x1024x128 [3] [2] [2] [3] [0, 1] [0, 1]

variable [Facts₀]

def dot_S2x1024x4096_S4096x4096_S2x1024x4096_2_1_01_0_n_n : DotDims S2x1024x4096 S4096x4096 S2x1024x4096 where
  lhsContracting := [2]
  rhsContracting := [1]
  lhsNonContracting := [0, 1]
  rhsNonContracting := [0]
  lhsBatch := []
  rhsBatch := []
  wf := dot_S2x1024x4096_S4096x4096_S2x1024x4096_2_1_01_0_n_n_wf
def dot_S2x1024x4096_S1024x4096_S2x1024x1024_2_1_01_0_n_n : DotDims S2x1024x4096 S1024x4096 S2x1024x1024 where
  lhsContracting := [2]
  rhsContracting := [1]
  lhsNonContracting := [0, 1]
  rhsNonContracting := [0]
  lhsBatch := []
  rhsBatch := []
  wf := dot_S2x1024x4096_S1024x4096_S2x1024x1024_2_1_01_0_n_n_wf
def dot_S2x32x1024x128_S2x32x1024x128_S2x32x1024x1024_3_3_2_2_01_01 : DotDims S2x32x1024x128 S2x32x1024x128 S2x32x1024x1024 where
  lhsContracting := [3]
  rhsContracting := [3]
  lhsNonContracting := [2]
  rhsNonContracting := [2]
  lhsBatch := [0, 1]
  rhsBatch := [0, 1]
  wf := dot_S2x32x1024x128_S2x32x1024x128_S2x32x1024x1024_3_3_2_2_01_01_wf
def dot_S2x32x1024x1024_S2x32x1024x128_S2x32x1024x128_3_2_2_3_01_01 : DotDims S2x32x1024x1024 S2x32x1024x128 S2x32x1024x128 where
  lhsContracting := [3]
  rhsContracting := [2]
  lhsNonContracting := [2]
  rhsNonContracting := [3]
  lhsBatch := [0, 1]
  rhsBatch := [0, 1]
  wf := dot_S2x32x1024x1024_S2x32x1024x128_S2x32x1024x128_3_2_2_3_01_01_wf

class Facts : Prop extends Facts₀ where

variable [Facts]
-- ==== Proof.K.Run.lean ====
/- The run of @main from the launch to the return, as seven segments — the host stretches `hostOps0` … `hostOps3`
   and the three kernel regions between them — over the several-regions launch theorem, stated for ANY proof data of
   the three regions that meet the hypotheses below: each region's data at a parameter `V` (the TensorCore's buffer
   contents when the region is entered) read its arrays off `V`, hold every input whole, owe nothing, meet the body
   obligation, and their invariant at the first point follows from, and at the last point gives back, the class
   invariant (the scoped buffers no window stages, at some contents, and the generator register at some state). -/
import proofs.«122228_j43301860278716_2_alg».proof.Proof.Gen.Kernel.Launch
import proofs.«122228_j43301860278716_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)
variable
  (dat0 : (V : (c : Dev nD) → (b : Ref sig .tc) → Buf (Elt F) ((c : Thread nD τ).loc b)) → (c : Dev nD) → Dat τ (Elt F) Unit ℕ (UR sig nD τ) ℕ cfg0 c)
  (hA0 : ∀ V c w, (dat0 V c).A w = V c (Pipeline.arrRef spec0 w))
  (hq0 : ∀ V c w, (dat0 V c).q w = fullShare)
  (ho0 : ∀ V c t, (dat0 V c).owed t = 0)
  (hr0 : ∀ V c, (dat0 V c).recorded 0 = Set.univ)
  (hbody0 : ∀ V c, BodyObligation (dat0 V c) (defs₀ (F := F)) Variants.none () Set.univ)
  (hin0 : ∀ V c, Pipeline.ΦA (U := UR sig nD τ) (Val := Elt F) spec0 c ⊢ (dat0 V c).Φ 0)
  (hout0 : ∀ V c, (dat0 V c).Φ (Fin.last cfg0.N) ⊢ Pipeline.ΦA (U := UR sig nD τ) (Val := Elt F) spec0 c)
variable
  (dat1 : (V : (c : Dev nD) → (b : Ref sig .tc) → Buf (Elt F) ((c : Thread nD τ).loc b)) → (c : Dev nD) → Dat τ (Elt F) Unit ℕ (UR sig nD τ) ℕ cfg1 c)
  (hA1 : ∀ V c w, (dat1 V c).A w = V c (Pipeline.arrRef spec1 w))
  (hq1 : ∀ V c w, (dat1 V c).q w = fullShare)
  (ho1 : ∀ V c t, (dat1 V c).owed t = 0)
  (hr1 : ∀ V c, (dat1 V c).recorded 0 = Set.univ)
  (hbody1 : ∀ V c, BodyObligation (dat1 V c) (defs₀ (F := F)) Variants.none () Set.univ)
  (hin1 : ∀ V c, Pipeline.ΦA (U := UR sig nD τ) (Val := Elt F) spec1 c ⊢ (dat1 V c).Φ 0)
  (hout1 : ∀ V c, (dat1 V c).Φ (Fin.last cfg1.N) ⊢ Pipeline.ΦA (U := UR sig nD τ) (Val := Elt F) spec1 c)
variable
  (dat2 : (V : (c : Dev nD) → (b : Ref sig .tc) → Buf (Elt F) ((c : Thread nD τ).loc b)) → (c : Dev nD) → Dat τ (Elt F) Unit ℕ (UR sig nD τ) ℕ cfg2 c)
  (hA2 : ∀ V c w, (dat2 V c).A w = V c (Pipeline.arrRef spec2 w))
  (hq2 : ∀ V c w, (dat2 V c).q w = fullShare)
  (ho2 : ∀ V c t, (dat2 V c).owed t = 0)
  (hr2 : ∀ V c, (dat2 V c).recorded 0 = Set.univ)
  (hbody2 : ∀ V c, BodyObligation (dat2 V c) (defs₀ (F := F)) Variants.none () Set.univ)
  (hin2 : ∀ V c, Pipeline.ΦA (U := UR sig nD τ) (Val := Elt F) spec2 c ⊢ (dat2 V c).Φ 0)
  (hout2 : ∀ V c, (dat2 V c).Φ (Fin.last cfg2.N) ⊢ Pipeline.ΦA (U := UR sig nD τ) (Val := Elt F) spec2 c)

/-! ## The buffer contents at each segment boundary: a fold through @main -/

/-- Core `c`'s buffers at launch. -/
abbrev W0 : Dev nD → Valuation τ sig (Elt F) := fun c b => m (c, b)
/-- After `hostOps0` (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c (Proc.devRef .tc b)

/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m dat0 c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m dat0 c (Proc.devRef .tc b)
/-- At region 0's exit each of its arrays holds what the pipeline leaves and every other buffer what it held at entry. -/
theorem run_hF0 (c : Dev nD) (w : Fin cfg0.W) : (dat0 (V1 m) c).arrAt w cfg0.N = V2 m dat0 c (Pipeline.arrRef spec0 w) :=
  (W2_arr m dat0 c w).symm
theorem run_hrest0 (c : Dev nD) : ∀ b, b ∉ Finset.univ.image (Pipeline.arrRef spec0) → V2 m dat0 c b = V1 m c b :=
  fun b hb => W2_of_ne m dat0 c b fun w e => hb (Finset.mem_image.mpr ⟨w, Finset.mem_univ _, e⟩)

/-- After `hostOps1` (region 1's entry). -/
abbrev W3 : Dev nD → Valuation τ sig (Elt F) := fun c => StableHlo.after hostOps1 (W2 m dat0 c)
/-- The same read at the TensorCore's references (what region 1's proof data take). -/
abbrev V3 : (c : Dev nD) → (b : Ref sig .tc) → Buf (Elt F) ((c : Thread nD τ).loc b) := fun c b => W3 m dat0 c (Proc.devRef .tc b)

/-- At region 1's exit: its arrays at what the pipeline leaves (the inputs as entered, each output's write-backs
    folded), every other buffer as entered. -/
def W4 (c : Dev nD) : Valuation τ sig (Elt F) :=
  Pipeline.withArrays spec1 c (W3 m dat0 c) fun w => (dat1 (V3 m dat0) c).arrAt w cfg1.N
theorem W4_arr (c : Dev nD) (w : Fin cfg1.W) :
    W4 m dat0 dat1 c (Proc.devRef .tc (Pipeline.arrRef spec1 w)) = (dat1 (V3 m dat0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m dat0 dat1 c (Proc.devRef .tc b) = W3 m dat0 c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m dat0 dat1 c (Proc.devRef .tc b)
/-- At region 1's exit each of its arrays holds what the pipeline leaves and every other buffer what it held at entry. -/
theorem run_hF1 (c : Dev nD) (w : Fin cfg1.W) : (dat1 (V3 m dat0) c).arrAt w cfg1.N = V4 m dat0 dat1 c (Pipeline.arrRef spec1 w) :=
  (W4_arr m dat0 dat1 c w).symm
theorem run_hrest1 (c : Dev nD) : ∀ b, b ∉ Finset.univ.image (Pipeline.arrRef spec1) → V4 m dat0 dat1 c b = V3 m dat0 c b :=
  fun b hb => W4_of_ne m dat0 dat1 c b fun w e => hb (Finset.mem_image.mpr ⟨w, Finset.mem_univ _, e⟩)

/-- After `hostOps2` (region 2's entry). -/
abbrev W5 : Dev nD → Valuation τ sig (Elt F) := fun c => StableHlo.after hostOps2 (W4 m dat0 dat1 c)
/-- The same read at the TensorCore's references (what region 2's proof data take). -/
abbrev V5 : (c : Dev nD) → (b : Ref sig .tc) → Buf (Elt F) ((c : Thread nD τ).loc b) := fun c b => W5 m dat0 dat1 c (Proc.devRef .tc b)

/-- At region 2's exit: its arrays at what the pipeline leaves (the inputs as entered, each output's write-backs
    folded), every other buffer as entered. -/
def W6 (c : Dev nD) : Valuation τ sig (Elt F) :=
  Pipeline.withArrays spec2 c (W5 m dat0 dat1 c) fun w => (dat2 (V5 m dat0 dat1) c).arrAt w cfg2.N
theorem W6_arr (c : Dev nD) (w : Fin cfg2.W) :
    W6 m dat0 dat1 dat2 c (Proc.devRef .tc (Pipeline.arrRef spec2 w)) = (dat2 (V5 m dat0 dat1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m dat0 dat1 dat2 c (Proc.devRef .tc b) = W5 m dat0 dat1 c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m dat0 dat1 dat2 c (Proc.devRef .tc b)
/-- At region 2's exit each of its arrays holds what the pipeline leaves and every other buffer what it held at entry. -/
theorem run_hF2 (c : Dev nD) (w : Fin cfg2.W) : (dat2 (V5 m dat0 dat1) c).arrAt w cfg2.N = V6 m dat0 dat1 dat2 c (Pipeline.arrRef spec2 w) :=
  (W6_arr m dat0 dat1 dat2 c w).symm
theorem run_hrest2 (c : Dev nD) : ∀ b, b ∉ Finset.univ.image (Pipeline.arrRef spec2) → V6 m dat0 dat1 dat2 c b = V5 m dat0 dat1 c b :=
  fun b hb => W6_of_ne m dat0 dat1 dat2 c b fun w e => hb (Finset.mem_image.mpr ⟨w, Finset.mem_univ _, e⟩)

/-- After `hostOps3` (the return). -/
abbrev W7 : Dev nD → Valuation τ sig (Elt F) := fun c => StableHlo.after hostOps3 (W6 m dat0 dat1 dat2 c)

/-! ## The arguments end as launched: no host operation and no region writes one (a region reads it through an
    input window or bypasses it), so the fold at an argument's buffer walks back to the launch memory -/

/-- A buffer no operation of a stretch writes holds after the stretch what it held before. -/
theorem run_W1_of (c : Dev nD) (r : Ref sig .tc) (h : r ∉ hostOps0_W) : W1 m c (Proc.devRef .tc r) = W0 m c (Proc.devRef .tc r) :=
  StableHlo.after_of_writes_sub hostOps0 _ hostOps0_writes h
theorem run_W3_of (c : Dev nD) (r : Ref sig .tc) (h : r ∉ hostOps1_W) : W3 m dat0 c (Proc.devRef .tc r) = W2 m dat0 c (Proc.devRef .tc r) :=
  StableHlo.after_of_writes_sub hostOps1 _ hostOps1_writes h
theorem run_W5_of (c : Dev nD) (r : Ref sig .tc) (h : r ∉ hostOps2_W) : W5 m dat0 dat1 c (Proc.devRef .tc r) = W4 m dat0 dat1 c (Proc.devRef .tc r) :=
  StableHlo.after_of_writes_sub hostOps2 _ hostOps2_writes h
theorem run_W7_of (c : Dev nD) (r : Ref sig .tc) (h : r ∉ hostOps3_W) : W7 m dat0 dat1 dat2 c (Proc.devRef .tc r) = W6 m dat0 dat1 dat2 c (Proc.devRef .tc r) :=
  StableHlo.after_of_writes_sub hostOps3 _ hostOps3_writes h

include hA1 in
/-- An input window's array leaves its region as it entered it. -/
theorem run_W4_in (c : Dev nD) (w : Fin cfg1.W) (hw : (cfg1.win w).isOut = false) :
    W4 m dat0 dat1 c (Proc.devRef .tc (Pipeline.arrRef spec1 w)) = W3 m dat0 c (Proc.devRef .tc (Pipeline.arrRef spec1 w)) :=
  (W4_arr m dat0 dat1 c w).trans (((dat1 (V3 m dat0) c).arrAt_in w hw _).trans (hA1 (V3 m dat0) c w))
include hA2 in
theorem run_W6_in (c : Dev nD) (w : Fin cfg2.W) (hw : (cfg2.win w).isOut = false) :
    W6 m dat0 dat1 dat2 c (Proc.devRef .tc (Pipeline.arrRef spec2 w)) = W5 m dat0 dat1 c (Proc.devRef .tc (Pipeline.arrRef spec2 w)) :=
  (W6_arr m dat0 dat1 dat2 c w).trans (((dat2 (V5 m dat0 dat1) c).arrAt_in w hw _).trans (hA2 (V5 m dat0 dat1) c w))

/-- `main_arg0` reaches the end as launched. -/
theorem W7_main_arg0 (c : Dev nD) : W7 m dat0 dat1 dat2 c (Proc.devRef .tc main_arg0) = m ((c : Thread nD τ).loc main_arg0) :=
  (run_W7_of m dat0 dat1 dat2 c main_arg0 (by decide)).trans <| (W6_of_ne m dat0 dat1 dat2 c main_arg0 (by decide)).trans <| (run_W5_of m dat0 dat1 c main_arg0 (by decide)).trans <|
    (W4_of_ne m dat0 dat1 c main_arg0 (by decide)).trans <| (run_W3_of m dat0 c main_arg0 (by decide)).trans <| (W2_of_ne m dat0 c main_arg0 (by decide)).trans <|
    (run_W1_of m c main_arg0 (by decide)).trans rfl

include hA1 in
/-- `main_arg1` reaches the end as launched. -/
theorem W7_main_arg1 (c : Dev nD) : W7 m dat0 dat1 dat2 c (Proc.devRef .tc main_arg1) = m ((c : Thread nD τ).loc main_arg1) :=
  (run_W7_of m dat0 dat1 dat2 c main_arg1 (by decide)).trans <| (W6_of_ne m dat0 dat1 dat2 c main_arg1 (by decide)).trans <| (run_W5_of m dat0 dat1 c main_arg1 (by decide)).trans <|
    (run_W4_in m dat0 dat1 hA1 c 3 rfl).trans <| (run_W3_of m dat0 c main_arg1 (by decide)).trans <| (W2_of_ne m dat0 c main_arg1 (by decide)).trans <|
    (run_W1_of m c main_arg1 (by decide)).trans rfl

/-- `main_arg2` reaches the end as launched. -/
theorem W7_main_arg2 (c : Dev nD) : W7 m dat0 dat1 dat2 c (Proc.devRef .tc main_arg2) = m ((c : Thread nD τ).loc main_arg2) :=
  (run_W7_of m dat0 dat1 dat2 c main_arg2 (by decide)).trans <| (W6_of_ne m dat0 dat1 dat2 c main_arg2 (by decide)).trans <| (run_W5_of m dat0 dat1 c main_arg2 (by decide)).trans <|
    (W4_of_ne m dat0 dat1 c main_arg2 (by decide)).trans <| (run_W3_of m dat0 c main_arg2 (by decide)).trans <| (W2_of_ne m dat0 c main_arg2 (by decide)).trans <|
    (run_W1_of m c main_arg2 (by decide)).trans rfl

/-- `main_arg3` reaches the end as launched. -/
theorem W7_main_arg3 (c : Dev nD) : W7 m dat0 dat1 dat2 c (Proc.devRef .tc main_arg3) = m ((c : Thread nD τ).loc main_arg3) :=
  (run_W7_of m dat0 dat1 dat2 c main_arg3 (by decide)).trans <| (W6_of_ne m dat0 dat1 dat2 c main_arg3 (by decide)).trans <| (run_W5_of m dat0 dat1 c main_arg3 (by decide)).trans <|
    (W4_of_ne m dat0 dat1 c main_arg3 (by decide)).trans <| (run_W3_of m dat0 c main_arg3 (by decide)).trans <| (W2_of_ne m dat0 c main_arg3 (by decide)).trans <|
    (run_W1_of m c main_arg3 (by decide)).trans rfl

/-- `main_arg4` reaches the end as launched. -/
theorem W7_main_arg4 (c : Dev nD) : W7 m dat0 dat1 dat2 c (Proc.devRef .tc main_arg4) = m ((c : Thread nD τ).loc main_arg4) :=
  (run_W7_of m dat0 dat1 dat2 c main_arg4 (by decide)).trans <| (W6_of_ne m dat0 dat1 dat2 c main_arg4 (by decide)).trans <| (run_W5_of m dat0 dat1 c main_arg4 (by decide)).trans <|
    (W4_of_ne m dat0 dat1 c main_arg4 (by decide)).trans <| (run_W3_of m dat0 c main_arg4 (by decide)).trans <| (W2_of_ne m dat0 c main_arg4 (by decide)).trans <|
    (run_W1_of m c main_arg4 (by decide)).trans rfl

include hA2 in
/-- `main_arg5` reaches the end as launched. -/
theorem W7_main_arg5 (c : Dev nD) : W7 m dat0 dat1 dat2 c (Proc.devRef .tc main_arg5) = m ((c : Thread nD τ).loc main_arg5) :=
  (run_W7_of m dat0 dat1 dat2 c main_arg5 (by decide)).trans <| (run_W6_in m dat0 dat1 dat2 hA2 c 1 rfl).trans <| (run_W5_of m dat0 dat1 c main_arg5 (by decide)).trans <|
    (W4_of_ne m dat0 dat1 c main_arg5 (by decide)).trans <| (run_W3_of m dat0 c main_arg5 (by decide)).trans <| (W2_of_ne m dat0 c main_arg5 (by decide)).trans <|
    (run_W1_of m c main_arg5 (by decide)).trans rfl

include hA1 in
/-- `main_arg6` reaches the end as launched. -/
theorem W7_main_arg6 (c : Dev nD) : W7 m dat0 dat1 dat2 c (Proc.devRef .tc main_arg6) = m ((c : Thread nD τ).loc main_arg6) :=
  (run_W7_of m dat0 dat1 dat2 c main_arg6 (by decide)).trans <| (W6_of_ne m dat0 dat1 dat2 c main_arg6 (by decide)).trans <| (run_W5_of m dat0 dat1 c main_arg6 (by decide)).trans <|
    (run_W4_in m dat0 dat1 hA1 c 4 rfl).trans <| (run_W3_of m dat0 c main_arg6 (by decide)).trans <| (W2_of_ne m dat0 c main_arg6 (by decide)).trans <|
    (run_W1_of m c main_arg6 (by decide)).trans rfl

include hA1 in
/-- `main_arg7` reaches the end as launched. -/
theorem W7_main_arg7 (c : Dev nD) : W7 m dat0 dat1 dat2 c (Proc.devRef .tc main_arg7) = m ((c : Thread nD τ).loc main_arg7) :=
  (run_W7_of m dat0 dat1 dat2 c main_arg7 (by decide)).trans <| (W6_of_ne m dat0 dat1 dat2 c main_arg7 (by decide)).trans <| (run_W5_of m dat0 dat1 c main_arg7 (by decide)).trans <|
    (run_W4_in m dat0 dat1 hA1 c 5 rfl).trans <| (run_W3_of m dat0 c main_arg7 (by decide)).trans <| (W2_of_ne m dat0 c main_arg7 (by decide)).trans <|
    (run_W1_of m c main_arg7 (by decide)).trans rfl

/-! ## The proof data family and the thread state -/

/-- Every pipeline's proof data, each at its region's entry contents — a literal `match`, so that the family at a
    numeral reduces to that region's data. -/
def run_pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m dat0) c
  | ⟨2, _⟩ => fun c => dat2 (V5 m dat0 dat1) c
abbrev run_𝒱 : Variants := Variants.none
/-- No core owes another anything: no level is assigned. -/
abbrev run_L : GSem nD τ sig → Finset Unit := fun _ => ∅
abbrev run_lv : GSem nD τ sig → Unit → ℕ := fun _ _ => 0
/-- What rides beside the buffers through every segment: the core's generator register at some state and its
    `owes`, at nothing. -/
abbrev run_R (c : Dev nD) : sProp 𝕄 := iprop((∃ r, prngReg c r) ∗ ∃ W, owes (c : Thread nD τ) (0 : CellTallies nD τ sig Unit) W)
/-- A host stretch as a segment: over the unscoped references from the contents `W`, `run_R` riding along (it ends
    with those references at `StableHlo.after ops (W c)`: the next boundary's contents by name). -/
abbrev run_hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run_𝒱 run_L run_lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W run_R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev run_Tₙ (c : Dev nD) : sProp 𝕄 := iprop(StableHlo.held (c : Thread nD τ) (Pipeline.ucRefs τ sig) (W7 m dat0 dat1 dat2 c) ∗ ∃ r, prngReg c r)

/-- The last host stretch ends at the last thread state beside the core owing nothing (the same resources, regrouped). -/
theorem run_last (c : Dev nD) :
    iprop(StableHlo.held (c : Thread nD τ) (Pipeline.ucRefs τ sig) (W7 m dat0 dat1 dat2 c) ∗ run_R (F := F) c)
      ⊢ iprop(run_Tₙ m dat0 dat1 dat2 c ∗ ∃ W, owes (c : Thread nD τ) (0 : CellTallies nD τ sig Unit) W) := by
  iintro ⟨Hh, Hp, HO⟩
  isplitl [Hh Hp]
  · isplitl [Hh]; · iexact Hh
    iexact Hp
  iexact HO

/-! ## What the regions' segments need of any proof data -/

/-- A core that owes nothing, whatever pairs its waits have recorded, owes what the data say at the first point:
    nothing, within a bound that is everything. -/
theorem run_owes_in {cfg : Cfg sig Λ₀} {c : Dev nD} (dat : Dat τ (Elt F) Unit ℕ (UR sig nD τ) ℕ cfg c)
    (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [ho, hr]
  iintro ⟨%W, HO⟩; iexists W; isplitr; · ipureintro; exact fun _ _ => Or.inl trivial
  iexact HO
/-- What the data say the core owes at a point where that is nothing is a core that owes nothing. -/
theorem run_owes_out {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO
/-- The class invariant from the generator register and the scoped buffers no window stages, a third resource dropped. -/
theorem run_ΦA_in {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp
/-- and back. -/
theorem run_ΦA_out {gr W : Nat} (win : Fin W → Pipeline.WinSpec sig gr) (c : Dev nD) :
    (Pipeline.ΦA win c : sProp 𝕄) ⊢ iprop((∃ r, prngReg c r) ∗ emp ∗ Pipeline.scopedRest win c) := by
  unfold Pipeline.ΦA
  iintro ⟨Hr, Hp⟩
  isplitl [Hp]; · iexact Hp
  isplitr; · iempintro
  iexact Hr

/-! ## The regions as segments -/

-- `iapply` of a library lemma stated over the pinned configuration unifies with the printed one only when unification
-- may unfold plain definitions in a metavariable's type
set_option backward.isDefEq.respectTransparency.types false in
/-- REGION 0 (custom_call 0) over the thread state: entered from every unscoped buffer at `W1`, left at `W2`.
    Its arrays split out of the unscoped buffers and put back at the exit contents; the generator register and the
    scoped buffers no window stages into the region's invariant (through the class invariant) and out; nothing
    owed; no semaphore of the kernel's own. -/
def run_reg0 : Pipeline.RegionSeg (pcfgs (F := F)) adm (run_pdats m dat0 dat1 dat2) () defs₀ run_𝒱 run_L run_lv 0 where
  win := launch0.win.to₀
  block_pos := launch0.block_pos
  stage_whole := launch0.stage_whole
  K := PEmpty
  osem k := k.elim
  ho := Pipeline.OwnSemFacts.none _
  hbody c := (hbody0 (V1 m) c).loose
  hwaits := Pipeline.hwaits_of_owed_zero _ _ _ _ run_L run_lv 0 fun c t => ho0 (V1 m) c t
  pre c := iprop(StableHlo.held (c : Thread nD τ) (Pipeline.ucRefs τ sig) (W1 m c) ∗ run_R c)
  post c := iprop(StableHlo.held (c : Thread nD τ) (Pipeline.ucRefs τ sig) (W2 m dat0 c) ∗ run_R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (run_pdats m dat0 dat1 dat2) launch0.win launch0.arr_whole c
      ((run_pdats m dat0 dat1 dat2 0 c).share_full fun w => hq0 (V1 m) c w) (V1 m c) fun w => hA0 (V1 m) c w
    rw [Pipeline.unscopedBufs_held] at hsplit
    have hO := run_owes_in (run_pdats m dat0 dat1 dat2 0 c) (ho0 (V1 m) c 0) (hr0 (V1 m) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply hO; iexact HO
    isplitl [Hp]; · iexact Hp
    iexact Hrest
  hin c := (run_ΦA_in spec0 c _).trans (hin0 (V1 m) c)
  hout c := by
    rw [Pipeline.ownSems0_none]
    exact (hout0 (V1 m) c).trans (run_ΦA_out spec0 c)
  hexit c := by
    have hjoin := Pipeline.unscopedBufs_of_arrays (p := 0) (pcfgs (F := F)) adm (Ix := Unit) (Name := ℕ) (U := UR sig nD τ) (Lvl := ℕ)
      launch0.win launch0.arr_whole c (run_pdats m dat0 dat1 dat2) ((run_pdats m dat0 dat1 dat2 0 c).share_full fun w => hq0 (V1 m) c w)
      (V1 m c) (V2 m dat0 c) ((run_pdats m dat0 dat1 dat2 0 c).arrAt · cfg0.N) (run_hF0 m dat0 c) (run_hrest0 m dat0 c)
    rw [Pipeline.unscopedBufs_held] at hjoin
    have hO := run_owes_out (run_pdats m dat0 dat1 dat2 0 c) (Fin.last _) (ho0 (V1 m) c _)
    iintro ⟨Ha, HO, HY, Hrest⟩
    imodintro
    isplitl [Ha Hrest]
    · iapply hjoin; isplitl [Ha] <;> iassumption
    isplitl [HY]; · iexact HY
    iapply hO; iexact HO

-- `iapply` of a library lemma stated over the pinned configuration unifies with the printed one only when unification
-- may unfold plain definitions in a metavariable's type
set_option backward.isDefEq.respectTransparency.types false in
/-- REGION 1 (custom_call 1) over the thread state: entered from every unscoped buffer at `W3`, left at `W4`.
    Its arrays split out of the unscoped buffers and put back at the exit contents; the generator register and the
    scoped buffers no window stages into the region's invariant (through the class invariant) and out; nothing
    owed; no semaphore of the kernel's own. -/
def run_reg1 : Pipeline.RegionSeg (pcfgs (F := F)) adm (run_pdats m dat0 dat1 dat2) () defs₀ run_𝒱 run_L run_lv 1 where
  win := launch1.win.to₀
  block_pos := launch1.block_pos
  stage_whole := launch1.stage_whole
  K := PEmpty
  osem k := k.elim
  ho := Pipeline.OwnSemFacts.none _
  hbody c := (hbody1 (V3 m dat0) c).loose
  hwaits := Pipeline.hwaits_of_owed_zero _ _ _ _ run_L run_lv 1 fun c t => ho1 (V3 m dat0) c t
  pre c := iprop(StableHlo.held (c : Thread nD τ) (Pipeline.ucRefs τ sig) (W3 m dat0 c) ∗ run_R c)
  post c := iprop(StableHlo.held (c : Thread nD τ) (Pipeline.ucRefs τ sig) (W4 m dat0 dat1 c) ∗ run_R c)
  X c := iprop(∃ r, prngReg c r)
  Y c := iprop(∃ r, prngReg c r)
  Z c := Pipeline.unscopedRest (Ix := Unit) (Name := ℕ) (U := UR sig nD τ) (Lvl := ℕ) spec1 c (V3 m dat0 c)
  hentry c := by
    rw [Pipeline.ownSems0_none]
    have hsplit := Pipeline.arrays_of_unscopedBufs (p := 1) (pcfgs (F := F)) adm (run_pdats m dat0 dat1 dat2) launch1.win launch1.arr_whole c
      ((run_pdats m dat0 dat1 dat2 1 c).share_full fun w => hq1 (V3 m dat0) c w) (V3 m dat0 c) fun w => hA1 (V3 m dat0) c w
    rw [Pipeline.unscopedBufs_held] at hsplit
    have hO := run_owes_in (run_pdats m dat0 dat1 dat2 1 c) (ho1 (V3 m dat0) c 0) (hr1 (V3 m dat0) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply hO; iexact HO
    isplitl [Hp]; · iexact Hp
    iexact Hrest
  hin c := (run_ΦA_in spec1 c _).trans (hin1 (V3 m dat0) c)
  hout c := by
    rw [Pipeline.ownSems0_none]
    exact (hout1 (V3 m dat0) c).trans (run_ΦA_out spec1 c)
  hexit c := by
    have hjoin := Pipeline.unscopedBufs_of_arrays (p := 1) (pcfgs (F := F)) adm (Ix := Unit) (Name := ℕ) (U := UR sig nD τ) (Lvl := ℕ)
      launch1.win launch1.arr_whole c (run_pdats m dat0 dat1 dat2) ((run_pdats m dat0 dat1 dat2 1 c).share_full fun w => hq1 (V3 m dat0) c w)
      (V3 m dat0 c) (V4 m dat0 dat1 c) ((run_pdats m dat0 dat1 dat2 1 c).arrAt · cfg1.N) (run_hF1 m dat0 dat1 c) (run_hrest1 m dat0 dat1 c)
    rw [Pipeline.unscopedBufs_held] at hjoin
    have hO := run_owes_out (run_pdats m dat0 dat1 dat2 1 c) (Fin.last _) (ho1 (V3 m dat0) c _)
    iintro ⟨Ha, HO, HY, Hrest⟩
    imodintro
    isplitl [Ha Hrest]
    · iapply hjoin; isplitl [Ha] <;> iassumption
    isplitl [HY]; · iexact HY
    iapply hO; iexact HO

-- `iapply` of a library lemma stated over the pinned configuration unifies with the printed one only when unification
-- may unfold plain definitions in a metavariable's type
set_option backward.isDefEq.respectTransparency.types false in
/-- REGION 2 (custom_call 2) over the thread state: entered from every unscoped buffer at `W5`, left at `W6`.
    Its arrays split out of the unscoped buffers and put back at the exit contents; the generator register and the
    scoped buffers no window stages into the region's invariant (through the class invariant) and out; nothing
    owed; no semaphore of the kernel's own. -/
def run_reg2 : Pipeline.RegionSeg (pcfgs (F := F)) adm (run_pdats m dat0 dat1 dat2) () defs₀ run_𝒱 run_L run_lv 2 where
  win := launch2.win.to₀
  block_pos := launch2.block_pos
  stage_whole := launch2.stage_whole
  K := PEmpty
  osem k := k.elim
  ho := Pipeline.OwnSemFacts.none _
  hbody c := (hbody2 (V5 m dat0 dat1) c).loose
  hwaits := Pipeline.hwaits_of_owed_zero _ _ _ _ run_L run_lv 2 fun c t => ho2 (V5 m dat0 dat1) c t
  pre c := iprop(StableHlo.held (c : Thread nD τ) (Pipeline.ucRefs τ sig) (W5 m dat0 dat1 c) ∗ run_R c)
  post c := iprop(StableHlo.held (c : Thread nD τ) (Pipeline.ucRefs τ sig) (W6 m dat0 dat1 dat2 c) ∗ run_R c)
  X c := iprop(∃ r, prngReg c r)
  Y c := iprop(∃ r, prngReg c r)
  Z c := Pipeline.unscopedRest (Ix := Unit) (Name := ℕ) (U := UR sig nD τ) (Lvl := ℕ) spec2 c (V5 m dat0 dat1 c)
  hentry c := by
    rw [Pipeline.ownSems0_none]
    have hsplit := Pipeline.arrays_of_unscopedBufs (p := 2) (pcfgs (F := F)) adm (run_pdats m dat0 dat1 dat2) launch2.win launch2.arr_whole c
      ((run_pdats m dat0 dat1 dat2 2 c).share_full fun w => hq2 (V5 m dat0 dat1) c w) (V5 m dat0 dat1 c) fun w => hA2 (V5 m dat0 dat1) c w
    rw [Pipeline.unscopedBufs_held] at hsplit
    have hO := run_owes_in (run_pdats m dat0 dat1 dat2 2 c) (ho2 (V5 m dat0 dat1) c 0) (hr2 (V5 m dat0 dat1) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply hO; iexact HO
    isplitl [Hp]; · iexact Hp
    iexact Hrest
  hin c := (run_ΦA_in spec2 c _).trans (hin2 (V5 m dat0 dat1) c)
  hout c := by
    rw [Pipeline.ownSems0_none]
    exact (hout2 (V5 m dat0 dat1) c).trans (run_ΦA_out spec2 c)
  hexit c := by
    have hjoin := Pipeline.unscopedBufs_of_arrays (p := 2) (pcfgs (F := F)) adm (Ix := Unit) (Name := ℕ) (U := UR sig nD τ) (Lvl := ℕ)
      launch2.win launch2.arr_whole c (run_pdats m dat0 dat1 dat2) ((run_pdats m dat0 dat1 dat2 2 c).share_full fun w => hq2 (V5 m dat0 dat1) c w)
      (V5 m dat0 dat1 c) (V6 m dat0 dat1 dat2 c) ((run_pdats m dat0 dat1 dat2 2 c).arrAt · cfg2.N) (run_hF2 m dat0 dat1 dat2 c) (run_hrest2 m dat0 dat1 dat2 c)
    rw [Pipeline.unscopedBufs_held] at hjoin
    have hO := run_owes_out (run_pdats m dat0 dat1 dat2 2 c) (Fin.last _) (ho2 (V5 m dat0 dat1) c _)
    iintro ⟨Ha, HO, HY, Hrest⟩
    imodintro
    isplitl [Ha Hrest]
    · iapply hjoin; isplitl [Ha] <;> iassumption
    isplitl [HY]; · iexact HY
    iapply hO; iexact HO

/-! ## @main as segments, and the launch -/

/-- @main's 7 segments in order: a host segment per stretch from its boundary's contents, a region per pallas_call. -/
abbrev run_segs : List (Pipeline.Seg (pcfgs (F := F)) adm (run_pdats m dat0 dat1 dat2) () defs₀ run_𝒱 run_L run_lv) :=
  [ .host (run_hseg hostOps0 hostOps0_sub hostOps0_fresh (W0 m)),
    .region (run_reg0 m dat0 hA0 hq0 ho0 hr0 hbody0 hin0 hout0 dat1 dat2),
    .host (run_hseg hostOps1 hostOps1_sub hostOps1_fresh (W2 m dat0)),
    .region (run_reg1 m dat0 dat1 hA1 hq1 ho1 hr1 hbody1 hin1 hout1 dat2),
    .host (run_hseg hostOps2 hostOps2_sub hostOps2_fresh (W4 m dat0 dat1)),
    .region (run_reg2 m dat0 dat1 dat2 hA2 hq2 ho2 hr2 hbody2 hin2 hout2),
    .host (run_hseg hostOps3 hostOps3_sub hostOps3_fresh (W6 m dat0 dat1 dat2)) ]
/-- @main IS the run of the segments. -/
theorem run_main_run (c : Dev nD) : main (F := F) c = Pipeline.Seg.run (run_segs m dat0 hA0 hq0 ho0 hr0 hbody0 hin0 hout0 dat1 hA1 hq1 ho1 hr1 hbody1 hin1 hout1 dat2 hA2 hq2 ho2 hr2 hbody2 hin2 hout2) :=
  main_segs adm (run_pdats m dat0 dat1 dat2) () run_𝒱 run_L run_lv
    (run_hseg hostOps0 hostOps0_sub hostOps0_fresh (W0 m)) (run_hseg hostOps1 hostOps1_sub hostOps1_fresh (W2 m dat0))
    (run_hseg hostOps2 hostOps2_sub hostOps2_fresh (W4 m dat0 dat1)) (run_hseg hostOps3 hostOps3_sub hostOps3_fresh (W6 m dat0 dat1 dat2))
    (run_reg0 m dat0 hA0 hq0 ho0 hr0 hbody0 hin0 hout0 dat1 dat2) (run_reg1 m dat0 dat1 hA1 hq1 ho1 hr1 hbody1 hin1 hout1 dat2) (run_reg2 m dat0 dat1 dat2 hA2 hq2 ho2 hr2 hbody2 hin2 hout2) rfl rfl rfl rfl c

-- the launch theorem's implicit arguments are found by unifying its conclusion with this one, which takes unfolding
-- plain definitions in a metavariable's type
include hA0 hq0 ho0 hr0 hbody0 hin0 hout0 hA1 hq1 ho1 hr1 hbody1 hin1 hout1 hA2 hq2 ho2 hr2 hbody2 hin2 hout2 in
set_option backward.isDefEq.respectTransparency.types false in
/-- THE RUN: at the compiled mesh, from any memory with zero counters, every weakly fair execution of @main on the
    TensorCores terminates, nothing faulting, and every final state has every unscoped buffer at the last boundary's
    contents `W7`: the several-regions launch over the segments, the last thread state read against the final state. -/
theorem run : θ_run defs (onTc (τ := τ) (main (F := F))) ⟨m, fun _ => 0, ρ⟩ (fun r => ∀ c : Dev nD,
      ∀ b ∈ Pipeline.ucRefs τ sig, r.2.mem ((c : Thread nD τ).1, b) = W7 m dat0 dat1 dat2 c b) :=
  Pipeline.θ_run_regions_kit (pcfgs (F := F)) adm (run_pdats m dat0 dat1 dat2) () cellOf_inj emb₁ defs₀ run_𝒱 run_L run_lv m ρ main (run_segs m dat0 hA0 hq0 ho0 hr0 hbody0 hin0 hout0 dat1 hA1 hq1 ho1 hr1 hbody1 hin1 hout1 dat2 hA2 hq2 ho2 hr2 hbody2 hin2 hout2)
    (fun c Q => by rw [run_main_run m dat0 hA0 hq0 ho0 hr0 hbody0 hin0 hout0 dat1 hA1 hq1 ho1 hr1 hbody1 hin1 hout1 dat2 hA2 hq2 ho2 hr2 hbody2 hin2 hout2 c])
    (by simp only [run_segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ run_R c)) (Tₙ := run_Tₙ m dat0 dat1 dat2)
    (hch := ⟨fun _ => .rfl, fun _ => .rfl, fun _ => .rfl, fun _ => .rfl, fun _ => .rfl, fun _ => .rfl, fun _ => .rfl, fun c => run_last m dat0 dat1 dat2 c⟩)
    (hinit := by
      refine Pipeline.initEach run_L run_lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m dat0 dat1 dat2 c b)
    (hfin := fun c s' => by
      iintro ⟨⟨Hh, -⟩, HSI⟩
      unfold StableHlo.held
      imodintro
      iapply (pointsTo_read_all (Pipeline.ucRefs τ sig) (fun b => (((c : Thread nD τ)).1, b)) (W7 m dat0 dat1 dat2 c) s')
      isplitl [Hh] <;> iassumption)
    (hQ := fun s h => h)

/-- info: 'Cert.Kernel.Hand.run' depends on axioms: [propext, Classical.choice, Quot.sound] -/
#guard_msgs in #print axioms run

end Run

end Cert.Kernel.Hand

end
-- ==== Proof.K.Body0.lean ====
import proofs.«122228_j43301860278716_2_alg».proof.Proof.Gen.Kernel.Launch
import proofs.«122228_j43301860278716_2_alg».proof.Proof.Gen.Kernel.Skeleton
import proofs.«122228_j43301860278716_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

The kernel loads and stores its buffers whole: through the unit-stride rectangle at zero offsets of the buffer's own
sizes. A load through it reads the contents; a store through it, newest in the list of writes, leaves its payload. -/

/-- The zero offsets of a rank-2 access, as a constant function. -/
theorem b0_hz : (![0, 0] : Fin 2 → ℕ) = fun _ => 0 := funext fun a => by fin_cases a <;> rfl

/-- A store through the whole-shape rectangle at zero offsets, newest in the list, leaves its payload whatever the
    earlier stores were: every index sits at its own position in that rectangle. -/
theorem b0_read_writes_whole {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : (Rect.unit off S.size inb).shape.Idx → Val e)
    (L : List (View.Piece Val S e)) :
    v.read Val (v.writes Val f ((⟨Rect.unit off S.size inb, w⟩ : View.Piece Val S e) :: L)) = w := by
  funext y
  exact View.read_writes_cons_unit_of_mem v f inb w L y y h (fun a => by subst h; exact (Nat.zero_add _).symm)

/-! # Region 0: the K-blocked matmul kernel `cc0__matmul_wT_kernel`

Its grid's last axis is the reduction axis `k`, running fastest. At `k = 0` the body stores zeros into its scratch
accumulator; at every point it adds the product of the two input blocks to the accumulator; at `k = 3` it copies the
accumulator into the output block. So the accumulator is carried from point to point, and the output block is
untouched except at the points with `k = 3`, where alone it is written back. -/

/-! ## The body's branch conditions, in closed form over the grid -/

/-- The condition of the body's first `scf.if` (`k = 0`), from the grid coordinates. -/
abbrev b0_cond0_0 (i : grid0.Coords) : Prop := (Scalar.cmpi .ne (Scalar.extui (Scalar.cmpi .eq (BitVec.ofNat 32 (i 2).val) 0#32)) 0#32) = 1#1
/-- It holds at the points ≡ 0 (mod 4). -/
theorem b0_hcond0_0 : ∀ t : Fin cfg0.N, b0_cond0_0 (grid0.coords t) ↔ t.val % 4 = 0 :=
  (by decide +kernel : ∀ t : Fin grid0.N, b0_cond0_0 (grid0.coords t) ↔ t.val % 4 = 0)
/-- The condition of the body's second `scf.if` (`k = 3`). -/
abbrev b0_cond0_1 (i : grid0.Coords) : Prop := k0_cond2 i = 1#1
/-- It holds at the points ≡ 3 (mod 4). -/
theorem b0_hcond0_1 : ∀ t : Fin cfg0.N, b0_cond0_1 (grid0.coords t) ↔ t.val % 4 = 3 :=
  (by decide +kernel : ∀ t : Fin grid0.N, b0_cond0_1 (grid0.coords t) ↔ t.val % 4 = 3)

/-! ## Where the windows are idle -/

/-- The input windows are never idle. -/
theorem b0_liveAt0_0 : ∀ t : Fin cfg0.N, cfg0.idle 0 (grid0.coords t) = false := by decide +kernel
theorem b0_liveAt0_1 : ∀ t : Fin cfg0.N, cfg0.idle 1 (grid0.coords t) = false := by decide +kernel
/-- Where `k ≠ 3` the output window is idle: the body stores nothing into it, -/
theorem b0_idleAt0_2 : ∀ t : Fin cfg0.N, ¬b0_cond0_1 (grid0.coords t) → cfg0.idle 2 (grid0.coords t) = true := by decide +kernel
/-- and the pipeline does not write its block back. -/
theorem b0_noFlush0_2 : ∀ t : Fin cfg0.N, ¬b0_cond0_1 (grid0.coords t) → (cfg0.win 2).flush t = false := by decide +kernel
/-- Where `k = 3` the output window is live. -/
theorem b0_liveAt0_2 : ∀ t : Fin cfg0.N, b0_cond0_1 (grid0.coords t) → cfg0.idle 2 (grid0.coords t) = false := by decide +kernel

/-! ## The kernel body on whole memrefs, case by case

Case A (`k = 0`): the accumulator, whatever it held, is zeroed and then holds the first product added to zero; the
output buffer is handed back as found. Case B (`k = 1, 2`): the accumulator holds what it held plus the product; the
output buffer is handed back as found. Case C (`k = 3`): as B, and the output buffer, whatever it held, ends at the
accumulator's final contents. Each load reads a whole buffer and each store covers one, so what a buffer holds after
the body is the last payload stored into it. -/

set_option maxHeartbeats 1000000 in
/-- Case A. -/
theorem b0_run0_A (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : b0_cond0_0 i) (hc1 : ¬b0_cond0_1 i)
    (x0 : Vec F S512x1024 .f32) (x1 : Vec F S1024x1024 .f32) (xi2 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare xi2 ∗ owns (c : Thread nD τ) arg6 fullShare (k0_pay2 x0 x1 (k0_pay1 (F := F)))) -∗ K ⟨⟩))
      ⊢ wp frame (wpE (defs₀ (F := F)) Variants.none c none) E (cc0__matmul_wT_kernel i arg3 harg3 arg4 harg4 arg5 harg5 arg6 harg6) K := by
  simp only [cc0__matmul_wT_kernel_eq_skeleton]; unfold cc0__matmul_wT_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  unfold b0_run0_A.sl.v9 b0_run0_A.sl.HS0_1
  rw [b0_read_writes_whole _ _ b0_hz, View.readCov_unit_zero _ b0_hz, View.readAt_eq_ld, View.readAt_eq_ld, hf0, hf1,
    View.ld_unit_zero (S := S512x1024) b0_hz, View.ld_unit_zero (S := S1024x1024) b0_hz]

set_option maxHeartbeats 1000000 in
/-- Case B. -/
theorem b0_run0_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : ¬b0_cond0_0 i) (hc1 : ¬b0_cond0_1 i)
    (x0 : Vec F S512x1024 .f32) (x1 : Vec F S1024x1024 .f32) (xi2 : Vec F S512x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare xi2 ∗ owns (c : Thread nD τ) arg6 fullShare (k0_pay2 x0 x1 xs)) -∗ K ⟨⟩))
      ⊢ wp frame (wpE (defs₀ (F := F)) Variants.none c none) E (cc0__matmul_wT_kernel i arg3 harg3 arg4 harg4 arg5 harg5 arg6 harg6) K := by
  simp only [cc0__matmul_wT_kernel_eq_skeleton]; unfold cc0__matmul_wT_kernel_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2; obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  rw [b0_read_writes_whole _ _ b0_hz, View.readAt_eq_ld, View.readAt_eq_ld, View.readAt_eq_ld, hf0, hf1, hfs0,
    View.ld_unit_zero (S := S512x1024) b0_hz, View.ld_unit_zero (S := S1024x1024) b0_hz, View.ld_unit_zero (S := S512x1024) b0_hz]

set_option maxHeartbeats 1000000 in
/-- Case C. -/
theorem b0_run0_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : ¬b0_cond0_0 i) (hc1 : b0_cond0_1 i)
    (x0 : Vec F S512x1024 .f32) (x1 : Vec F S1024x1024 .f32) (xs : Vec F S512x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k0_pay2 x0 x1 xs) ∗ owns (c : Thread nD τ) arg6 fullShare (k0_pay2 x0 x1 xs)) -∗ K ⟨⟩))
      ⊢ wp frame (wpE (defs₀ (F := F)) Variants.none c none) E (cc0__matmul_wT_kernel i arg3 harg3 arg4 harg4 arg5 harg5 arg6 harg6) K := by
  simp only [cc0__matmul_wT_kernel_eq_skeleton]; unfold cc0__matmul_wT_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [b0_read_writes_whole _ _ b0_hz]
    unfold b0_run0_C.sl.v18 b0_run0_C.sl.HS0_1
    rw [View.readCov_unit_zero _ b0_hz, View.readAt_eq_ld, View.readAt_eq_ld, View.readAt_eq_ld, hf0, hf1, hfs0,
      View.ld_unit_zero (S := S512x1024) b0_hz, View.ld_unit_zero (S := S1024x1024) b0_hz, View.ld_unit_zero (S := S512x1024) b0_hz]
  iexists _; isplitr
  swap; · iexact HS0
  ipureintro
  unfold b0_run0_C.sl.HS0_1
  rw [b0_read_writes_whole _ _ b0_hz, View.readAt_eq_ld, View.readAt_eq_ld, View.readAt_eq_ld, hf0, hf1, hfs0,
    View.ld_unit_zero (S := S512x1024) b0_hz, View.ld_unit_zero (S := S1024x1024) b0_hz, View.ld_unit_zero (S := S512x1024) b0_hz]

section Region0
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem b0_before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem b0_before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- What the scratch accumulator holds after point `n`: at a point with `k = 0` the product of the point's input
    blocks added to zero, elsewhere added to what the point before left. -/
def acc0 (c : Dev nD) : (n : ℕ) → n < cfg0.N → Vec F S512x1024 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a point with `k = 0` the accumulator restarts from zero. -/
theorem acc0_first (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => exact rfl
  | succ n => exact (if_pos h).trans rfl

/-- At any other point it continues from what the point before left. -/
theorem acc0_next (c : Dev nD) (t : Fin cfg0.N) (h : t.val % 4 ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch accumulator, a whole scoped buffer of the kernel's own. -/
abbrev b0_scM0 : Memref sig .tc .vmem S512x1024 .f32 := Memref.whole cc0_scratch0

/-- The core's other scoped buffers that are no staging buffer of this call (the other calls' staging buffers and
    scratch), at some contents each: carried unopened. -/
abbrev b0_rest0 (c : Dev nD) : sProp 𝕄 :=
  Pipeline.scopedRestBut (Ix := Unit) (Name := ℕ) (U := UR sig nD τ) (Lvl := ℕ) (Val := Elt F) spec0 c [cc0_scratch0]

/-- The class's invariant with the accumulator split off the scoped rest and owned as a memref at some contents. -/
theorem b0_PhiA0_eq (c : Dev nD) :
    (Pipeline.ΦA spec0 c : sProp 𝕄)
      = iprop(((∃ d, owns (c : Thread nD τ) b0_scM0 fullShare d) ∗ b0_rest0 c) ∗ (∃ r, prngReg c r)) := by
  unfold Pipeline.ΦA
  rw [Pipeline.scopedRest_split_of_list spec0 c [cc0_scratch0] (by decide) (by decide)]
  simp only [bigSepL_singleton, b0_scM0, owns_whole]; try rfl

/-- The invariant before position `n`: before the first point the class's (every scoped buffer that is no staging
    buffer at anything, the generator register at some state); afterwards the same with the accumulator at what the
    point before left in it. -/
def b0_PhiS0 (c : Dev nD) : (n : ℕ) → n ≤ cfg0.N → sProp 𝕄
  | 0, _ => Pipeline.ΦA spec0 c
  | n + 1, hn => iprop((owns (c : Thread nD τ) b0_scM0 fullShare (acc0 V c n hn) ∗ b0_rest0 c) ∗ (∃ r, prngReg c r))

theorem b0_PhiS0_zero (c : Dev nD) (n : ℕ) (h : n ≤ cfg0.N) (hz : n = 0) : b0_PhiS0 V c n h = Pipeline.ΦA spec0 c := by
  subst hz; rfl

theorem b0_PhiS0_succ (c : Dev nD) (n : ℕ) (hn : n < cfg0.N) :
    b0_PhiS0 V c (n + 1) hn = iprop((owns (c : Thread nD τ) b0_scM0 fullShare (acc0 V c n hn) ∗ b0_rest0 c) ∗ (∃ r, prngReg c r)) := rfl

theorem b0_PhiS0_pos (c : Dev nD) (n : ℕ) (h : n ≤ cfg0.N) (hz : n ≠ 0) :
    b0_PhiS0 V c n h = iprop((owns (c : Thread nD τ) b0_scM0 fullShare (acc0 V c (n - 1) (by omega)) ∗ b0_rest0 c) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at the accumulator's contents there (read only at the points
    with `k = 3`: elsewhere the window is idle); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := b0_PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The body takes on no new units: the bound on the recorded pairs stays everything. -/
theorem recorded0 (c : Dev nD) : (dat0 V c).recorded 0 = Set.univ := by
  dsimp only [dat0]

/-- What the body leaves, window by window. -/
theorem b0_after0_0 (c : Dev nD) (t : Fin cfg0.N) : (dat0 V c).after 0 t = iblk0 V c 0 t := by dsimp only [dat0]
theorem b0_after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each input's current staging buffer holds its block at every point. -/
theorem b0_before0_0 (c : Dev nD) (t : Fin cfg0.N) (d) : (dat0 V c).before 0 t d = iblk0 V c 0 t :=
  b0_before0_0_of V (dat0 V c) (A_eq0 V c 0) (b0_after0_0 V c) t d
theorem b0_before0_1 (c : Dev nD) (t : Fin cfg0.N) (d) : (dat0 V c).before 1 t d = iblk0 V c 1 t :=
  b0_before0_1_of V (dat0 V c) (A_eq0 V c 1) (b0_after0_1 V c) t d

/-- The invariant at a point's start, restated at the point's position. -/
theorem b0_PhiS0_castSucc (c : Dev nD) (t : Fin cfg0.N) :
    (dat0 V c).Φ t.castSucc = b0_PhiS0 V c t.val (Nat.le_of_lt t.isLt) := by
  dsimp only [dat0]; simp only [Fin.coe_castSucc]

/-! ## The body obligation, at a generic point -/

/-- What the body is called with at point `t`, the windows one by one, -/
def b0_bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def b0_bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's position mod 4 says which case it is
    in. The invariant hands the body the accumulator at what the point before left (at anything before the first point
    and at a point with `k = 0`, where the body zeroes it first) and takes it back at this point's contents; the other
    scoped buffers, the generator register and what the core owes pass through unread. Where `k ≠ 3` the output's
    buffer is handed back as found; where `k = 3` it ends at the accumulator's contents. -/
theorem b0_sound_body0 (c : Dev nD) (t : Fin cfg0.N) :
    b0_bodyPre0 V c t ⊢ wp frame (wpE (defs₀ (F := F)) Variants.none c none) Set.univ (bodyAt0 t) (fun _ => b0_bodyPost0 V c t) := by
  unfold b0_bodyPre0 b0_bodyPost0 bodyAt0
  simp only [b0_before0_0, b0_before0_1]
  rw [show (dat0 V c).owesAt () t.succ = (dat0 V c).owesAt () t.castSucc from rfl]
  rw [show (dat0 V c).Φ t.succ = b0_PhiS0 V c (t.val + 1) t.isLt from rfl, b0_PhiS0_succ]
  have hN : t.val < 96 := lt_of_lt_of_eq t.isLt (show cfg0.N = 96 from N_0)
  rw [show (dat0 V c).leavesExact 0 t = owns (c : Thread nD τ) (st0_0 t) fullShare ((dat0 V c).after 0 t) from by
    unfold Dat.leavesExact; rw [b0_liveAt0_0 t], b0_after0_0]
  rw [show (dat0 V c).leavesExact 1 t = owns (c : Thread nD τ) (st0_1 t) fullShare ((dat0 V c).after 1 t) from by
    unfold Dat.leavesExact; rw [b0_liveAt0_1 t], b0_after0_1]
  by_cases h1 : t.val % 4 = 3
  · have h0 : ¬t.val % 4 = 0 := by omega
    have hz : t.val ≠ 0 := by omega
    rw [show (dat0 V c).leavesExact 2 t = owns (c : Thread nD τ) (st0_2 t) fullShare ((dat0 V c).after 2 t) from by
      unfold Dat.leavesExact; rw [b0_liveAt0_2 t ((b0_hcond0_1 t).mpr h1)], after0_2]
    rw [acc0_next V c t h0]
    rw [b0_PhiS0_castSucc V c t, b0_PhiS0_pos V c _ _ hz]
    iintro ⟨⟨⟨HS0, HR⟩, Hg⟩, Ho, ⟨%d0, H0⟩, ⟨%d1, H1⟩, ⟨%d2, H2⟩⟩
    iapply (b0_run0_C c (grid0.coords t) _ _ _ _ _ _ _ _ (fun h => h0 ((b0_hcond0_0 t).mp h)) ((b0_hcond0_1 t).mpr h1) (iblk0 V c 0 t) (iblk0 V c 1 t) _ Set.univ _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexact H2
  · rw [Dat.leavesExact_idle (dat0 V c) 2 t (b0_idleAt0_2 t (fun h => h1 ((b0_hcond0_1 t).mp h))) (b0_noFlush0_2 t (fun h => h1 ((b0_hcond0_1 t).mp h)))]
    by_cases h0 : t.val % 4 = 0
    · rw [acc0_first V c t h0]
      by_cases hz : t.val = 0
      · rw [b0_PhiS0_castSucc V c t, b0_PhiS0_zero V c _ _ hz, b0_PhiA0_eq]
        iintro ⟨⟨⟨HS0, HR⟩, Hg⟩, Ho, ⟨%d0, H0⟩, ⟨%d1, H1⟩, ⟨%d2, H2⟩⟩
        iapply (b0_run0_A c (grid0.coords t) _ _ _ _ _ _ _ _ ((b0_hcond0_0 t).mpr h0) (fun h => h1 ((b0_hcond0_1 t).mp h)) (iblk0 V c 0 t) (iblk0 V c 1 t) _ Set.univ _)
        isplitl [H0]; · iexact H0
        isplitl [H1]; · iexact H1
        isplitl [H2]; · iexact H2
        isplitl [HS0]; · iexact HS0
        iintro ⟨H0, H1, H2, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        iexists _; iexact H2
      · rw [b0_PhiS0_castSucc V c t, b0_PhiS0_pos V c _ _ hz]
        iintro ⟨⟨⟨HS0, HR⟩, Hg⟩, Ho, ⟨%d0, H0⟩, ⟨%d1, H1⟩, ⟨%d2, H2⟩⟩
        iapply (b0_run0_A c (grid0.coords t) _ _ _ _ _ _ _ _ ((b0_hcond0_0 t).mpr h0) (fun h => h1 ((b0_hcond0_1 t).mp h)) (iblk0 V c 0 t) (iblk0 V c 1 t) _ Set.univ _)
        isplitl [H0]; · iexact H0
        isplitl [H1]; · iexact H1
        isplitl [H2]; · iexact H2
        isplitl [HS0]; · iexists _; iexact HS0
        iintro ⟨H0, H1, H2, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        iexists _; iexact H2
    · have hz : t.val ≠ 0 := by omega
      rw [acc0_next V c t h0]
      rw [b0_PhiS0_castSucc V c t, b0_PhiS0_pos V c _ _ hz]
      iintro ⟨⟨⟨HS0, HR⟩, Hg⟩, Ho, ⟨%d0, H0⟩, ⟨%d1, H1⟩, ⟨%d2, H2⟩⟩
      iapply (b0_run0_B c (grid0.coords t) _ _ _ _ _ _ _ _ (fun h => h0 ((b0_hcond0_0 t).mp h)) (fun h => h1 ((b0_hcond0_1 t).mp h)) (iblk0 V c 0 t) (iblk0 V c 1 t) _ _ Set.univ _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact b0_sound_body0 V c t

/-- What the launch hands the region is the invariant before the first point. -/
theorem hin0 (c : Dev nD) : Pipeline.ΦA spec0 c ⊢ (dat0 V c).Φ 0 := by
  rw [show (dat0 V c).Φ 0 = b0_PhiS0 V c 0 (Nat.zero_le _) from rfl, b0_PhiS0_zero V c 0 _ rfl]
  try exact Idealize.SL.BI.Entails.refl _

/-- After any point but the first the invariant gives the class's back: the accumulator's contents are forgotten. -/
theorem b0_Phi0_out (c : Dev nD) (t : Fin (cfg0.N + 1)) (ht : t.val ≠ 0) : (dat0 V c).Φ t ⊢ Pipeline.ΦA spec0 c := by
  rw [show (dat0 V c).Φ t = b0_PhiS0 V c t.val (Nat.le_of_lt_succ t.isLt) from rfl, b0_PhiS0_pos V c _ _ ht, b0_PhiA0_eq]
  iintro ⟨⟨HS0, HR⟩, Hg⟩
  isplitl [HS0 HR]
  · isplitl [HS0]; · iexists _; iexact HS0
    iexact HR
  iexact Hg

/-- The same after the last point. -/
theorem hout0 (c : Dev nD) : (dat0 V c).Φ (Fin.last cfg0.N) ⊢ Pipeline.ΦA spec0 c :=
  b0_Phi0_out V c _ (by rw [Fin.val_last]; have : cfg0.N = 96 := N_0; omega)

end Region0

end Cert.Kernel.Hand

end
-- ==== Proof.K.Body1.lean ====
/- Region 1 of @main (custom_call 1, `cc1_attn_kernel`: one attention head per grid point), the body half of its
   frame, stated at a PARAMETER `V` — the TensorCore's buffer contents when the region is entered — and generic in
   the float carrier `F`. Six input windows (query, key and value blocks, the rotary table, the two norm weight
   vectors) and one output window, stored whole at every point. Per window its block at a point (`iblk1`); what the
   body leaves in the output's buffer as a closed function of the six input blocks (`out1_6`, and `out1_6_eq`: the
   payload of its one store); the body's triple (`sound_kernel1`); the pipeline's proof data (`dat1`) and the body
   obligation at every point (`body_obligation1`). -/
import proofs.«122228_j43301860278716_2_alg».proof.Proof.Gen.Kernel.Launch
import proofs.«122228_j43301860278716_2_alg».proof.Proof.Gen.Kernel.Skeleton
import proofs.«122228_j43301860278716_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of extents 1024 × 128: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the query block (b, h)): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the key block (b, h / 4)): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the value block (b, h / 4)): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the whole rotary table): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the query norm weights): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the key norm weights): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1 × 1 × 1024 × 128 block: the rectangle of every load of the query, key and value buffers and of the one store. -/
abbrev b1_rblk : Rect S1x1x1024x128 := Rect.unit (s := S1x1x1024x128) ![0, 0, 0, 0] S1x1x1024x128.size inb_S1x1x1024x128_S1x1x1024x128_0_0_0_0
/-- The whole 128-vector: the rectangle of the two norm-weight loads. -/
abbrev b1_rvec : Rect S128 := Rect.unit (s := S128) ![0] S128.size inb_S128_S128_0
/-- The three 1 × 1024 × 128 planes of the rotary table, loaded one by one. -/
abbrev r1_f0 : Rect S3x1024x128 := Rect.unit (s := S3x1024x128) ![0, 0, 0] S1x1024x128.size inb_S3x1024x128_S1x1024x128_0_0_0
abbrev r1_f1 : Rect S3x1024x128 := Rect.unit (s := S3x1024x128) ![1, 0, 0] S1x1024x128.size inb_S3x1024x128_S1x1024x128_1_0_0
abbrev r1_f2 : Rect S3x1024x128 := Rect.unit (s := S3x1024x128) ![2, 0, 0] S1x1024x128.size inb_S3x1024x128_S1x1024x128_2_0_0

/-! ## What the body leaves in the output window's buffer -/

/-- Window 6's staging buffer after the body, from the six input windows' blocks: the canonical contents of its one
    store, whose payload is the attention output of the loaded blocks (the payloads are the skeleton's). -/
def out1_6 (x0 x1 x2 : Vec F S1x1x1024x128 .f32) (x3 : Vec F S3x1024x128 .f32) (x4 x5 : Vec F S128 .f32) : Vec F S1x1x1024x128 .f32 :=
  View.canon [⟨b1_rblk, k1_pay1 (k1_pay9 (k1_pay2 (View.ld x1 b1_rblk)) (k1_pay3 (View.ld x2 b1_rblk)) (k1_pay4 (View.ld x3 r1_f0)) (k1_pay5 (View.ld x3 r1_f1)) (k1_pay6 (View.ld x3 r1_f2)) (View.ld x5 b1_rvec) (k1_pay7 (View.ld x0 b1_rblk) (View.ld x4 b1_rvec)) (k1_pay8 (View.ld x1 b1_rblk)) (Scalar.ofBits .f32 0x43000000#32))⟩]

/-- The one store is of the whole block, so it covers the buffer. -/
theorem b1_cover (p0 : Vec F S1x1x1024x128 .f32) (y : S1x1x1024x128.Idx) :
    ∃ pc ∈ ([⟨b1_rblk, p0⟩] : List (View.Piece (Elt F) S1x1x1024x128 .f32)), y ∈ pc.1.set :=
  View.cover_of_tiled [⟨b1_rblk, p0⟩] S1x1x1024x128.size (by rfl) y

/-- In closed form: a load through the whole-shape rectangle at offset zero reads the contents, and one store through
    it leaves its payload; only the three plane loads of the rotary table remain. -/
theorem out1_6_eq (x0 x1 x2 : Vec F S1x1x1024x128 .f32) (x3 : Vec F S3x1024x128 .f32) (x4 x5 : Vec F S128 .f32) :
    out1_6 x0 x1 x2 x3 x4 x5 = k1_pay1 (k1_pay9 (k1_pay2 x1) (k1_pay3 x2) (k1_pay4 (View.ld x3 r1_f0)) (k1_pay5 (View.ld x3 r1_f1)) (k1_pay6 (View.ld x3 r1_f2)) x5 (k1_pay7 x0 x4) (k1_pay8 x1) (Scalar.ofBits .f32 0x43000000#32)) := by
  unfold out1_6
  rw [View.canon_unit_zero (S := S1x1x1024x128) (by decide) inb_S1x1x1024x128_S1x1x1024x128_0_0_0_0]
  rw [View.ld_unit_zero (S := S1x1x1024x128) (by decide) inb_S1x1x1024x128_S1x1x1024x128_0_0_0_0 x0,
    View.ld_unit_zero (S := S1x1x1024x128) (by decide) inb_S1x1x1024x128_S1x1x1024x128_0_0_0_0 x1,
    View.ld_unit_zero (S := S1x1x1024x128) (by decide) inb_S1x1x1024x128_S1x1x1024x128_0_0_0_0 x2,
    View.ld_unit_zero (S := S128) (by decide) inb_S128_S128_0 x4,
    View.ld_unit_zero (S := S128) (by decide) inb_S128_S128_0 x5]

/-! ## The body's triple -/

set_option maxHeartbeats 4000000 in
/-- The kernel body on whole staging memrefs, the six inputs' at read contents `x0 … x5` and the output's at anything,
    runs to the continuation holding the inputs' as they were and the output's at `out1_6` of the inputs': the body is
    eight loads of the inputs, one load of the output whose value is not used, a pure computation, and one store of
    the whole output block. The payloads are never evaluated. -/
theorem sound_kernel1 (c : Dev nD) (E : Set ℕ) (i : grid1.Coords)
    (arg2 : Memref sig .tc .vmem S1x1x1024x128 .f32) (harg2 : arg2.IsWhole) (arg3 : Memref sig .tc .vmem S1x1x1024x128 .f32) (harg3 : arg3.IsWhole) (arg4 : Memref sig .tc .vmem S1x1x1024x128 .f32) (harg4 : arg4.IsWhole)
    (arg5 : Memref sig .tc .vmem S3x1024x128 .f32) (harg5 : arg5.IsWhole) (arg6 : Memref sig .tc .vmem S128 .f32) (harg6 : arg6.IsWhole)
    (arg7 : Memref sig .tc .vmem S128 .f32) (harg7 : arg7.IsWhole) (arg8 : Memref sig .tc .vmem S1x1x1024x128 .f32) (harg8 : arg8.IsWhole)
    (x0 x1 x2 : Vec F S1x1x1024x128 .f32) (x3 : Vec F S3x1024x128 .f32) (x4 x5 : Vec F S128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1_attn_kernel i arg2 harg2 arg3 harg3 arg4 harg4 arg5 harg5 arg6 harg6 arg7 harg7 arg8 harg8) K := by
  rw [cc1_attn_kernel_eq_skeleton]; unfold cc1_attn_kernel_skel
  rw [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (b1_cover _)

/-! ## The pipeline's proof data -/

/-- The proof data of pipeline 1 on core `c`: the arrays as the region finds them (`V`); after the body at point `t`
    each input's buffer at its block and the output's at `out1_6` of the six input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Every semaphore entry counts as recorded at the region's entry. -/
theorem recorded1 (c : Dev nD) : (dat1 V c).recorded 0 = Set.univ := rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' memrefs hold their blocks (`before1_w`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Body2.lean ====
import proofs.«122228_j43301860278716_2_alg».proof.Proof.Gen.Kernel.Launch
import proofs.«122228_j43301860278716_2_alg».proof.Proof.Gen.Kernel.Skeleton
import proofs.«122228_j43301860278716_2_alg».proof.Proof.Gen.Kernel.Points
import proofs.«122228_j43301860278716_2_alg».proof.Proof.K.Body0
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the K-blocked matmul kernel `cc2__matmul_wT_kernel`

Its grid's last axis is the reduction axis `k`, running fastest. At `k = 0` the body stores zeros into its scratch
accumulator; at every point it adds the product of the two input blocks to the accumulator; at `k = 3` it copies the
accumulator into the output block. So the accumulator is carried from point to point, and the output block is
untouched except at the points with `k = 3`, where alone it is written back. -/

/-! ## The body's branch conditions, in closed form over the grid -/

/-- The condition of the body's first `scf.if` (`k = 0`), from the grid coordinates. -/
abbrev b0_cond2_0 (i : grid2.Coords) : Prop := (Scalar.cmpi .ne (Scalar.extui (Scalar.cmpi .eq (BitVec.ofNat 32 (i 2).val) 0#32)) 0#32) = 1#1
/-- It holds at the points ≡ 0 (mod 4). -/
theorem b0_hcond2_0 : ∀ t : Fin cfg2.N, b0_cond2_0 (grid2.coords t) ↔ t.val % 4 = 0 :=
  (by decide +kernel : ∀ t : Fin grid2.N, b0_cond2_0 (grid2.coords t) ↔ t.val % 4 = 0)
/-- The condition of the body's second `scf.if` (`k = 3`). -/
abbrev b0_cond2_1 (i : grid2.Coords) : Prop := k2_cond2 i = 1#1
/-- It holds at the points ≡ 3 (mod 4). -/
theorem b0_hcond2_1 : ∀ t : Fin cfg2.N, b0_cond2_1 (grid2.coords t) ↔ t.val % 4 = 3 :=
  (by decide +kernel : ∀ t : Fin grid2.N, b0_cond2_1 (grid2.coords t) ↔ t.val % 4 = 3)

/-! ## Where the windows are idle -/

/-- The input windows are never idle. -/
theorem b0_liveAt2_0 : ∀ t : Fin cfg2.N, cfg2.idle 0 (grid2.coords t) = false := by decide +kernel
theorem b0_liveAt2_1 : ∀ t : Fin cfg2.N, cfg2.idle 1 (grid2.coords t) = false := by decide +kernel
/-- Where `k ≠ 3` the output window is idle: the body stores nothing into it, -/
theorem b0_idleAt2_2 : ∀ t : Fin cfg2.N, ¬b0_cond2_1 (grid2.coords t) → cfg2.idle 2 (grid2.coords t) = true := by decide +kernel
/-- and the pipeline does not write its block back. -/
theorem b0_noFlush2_2 : ∀ t : Fin cfg2.N, ¬b0_cond2_1 (grid2.coords t) → (cfg2.win 2).flush t = false := by decide +kernel
/-- Where `k = 3` the output window is live. -/
theorem b0_liveAt2_2 : ∀ t : Fin cfg2.N, b0_cond2_1 (grid2.coords t) → cfg2.idle 2 (grid2.coords t) = false := by decide +kernel

/-! ## The kernel body on whole memrefs, case by case

Case A (`k = 0`): the accumulator, whatever it held, is zeroed and then holds the first product added to zero; the
output buffer is handed back as found. Case B (`k = 1, 2`): the accumulator holds what it held plus the product; the
output buffer is handed back as found. Case C (`k = 3`): as B, and the output buffer, whatever it held, ends at the
accumulator's final contents. Each load reads a whole buffer and each store covers one, so what a buffer holds after
the body is the last payload stored into it. -/

set_option maxHeartbeats 1000000 in
/-- Case A. -/
theorem b0_run2_A (c : Dev nD) (i : grid2.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : b0_cond2_0 i) (hc1 : ¬b0_cond2_1 i)
    (x0 : Vec F S512x1024 .f32) (x1 : Vec F S1024x1024 .f32) (xi2 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare xi2 ∗ owns (c : Thread nD τ) arg6 fullShare (k2_pay2 x0 x1 (k2_pay1 (F := F)))) -∗ K ⟨⟩))
      ⊢ wp frame (wpE (defs₀ (F := F)) Variants.none c none) E (cc2__matmul_wT_kernel i arg3 harg3 arg4 harg4 arg5 harg5 arg6 harg6) K := by
  simp only [cc2__matmul_wT_kernel_eq_skeleton]; unfold cc2__matmul_wT_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  unfold b0_run2_A.sl.v8 b0_run2_A.sl.HS0_1
  rw [b0_read_writes_whole _ _ b0_hz, View.readCov_unit_zero _ b0_hz, View.readAt_eq_ld, View.readAt_eq_ld, hf0, hf1,
    View.ld_unit_zero (S := S512x1024) b0_hz, View.ld_unit_zero (S := S1024x1024) b0_hz]

set_option maxHeartbeats 1000000 in
/-- Case B. -/
theorem b0_run2_B (c : Dev nD) (i : grid2.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : ¬b0_cond2_0 i) (hc1 : ¬b0_cond2_1 i)
    (x0 : Vec F S512x1024 .f32) (x1 : Vec F S1024x1024 .f32) (xi2 : Vec F S512x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare xi2 ∗ owns (c : Thread nD τ) arg6 fullShare (k2_pay2 x0 x1 xs)) -∗ K ⟨⟩))
      ⊢ wp frame (wpE (defs₀ (F := F)) Variants.none c none) E (cc2__matmul_wT_kernel i arg3 harg3 arg4 harg4 arg5 harg5 arg6 harg6) K := by
  simp only [cc2__matmul_wT_kernel_eq_skeleton]; unfold cc2__matmul_wT_kernel_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2; obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  rw [b0_read_writes_whole _ _ b0_hz, View.readAt_eq_ld, View.readAt_eq_ld, View.readAt_eq_ld, hf0, hf1, hfs0,
    View.ld_unit_zero (S := S512x1024) b0_hz, View.ld_unit_zero (S := S1024x1024) b0_hz, View.ld_unit_zero (S := S512x1024) b0_hz]

set_option maxHeartbeats 1000000 in
/-- Case C. -/
theorem b0_run2_C (c : Dev nD) (i : grid2.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : ¬b0_cond2_0 i) (hc1 : b0_cond2_1 i)
    (x0 : Vec F S512x1024 .f32) (x1 : Vec F S1024x1024 .f32) (xs : Vec F S512x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k2_pay2 x0 x1 xs) ∗ owns (c : Thread nD τ) arg6 fullShare (k2_pay2 x0 x1 xs)) -∗ K ⟨⟩))
      ⊢ wp frame (wpE (defs₀ (F := F)) Variants.none c none) E (cc2__matmul_wT_kernel i arg3 harg3 arg4 harg4 arg5 harg5 arg6 harg6) K := by
  simp only [cc2__matmul_wT_kernel_eq_skeleton]; unfold cc2__matmul_wT_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [b0_read_writes_whole _ _ b0_hz]
    unfold b0_run2_C.sl.v17 b0_run2_C.sl.HS0_1
    rw [View.readCov_unit_zero _ b0_hz, View.readAt_eq_ld, View.readAt_eq_ld, View.readAt_eq_ld, hf0, hf1, hfs0,
      View.ld_unit_zero (S := S512x1024) b0_hz, View.ld_unit_zero (S := S1024x1024) b0_hz, View.ld_unit_zero (S := S512x1024) b0_hz]
  iexists _; isplitr
  swap; · iexact HS0
  ipureintro
  unfold b0_run2_C.sl.HS0_1
  rw [b0_read_writes_whole _ _ b0_hz, View.readAt_eq_ld, View.readAt_eq_ld, View.readAt_eq_ld, hf0, hf1, hfs0,
    View.ld_unit_zero (S := S512x1024) b0_hz, View.ld_unit_zero (S := S1024x1024) b0_hz, View.ld_unit_zero (S := S512x1024) b0_hz]

section Region2
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is
    `V`'s and whose body leaves the block in place. -/
theorem b0_before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem b0_before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator, point by point -/

/-- What the scratch accumulator holds after point `n`: at a point with `k = 0` the product of the point's input
    blocks added to zero, elsewhere added to what the point before left. -/
def acc2 (c : Dev nD) : (n : ℕ) → n < cfg2.N → Vec F S512x1024 .f32
  | 0, hn => k2_pay2 (iblk2 V c 0 ⟨0, hn⟩) (iblk2 V c 1 ⟨0, hn⟩) (k2_pay1 (F := F))
  | n + 1, hn =>
    if (n + 1) % 4 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

/-- At a point with `k = 0` the accumulator restarts from zero. -/
theorem acc2_first (c : Dev nD) (t : Fin cfg2.N) (h : t.val % 4 = 0) :
    acc2 V c t.val t.isLt = k2_pay2 (iblk2 V c 0 t) (iblk2 V c 1 t) (k2_pay1 (F := F)) := by
  obtain ⟨n, hn⟩ := t
  cases n with
  | zero => exact rfl
  | succ n => exact (if_pos h).trans rfl

/-- At any other point it continues from what the point before left. -/
theorem acc2_next (c : Dev nD) (t : Fin cfg2.N) (h : t.val % 4 ≠ 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch accumulator, a whole scoped buffer of the kernel's own. -/
abbrev b0_scM2 : Memref sig .tc .vmem S512x1024 .f32 := Memref.whole cc2_scratch0

/-- The core's other scoped buffers that are no staging buffer of this call (the other calls' staging buffers and
    scratch), at some contents each: carried unopened. -/
abbrev b0_rest2 (c : Dev nD) : sProp 𝕄 :=
  Pipeline.scopedRestBut (Ix := Unit) (Name := ℕ) (U := UR sig nD τ) (Lvl := ℕ) (Val := Elt F) spec2 c [cc2_scratch0]

/-- The class's invariant with the accumulator split off the scoped rest and owned as a memref at some contents. -/
theorem b0_PhiA2_eq (c : Dev nD) :
    (Pipeline.ΦA spec2 c : sProp 𝕄)
      = iprop(((∃ d, owns (c : Thread nD τ) b0_scM2 fullShare d) ∗ b0_rest2 c) ∗ (∃ r, prngReg c r)) := by
  unfold Pipeline.ΦA
  rw [Pipeline.scopedRest_split_of_list spec2 c [cc2_scratch0] (by decide) (by decide)]
  simp only [bigSepL_singleton, b0_scM2, owns_whole]; try rfl

/-- The invariant before position `n`: before the first point the class's (every scoped buffer that is no staging
    buffer at anything, the generator register at some state); afterwards the same with the accumulator at what the
    point before left in it. -/
def b0_PhiS2 (c : Dev nD) : (n : ℕ) → n ≤ cfg2.N → sProp 𝕄
  | 0, _ => Pipeline.ΦA spec2 c
  | n + 1, hn => iprop((owns (c : Thread nD τ) b0_scM2 fullShare (acc2 V c n hn) ∗ b0_rest2 c) ∗ (∃ r, prngReg c r))

theorem b0_PhiS2_zero (c : Dev nD) (n : ℕ) (h : n ≤ cfg2.N) (hz : n = 0) : b0_PhiS2 V c n h = Pipeline.ΦA spec2 c := by
  subst hz; rfl

theorem b0_PhiS2_succ (c : Dev nD) (n : ℕ) (hn : n < cfg2.N) :
    b0_PhiS2 V c (n + 1) hn = iprop((owns (c : Thread nD τ) b0_scM2 fullShare (acc2 V c n hn) ∗ b0_rest2 c) ∗ (∃ r, prngReg c r)) := rfl

theorem b0_PhiS2_pos (c : Dev nD) (n : ℕ) (h : n ≤ cfg2.N) (hz : n ≠ 0) :
    b0_PhiS2 V c n h = iprop((owns (c : Thread nD τ) b0_scM2 fullShare (acc2 V c (n - 1) (by omega)) ∗ b0_rest2 c) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at the accumulator's contents there (read only at the points
    with `k = 3`: elsewhere the window is idle); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := b0_PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The body takes on no new units: the bound on the recorded pairs stays everything. -/
theorem recorded2 (c : Dev nD) : (dat2 V c).recorded 0 = Set.univ := by
  dsimp only [dat2]

/-- What the body leaves, window by window. -/
theorem b0_after2_0 (c : Dev nD) (t : Fin cfg2.N) : (dat2 V c).after 0 t = iblk2 V c 0 t := by dsimp only [dat2]
theorem b0_after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- Each input's current staging buffer holds its block at every point. -/
theorem b0_before2_0 (c : Dev nD) (t : Fin cfg2.N) (d) : (dat2 V c).before 0 t d = iblk2 V c 0 t :=
  b0_before2_0_of V (dat2 V c) (A_eq2 V c 0) (b0_after2_0 V c) t d
theorem b0_before2_1 (c : Dev nD) (t : Fin cfg2.N) (d) : (dat2 V c).before 1 t d = iblk2 V c 1 t :=
  b0_before2_1_of V (dat2 V c) (A_eq2 V c 1) (b0_after2_1 V c) t d

/-- The invariant at a point's start, restated at the point's position. -/
theorem b0_PhiS2_castSucc (c : Dev nD) (t : Fin cfg2.N) :
    (dat2 V c).Φ t.castSucc = b0_PhiS2 V c t.val (Nat.le_of_lt t.isLt) := by
  dsimp only [dat2]; simp only [Fin.coe_castSucc]

/-! ## The body obligation, at a generic point -/

/-- What the body is called with at point `t`, the windows one by one, -/
def b0_bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def b0_bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; the point's position mod 4 says which case it is
    in. The invariant hands the body the accumulator at what the point before left (at anything before the first point
    and at a point with `k = 0`, where the body zeroes it first) and takes it back at this point's contents; the other
    scoped buffers, the generator register and what the core owes pass through unread. Where `k ≠ 3` the output's
    buffer is handed back as found; where `k = 3` it ends at the accumulator's contents. -/
theorem b0_sound_body2 (c : Dev nD) (t : Fin cfg2.N) :
    b0_bodyPre2 V c t ⊢ wp frame (wpE (defs₀ (F := F)) Variants.none c none) Set.univ (bodyAt2 t) (fun _ => b0_bodyPost2 V c t) := by
  unfold b0_bodyPre2 b0_bodyPost2 bodyAt2
  simp only [b0_before2_0, b0_before2_1]
  rw [show (dat2 V c).owesAt () t.succ = (dat2 V c).owesAt () t.castSucc from rfl]
  rw [show (dat2 V c).Φ t.succ = b0_PhiS2 V c (t.val + 1) t.isLt from rfl, b0_PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [b0_liveAt2_0 t], b0_after2_0]
  rw [show (dat2 V c).leavesExact 1 t = owns (c : Thread nD τ) (st2_1 t) fullShare ((dat2 V c).after 1 t) from by
    unfold Dat.leavesExact; rw [b0_liveAt2_1 t], b0_after2_1]
  by_cases h1 : t.val % 4 = 3
  · have h0 : ¬t.val % 4 = 0 := by omega
    have hz : t.val ≠ 0 := by omega
    rw [show (dat2 V c).leavesExact 2 t = owns (c : Thread nD τ) (st2_2 t) fullShare ((dat2 V c).after 2 t) from by
      unfold Dat.leavesExact; rw [b0_liveAt2_2 t ((b0_hcond2_1 t).mpr h1)], after2_2]
    rw [acc2_next V c t h0]
    rw [b0_PhiS2_castSucc V c t, b0_PhiS2_pos V c _ _ hz]
    iintro ⟨⟨⟨HS0, HR⟩, Hg⟩, Ho, ⟨%d0, H0⟩, ⟨%d1, H1⟩, ⟨%d2, H2⟩⟩
    iapply (b0_run2_C c (grid2.coords t) _ _ _ _ _ _ _ _ (fun h => h0 ((b0_hcond2_0 t).mp h)) ((b0_hcond2_1 t).mpr h1) (iblk2 V c 0 t) (iblk2 V c 1 t) _ Set.univ _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexact H2
  · rw [Dat.leavesExact_idle (dat2 V c) 2 t (b0_idleAt2_2 t (fun h => h1 ((b0_hcond2_1 t).mp h))) (b0_noFlush2_2 t (fun h => h1 ((b0_hcond2_1 t).mp h)))]
    by_cases h0 : t.val % 4 = 0
    · rw [acc2_first V c t h0]
      by_cases hz : t.val = 0
      · rw [b0_PhiS2_castSucc V c t, b0_PhiS2_zero V c _ _ hz, b0_PhiA2_eq]
        iintro ⟨⟨⟨HS0, HR⟩, Hg⟩, Ho, ⟨%d0, H0⟩, ⟨%d1, H1⟩, ⟨%d2, H2⟩⟩
        iapply (b0_run2_A c (grid2.coords t) _ _ _ _ _ _ _ _ ((b0_hcond2_0 t).mpr h0) (fun h => h1 ((b0_hcond2_1 t).mp h)) (iblk2 V c 0 t) (iblk2 V c 1 t) _ Set.univ _)
        isplitl [H0]; · iexact H0
        isplitl [H1]; · iexact H1
        isplitl [H2]; · iexact H2
        isplitl [HS0]; · iexact HS0
        iintro ⟨H0, H1, H2, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        iexists _; iexact H2
      · rw [b0_PhiS2_castSucc V c t, b0_PhiS2_pos V c _ _ hz]
        iintro ⟨⟨⟨HS0, HR⟩, Hg⟩, Ho, ⟨%d0, H0⟩, ⟨%d1, H1⟩, ⟨%d2, H2⟩⟩
        iapply (b0_run2_A c (grid2.coords t) _ _ _ _ _ _ _ _ ((b0_hcond2_0 t).mpr h0) (fun h => h1 ((b0_hcond2_1 t).mp h)) (iblk2 V c 0 t) (iblk2 V c 1 t) _ Set.univ _)
        isplitl [H0]; · iexact H0
        isplitl [H1]; · iexact H1
        isplitl [H2]; · iexact H2
        isplitl [HS0]; · iexists _; iexact HS0
        iintro ⟨H0, H1, H2, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        iexists _; iexact H2
    · have hz : t.val ≠ 0 := by omega
      rw [acc2_next V c t h0]
      rw [b0_PhiS2_castSucc V c t, b0_PhiS2_pos V c _ _ hz]
      iintro ⟨⟨⟨HS0, HR⟩, Hg⟩, Ho, ⟨%d0, H0⟩, ⟨%d1, H1⟩, ⟨%d2, H2⟩⟩
      iapply (b0_run2_B c (grid2.coords t) _ _ _ _ _ _ _ _ (fun h => h0 ((b0_hcond2_0 t).mp h)) (fun h => h1 ((b0_hcond2_1 t).mp h)) (iblk2 V c 0 t) (iblk2 V c 1 t) _ _ Set.univ _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact b0_sound_body2 V c t

/-- What the launch hands the region is the invariant before the first point. -/
theorem hin2 (c : Dev nD) : Pipeline.ΦA spec2 c ⊢ (dat2 V c).Φ 0 := by
  rw [show (dat2 V c).Φ 0 = b0_PhiS2 V c 0 (Nat.zero_le _) from rfl, b0_PhiS2_zero V c 0 _ rfl]
  try exact Idealize.SL.BI.Entails.refl _

/-- After any point but the first the invariant gives the class's back: the accumulator's contents are forgotten. -/
theorem b0_Phi2_out (c : Dev nD) (t : Fin (cfg2.N + 1)) (ht : t.val ≠ 0) : (dat2 V c).Φ t ⊢ Pipeline.ΦA spec2 c := by
  rw [show (dat2 V c).Φ t = b0_PhiS2 V c t.val (Nat.le_of_lt_succ t.isLt) from rfl, b0_PhiS2_pos V c _ _ ht, b0_PhiA2_eq]
  iintro ⟨⟨HS0, HR⟩, Hg⟩
  isplitl [HS0 HR]
  · isplitl [HS0]; · iexists _; iexact HS0
    iexact HR
  iexact Hg

/-- The same after the last point. -/
theorem hout2 (c : Dev nD) : (dat2 V c).Φ (Fin.last cfg2.N) ⊢ Pipeline.ΦA spec2 c :=
  b0_Phi2_out V c _ (by rw [Fin.val_last]; have : cfg2.N = 64 := N_2; omega)

end Region2

end Cert.Kernel.Hand

end
-- ==== Proof.K.Frame.lean ====
import proofs.«122228_j43301860278716_2_alg».proof.Proof.K.Run
import proofs.«122228_j43301860278716_2_alg».proof.Proof.K.Body0
import proofs.«122228_j43301860278716_2_alg».proof.Proof.K.Body1
import proofs.«122228_j43301860278716_2_alg».proof.Proof.K.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main at the three regions' proof data

The run over @main's seven segments is stated for any proof data of the three pallas_calls; here it is read at the
data of regions 0, 1 and 2. The buffer contents at the eight segment boundaries — the launch memory, then after each
host stretch and each region in turn — become functions of the launch memory alone. -/

section Frame

variable (m : (ℓ : Loc nD τ sig) → Buf (Elt F) ℓ) (ρ : Dev nD → PrngReg)

/-! ## The boundary contents at the instance -/

/-- Core `c`'s buffers at launch. -/
abbrev WF0 : Dev nD → Valuation τ sig (Elt F) := W0 m
/-- After the first host stretch: region 0's entry. -/
abbrev WF1 : Dev nD → Valuation τ sig (Elt F) := W1 m
/-- The same read at the TensorCore's references. -/
abbrev VF1 : (c : Dev nD) → (b : Ref sig .tc) → Buf (Elt F) ((c : Thread nD τ).loc b) := V1 m
/-- At region 0's exit. -/
abbrev WF2 : Dev nD → Valuation τ sig (Elt F) := W2 m dat0
abbrev VF2 : (c : Dev nD) → (b : Ref sig .tc) → Buf (Elt F) ((c : Thread nD τ).loc b) := V2 m dat0
/-- After the second host stretch: region 1's entry. -/
abbrev WF3 : Dev nD → Valuation τ sig (Elt F) := W3 m dat0
abbrev VF3 : (c : Dev nD) → (b : Ref sig .tc) → Buf (Elt F) ((c : Thread nD τ).loc b) := V3 m dat0
/-- At region 1's exit. -/
abbrev WF4 : Dev nD → Valuation τ sig (Elt F) := W4 m dat0 dat1
abbrev VF4 : (c : Dev nD) → (b : Ref sig .tc) → Buf (Elt F) ((c : Thread nD τ).loc b) := V4 m dat0 dat1
/-- After the third host stretch: region 2's entry. -/
abbrev WF5 : Dev nD → Valuation τ sig (Elt F) := W5 m dat0 dat1
abbrev VF5 : (c : Dev nD) → (b : Ref sig .tc) → Buf (Elt F) ((c : Thread nD τ).loc b) := V5 m dat0 dat1
/-- At region 2's exit. -/
abbrev WF6 : Dev nD → Valuation τ sig (Elt F) := W6 m dat0 dat1 dat2
abbrev VF6 : (c : Dev nD) → (b : Ref sig .tc) → Buf (Elt F) ((c : Thread nD τ).loc b) := V6 m dat0 dat1 dat2
/-- After the last host stretch: the return. -/
abbrev WF7 : Dev nD → Valuation τ sig (Elt F) := W7 m dat0 dat1 dat2

/-! ## The boundaries chained: what a value proof walks back through -/

/-- The launch contents are the launch memory. -/
theorem fr_WF0 (c : Dev nD) (b : DevRef τ sig) : WF0 m c b = m (c, b) := rfl
/-- Each host stretch's exit contents are its operations applied in order to its entry contents. -/
theorem fr_WF1 (c : Dev nD) : WF1 m c = StableHlo.after hostOps0 (WF0 m c) := rfl
theorem fr_WF3 (c : Dev nD) : WF3 m c = StableHlo.after hostOps1 (WF2 m c) := rfl
theorem fr_WF5 (c : Dev nD) : WF5 m c = StableHlo.after hostOps2 (WF4 m c) := rfl
theorem fr_WF7 (c : Dev nD) : WF7 m c = StableHlo.after hostOps3 (WF6 m c) := rfl
/-- The contents read at a TensorCore reference. -/
theorem fr_VF1 (c : Dev nD) (b : Ref sig .tc) : VF1 m c b = WF1 m c (Proc.devRef .tc b) := rfl
theorem fr_VF3 (c : Dev nD) (b : Ref sig .tc) : VF3 m c b = WF3 m c (Proc.devRef .tc b) := rfl
theorem fr_VF5 (c : Dev nD) (b : Ref sig .tc) : VF5 m c b = WF5 m c (Proc.devRef .tc b) := rfl

/-- At region 0's exit each of its arrays holds what the pipeline leaves: an input as entered, the output its blocks'
    write-backs folded over the grid. -/
theorem fr_WF2_arr (c : Dev nD) (w : Fin cfg0.W) :
    WF2 m c (Proc.devRef .tc (Pipeline.arrRef spec0 w)) = (dat0 (VF1 m) c).arrAt w cfg0.N :=
  W2_arr m dat0 c w
/-- Every other buffer is as at the region's entry. -/
theorem fr_WF2_of_ne (c : Dev nD) (b : Ref sig .tc) (hb : ∀ w, Pipeline.arrRef spec0 w ≠ b) :
    WF2 m c (Proc.devRef .tc b) = WF1 m c (Proc.devRef .tc b) :=
  W2_of_ne m dat0 c b hb
/-- The same at region 1's exit. -/
theorem fr_WF4_arr (c : Dev nD) (w : Fin cfg1.W) :
    WF4 m c (Proc.devRef .tc (Pipeline.arrRef spec1 w)) = (dat1 (VF3 m) c).arrAt w cfg1.N :=
  W4_arr m dat0 dat1 c w
theorem fr_WF4_of_ne (c : Dev nD) (b : Ref sig .tc) (hb : ∀ w, Pipeline.arrRef spec1 w ≠ b) :
    WF4 m c (Proc.devRef .tc b) = WF3 m c (Proc.devRef .tc b) :=
  W4_of_ne m dat0 dat1 c b hb
/-- The same at region 2's exit. -/
theorem fr_WF6_arr (c : Dev nD) (w : Fin cfg2.W) :
    WF6 m c (Proc.devRef .tc (Pipeline.arrRef spec2 w)) = (dat2 (VF5 m) c).arrAt w cfg2.N :=
  W6_arr m dat0 dat1 dat2 c w
theorem fr_WF6_of_ne (c : Dev nD) (b : Ref sig .tc) (hb : ∀ w, Pipeline.arrRef spec2 w ≠ b) :
    WF6 m c (Proc.devRef .tc b) = WF5 m c (Proc.devRef .tc b) :=
  W6_of_ne m dat0 dat1 dat2 c b hb

/-! ## The arguments end as launched -/

/-- `main_arg0` ends as launched. -/
theorem fr_arg0 (c : Dev nD) : WF7 m c (Proc.devRef .tc main_arg0) = m ((c : Thread nD τ).loc main_arg0) :=
  W7_main_arg0 (m := m) (dat0 := dat0) (dat1 := dat1) (dat2 := dat2) c
/-- `main_arg1` ends as launched. -/
theorem fr_arg1 (c : Dev nD) : WF7 m c (Proc.devRef .tc main_arg1) = m ((c : Thread nD τ).loc main_arg1) :=
  W7_main_arg1 (m := m) (dat0 := dat0) (dat1 := dat1) (dat2 := dat2) (hA1 := fun V c w => A_eq1 V c w) c
/-- `main_arg2` ends as launched. -/
theorem fr_arg2 (c : Dev nD) : WF7 m c (Proc.devRef .tc main_arg2) = m ((c : Thread nD τ).loc main_arg2) :=
  W7_main_arg2 (m := m) (dat0 := dat0) (dat1 := dat1) (dat2 := dat2) c
/-- `main_arg3` ends as launched. -/
theorem fr_arg3 (c : Dev nD) : WF7 m c (Proc.devRef .tc main_arg3) = m ((c : Thread nD τ).loc main_arg3) :=
  W7_main_arg3 (m := m) (dat0 := dat0) (dat1 := dat1) (dat2 := dat2) c
/-- `main_arg4` ends as launched. -/
theorem fr_arg4 (c : Dev nD) : WF7 m c (Proc.devRef .tc main_arg4) = m ((c : Thread nD τ).loc main_arg4) :=
  W7_main_arg4 (m := m) (dat0 := dat0) (dat1 := dat1) (dat2 := dat2) c
/-- `main_arg5` ends as launched. -/
theorem fr_arg5 (c : Dev nD) : WF7 m c (Proc.devRef .tc main_arg5) = m ((c : Thread nD τ).loc main_arg5) :=
  W7_main_arg5 (m := m) (dat0 := dat0) (dat1 := dat1) (dat2 := dat2) (hA2 := fun V c w => A_eq2 V c w) c
/-- `main_arg6` ends as launched. -/
theorem fr_arg6 (c : Dev nD) : WF7 m c (Proc.devRef .tc main_arg6) = m ((c : Thread nD τ).loc main_arg6) :=
  W7_main_arg6 (m := m) (dat0 := dat0) (dat1 := dat1) (dat2 := dat2) (hA1 := fun V c w => A_eq1 V c w) c
/-- `main_arg7` ends as launched. -/
theorem fr_arg7 (c : Dev nD) : WF7 m c (Proc.devRef .tc main_arg7) = m ((c : Thread nD τ).loc main_arg7) :=
  W7_main_arg7 (m := m) (dat0 := dat0) (dat1 := dat1) (dat2 := dat2) (hA1 := fun V c w => A_eq1 V c w) c

/-! ## The run, the frame and the kernel side of the value claim -/

/-- THE RUN at the instance: every weakly fair execution of @main on the TensorCores terminates, nothing faulting, and
    every final state has every unscoped buffer at the last boundary's contents. -/
theorem fr_run : θ_run defs (onTc (τ := τ) (main (F := F))) ⟨m, fun _ => 0, ρ⟩ (fun r => ∀ c : Dev nD,
      ∀ b ∈ Pipeline.ucRefs τ sig, r.2.mem ((c : Thread nD τ).1, b) = WF7 m c b) :=
  run (m := m) (ρ := ρ) (dat0 := dat0) (hA0 := fun V c w => A_eq0 V c w) (hq0 := fun _ _ _ => rfl) (ho0 := fun _ _ _ => rfl) (hr0 := fun V c => recorded0 V c)
    (hbody0 := fun V c => body_obligation0 V c) (hin0 := fun V c => hin0 V c) (hout0 := fun V c => hout0 V c)
    (dat1 := dat1) (hA1 := fun V c w => A_eq1 V c w) (hq1 := fun _ _ _ => rfl) (ho1 := fun _ _ _ => rfl) (hr1 := fun V c => recorded1 V c)
    (hbody1 := fun V c => body_obligation1 V c) (hin1 := fun _ _ => .rfl) (hout1 := fun _ _ => .rfl)
    (dat2 := dat2) (hA2 := fun V c w => A_eq2 V c w) (hq2 := fun _ _ _ => rfl) (ho2 := fun _ _ _ => rfl) (hr2 := fun V c => recorded2 V c)
    (hbody2 := fun V c => body_obligation2 V c) (hin2 := fun V c => hin2 V c) (hout2 := fun V c => hout2 V c)

/-- THE FRAME: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (fr_arg0 m c),
     (h c _ (mem_uc main_arg1 (by decide))).trans (fr_arg1 m c),
     (h c _ (mem_uc main_arg2 (by decide))).trans (fr_arg2 m c),
     (h c _ (mem_uc main_arg3 (by decide))).trans (fr_arg3 m c),
     (h c _ (mem_uc main_arg4 (by decide))).trans (fr_arg4 m c),
     (h c _ (mem_uc main_arg5 (by decide))).trans (fr_arg5 m c),
     (h c _ (mem_uc main_arg6 (by decide))).trans (fr_arg6 m c),
     (h c _ (mem_uc main_arg7 (by decide))).trans (fr_arg7 m c)⟩) (fr_run m ρ)

/-- The kernel side of the value claim: @main runs, its result array ends at the last boundary's contents there, and its
    argument arrays end unchanged. -/
theorem run_val : θ_run defs (onTc (τ := τ) (main (F := F))) ⟨m, fun _ => 0, ρ⟩ (fun r => ∀ c : Dev nD,
      r.2.mem ((c.tc : Thread nD τ).loc main_v17) = WF7 m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v17 (by decide)),
     (h c _ (mem_uc main_arg0 (by decide))).trans (fr_arg0 m c),
     (h c _ (mem_uc main_arg1 (by decide))).trans (fr_arg1 m c),
     (h c _ (mem_uc main_arg2 (by decide))).trans (fr_arg2 m c),
     (h c _ (mem_uc main_arg3 (by decide))).trans (fr_arg3 m c),
     (h c _ (mem_uc main_arg4 (by decide))).trans (fr_arg4 m c),
     (h c _ (mem_uc main_arg5 (by decide))).trans (fr_arg5 m c),
     (h c _ (mem_uc main_arg6 (by decide))).trans (fr_arg6 m c),
     (h c _ (mem_uc main_arg7 (by decide))).trans (fr_arg7 m c)⟩) (fr_run m ρ)

end Frame

end Cert.Kernel.Hand

end
-- ==== Proof.KI.Run.lean ====
/- The run of @main from the launch to the return, as seven segments — the host stretches `hostOps0` … `hostOps3`
   and the three kernel regions between them — over the several-regions launch theorem, stated for ANY proof data of
   the three regions that meet the hypotheses below: each region's data at a parameter `V` (the TensorCore's buffer
   contents when the region is entered) read its arrays off `V`, hold every input whole, owe nothing, meet the body
   obligation, and their invariant at the first point follows from, and at the last point gives back, the class
   invariant (the scoped buffers no window stages, at some contents, and the generator register at some state). -/
import proofs.«122228_j43301860278716_2_alg».proof.Proof.Gen.KernelIdeal.Launch
import proofs.«122228_j43301860278716_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)
variable
  (dat0 : (V : (c : Dev nD) → (b : Ref sig .tc) → Buf (Elt F) ((c : Thread nD τ).loc b)) → (c : Dev nD) → Dat τ (Elt F) Unit ℕ (UR sig nD τ) ℕ cfg0 c)
  (hA0 : ∀ V c w, (dat0 V c).A w = V c (Pipeline.arrRef spec0 w))
  (hq0 : ∀ V c w, (dat0 V c).q w = fullShare)
  (ho0 : ∀ V c t, (dat0 V c).owed t = 0)
  (hr0 : ∀ V c, (dat0 V c).recorded 0 = Set.univ)
  (hbody0 : ∀ V c, BodyObligation (dat0 V c) (defs₀ (F := F)) Variants.none () Set.univ)
  (hin0 : ∀ V c, Pipeline.ΦA (U := UR sig nD τ) (Val := Elt F) spec0 c ⊢ (dat0 V c).Φ 0)
  (hout0 : ∀ V c, (dat0 V c).Φ (Fin.last cfg0.N) ⊢ Pipeline.ΦA (U := UR sig nD τ) (Val := Elt F) spec0 c)
variable
  (dat1 : (V : (c : Dev nD) → (b : Ref sig .tc) → Buf (Elt F) ((c : Thread nD τ).loc b)) → (c : Dev nD) → Dat τ (Elt F) Unit ℕ (UR sig nD τ) ℕ cfg1 c)
  (hA1 : ∀ V c w, (dat1 V c).A w = V c (Pipeline.arrRef spec1 w))
  (hq1 : ∀ V c w, (dat1 V c).q w = fullShare)
  (ho1 : ∀ V c t, (dat1 V c).owed t = 0)
  (hr1 : ∀ V c, (dat1 V c).recorded 0 = Set.univ)
  (hbody1 : ∀ V c, BodyObligation (dat1 V c) (defs₀ (F := F)) Variants.none () Set.univ)
  (hin1 : ∀ V c, Pipeline.ΦA (U := UR sig nD τ) (Val := Elt F) spec1 c ⊢ (dat1 V c).Φ 0)
  (hout1 : ∀ V c, (dat1 V c).Φ (Fin.last cfg1.N) ⊢ Pipeline.ΦA (U := UR sig nD τ) (Val := Elt F) spec1 c)
variable
  (dat2 : (V : (c : Dev nD) → (b : Ref sig .tc) → Buf (Elt F) ((c : Thread nD τ).loc b)) → (c : Dev nD) → Dat τ (Elt F) Unit ℕ (UR sig nD τ) ℕ cfg2 c)
  (hA2 : ∀ V c w, (dat2 V c).A w = V c (Pipeline.arrRef spec2 w))
  (hq2 : ∀ V c w, (dat2 V c).q w = fullShare)
  (ho2 : ∀ V c t, (dat2 V c).owed t = 0)
  (hr2 : ∀ V c, (dat2 V c).recorded 0 = Set.univ)
  (hbody2 : ∀ V c, BodyObligation (dat2 V c) (defs₀ (F := F)) Variants.none () Set.univ)
  (hin2 : ∀ V c, Pipeline.ΦA (U := UR sig nD τ) (Val := Elt F) spec2 c ⊢ (dat2 V c).Φ 0)
  (hout2 : ∀ V c, (dat2 V c).Φ (Fin.last cfg2.N) ⊢ Pipeline.ΦA (U := UR sig nD τ) (Val := Elt F) spec2 c)

/-! ## The buffer contents at each segment boundary: a fold through @main -/

/-- Core `c`'s buffers at launch. -/
abbrev W0 : Dev nD → Valuation τ sig (Elt F) := fun c b => m (c, b)
/-- After `hostOps0` (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c (Proc.devRef .tc b)

/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m dat0 c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m dat0 c (Proc.devRef .tc b)
/-- At region 0's exit each of its arrays holds what the pipeline leaves and every other buffer what it held at entry. -/
theorem run_hF0 (c : Dev nD) (w : Fin cfg0.W) : (dat0 (V1 m) c).arrAt w cfg0.N = V2 m dat0 c (Pipeline.arrRef spec0 w) :=
  (W2_arr m dat0 c w).symm
theorem run_hrest0 (c : Dev nD) : ∀ b, b ∉ Finset.univ.image (Pipeline.arrRef spec0) → V2 m dat0 c b = V1 m c b :=
  fun b hb => W2_of_ne m dat0 c b fun w e => hb (Finset.mem_image.mpr ⟨w, Finset.mem_univ _, e⟩)

/-- After `hostOps1` (region 1's entry). -/
abbrev W3 : Dev nD → Valuation τ sig (Elt F) := fun c => StableHlo.after hostOps1 (W2 m dat0 c)
/-- The same read at the TensorCore's references (what region 1's proof data take). -/
abbrev V3 : (c : Dev nD) → (b : Ref sig .tc) → Buf (Elt F) ((c : Thread nD τ).loc b) := fun c b => W3 m dat0 c (Proc.devRef .tc b)

/-- At region 1's exit: its arrays at what the pipeline leaves (the inputs as entered, each output's write-backs
    folded), every other buffer as entered. -/
def W4 (c : Dev nD) : Valuation τ sig (Elt F) :=
  Pipeline.withArrays spec1 c (W3 m dat0 c) fun w => (dat1 (V3 m dat0) c).arrAt w cfg1.N
theorem W4_arr (c : Dev nD) (w : Fin cfg1.W) :
    W4 m dat0 dat1 c (Proc.devRef .tc (Pipeline.arrRef spec1 w)) = (dat1 (V3 m dat0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m dat0 dat1 c (Proc.devRef .tc b) = W3 m dat0 c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m dat0 dat1 c (Proc.devRef .tc b)
/-- At region 1's exit each of its arrays holds what the pipeline leaves and every other buffer what it held at entry. -/
theorem run_hF1 (c : Dev nD) (w : Fin cfg1.W) : (dat1 (V3 m dat0) c).arrAt w cfg1.N = V4 m dat0 dat1 c (Pipeline.arrRef spec1 w) :=
  (W4_arr m dat0 dat1 c w).symm
theorem run_hrest1 (c : Dev nD) : ∀ b, b ∉ Finset.univ.image (Pipeline.arrRef spec1) → V4 m dat0 dat1 c b = V3 m dat0 c b :=
  fun b hb => W4_of_ne m dat0 dat1 c b fun w e => hb (Finset.mem_image.mpr ⟨w, Finset.mem_univ _, e⟩)

/-- After `hostOps2` (region 2's entry). -/
abbrev W5 : Dev nD → Valuation τ sig (Elt F) := fun c => StableHlo.after hostOps2 (W4 m dat0 dat1 c)
/-- The same read at the TensorCore's references (what region 2's proof data take). -/
abbrev V5 : (c : Dev nD) → (b : Ref sig .tc) → Buf (Elt F) ((c : Thread nD τ).loc b) := fun c b => W5 m dat0 dat1 c (Proc.devRef .tc b)

/-- At region 2's exit: its arrays at what the pipeline leaves (the inputs as entered, each output's write-backs
    folded), every other buffer as entered. -/
def W6 (c : Dev nD) : Valuation τ sig (Elt F) :=
  Pipeline.withArrays spec2 c (W5 m dat0 dat1 c) fun w => (dat2 (V5 m dat0 dat1) c).arrAt w cfg2.N
theorem W6_arr (c : Dev nD) (w : Fin cfg2.W) :
    W6 m dat0 dat1 dat2 c (Proc.devRef .tc (Pipeline.arrRef spec2 w)) = (dat2 (V5 m dat0 dat1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m dat0 dat1 dat2 c (Proc.devRef .tc b) = W5 m dat0 dat1 c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m dat0 dat1 dat2 c (Proc.devRef .tc b)
/-- At region 2's exit each of its arrays holds what the pipeline leaves and every other buffer what it held at entry. -/
theorem run_hF2 (c : Dev nD) (w : Fin cfg2.W) : (dat2 (V5 m dat0 dat1) c).arrAt w cfg2.N = V6 m dat0 dat1 dat2 c (Pipeline.arrRef spec2 w) :=
  (W6_arr m dat0 dat1 dat2 c w).symm
theorem run_hrest2 (c : Dev nD) : ∀ b, b ∉ Finset.univ.image (Pipeline.arrRef spec2) → V6 m dat0 dat1 dat2 c b = V5 m dat0 dat1 c b :=
  fun b hb => W6_of_ne m dat0 dat1 dat2 c b fun w e => hb (Finset.mem_image.mpr ⟨w, Finset.mem_univ _, e⟩)

/-- After `hostOps3` (the return). -/
abbrev W7 : Dev nD → Valuation τ sig (Elt F) := fun c => StableHlo.after hostOps3 (W6 m dat0 dat1 dat2 c)

/-! ## The arguments end as launched: no host operation and no region writes one (a region reads it through an
    input window or bypasses it), so the fold at an argument's buffer walks back to the launch memory -/

/-- A buffer no operation of a stretch writes holds after the stretch what it held before. -/
theorem run_W1_of (c : Dev nD) (r : Ref sig .tc) (h : r ∉ hostOps0_W) : W1 m c (Proc.devRef .tc r) = W0 m c (Proc.devRef .tc r) :=
  StableHlo.after_of_writes_sub hostOps0 _ hostOps0_writes h
theorem run_W3_of (c : Dev nD) (r : Ref sig .tc) (h : r ∉ hostOps1_W) : W3 m dat0 c (Proc.devRef .tc r) = W2 m dat0 c (Proc.devRef .tc r) :=
  StableHlo.after_of_writes_sub hostOps1 _ hostOps1_writes h
theorem run_W5_of (c : Dev nD) (r : Ref sig .tc) (h : r ∉ hostOps2_W) : W5 m dat0 dat1 c (Proc.devRef .tc r) = W4 m dat0 dat1 c (Proc.devRef .tc r) :=
  StableHlo.after_of_writes_sub hostOps2 _ hostOps2_writes h
theorem run_W7_of (c : Dev nD) (r : Ref sig .tc) (h : r ∉ hostOps3_W) : W7 m dat0 dat1 dat2 c (Proc.devRef .tc r) = W6 m dat0 dat1 dat2 c (Proc.devRef .tc r) :=
  StableHlo.after_of_writes_sub hostOps3 _ hostOps3_writes h

include hA1 in
/-- An input window's array leaves its region as it entered it. -/
theorem run_W4_in (c : Dev nD) (w : Fin cfg1.W) (hw : (cfg1.win w).isOut = false) :
    W4 m dat0 dat1 c (Proc.devRef .tc (Pipeline.arrRef spec1 w)) = W3 m dat0 c (Proc.devRef .tc (Pipeline.arrRef spec1 w)) :=
  (W4_arr m dat0 dat1 c w).trans (((dat1 (V3 m dat0) c).arrAt_in w hw _).trans (hA1 (V3 m dat0) c w))
include hA2 in
theorem run_W6_in (c : Dev nD) (w : Fin cfg2.W) (hw : (cfg2.win w).isOut = false) :
    W6 m dat0 dat1 dat2 c (Proc.devRef .tc (Pipeline.arrRef spec2 w)) = W5 m dat0 dat1 c (Proc.devRef .tc (Pipeline.arrRef spec2 w)) :=
  (W6_arr m dat0 dat1 dat2 c w).trans (((dat2 (V5 m dat0 dat1) c).arrAt_in w hw _).trans (hA2 (V5 m dat0 dat1) c w))

/-- `main_arg0` reaches the end as launched. -/
theorem W7_main_arg0 (c : Dev nD) : W7 m dat0 dat1 dat2 c (Proc.devRef .tc main_arg0) = m ((c : Thread nD τ).loc main_arg0) :=
  (run_W7_of m dat0 dat1 dat2 c main_arg0 (by decide)).trans <| (W6_of_ne m dat0 dat1 dat2 c main_arg0 (by decide)).trans <| (run_W5_of m dat0 dat1 c main_arg0 (by decide)).trans <|
    (W4_of_ne m dat0 dat1 c main_arg0 (by decide)).trans <| (run_W3_of m dat0 c main_arg0 (by decide)).trans <| (W2_of_ne m dat0 c main_arg0 (by decide)).trans <|
    (run_W1_of m c main_arg0 (by decide)).trans rfl

include hA1 in
/-- `main_arg1` reaches the end as launched. -/
theorem W7_main_arg1 (c : Dev nD) : W7 m dat0 dat1 dat2 c (Proc.devRef .tc main_arg1) = m ((c : Thread nD τ).loc main_arg1) :=
  (run_W7_of m dat0 dat1 dat2 c main_arg1 (by decide)).trans <| (W6_of_ne m dat0 dat1 dat2 c main_arg1 (by decide)).trans <| (run_W5_of m dat0 dat1 c main_arg1 (by decide)).trans <|
    (run_W4_in m dat0 dat1 hA1 c 3 rfl).trans <| (run_W3_of m dat0 c main_arg1 (by decide)).trans <| (W2_of_ne m dat0 c main_arg1 (by decide)).trans <|
    (run_W1_of m c main_arg1 (by decide)).trans rfl

/-- `main_arg2` reaches the end as launched. -/
theorem W7_main_arg2 (c : Dev nD) : W7 m dat0 dat1 dat2 c (Proc.devRef .tc main_arg2) = m ((c : Thread nD τ).loc main_arg2) :=
  (run_W7_of m dat0 dat1 dat2 c main_arg2 (by decide)).trans <| (W6_of_ne m dat0 dat1 dat2 c main_arg2 (by decide)).trans <| (run_W5_of m dat0 dat1 c main_arg2 (by decide)).trans <|
    (W4_of_ne m dat0 dat1 c main_arg2 (by decide)).trans <| (run_W3_of m dat0 c main_arg2 (by decide)).trans <| (W2_of_ne m dat0 c main_arg2 (by decide)).trans <|
    (run_W1_of m c main_arg2 (by decide)).trans rfl

/-- `main_arg3` reaches the end as launched. -/
theorem W7_main_arg3 (c : Dev nD) : W7 m dat0 dat1 dat2 c (Proc.devRef .tc main_arg3) = m ((c : Thread nD τ).loc main_arg3) :=
  (run_W7_of m dat0 dat1 dat2 c main_arg3 (by decide)).trans <| (W6_of_ne m dat0 dat1 dat2 c main_arg3 (by decide)).trans <| (run_W5_of m dat0 dat1 c main_arg3 (by decide)).trans <|
    (W4_of_ne m dat0 dat1 c main_arg3 (by decide)).trans <| (run_W3_of m dat0 c main_arg3 (by decide)).trans <| (W2_of_ne m dat0 c main_arg3 (by decide)).trans <|
    (run_W1_of m c main_arg3 (by decide)).trans rfl

/-- `main_arg4` reaches the end as launched. -/
theorem W7_main_arg4 (c : Dev nD) : W7 m dat0 dat1 dat2 c (Proc.devRef .tc main_arg4) = m ((c : Thread nD τ).loc main_arg4) :=
  (run_W7_of m dat0 dat1 dat2 c main_arg4 (by decide)).trans <| (W6_of_ne m dat0 dat1 dat2 c main_arg4 (by decide)).trans <| (run_W5_of m dat0 dat1 c main_arg4 (by decide)).trans <|
    (W4_of_ne m dat0 dat1 c main_arg4 (by decide)).trans <| (run_W3_of m dat0 c main_arg4 (by decide)).trans <| (W2_of_ne m dat0 c main_arg4 (by decide)).trans <|
    (run_W1_of m c main_arg4 (by decide)).trans rfl

include hA2 in
/-- `main_arg5` reaches the end as launched. -/
theorem W7_main_arg5 (c : Dev nD) : W7 m dat0 dat1 dat2 c (Proc.devRef .tc main_arg5) = m ((c : Thread nD τ).loc main_arg5) :=
  (run_W7_of m dat0 dat1 dat2 c main_arg5 (by decide)).trans <| (run_W6_in m dat0 dat1 dat2 hA2 c 1 rfl).trans <| (run_W5_of m dat0 dat1 c main_arg5 (by decide)).trans <|
    (W4_of_ne m dat0 dat1 c main_arg5 (by decide)).trans <| (run_W3_of m dat0 c main_arg5 (by decide)).trans <| (W2_of_ne m dat0 c main_arg5 (by decide)).trans <|
    (run_W1_of m c main_arg5 (by decide)).trans rfl

include hA1 in
/-- `main_arg6` reaches the end as launched. -/
theorem W7_main_arg6 (c : Dev nD) : W7 m dat0 dat1 dat2 c (Proc.devRef .tc main_arg6) = m ((c : Thread nD τ).loc main_arg6) :=
  (run_W7_of m dat0 dat1 dat2 c main_arg6 (by decide)).trans <| (W6_of_ne m dat0 dat1 dat2 c main_arg6 (by decide)).trans <| (run_W5_of m dat0 dat1 c main_arg6 (by decide)).trans <|
    (run_W4_in m dat0 dat1 hA1 c 4 rfl).trans <| (run_W3_of m dat0 c main_arg6 (by decide)).trans <| (W2_of_ne m dat0 c main_arg6 (by decide)).trans <|
    (run_W1_of m c main_arg6 (by decide)).trans rfl

include hA1 in
/-- `main_arg7` reaches the end as launched. -/
theorem W7_main_arg7 (c : Dev nD) : W7 m dat0 dat1 dat2 c (Proc.devRef .tc main_arg7) = m ((c : Thread nD τ).loc main_arg7) :=
  (run_W7_of m dat0 dat1 dat2 c main_arg7 (by decide)).trans <| (W6_of_ne m dat0 dat1 dat2 c main_arg7 (by decide)).trans <| (run_W5_of m dat0 dat1 c main_arg7 (by decide)).trans <|
    (run_W4_in m dat0 dat1 hA1 c 5 rfl).trans <| (run_W3_of m dat0 c main_arg7 (by decide)).trans <| (W2_of_ne m dat0 c main_arg7 (by decide)).trans <|
    (run_W1_of m c main_arg7 (by decide)).trans rfl

/-! ## The proof data family and the thread state -/

/-- Every pipeline's proof data, each at its region's entry contents — a literal `match`, so that the family at a
    numeral reduces to that region's data. -/
def run_pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m dat0) c
  | ⟨2, _⟩ => fun c => dat2 (V5 m dat0 dat1) c
abbrev run_𝒱 : Variants := Variants.none
/-- No core owes another anything: no level is assigned. -/
abbrev run_L : GSem nD τ sig → Finset Unit := fun _ => ∅
abbrev run_lv : GSem nD τ sig → Unit → ℕ := fun _ _ => 0
/-- What rides beside the buffers through every segment: the core's generator register at some state and its
    `owes`, at nothing. -/
abbrev run_R (c : Dev nD) : sProp 𝕄 := iprop((∃ r, prngReg c r) ∗ ∃ W, owes (c : Thread nD τ) (0 : CellTallies nD τ sig Unit) W)
/-- A host stretch as a segment: over the unscoped references from the contents `W`, `run_R` riding along (it ends
    with those references at `StableHlo.after ops (W c)`: the next boundary's contents by name). -/
abbrev run_hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run_𝒱 run_L run_lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W run_R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev run_Tₙ (c : Dev nD) : sProp 𝕄 := iprop(StableHlo.held (c : Thread nD τ) (Pipeline.ucRefs τ sig) (W7 m dat0 dat1 dat2 c) ∗ ∃ r, prngReg c r)

/-- The last host stretch ends at the last thread state beside the core owing nothing (the same resources, regrouped). -/
theorem run_last (c : Dev nD) :
    iprop(StableHlo.held (c : Thread nD τ) (Pipeline.ucRefs τ sig) (W7 m dat0 dat1 dat2 c) ∗ run_R (F := F) c)
      ⊢ iprop(run_Tₙ m dat0 dat1 dat2 c ∗ ∃ W, owes (c : Thread nD τ) (0 : CellTallies nD τ sig Unit) W) := by
  iintro ⟨Hh, Hp, HO⟩
  isplitl [Hh Hp]
  · isplitl [Hh]; · iexact Hh
    iexact Hp
  iexact HO

/-! ## What the regions' segments need of any proof data -/

/-- A core that owes nothing, whatever pairs its waits have recorded, owes what the data say at the first point:
    nothing, within a bound that is everything. -/
theorem run_owes_in {cfg : Cfg sig Λ₀} {c : Dev nD} (dat : Dat τ (Elt F) Unit ℕ (UR sig nD τ) ℕ cfg c)
    (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [ho, hr]
  iintro ⟨%W, HO⟩; iexists W; isplitr; · ipureintro; exact fun _ _ => Or.inl trivial
  iexact HO
/-- What the data say the core owes at a point where that is nothing is a core that owes nothing. -/
theorem run_owes_out {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO
/-- The class invariant from the generator register and the scoped buffers no window stages, a third resource dropped. -/
theorem run_ΦA_in {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp
/-- and back. -/
theorem run_ΦA_out {gr W : Nat} (win : Fin W → Pipeline.WinSpec sig gr) (c : Dev nD) :
    (Pipeline.ΦA win c : sProp 𝕄) ⊢ iprop((∃ r, prngReg c r) ∗ emp ∗ Pipeline.scopedRest win c) := by
  unfold Pipeline.ΦA
  iintro ⟨Hr, Hp⟩
  isplitl [Hp]; · iexact Hp
  isplitr; · iempintro
  iexact Hr

/-! ## The regions as segments -/

-- `iapply` of a library lemma stated over the pinned configuration unifies with the printed one only when unification
-- may unfold plain definitions in a metavariable's type
set_option backward.isDefEq.respectTransparency.types false in
/-- REGION 0 (custom_call 0) over the thread state: entered from every unscoped buffer at `W1`, left at `W2`.
    Its arrays split out of the unscoped buffers and put back at the exit contents; the generator register and the
    scoped buffers no window stages into the region's invariant (through the class invariant) and out; nothing
    owed; no semaphore of the kernel's own. -/
def run_reg0 : Pipeline.RegionSeg (pcfgs (F := F)) adm (run_pdats m dat0 dat1 dat2) () defs₀ run_𝒱 run_L run_lv 0 where
  win := launch0.win.to₀
  block_pos := launch0.block_pos
  stage_whole := launch0.stage_whole
  K := PEmpty
  osem k := k.elim
  ho := Pipeline.OwnSemFacts.none _
  hbody c := (hbody0 (V1 m) c).loose
  hwaits := Pipeline.hwaits_of_owed_zero _ _ _ _ run_L run_lv 0 fun c t => ho0 (V1 m) c t
  pre c := iprop(StableHlo.held (c : Thread nD τ) (Pipeline.ucRefs τ sig) (W1 m c) ∗ run_R c)
  post c := iprop(StableHlo.held (c : Thread nD τ) (Pipeline.ucRefs τ sig) (W2 m dat0 c) ∗ run_R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (run_pdats m dat0 dat1 dat2) launch0.win launch0.arr_whole c
      ((run_pdats m dat0 dat1 dat2 0 c).share_full fun w => hq0 (V1 m) c w) (V1 m c) fun w => hA0 (V1 m) c w
    rw [Pipeline.unscopedBufs_held] at hsplit
    have hO := run_owes_in (run_pdats m dat0 dat1 dat2 0 c) (ho0 (V1 m) c 0) (hr0 (V1 m) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply hO; iexact HO
    isplitl [Hp]; · iexact Hp
    iexact Hrest
  hin c := (run_ΦA_in spec0 c _).trans (hin0 (V1 m) c)
  hout c := by
    rw [Pipeline.ownSems0_none]
    exact (hout0 (V1 m) c).trans (run_ΦA_out spec0 c)
  hexit c := by
    have hjoin := Pipeline.unscopedBufs_of_arrays (p := 0) (pcfgs (F := F)) adm (Ix := Unit) (Name := ℕ) (U := UR sig nD τ) (Lvl := ℕ)
      launch0.win launch0.arr_whole c (run_pdats m dat0 dat1 dat2) ((run_pdats m dat0 dat1 dat2 0 c).share_full fun w => hq0 (V1 m) c w)
      (V1 m c) (V2 m dat0 c) ((run_pdats m dat0 dat1 dat2 0 c).arrAt · cfg0.N) (run_hF0 m dat0 c) (run_hrest0 m dat0 c)
    rw [Pipeline.unscopedBufs_held] at hjoin
    have hO := run_owes_out (run_pdats m dat0 dat1 dat2 0 c) (Fin.last _) (ho0 (V1 m) c _)
    iintro ⟨Ha, HO, HY, Hrest⟩
    imodintro
    isplitl [Ha Hrest]
    · iapply hjoin; isplitl [Ha] <;> iassumption
    isplitl [HY]; · iexact HY
    iapply hO; iexact HO

-- `iapply` of a library lemma stated over the pinned configuration unifies with the printed one only when unification
-- may unfold plain definitions in a metavariable's type
set_option backward.isDefEq.respectTransparency.types false in
/-- REGION 1 (custom_call 1) over the thread state: entered from every unscoped buffer at `W3`, left at `W4`.
    Its arrays split out of the unscoped buffers and put back at the exit contents; the generator register and the
    scoped buffers no window stages into the region's invariant (through the class invariant) and out; nothing
    owed; no semaphore of the kernel's own. -/
def run_reg1 : Pipeline.RegionSeg (pcfgs (F := F)) adm (run_pdats m dat0 dat1 dat2) () defs₀ run_𝒱 run_L run_lv 1 where
  win := launch1.win.to₀
  block_pos := launch1.block_pos
  stage_whole := launch1.stage_whole
  K := PEmpty
  osem k := k.elim
  ho := Pipeline.OwnSemFacts.none _
  hbody c := (hbody1 (V3 m dat0) c).loose
  hwaits := Pipeline.hwaits_of_owed_zero _ _ _ _ run_L run_lv 1 fun c t => ho1 (V3 m dat0) c t
  pre c := iprop(StableHlo.held (c : Thread nD τ) (Pipeline.ucRefs τ sig) (W3 m dat0 c) ∗ run_R c)
  post c := iprop(StableHlo.held (c : Thread nD τ) (Pipeline.ucRefs τ sig) (W4 m dat0 dat1 c) ∗ run_R c)
  X c := iprop(∃ r, prngReg c r)
  Y c := iprop(∃ r, prngReg c r)
  Z c := Pipeline.unscopedRest (Ix := Unit) (Name := ℕ) (U := UR sig nD τ) (Lvl := ℕ) spec1 c (V3 m dat0 c)
  hentry c := by
    rw [Pipeline.ownSems0_none]
    have hsplit := Pipeline.arrays_of_unscopedBufs (p := 1) (pcfgs (F := F)) adm (run_pdats m dat0 dat1 dat2) launch1.win launch1.arr_whole c
      ((run_pdats m dat0 dat1 dat2 1 c).share_full fun w => hq1 (V3 m dat0) c w) (V3 m dat0 c) fun w => hA1 (V3 m dat0) c w
    rw [Pipeline.unscopedBufs_held] at hsplit
    have hO := run_owes_in (run_pdats m dat0 dat1 dat2 1 c) (ho1 (V3 m dat0) c 0) (hr1 (V3 m dat0) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply hO; iexact HO
    isplitl [Hp]; · iexact Hp
    iexact Hrest
  hin c := (run_ΦA_in spec1 c _).trans (hin1 (V3 m dat0) c)
  hout c := by
    rw [Pipeline.ownSems0_none]
    exact (hout1 (V3 m dat0) c).trans (run_ΦA_out spec1 c)
  hexit c := by
    have hjoin := Pipeline.unscopedBufs_of_arrays (p := 1) (pcfgs (F := F)) adm (Ix := Unit) (Name := ℕ) (U := UR sig nD τ) (Lvl := ℕ)
      launch1.win launch1.arr_whole c (run_pdats m dat0 dat1 dat2) ((run_pdats m dat0 dat1 dat2 1 c).share_full fun w => hq1 (V3 m dat0) c w)
      (V3 m dat0 c) (V4 m dat0 dat1 c) ((run_pdats m dat0 dat1 dat2 1 c).arrAt · cfg1.N) (run_hF1 m dat0 dat1 c) (run_hrest1 m dat0 dat1 c)
    rw [Pipeline.unscopedBufs_held] at hjoin
    have hO := run_owes_out (run_pdats m dat0 dat1 dat2 1 c) (Fin.last _) (ho1 (V3 m dat0) c _)
    iintro ⟨Ha, HO, HY, Hrest⟩
    imodintro
    isplitl [Ha Hrest]
    · iapply hjoin; isplitl [Ha] <;> iassumption
    isplitl [HY]; · iexact HY
    iapply hO; iexact HO

-- `iapply` of a library lemma stated over the pinned configuration unifies with the printed one only when unification
-- may unfold plain definitions in a metavariable's type
set_option backward.isDefEq.respectTransparency.types false in
/-- REGION 2 (custom_call 2) over the thread state: entered from every unscoped buffer at `W5`, left at `W6`.
    Its arrays split out of the unscoped buffers and put back at the exit contents; the generator register and the
    scoped buffers no window stages into the region's invariant (through the class invariant) and out; nothing
    owed; no semaphore of the kernel's own. -/
def run_reg2 : Pipeline.RegionSeg (pcfgs (F := F)) adm (run_pdats m dat0 dat1 dat2) () defs₀ run_𝒱 run_L run_lv 2 where
  win := launch2.win.to₀
  block_pos := launch2.block_pos
  stage_whole := launch2.stage_whole
  K := PEmpty
  osem k := k.elim
  ho := Pipeline.OwnSemFacts.none _
  hbody c := (hbody2 (V5 m dat0 dat1) c).loose
  hwaits := Pipeline.hwaits_of_owed_zero _ _ _ _ run_L run_lv 2 fun c t => ho2 (V5 m dat0 dat1) c t
  pre c := iprop(StableHlo.held (c : Thread nD τ) (Pipeline.ucRefs τ sig) (W5 m dat0 dat1 c) ∗ run_R c)
  post c := iprop(StableHlo.held (c : Thread nD τ) (Pipeline.ucRefs τ sig) (W6 m dat0 dat1 dat2 c) ∗ run_R c)
  X c := iprop(∃ r, prngReg c r)
  Y c := iprop(∃ r, prngReg c r)
  Z c := Pipeline.unscopedRest (Ix := Unit) (Name := ℕ) (U := UR sig nD τ) (Lvl := ℕ) spec2 c (V5 m dat0 dat1 c)
  hentry c := by
    rw [Pipeline.ownSems0_none]
    have hsplit := Pipeline.arrays_of_unscopedBufs (p := 2) (pcfgs (F := F)) adm (run_pdats m dat0 dat1 dat2) launch2.win launch2.arr_whole c
      ((run_pdats m dat0 dat1 dat2 2 c).share_full fun w => hq2 (V5 m dat0 dat1) c w) (V5 m dat0 dat1 c) fun w => hA2 (V5 m dat0 dat1) c w
    rw [Pipeline.unscopedBufs_held] at hsplit
    have hO := run_owes_in (run_pdats m dat0 dat1 dat2 2 c) (ho2 (V5 m dat0 dat1) c 0) (hr2 (V5 m dat0 dat1) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply hO; iexact HO
    isplitl [Hp]; · iexact Hp
    iexact Hrest
  hin c := (run_ΦA_in spec2 c _).trans (hin2 (V5 m dat0 dat1) c)
  hout c := by
    rw [Pipeline.ownSems0_none]
    exact (hout2 (V5 m dat0 dat1) c).trans (run_ΦA_out spec2 c)
  hexit c := by
    have hjoin := Pipeline.unscopedBufs_of_arrays (p := 2) (pcfgs (F := F)) adm (Ix := Unit) (Name := ℕ) (U := UR sig nD τ) (Lvl := ℕ)
      launch2.win launch2.arr_whole c (run_pdats m dat0 dat1 dat2) ((run_pdats m dat0 dat1 dat2 2 c).share_full fun w => hq2 (V5 m dat0 dat1) c w)
      (V5 m dat0 dat1 c) (V6 m dat0 dat1 dat2 c) ((run_pdats m dat0 dat1 dat2 2 c).arrAt · cfg2.N) (run_hF2 m dat0 dat1 dat2 c) (run_hrest2 m dat0 dat1 dat2 c)
    rw [Pipeline.unscopedBufs_held] at hjoin
    have hO := run_owes_out (run_pdats m dat0 dat1 dat2 2 c) (Fin.last _) (ho2 (V5 m dat0 dat1) c _)
    iintro ⟨Ha, HO, HY, Hrest⟩
    imodintro
    isplitl [Ha Hrest]
    · iapply hjoin; isplitl [Ha] <;> iassumption
    isplitl [HY]; · iexact HY
    iapply hO; iexact HO

/-! ## @main as segments, and the launch -/

/-- @main's 7 segments in order: a host segment per stretch from its boundary's contents, a region per pallas_call. -/
abbrev run_segs : List (Pipeline.Seg (pcfgs (F := F)) adm (run_pdats m dat0 dat1 dat2) () defs₀ run_𝒱 run_L run_lv) :=
  [ .host (run_hseg hostOps0 hostOps0_sub hostOps0_fresh (W0 m)),
    .region (run_reg0 m dat0 hA0 hq0 ho0 hr0 hbody0 hin0 hout0 dat1 dat2),
    .host (run_hseg hostOps1 hostOps1_sub hostOps1_fresh (W2 m dat0)),
    .region (run_reg1 m dat0 dat1 hA1 hq1 ho1 hr1 hbody1 hin1 hout1 dat2),
    .host (run_hseg hostOps2 hostOps2_sub hostOps2_fresh (W4 m dat0 dat1)),
    .region (run_reg2 m dat0 dat1 dat2 hA2 hq2 ho2 hr2 hbody2 hin2 hout2),
    .host (run_hseg hostOps3 hostOps3_sub hostOps3_fresh (W6 m dat0 dat1 dat2)) ]
/-- @main IS the run of the segments. -/
theorem run_main_run (c : Dev nD) : main (F := F) c = Pipeline.Seg.run (run_segs m dat0 hA0 hq0 ho0 hr0 hbody0 hin0 hout0 dat1 hA1 hq1 ho1 hr1 hbody1 hin1 hout1 dat2 hA2 hq2 ho2 hr2 hbody2 hin2 hout2) :=
  main_segs adm (run_pdats m dat0 dat1 dat2) () run_𝒱 run_L run_lv
    (run_hseg hostOps0 hostOps0_sub hostOps0_fresh (W0 m)) (run_hseg hostOps1 hostOps1_sub hostOps1_fresh (W2 m dat0))
    (run_hseg hostOps2 hostOps2_sub hostOps2_fresh (W4 m dat0 dat1)) (run_hseg hostOps3 hostOps3_sub hostOps3_fresh (W6 m dat0 dat1 dat2))
    (run_reg0 m dat0 hA0 hq0 ho0 hr0 hbody0 hin0 hout0 dat1 dat2) (run_reg1 m dat0 dat1 hA1 hq1 ho1 hr1 hbody1 hin1 hout1 dat2) (run_reg2 m dat0 dat1 dat2 hA2 hq2 ho2 hr2 hbody2 hin2 hout2) rfl rfl rfl rfl c

-- the launch theorem's implicit arguments are found by unifying its conclusion with this one, which takes unfolding
-- plain definitions in a metavariable's type
include hA0 hq0 ho0 hr0 hbody0 hin0 hout0 hA1 hq1 ho1 hr1 hbody1 hin1 hout1 hA2 hq2 ho2 hr2 hbody2 hin2 hout2 in
set_option backward.isDefEq.respectTransparency.types false in
/-- THE RUN: at the compiled mesh, from any memory with zero counters, every weakly fair execution of @main on the
    TensorCores terminates, nothing faulting, and every final state has every unscoped buffer at the last boundary's
    contents `W7`: the several-regions launch over the segments, the last thread state read against the final state. -/
theorem run : θ_run defs (onTc (τ := τ) (main (F := F))) ⟨m, fun _ => 0, ρ⟩ (fun r => ∀ c : Dev nD,
      ∀ b ∈ Pipeline.ucRefs τ sig, r.2.mem ((c : Thread nD τ).1, b) = W7 m dat0 dat1 dat2 c b) :=
  Pipeline.θ_run_regions_kit (pcfgs (F := F)) adm (run_pdats m dat0 dat1 dat2) () cellOf_inj emb₁ defs₀ run_𝒱 run_L run_lv m ρ main (run_segs m dat0 hA0 hq0 ho0 hr0 hbody0 hin0 hout0 dat1 hA1 hq1 ho1 hr1 hbody1 hin1 hout1 dat2 hA2 hq2 ho2 hr2 hbody2 hin2 hout2)
    (fun c Q => by rw [run_main_run m dat0 hA0 hq0 ho0 hr0 hbody0 hin0 hout0 dat1 hA1 hq1 ho1 hr1 hbody1 hin1 hout1 dat2 hA2 hq2 ho2 hr2 hbody2 hin2 hout2 c])
    (by simp only [run_segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ run_R c)) (Tₙ := run_Tₙ m dat0 dat1 dat2)
    (hch := ⟨fun _ => .rfl, fun _ => .rfl, fun _ => .rfl, fun _ => .rfl, fun _ => .rfl, fun _ => .rfl, fun _ => .rfl, fun c => run_last m dat0 dat1 dat2 c⟩)
    (hinit := by
      refine Pipeline.initEach run_L run_lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m dat0 dat1 dat2 c b)
    (hfin := fun c s' => by
      iintro ⟨⟨Hh, -⟩, HSI⟩
      unfold StableHlo.held
      imodintro
      iapply (pointsTo_read_all (Pipeline.ucRefs τ sig) (fun b => (((c : Thread nD τ)).1, b)) (W7 m dat0 dat1 dat2 c) s')
      isplitl [Hh] <;> iassumption)
    (hQ := fun s h => h)

/-- info: 'Cert.KernelIdeal.Hand.run' depends on axioms: [propext, Classical.choice, Quot.sound] -/
#guard_msgs in #print axioms run

end Run

end Cert.KernelIdeal.Hand

end
-- ==== Proof.KI.Body0.lean ====
import proofs.«122228_j43301860278716_2_alg».proof.Proof.Gen.KernelIdeal.Launch
import proofs.«122228_j43301860278716_2_alg».proof.Proof.Gen.KernelIdeal.Skeleton
import proofs.«122228_j43301860278716_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

The kernel loads and stores its buffers whole: through the unit-stride rectangle at zero offsets of the buffer's own
sizes. A load through it reads the contents; a store through it, newest in the list of writes, leaves its payload. -/

/-- The zero offsets of a rank-2 access, as a constant function. -/
theorem b0_hz : (![0, 0] : Fin 2 → ℕ) = fun _ => 0 := funext fun a => by fin_cases a <;> rfl

/-- A store through the whole-shape rectangle at zero offsets, newest in the list, leaves its payload whatever the
    earlier stores were: every index sits at its own position in that rectangle. -/
theorem b0_read_writes_whole {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : (Rect.unit off S.size inb).shape.Idx → Val e)
    (L : List (View.Piece Val S e)) :
    v.read Val (v.writes Val f ((⟨Rect.unit off S.size inb, w⟩ : View.Piece Val S e) :: L)) = w := by
  funext y
  exact View.read_writes_cons_unit_of_mem v f inb w L y y h (fun a => by subst h; exact (Nat.zero_add _).symm)

/-! # Region 0: the K-blocked matmul kernel `cc0__matmul_wT_kernel`

Its grid's last axis is the reduction axis `k`, running fastest. At `k = 0` the body stores zeros into its scratch
accumulator; at every point it adds the product of the two input blocks to the accumulator; at `k = 3` it copies the
accumulator into the output block. So the accumulator is carried from point to point, and the output block is
untouched except at the points with `k = 3`, where alone it is written back. -/

/-! ## The body's branch conditions, in closed form over the grid -/

/-- The condition of the body's first `scf.if` (`k = 0`), from the grid coordinates. -/
abbrev b0_cond0_0 (i : grid0.Coords) : Prop := (Scalar.cmpi .ne (Scalar.extui (Scalar.cmpi .eq (BitVec.ofNat 32 (i 2).val) 0#32)) 0#32) = 1#1
/-- It holds at the points ≡ 0 (mod 4). -/
theorem b0_hcond0_0 : ∀ t : Fin cfg0.N, b0_cond0_0 (grid0.coords t) ↔ t.val % 4 = 0 :=
  (by decide +kernel : ∀ t : Fin grid0.N, b0_cond0_0 (grid0.coords t) ↔ t.val % 4 = 0)
/-- The condition of the body's second `scf.if` (`k = 3`). -/
abbrev b0_cond0_1 (i : grid0.Coords) : Prop := k0_cond2 i = 1#1
/-- It holds at the points ≡ 3 (mod 4). -/
theorem b0_hcond0_1 : ∀ t : Fin cfg0.N, b0_cond0_1 (grid0.coords t) ↔ t.val % 4 = 3 :=
  (by decide +kernel : ∀ t : Fin grid0.N, b0_cond0_1 (grid0.coords t) ↔ t.val % 4 = 3)

/-! ## Where the windows are idle -/

/-- The input windows are never idle. -/
theorem b0_liveAt0_0 : ∀ t : Fin cfg0.N, cfg0.idle 0 (grid0.coords t) = false := by decide +kernel
theorem b0_liveAt0_1 : ∀ t : Fin cfg0.N, cfg0.idle 1 (grid0.coords t) = false := by decide +kernel
/-- Where `k ≠ 3` the output window is idle: the body stores nothing into it, -/
theorem b0_idleAt0_2 : ∀ t : Fin cfg0.N, ¬b0_cond0_1 (grid0.coords t) → cfg0.idle 2 (grid0.coords t) = true := by decide +kernel
/-- and the pipeline does not write its block back. -/
theorem b0_noFlush0_2 : ∀ t : Fin cfg0.N, ¬b0_cond0_1 (grid0.coords t) → (cfg0.win 2).flush t = false := by decide +kernel
/-- Where `k = 3` the output window is live. -/
theorem b0_liveAt0_2 : ∀ t : Fin cfg0.N, b0_cond0_1 (grid0.coords t) → cfg0.idle 2 (grid0.coords t) = false := by decide +kernel

/-! ## The kernel body on whole memrefs, case by case

Case A (`k = 0`): the accumulator, whatever it held, is zeroed and then holds the first product added to zero; the
output buffer is handed back as found. Case B (`k = 1, 2`): the accumulator holds what it held plus the product; the
output buffer is handed back as found. Case C (`k = 3`): as B, and the output buffer, whatever it held, ends at the
accumulator's final contents. Each load reads a whole buffer and each store covers one, so what a buffer holds after
the body is the last payload stored into it. -/

set_option maxHeartbeats 1000000 in
/-- Case A. -/
theorem b0_run0_A (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : b0_cond0_0 i) (hc1 : ¬b0_cond0_1 i)
    (x0 : Vec F S512x1024 .f32) (x1 : Vec F S1024x1024 .f32) (xi2 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare xi2 ∗ owns (c : Thread nD τ) arg6 fullShare (k0_pay2 x0 x1 (k0_pay1 (F := F)))) -∗ K ⟨⟩))
      ⊢ wp frame (wpE (defs₀ (F := F)) Variants.none c none) E (cc0__matmul_wT_kernel i arg3 harg3 arg4 harg4 arg5 harg5 arg6 harg6) K := by
  simp only [cc0__matmul_wT_kernel_eq_skeleton]; unfold cc0__matmul_wT_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  unfold b0_run0_A.sl.v9 b0_run0_A.sl.HS0_1
  rw [b0_read_writes_whole _ _ b0_hz, View.readCov_unit_zero _ b0_hz, View.readAt_eq_ld, View.readAt_eq_ld, hf0, hf1,
    View.ld_unit_zero (S := S512x1024) b0_hz, View.ld_unit_zero (S := S1024x1024) b0_hz]

set_option maxHeartbeats 1000000 in
/-- Case B. -/
theorem b0_run0_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : ¬b0_cond0_0 i) (hc1 : ¬b0_cond0_1 i)
    (x0 : Vec F S512x1024 .f32) (x1 : Vec F S1024x1024 .f32) (xi2 : Vec F S512x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare xi2 ∗ owns (c : Thread nD τ) arg6 fullShare (k0_pay2 x0 x1 xs)) -∗ K ⟨⟩))
      ⊢ wp frame (wpE (defs₀ (F := F)) Variants.none c none) E (cc0__matmul_wT_kernel i arg3 harg3 arg4 harg4 arg5 harg5 arg6 harg6) K := by
  simp only [cc0__matmul_wT_kernel_eq_skeleton]; unfold cc0__matmul_wT_kernel_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2; obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  rw [b0_read_writes_whole _ _ b0_hz, View.readAt_eq_ld, View.readAt_eq_ld, View.readAt_eq_ld, hf0, hf1, hfs0,
    View.ld_unit_zero (S := S512x1024) b0_hz, View.ld_unit_zero (S := S1024x1024) b0_hz, View.ld_unit_zero (S := S512x1024) b0_hz]

set_option maxHeartbeats 1000000 in
/-- Case C. -/
theorem b0_run0_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : ¬b0_cond0_0 i) (hc1 : b0_cond0_1 i)
    (x0 : Vec F S512x1024 .f32) (x1 : Vec F S1024x1024 .f32) (xs : Vec F S512x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k0_pay2 x0 x1 xs) ∗ owns (c : Thread nD τ) arg6 fullShare (k0_pay2 x0 x1 xs)) -∗ K ⟨⟩))
      ⊢ wp frame (wpE (defs₀ (F := F)) Variants.none c none) E (cc0__matmul_wT_kernel i arg3 harg3 arg4 harg4 arg5 harg5 arg6 harg6) K := by
  simp only [cc0__matmul_wT_kernel_eq_skeleton]; unfold cc0__matmul_wT_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [b0_read_writes_whole _ _ b0_hz]
    unfold b0_run0_C.sl.v18 b0_run0_C.sl.HS0_1
    rw [View.readCov_unit_zero _ b0_hz, View.readAt_eq_ld, View.readAt_eq_ld, View.readAt_eq_ld, hf0, hf1, hfs0,
      View.ld_unit_zero (S := S512x1024) b0_hz, View.ld_unit_zero (S := S1024x1024) b0_hz, View.ld_unit_zero (S := S512x1024) b0_hz]
  iexists _; isplitr
  swap; · iexact HS0
  ipureintro
  unfold b0_run0_C.sl.HS0_1
  rw [b0_read_writes_whole _ _ b0_hz, View.readAt_eq_ld, View.readAt_eq_ld, View.readAt_eq_ld, hf0, hf1, hfs0,
    View.ld_unit_zero (S := S512x1024) b0_hz, View.ld_unit_zero (S := S1024x1024) b0_hz, View.ld_unit_zero (S := S512x1024) b0_hz]

section Region0
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem b0_before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem b0_before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- What the scratch accumulator holds after point `n`: at a point with `k = 0` the product of the point's input
    blocks added to zero, elsewhere added to what the point before left. -/
def acc0 (c : Dev nD) : (n : ℕ) → n < cfg0.N → Vec F S512x1024 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a point with `k = 0` the accumulator restarts from zero. -/
theorem acc0_first (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => exact rfl
  | succ n => exact (if_pos h).trans rfl

/-- At any other point it continues from what the point before left. -/
theorem acc0_next (c : Dev nD) (t : Fin cfg0.N) (h : t.val % 4 ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch accumulator, a whole scoped buffer of the kernel's own. -/
abbrev b0_scM0 : Memref sig .tc .vmem S512x1024 .f32 := Memref.whole cc0_scratch0

/-- The core's other scoped buffers that are no staging buffer of this call (the other calls' staging buffers and
    scratch), at some contents each: carried unopened. -/
abbrev b0_rest0 (c : Dev nD) : sProp 𝕄 :=
  Pipeline.scopedRestBut (Ix := Unit) (Name := ℕ) (U := UR sig nD τ) (Lvl := ℕ) (Val := Elt F) spec0 c [cc0_scratch0]

/-- The class's invariant with the accumulator split off the scoped rest and owned as a memref at some contents. -/
theorem b0_PhiA0_eq (c : Dev nD) :
    (Pipeline.ΦA spec0 c : sProp 𝕄)
      = iprop(((∃ d, owns (c : Thread nD τ) b0_scM0 fullShare d) ∗ b0_rest0 c) ∗ (∃ r, prngReg c r)) := by
  unfold Pipeline.ΦA
  rw [Pipeline.scopedRest_split_of_list spec0 c [cc0_scratch0] (by decide) (by decide)]
  simp only [bigSepL_singleton, b0_scM0, owns_whole]; try rfl

/-- The invariant before position `n`: before the first point the class's (every scoped buffer that is no staging
    buffer at anything, the generator register at some state); afterwards the same with the accumulator at what the
    point before left in it. -/
def b0_PhiS0 (c : Dev nD) : (n : ℕ) → n ≤ cfg0.N → sProp 𝕄
  | 0, _ => Pipeline.ΦA spec0 c
  | n + 1, hn => iprop((owns (c : Thread nD τ) b0_scM0 fullShare (acc0 V c n hn) ∗ b0_rest0 c) ∗ (∃ r, prngReg c r))

theorem b0_PhiS0_zero (c : Dev nD) (n : ℕ) (h : n ≤ cfg0.N) (hz : n = 0) : b0_PhiS0 V c n h = Pipeline.ΦA spec0 c := by
  subst hz; rfl

theorem b0_PhiS0_succ (c : Dev nD) (n : ℕ) (hn : n < cfg0.N) :
    b0_PhiS0 V c (n + 1) hn = iprop((owns (c : Thread nD τ) b0_scM0 fullShare (acc0 V c n hn) ∗ b0_rest0 c) ∗ (∃ r, prngReg c r)) := rfl

theorem b0_PhiS0_pos (c : Dev nD) (n : ℕ) (h : n ≤ cfg0.N) (hz : n ≠ 0) :
    b0_PhiS0 V c n h = iprop((owns (c : Thread nD τ) b0_scM0 fullShare (acc0 V c (n - 1) (by omega)) ∗ b0_rest0 c) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at the accumulator's contents there (read only at the points
    with `k = 3`: elsewhere the window is idle); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := b0_PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The body takes on no new units: the bound on the recorded pairs stays everything. -/
theorem recorded0 (c : Dev nD) : (dat0 V c).recorded 0 = Set.univ := by
  dsimp only [dat0]

/-- What the body leaves, window by window. -/
theorem b0_after0_0 (c : Dev nD) (t : Fin cfg0.N) : (dat0 V c).after 0 t = iblk0 V c 0 t := by dsimp only [dat0]
theorem b0_after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each input's current staging buffer holds its block at every point. -/
theorem b0_before0_0 (c : Dev nD) (t : Fin cfg0.N) (d) : (dat0 V c).before 0 t d = iblk0 V c 0 t :=
  b0_before0_0_of V (dat0 V c) (A_eq0 V c 0) (b0_after0_0 V c) t d
theorem b0_before0_1 (c : Dev nD) (t : Fin cfg0.N) (d) : (dat0 V c).before 1 t d = iblk0 V c 1 t :=
  b0_before0_1_of V (dat0 V c) (A_eq0 V c 1) (b0_after0_1 V c) t d

/-- The invariant at a point's start, restated at the point's position. -/
theorem b0_PhiS0_castSucc (c : Dev nD) (t : Fin cfg0.N) :
    (dat0 V c).Φ t.castSucc = b0_PhiS0 V c t.val (Nat.le_of_lt t.isLt) := by
  dsimp only [dat0]; simp only [Fin.coe_castSucc]

/-! ## The body obligation, at a generic point -/

/-- What the body is called with at point `t`, the windows one by one, -/
def b0_bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def b0_bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's position mod 4 says which case it is
    in. The invariant hands the body the accumulator at what the point before left (at anything before the first point
    and at a point with `k = 0`, where the body zeroes it first) and takes it back at this point's contents; the other
    scoped buffers, the generator register and what the core owes pass through unread. Where `k ≠ 3` the output's
    buffer is handed back as found; where `k = 3` it ends at the accumulator's contents. -/
theorem b0_sound_body0 (c : Dev nD) (t : Fin cfg0.N) :
    b0_bodyPre0 V c t ⊢ wp frame (wpE (defs₀ (F := F)) Variants.none c none) Set.univ (bodyAt0 t) (fun _ => b0_bodyPost0 V c t) := by
  unfold b0_bodyPre0 b0_bodyPost0 bodyAt0
  simp only [b0_before0_0, b0_before0_1]
  rw [show (dat0 V c).owesAt () t.succ = (dat0 V c).owesAt () t.castSucc from rfl]
  rw [show (dat0 V c).Φ t.succ = b0_PhiS0 V c (t.val + 1) t.isLt from rfl, b0_PhiS0_succ]
  have hN : t.val < 96 := lt_of_lt_of_eq t.isLt (show cfg0.N = 96 from N_0)
  rw [show (dat0 V c).leavesExact 0 t = owns (c : Thread nD τ) (st0_0 t) fullShare ((dat0 V c).after 0 t) from by
    unfold Dat.leavesExact; rw [b0_liveAt0_0 t], b0_after0_0]
  rw [show (dat0 V c).leavesExact 1 t = owns (c : Thread nD τ) (st0_1 t) fullShare ((dat0 V c).after 1 t) from by
    unfold Dat.leavesExact; rw [b0_liveAt0_1 t], b0_after0_1]
  by_cases h1 : t.val % 4 = 3
  · have h0 : ¬t.val % 4 = 0 := by omega
    have hz : t.val ≠ 0 := by omega
    rw [show (dat0 V c).leavesExact 2 t = owns (c : Thread nD τ) (st0_2 t) fullShare ((dat0 V c).after 2 t) from by
      unfold Dat.leavesExact; rw [b0_liveAt0_2 t ((b0_hcond0_1 t).mpr h1)], after0_2]
    rw [acc0_next V c t h0]
    rw [b0_PhiS0_castSucc V c t, b0_PhiS0_pos V c _ _ hz]
    iintro ⟨⟨⟨HS0, HR⟩, Hg⟩, Ho, ⟨%d0, H0⟩, ⟨%d1, H1⟩, ⟨%d2, H2⟩⟩
    iapply (b0_run0_C c (grid0.coords t) _ _ _ _ _ _ _ _ (fun h => h0 ((b0_hcond0_0 t).mp h)) ((b0_hcond0_1 t).mpr h1) (iblk0 V c 0 t) (iblk0 V c 1 t) _ Set.univ _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexact H2
  · rw [Dat.leavesExact_idle (dat0 V c) 2 t (b0_idleAt0_2 t (fun h => h1 ((b0_hcond0_1 t).mp h))) (b0_noFlush0_2 t (fun h => h1 ((b0_hcond0_1 t).mp h)))]
    by_cases h0 : t.val % 4 = 0
    · rw [acc0_first V c t h0]
      by_cases hz : t.val = 0
      · rw [b0_PhiS0_castSucc V c t, b0_PhiS0_zero V c _ _ hz, b0_PhiA0_eq]
        iintro ⟨⟨⟨HS0, HR⟩, Hg⟩, Ho, ⟨%d0, H0⟩, ⟨%d1, H1⟩, ⟨%d2, H2⟩⟩
        iapply (b0_run0_A c (grid0.coords t) _ _ _ _ _ _ _ _ ((b0_hcond0_0 t).mpr h0) (fun h => h1 ((b0_hcond0_1 t).mp h)) (iblk0 V c 0 t) (iblk0 V c 1 t) _ Set.univ _)
        isplitl [H0]; · iexact H0
        isplitl [H1]; · iexact H1
        isplitl [H2]; · iexact H2
        isplitl [HS0]; · iexact HS0
        iintro ⟨H0, H1, H2, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        iexists _; iexact H2
      · rw [b0_PhiS0_castSucc V c t, b0_PhiS0_pos V c _ _ hz]
        iintro ⟨⟨⟨HS0, HR⟩, Hg⟩, Ho, ⟨%d0, H0⟩, ⟨%d1, H1⟩, ⟨%d2, H2⟩⟩
        iapply (b0_run0_A c (grid0.coords t) _ _ _ _ _ _ _ _ ((b0_hcond0_0 t).mpr h0) (fun h => h1 ((b0_hcond0_1 t).mp h)) (iblk0 V c 0 t) (iblk0 V c 1 t) _ Set.univ _)
        isplitl [H0]; · iexact H0
        isplitl [H1]; · iexact H1
        isplitl [H2]; · iexact H2
        isplitl [HS0]; · iexists _; iexact HS0
        iintro ⟨H0, H1, H2, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        iexists _; iexact H2
    · have hz : t.val ≠ 0 := by omega
      rw [acc0_next V c t h0]
      rw [b0_PhiS0_castSucc V c t, b0_PhiS0_pos V c _ _ hz]
      iintro ⟨⟨⟨HS0, HR⟩, Hg⟩, Ho, ⟨%d0, H0⟩, ⟨%d1, H1⟩, ⟨%d2, H2⟩⟩
      iapply (b0_run0_B c (grid0.coords t) _ _ _ _ _ _ _ _ (fun h => h0 ((b0_hcond0_0 t).mp h)) (fun h => h1 ((b0_hcond0_1 t).mp h)) (iblk0 V c 0 t) (iblk0 V c 1 t) _ _ Set.univ _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact b0_sound_body0 V c t

/-- What the launch hands the region is the invariant before the first point. -/
theorem hin0 (c : Dev nD) : Pipeline.ΦA spec0 c ⊢ (dat0 V c).Φ 0 := by
  rw [show (dat0 V c).Φ 0 = b0_PhiS0 V c 0 (Nat.zero_le _) from rfl, b0_PhiS0_zero V c 0 _ rfl]
  try exact Idealize.SL.BI.Entails.refl _

/-- After any point but the first the invariant gives the class's back: the accumulator's contents are forgotten. -/
theorem b0_Phi0_out (c : Dev nD) (t : Fin (cfg0.N + 1)) (ht : t.val ≠ 0) : (dat0 V c).Φ t ⊢ Pipeline.ΦA spec0 c := by
  rw [show (dat0 V c).Φ t = b0_PhiS0 V c t.val (Nat.le_of_lt_succ t.isLt) from rfl, b0_PhiS0_pos V c _ _ ht, b0_PhiA0_eq]
  iintro ⟨⟨HS0, HR⟩, Hg⟩
  isplitl [HS0 HR]
  · isplitl [HS0]; · iexists _; iexact HS0
    iexact HR
  iexact Hg

/-- The same after the last point. -/
theorem hout0 (c : Dev nD) : (dat0 V c).Φ (Fin.last cfg0.N) ⊢ Pipeline.ΦA spec0 c :=
  b0_Phi0_out V c _ (by rw [Fin.val_last]; have : cfg0.N = 96 := N_0; omega)

end Region0

end Cert.KernelIdeal.Hand

end
-- ==== Proof.KI.Body1.lean ====
/- Region 1 of @main (custom_call 1, `cc1_attn_kernel`: one attention head per grid point), the body half of its
   frame, stated at a PARAMETER `V` — the TensorCore's buffer contents when the region is entered — and generic in
   the float carrier `F`. Six input windows (query, key and value blocks, the rotary table, the two norm weight
   vectors) and one output window, stored whole at every point. Per window its block at a point (`iblk1`); what the
   body leaves in the output's buffer as a closed function of the six input blocks (`out1_6`, and `out1_6_eq`: the
   payload of its one store); the body's triple (`sound_kernel1`); the pipeline's proof data (`dat1`) and the body
   obligation at every point (`body_obligation1`). -/
import proofs.«122228_j43301860278716_2_alg».proof.Proof.Gen.KernelIdeal.Launch
import proofs.«122228_j43301860278716_2_alg».proof.Proof.Gen.KernelIdeal.Skeleton
import proofs.«122228_j43301860278716_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of extents 1024 × 128: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the query block (b, h)): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the key block (b, h / 4)): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the value block (b, h / 4)): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the whole rotary table): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the query norm weights): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the key norm weights): its current staging buffer holds its block at every point, fetched there or
    not, for ANY proof data whose array is `V`'s (`hA`) and whose body leaves the block in place (`hafter`). Where the
    window is not fetched its block index has not moved, so the buffer still holds the previous point's block, which
    is this point's; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1 × 1 × 1024 × 128 block: the rectangle of every load of the query, key and value buffers and of the one store. -/
abbrev b1_rblk : Rect S1x1x1024x128 := Rect.unit (s := S1x1x1024x128) ![0, 0, 0, 0] S1x1x1024x128.size inb_S1x1x1024x128_S1x1x1024x128_0_0_0_0
/-- The whole 128-vector: the rectangle of the two norm-weight loads. -/
abbrev b1_rvec : Rect S128 := Rect.unit (s := S128) ![0] S128.size inb_S128_S128_0
/-- The three 1 × 1024 × 128 planes of the rotary table, loaded one by one. -/
abbrev r1_f0 : Rect S3x1024x128 := Rect.unit (s := S3x1024x128) ![0, 0, 0] S1x1024x128.size inb_S3x1024x128_S1x1024x128_0_0_0
abbrev r1_f1 : Rect S3x1024x128 := Rect.unit (s := S3x1024x128) ![1, 0, 0] S1x1024x128.size inb_S3x1024x128_S1x1024x128_1_0_0
abbrev r1_f2 : Rect S3x1024x128 := Rect.unit (s := S3x1024x128) ![2, 0, 0] S1x1024x128.size inb_S3x1024x128_S1x1024x128_2_0_0

/-! ## What the body leaves in the output window's buffer -/

/-- Window 6's staging buffer after the body, from the six input windows' blocks: the canonical contents of its one
    store, whose payload is the attention output of the loaded blocks (the payloads are the skeleton's). -/
def out1_6 (x0 x1 x2 : Vec F S1x1x1024x128 .f32) (x3 : Vec F S3x1024x128 .f32) (x4 x5 : Vec F S128 .f32) : Vec F S1x1x1024x128 .f32 :=
  View.canon [⟨b1_rblk, k1_pay1 (k1_pay9 (k1_pay2 (View.ld x1 b1_rblk)) (k1_pay3 (View.ld x2 b1_rblk)) (k1_pay4 (View.ld x3 r1_f0)) (k1_pay5 (View.ld x3 r1_f1)) (k1_pay6 (View.ld x3 r1_f2)) (View.ld x5 b1_rvec) (k1_pay7 (View.ld x0 b1_rblk) (View.ld x4 b1_rvec)) (k1_pay8 (View.ld x1 b1_rblk)) (Scalar.ofBits .f32 0x43000000#32))⟩]

/-- The one store is of the whole block, so it covers the buffer. -/
theorem b1_cover (p0 : Vec F S1x1x1024x128 .f32) (y : S1x1x1024x128.Idx) :
    ∃ pc ∈ ([⟨b1_rblk, p0⟩] : List (View.Piece (Elt F) S1x1x1024x128 .f32)), y ∈ pc.1.set :=
  View.cover_of_tiled [⟨b1_rblk, p0⟩] S1x1x1024x128.size (by rfl) y

/-- In closed form: a load through the whole-shape rectangle at offset zero reads the contents, and one store through
    it leaves its payload; only the three plane loads of the rotary table remain. -/
theorem out1_6_eq (x0 x1 x2 : Vec F S1x1x1024x128 .f32) (x3 : Vec F S3x1024x128 .f32) (x4 x5 : Vec F S128 .f32) :
    out1_6 x0 x1 x2 x3 x4 x5 = k1_pay1 (k1_pay9 (k1_pay2 x1) (k1_pay3 x2) (k1_pay4 (View.ld x3 r1_f0)) (k1_pay5 (View.ld x3 r1_f1)) (k1_pay6 (View.ld x3 r1_f2)) x5 (k1_pay7 x0 x4) (k1_pay8 x1) (Scalar.ofBits .f32 0x43000000#32)) := by
  unfold out1_6
  rw [View.canon_unit_zero (S := S1x1x1024x128) (by decide) inb_S1x1x1024x128_S1x1x1024x128_0_0_0_0]
  rw [View.ld_unit_zero (S := S1x1x1024x128) (by decide) inb_S1x1x1024x128_S1x1x1024x128_0_0_0_0 x0,
    View.ld_unit_zero (S := S1x1x1024x128) (by decide) inb_S1x1x1024x128_S1x1x1024x128_0_0_0_0 x1,
    View.ld_unit_zero (S := S1x1x1024x128) (by decide) inb_S1x1x1024x128_S1x1x1024x128_0_0_0_0 x2,
    View.ld_unit_zero (S := S128) (by decide) inb_S128_S128_0 x4,
    View.ld_unit_zero (S := S128) (by decide) inb_S128_S128_0 x5]

/-! ## The body's triple -/

set_option maxHeartbeats 4000000 in
/-- The kernel body on whole staging memrefs, the six inputs' at read contents `x0 … x5` and the output's at anything,
    runs to the continuation holding the inputs' as they were and the output's at `out1_6` of the inputs': the body is
    eight loads of the inputs, one load of the output whose value is not used, a pure computation, and one store of
    the whole output block. The payloads are never evaluated. -/
theorem sound_kernel1 (c : Dev nD) (E : Set ℕ) (i : grid1.Coords)
    (arg2 : Memref sig .tc .vmem S1x1x1024x128 .f32) (harg2 : arg2.IsWhole) (arg3 : Memref sig .tc .vmem S1x1x1024x128 .f32) (harg3 : arg3.IsWhole) (arg4 : Memref sig .tc .vmem S1x1x1024x128 .f32) (harg4 : arg4.IsWhole)
    (arg5 : Memref sig .tc .vmem S3x1024x128 .f32) (harg5 : arg5.IsWhole) (arg6 : Memref sig .tc .vmem S128 .f32) (harg6 : arg6.IsWhole)
    (arg7 : Memref sig .tc .vmem S128 .f32) (harg7 : arg7.IsWhole) (arg8 : Memref sig .tc .vmem S1x1x1024x128 .f32) (harg8 : arg8.IsWhole)
    (x0 x1 x2 : Vec F S1x1x1024x128 .f32) (x3 : Vec F S3x1024x128 .f32) (x4 x5 : Vec F S128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1_attn_kernel i arg2 harg2 arg3 harg3 arg4 harg4 arg5 harg5 arg6 harg6 arg7 harg7 arg8 harg8) K := by
  rw [cc1_attn_kernel_eq_skeleton]; unfold cc1_attn_kernel_skel
  rw [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (b1_cover _)

/-! ## The pipeline's proof data -/

/-- The proof data of pipeline 1 on core `c`: the arrays as the region finds them (`V`); after the body at point `t`
    each input's buffer at its block and the output's at `out1_6` of the six input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Every semaphore entry counts as recorded at the region's entry. -/
theorem recorded1 (c : Dev nD) : (dat1 V c).recorded 0 = Set.univ := rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' memrefs hold their blocks (`before1_w`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Body2.lean ====
import proofs.«122228_j43301860278716_2_alg».proof.Proof.Gen.KernelIdeal.Launch
import proofs.«122228_j43301860278716_2_alg».proof.Proof.Gen.KernelIdeal.Skeleton
import proofs.«122228_j43301860278716_2_alg».proof.Proof.Gen.KernelIdeal.Points
import proofs.«122228_j43301860278716_2_alg».proof.Proof.KI.Body0
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the K-blocked matmul kernel `cc2__matmul_wT_kernel`

Its grid's last axis is the reduction axis `k`, running fastest. At `k = 0` the body stores zeros into its scratch
accumulator; at every point it adds the product of the two input blocks to the accumulator; at `k = 3` it copies the
accumulator into the output block. So the accumulator is carried from point to point, and the output block is
untouched except at the points with `k = 3`, where alone it is written back. -/

/-! ## The body's branch conditions, in closed form over the grid -/

/-- The condition of the body's first `scf.if` (`k = 0`), from the grid coordinates. -/
abbrev b0_cond2_0 (i : grid2.Coords) : Prop := (Scalar.cmpi .ne (Scalar.extui (Scalar.cmpi .eq (BitVec.ofNat 32 (i 2).val) 0#32)) 0#32) = 1#1
/-- It holds at the points ≡ 0 (mod 4). -/
theorem b0_hcond2_0 : ∀ t : Fin cfg2.N, b0_cond2_0 (grid2.coords t) ↔ t.val % 4 = 0 :=
  (by decide +kernel : ∀ t : Fin grid2.N, b0_cond2_0 (grid2.coords t) ↔ t.val % 4 = 0)
/-- The condition of the body's second `scf.if` (`k = 3`). -/
abbrev b0_cond2_1 (i : grid2.Coords) : Prop := k2_cond2 i = 1#1
/-- It holds at the points ≡ 3 (mod 4). -/
theorem b0_hcond2_1 : ∀ t : Fin cfg2.N, b0_cond2_1 (grid2.coords t) ↔ t.val % 4 = 3 :=
  (by decide +kernel : ∀ t : Fin grid2.N, b0_cond2_1 (grid2.coords t) ↔ t.val % 4 = 3)

/-! ## Where the windows are idle -/

/-- The input windows are never idle. -/
theorem b0_liveAt2_0 : ∀ t : Fin cfg2.N, cfg2.idle 0 (grid2.coords t) = false := by decide +kernel
theorem b0_liveAt2_1 : ∀ t : Fin cfg2.N, cfg2.idle 1 (grid2.coords t) = false := by decide +kernel
/-- Where `k ≠ 3` the output window is idle: the body stores nothing into it, -/
theorem b0_idleAt2_2 : ∀ t : Fin cfg2.N, ¬b0_cond2_1 (grid2.coords t) → cfg2.idle 2 (grid2.coords t) = true := by decide +kernel
/-- and the pipeline does not write its block back. -/
theorem b0_noFlush2_2 : ∀ t : Fin cfg2.N, ¬b0_cond2_1 (grid2.coords t) → (cfg2.win 2).flush t = false := by decide +kernel
/-- Where `k = 3` the output window is live. -/
theorem b0_liveAt2_2 : ∀ t : Fin cfg2.N, b0_cond2_1 (grid2.coords t) → cfg2.idle 2 (grid2.coords t) = false := by decide +kernel

/-! ## The kernel body on whole memrefs, case by case

Case A (`k = 0`): the accumulator, whatever it held, is zeroed and then holds the first product added to zero; the
output buffer is handed back as found. Case B (`k = 1, 2`): the accumulator holds what it held plus the product; the
output buffer is handed back as found. Case C (`k = 3`): as B, and the output buffer, whatever it held, ends at the
accumulator's final contents. Each load reads a whole buffer and each store covers one, so what a buffer holds after
the body is the last payload stored into it. -/

set_option maxHeartbeats 1000000 in
/-- Case A. -/
theorem b0_run2_A (c : Dev nD) (i : grid2.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : b0_cond2_0 i) (hc1 : ¬b0_cond2_1 i)
    (x0 : Vec F S512x1024 .f32) (x1 : Vec F S1024x1024 .f32) (xi2 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare xi2 ∗ owns (c : Thread nD τ) arg6 fullShare (k2_pay2 x0 x1 (k2_pay1 (F := F)))) -∗ K ⟨⟩))
      ⊢ wp frame (wpE (defs₀ (F := F)) Variants.none c none) E (cc2__matmul_wT_kernel i arg3 harg3 arg4 harg4 arg5 harg5 arg6 harg6) K := by
  simp only [cc2__matmul_wT_kernel_eq_skeleton]; unfold cc2__matmul_wT_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  unfold b0_run2_A.sl.v8 b0_run2_A.sl.HS0_1
  rw [b0_read_writes_whole _ _ b0_hz, View.readCov_unit_zero _ b0_hz, View.readAt_eq_ld, View.readAt_eq_ld, hf0, hf1,
    View.ld_unit_zero (S := S512x1024) b0_hz, View.ld_unit_zero (S := S1024x1024) b0_hz]

set_option maxHeartbeats 1000000 in
/-- Case B. -/
theorem b0_run2_B (c : Dev nD) (i : grid2.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : ¬b0_cond2_0 i) (hc1 : ¬b0_cond2_1 i)
    (x0 : Vec F S512x1024 .f32) (x1 : Vec F S1024x1024 .f32) (xi2 : Vec F S512x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare xi2 ∗ owns (c : Thread nD τ) arg6 fullShare (k2_pay2 x0 x1 xs)) -∗ K ⟨⟩))
      ⊢ wp frame (wpE (defs₀ (F := F)) Variants.none c none) E (cc2__matmul_wT_kernel i arg3 harg3 arg4 harg4 arg5 harg5 arg6 harg6) K := by
  simp only [cc2__matmul_wT_kernel_eq_skeleton]; unfold cc2__matmul_wT_kernel_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2; obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  rw [b0_read_writes_whole _ _ b0_hz, View.readAt_eq_ld, View.readAt_eq_ld, View.readAt_eq_ld, hf0, hf1, hfs0,
    View.ld_unit_zero (S := S512x1024) b0_hz, View.ld_unit_zero (S := S1024x1024) b0_hz, View.ld_unit_zero (S := S512x1024) b0_hz]

set_option maxHeartbeats 1000000 in
/-- Case C. -/
theorem b0_run2_C (c : Dev nD) (i : grid2.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
    (hc0 : ¬b0_cond2_0 i) (hc1 : b0_cond2_1 i)
    (x0 : Vec F S512x1024 .f32) (x1 : Vec F S1024x1024 .f32) (xs : Vec F S512x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k2_pay2 x0 x1 xs) ∗ owns (c : Thread nD τ) arg6 fullShare (k2_pay2 x0 x1 xs)) -∗ K ⟨⟩))
      ⊢ wp frame (wpE (defs₀ (F := F)) Variants.none c none) E (cc2__matmul_wT_kernel i arg3 harg3 arg4 harg4 arg5 harg5 arg6 harg6) K := by
  simp only [cc2__matmul_wT_kernel_eq_skeleton]; unfold cc2__matmul_wT_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [b0_read_writes_whole _ _ b0_hz]
    unfold b0_run2_C.sl.v17 b0_run2_C.sl.HS0_1
    rw [View.readCov_unit_zero _ b0_hz, View.readAt_eq_ld, View.readAt_eq_ld, View.readAt_eq_ld, hf0, hf1, hfs0,
      View.ld_unit_zero (S := S512x1024) b0_hz, View.ld_unit_zero (S := S1024x1024) b0_hz, View.ld_unit_zero (S := S512x1024) b0_hz]
  iexists _; isplitr
  swap; · iexact HS0
  ipureintro
  unfold b0_run2_C.sl.HS0_1
  rw [b0_read_writes_whole _ _ b0_hz, View.readAt_eq_ld, View.readAt_eq_ld, View.readAt_eq_ld, hf0, hf1, hfs0,
    View.ld_unit_zero (S := S512x1024) b0_hz, View.ld_unit_zero (S := S1024x1024) b0_hz, View.ld_unit_zero (S := S512x1024) b0_hz]

section Region2
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is
    `V`'s and whose body leaves the block in place. -/
theorem b0_before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem b0_before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator, point by point -/

/-- What the scratch accumulator holds after point `n`: at a point with `k = 0` the product of the point's input
    blocks added to zero, elsewhere added to what the point before left. -/
def acc2 (c : Dev nD) : (n : ℕ) → n < cfg2.N → Vec F S512x1024 .f32
  | 0, hn => k2_pay2 (iblk2 V c 0 ⟨0, hn⟩) (iblk2 V c 1 ⟨0, hn⟩) (k2_pay1 (F := F))
  | n + 1, hn =>
    if (n + 1) % 4 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

/-- At a point with `k = 0` the accumulator restarts from zero. -/
theorem acc2_first (c : Dev nD) (t : Fin cfg2.N) (h : t.val % 4 = 0) :
    acc2 V c t.val t.isLt = k2_pay2 (iblk2 V c 0 t) (iblk2 V c 1 t) (k2_pay1 (F := F)) := by
  obtain ⟨n, hn⟩ := t
  cases n with
  | zero => exact rfl
  | succ n => exact (if_pos h).trans rfl

/-- At any other point it continues from what the point before left. -/
theorem acc2_next (c : Dev nD) (t : Fin cfg2.N) (h : t.val % 4 ≠ 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch accumulator, a whole scoped buffer of the kernel's own. -/
abbrev b0_scM2 : Memref sig .tc .vmem S512x1024 .f32 := Memref.whole cc2_scratch0

/-- The core's other scoped buffers that are no staging buffer of this call (the other calls' staging buffers and
    scratch), at some contents each: carried unopened. -/
abbrev b0_rest2 (c : Dev nD) : sProp 𝕄 :=
  Pipeline.scopedRestBut (Ix := Unit) (Name := ℕ) (U := UR sig nD τ) (Lvl := ℕ) (Val := Elt F) spec2 c [cc2_scratch0]

/-- The class's invariant with the accumulator split off the scoped rest and owned as a memref at some contents. -/
theorem b0_PhiA2_eq (c : Dev nD) :
    (Pipeline.ΦA spec2 c : sProp 𝕄)
      = iprop(((∃ d, owns (c : Thread nD τ) b0_scM2 fullShare d) ∗ b0_rest2 c) ∗ (∃ r, prngReg c r)) := by
  unfold Pipeline.ΦA
  rw [Pipeline.scopedRest_split_of_list spec2 c [cc2_scratch0] (by decide) (by decide)]
  simp only [bigSepL_singleton, b0_scM2, owns_whole]; try rfl

/-- The invariant before position `n`: before the first point the class's (every scoped buffer that is no staging
    buffer at anything, the generator register at some state); afterwards the same with the accumulator at what the
    point before left in it. -/
def b0_PhiS2 (c : Dev nD) : (n : ℕ) → n ≤ cfg2.N → sProp 𝕄
  | 0, _ => Pipeline.ΦA spec2 c
  | n + 1, hn => iprop((owns (c : Thread nD τ) b0_scM2 fullShare (acc2 V c n hn) ∗ b0_rest2 c) ∗ (∃ r, prngReg c r))

theorem b0_PhiS2_zero (c : Dev nD) (n : ℕ) (h : n ≤ cfg2.N) (hz : n = 0) : b0_PhiS2 V c n h = Pipeline.ΦA spec2 c := by
  subst hz; rfl

theorem b0_PhiS2_succ (c : Dev nD) (n : ℕ) (hn : n < cfg2.N) :
    b0_PhiS2 V c (n + 1) hn = iprop((owns (c : Thread nD τ) b0_scM2 fullShare (acc2 V c n hn) ∗ b0_rest2 c) ∗ (∃ r, prngReg c r)) := rfl

theorem b0_PhiS2_pos (c : Dev nD) (n : ℕ) (h : n ≤ cfg2.N) (hz : n ≠ 0) :
    b0_PhiS2 V c n h = iprop((owns (c : Thread nD τ) b0_scM2 fullShare (acc2 V c (n - 1) (by omega)) ∗ b0_rest2 c) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at the accumulator's contents there (read only at the points
    with `k = 3`: elsewhere the window is idle); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := b0_PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The body takes on no new units: the bound on the recorded pairs stays everything. -/
theorem recorded2 (c : Dev nD) : (dat2 V c).recorded 0 = Set.univ := by
  dsimp only [dat2]

/-- What the body leaves, window by window. -/
theorem b0_after2_0 (c : Dev nD) (t : Fin cfg2.N) : (dat2 V c).after 0 t = iblk2 V c 0 t := by dsimp only [dat2]
theorem b0_after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- Each input's current staging buffer holds its block at every point. -/
theorem b0_before2_0 (c : Dev nD) (t : Fin cfg2.N) (d) : (dat2 V c).before 0 t d = iblk2 V c 0 t :=
  b0_before2_0_of V (dat2 V c) (A_eq2 V c 0) (b0_after2_0 V c) t d
theorem b0_before2_1 (c : Dev nD) (t : Fin cfg2.N) (d) : (dat2 V c).before 1 t d = iblk2 V c 1 t :=
  b0_before2_1_of V (dat2 V c) (A_eq2 V c 1) (b0_after2_1 V c) t d

/-- The invariant at a point's start, restated at the point's position. -/
theorem b0_PhiS2_castSucc (c : Dev nD) (t : Fin cfg2.N) :
    (dat2 V c).Φ t.castSucc = b0_PhiS2 V c t.val (Nat.le_of_lt t.isLt) := by
  dsimp only [dat2]; simp only [Fin.coe_castSucc]

/-! ## The body obligation, at a generic point -/

/-- What the body is called with at point `t`, the windows one by one, -/
def b0_bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def b0_bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; the point's position mod 4 says which case it is
    in. The invariant hands the body the accumulator at what the point before left (at anything before the first point
    and at a point with `k = 0`, where the body zeroes it first) and takes it back at this point's contents; the other
    scoped buffers, the generator register and what the core owes pass through unread. Where `k ≠ 3` the output's
    buffer is handed back as found; where `k = 3` it ends at the accumulator's contents. -/
theorem b0_sound_body2 (c : Dev nD) (t : Fin cfg2.N) :
    b0_bodyPre2 V c t ⊢ wp frame (wpE (defs₀ (F := F)) Variants.none c none) Set.univ (bodyAt2 t) (fun _ => b0_bodyPost2 V c t) := by
  unfold b0_bodyPre2 b0_bodyPost2 bodyAt2
  simp only [b0_before2_0, b0_before2_1]
  rw [show (dat2 V c).owesAt () t.succ = (dat2 V c).owesAt () t.castSucc from rfl]
  rw [show (dat2 V c).Φ t.succ = b0_PhiS2 V c (t.val + 1) t.isLt from rfl, b0_PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [b0_liveAt2_0 t], b0_after2_0]
  rw [show (dat2 V c).leavesExact 1 t = owns (c : Thread nD τ) (st2_1 t) fullShare ((dat2 V c).after 1 t) from by
    unfold Dat.leavesExact; rw [b0_liveAt2_1 t], b0_after2_1]
  by_cases h1 : t.val % 4 = 3
  · have h0 : ¬t.val % 4 = 0 := by omega
    have hz : t.val ≠ 0 := by omega
    rw [show (dat2 V c).leavesExact 2 t = owns (c : Thread nD τ) (st2_2 t) fullShare ((dat2 V c).after 2 t) from by
      unfold Dat.leavesExact; rw [b0_liveAt2_2 t ((b0_hcond2_1 t).mpr h1)], after2_2]
    rw [acc2_next V c t h0]
    rw [b0_PhiS2_castSucc V c t, b0_PhiS2_pos V c _ _ hz]
    iintro ⟨⟨⟨HS0, HR⟩, Hg⟩, Ho, ⟨%d0, H0⟩, ⟨%d1, H1⟩, ⟨%d2, H2⟩⟩
    iapply (b0_run2_C c (grid2.coords t) _ _ _ _ _ _ _ _ (fun h => h0 ((b0_hcond2_0 t).mp h)) ((b0_hcond2_1 t).mpr h1) (iblk2 V c 0 t) (iblk2 V c 1 t) _ Set.univ _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexact H2
  · rw [Dat.leavesExact_idle (dat2 V c) 2 t (b0_idleAt2_2 t (fun h => h1 ((b0_hcond2_1 t).mp h))) (b0_noFlush2_2 t (fun h => h1 ((b0_hcond2_1 t).mp h)))]
    by_cases h0 : t.val % 4 = 0
    · rw [acc2_first V c t h0]
      by_cases hz : t.val = 0
      · rw [b0_PhiS2_castSucc V c t, b0_PhiS2_zero V c _ _ hz, b0_PhiA2_eq]
        iintro ⟨⟨⟨HS0, HR⟩, Hg⟩, Ho, ⟨%d0, H0⟩, ⟨%d1, H1⟩, ⟨%d2, H2⟩⟩
        iapply (b0_run2_A c (grid2.coords t) _ _ _ _ _ _ _ _ ((b0_hcond2_0 t).mpr h0) (fun h => h1 ((b0_hcond2_1 t).mp h)) (iblk2 V c 0 t) (iblk2 V c 1 t) _ Set.univ _)
        isplitl [H0]; · iexact H0
        isplitl [H1]; · iexact H1
        isplitl [H2]; · iexact H2
        isplitl [HS0]; · iexact HS0
        iintro ⟨H0, H1, H2, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        iexists _; iexact H2
      · rw [b0_PhiS2_castSucc V c t, b0_PhiS2_pos V c _ _ hz]
        iintro ⟨⟨⟨HS0, HR⟩, Hg⟩, Ho, ⟨%d0, H0⟩, ⟨%d1, H1⟩, ⟨%d2, H2⟩⟩
        iapply (b0_run2_A c (grid2.coords t) _ _ _ _ _ _ _ _ ((b0_hcond2_0 t).mpr h0) (fun h => h1 ((b0_hcond2_1 t).mp h)) (iblk2 V c 0 t) (iblk2 V c 1 t) _ Set.univ _)
        isplitl [H0]; · iexact H0
        isplitl [H1]; · iexact H1
        isplitl [H2]; · iexact H2
        isplitl [HS0]; · iexists _; iexact HS0
        iintro ⟨H0, H1, H2, HS0⟩
        isplitl [HS0 HR Hg]
        · isplitl [HS0 HR]
          · isplitl [HS0]; · iexact HS0
            iexact HR
          iexact Hg
        isplitl [Ho]; · iexact Ho
        isplitl [H0]; · iexact H0
        isplitl [H1]; · iexact H1
        iexists _; iexact H2
    · have hz : t.val ≠ 0 := by omega
      rw [acc2_next V c t h0]
      rw [b0_PhiS2_castSucc V c t, b0_PhiS2_pos V c _ _ hz]
      iintro ⟨⟨⟨HS0, HR⟩, Hg⟩, Ho, ⟨%d0, H0⟩, ⟨%d1, H1⟩, ⟨%d2, H2⟩⟩
      iapply (b0_run2_B c (grid2.coords t) _ _ _ _ _ _ _ _ (fun h => h0 ((b0_hcond2_0 t).mp h)) (fun h => h1 ((b0_hcond2_1 t).mp h)) (iblk2 V c 0 t) (iblk2 V c 1 t) _ _ Set.univ _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact b0_sound_body2 V c t

/-- What the launch hands the region is the invariant before the first point. -/
theorem hin2 (c : Dev nD) : Pipeline.ΦA spec2 c ⊢ (dat2 V c).Φ 0 := by
  rw [show (dat2 V c).Φ 0 = b0_PhiS2 V c 0 (Nat.zero_le _) from rfl, b0_PhiS2_zero V c 0 _ rfl]
  try exact Idealize.SL.BI.Entails.refl _

/-- After any point but the first the invariant gives the class's back: the accumulator's contents are forgotten. -/
theorem b0_Phi2_out (c : Dev nD) (t : Fin (cfg2.N + 1)) (ht : t.val ≠ 0) : (dat2 V c).Φ t ⊢ Pipeline.ΦA spec2 c := by
  rw [show (dat2 V c).Φ t = b0_PhiS2 V c t.val (Nat.le_of_lt_succ t.isLt) from rfl, b0_PhiS2_pos V c _ _ ht, b0_PhiA2_eq]
  iintro ⟨⟨HS0, HR⟩, Hg⟩
  isplitl [HS0 HR]
  · isplitl [HS0]; · iexists _; iexact HS0
    iexact HR
  iexact Hg

/-- The same after the last point. -/
theorem hout2 (c : Dev nD) : (dat2 V c).Φ (Fin.last cfg2.N) ⊢ Pipeline.ΦA spec2 c :=
  b0_Phi2_out V c _ (by rw [Fin.val_last]; have : cfg2.N = 64 := N_2; omega)

end Region2

end Cert.KernelIdeal.Hand

end
-- ==== Proof.KI.Frame.lean ====
import proofs.«122228_j43301860278716_2_alg».proof.Proof.KI.Run
import proofs.«122228_j43301860278716_2_alg».proof.Proof.KI.Body0
import proofs.«122228_j43301860278716_2_alg».proof.Proof.KI.Body1
import proofs.«122228_j43301860278716_2_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main at the three regions' proof data

The run over @main's seven segments is stated for any proof data of the three pallas_calls; here it is read at the
data of regions 0, 1 and 2. The buffer contents at the eight segment boundaries — the launch memory, then after each
host stretch and each region in turn — become functions of the launch memory alone. -/

section Frame

variable (m : (ℓ : Loc nD τ sig) → Buf (Elt F) ℓ) (ρ : Dev nD → PrngReg)

/-! ## The boundary contents at the instance -/

/-- Core `c`'s buffers at launch. -/
abbrev WF0 : Dev nD → Valuation τ sig (Elt F) := W0 m
/-- After the first host stretch: region 0's entry. -/
abbrev WF1 : Dev nD → Valuation τ sig (Elt F) := W1 m
/-- The same read at the TensorCore's references. -/
abbrev VF1 : (c : Dev nD) → (b : Ref sig .tc) → Buf (Elt F) ((c : Thread nD τ).loc b) := V1 m
/-- At region 0's exit. -/
abbrev WF2 : Dev nD → Valuation τ sig (Elt F) := W2 m dat0
abbrev VF2 : (c : Dev nD) → (b : Ref sig .tc) → Buf (Elt F) ((c : Thread nD τ).loc b) := V2 m dat0
/-- After the second host stretch: region 1's entry. -/
abbrev WF3 : Dev nD → Valuation τ sig (Elt F) := W3 m dat0
abbrev VF3 : (c : Dev nD) → (b : Ref sig .tc) → Buf (Elt F) ((c : Thread nD τ).loc b) := V3 m dat0
/-- At region 1's exit. -/
abbrev WF4 : Dev nD → Valuation τ sig (Elt F) := W4 m dat0 dat1
abbrev VF4 : (c : Dev nD) → (b : Ref sig .tc) → Buf (Elt F) ((c : Thread nD τ).loc b) := V4 m dat0 dat1
/-- After the third host stretch: region 2's entry. -/
abbrev WF5 : Dev nD → Valuation τ sig (Elt F) := W5 m dat0 dat1
abbrev VF5 : (c : Dev nD) → (b : Ref sig .tc) → Buf (Elt F) ((c : Thread nD τ).loc b) := V5 m dat0 dat1
/-- At region 2's exit. -/
abbrev WF6 : Dev nD → Valuation τ sig (Elt F) := W6 m dat0 dat1 dat2
abbrev VF6 : (c : Dev nD) → (b : Ref sig .tc) → Buf (Elt F) ((c : Thread nD τ).loc b) := V6 m dat0 dat1 dat2
/-- After the last host stretch: the return. -/
abbrev WF7 : Dev nD → Valuation τ sig (Elt F) := W7 m dat0 dat1 dat2

/-! ## The boundaries chained: what a value proof walks back through -/

/-- The launch contents are the launch memory. -/
theorem fr_WF0 (c : Dev nD) (b : DevRef τ sig) : WF0 m c b = m (c, b) := rfl
/-- Each host stretch's exit contents are its operations applied in order to its entry contents. -/
theorem fr_WF1 (c : Dev nD) : WF1 m c = StableHlo.after hostOps0 (WF0 m c) := rfl
theorem fr_WF3 (c : Dev nD) : WF3 m c = StableHlo.after hostOps1 (WF2 m c) := rfl
theorem fr_WF5 (c : Dev nD) : WF5 m c = StableHlo.after hostOps2 (WF4 m c) := rfl
theorem fr_WF7 (c : Dev nD) : WF7 m c = StableHlo.after hostOps3 (WF6 m c) := rfl
/-- The contents read at a TensorCore reference. -/
theorem fr_VF1 (c : Dev nD) (b : Ref sig .tc) : VF1 m c b = WF1 m c (Proc.devRef .tc b) := rfl
theorem fr_VF3 (c : Dev nD) (b : Ref sig .tc) : VF3 m c b = WF3 m c (Proc.devRef .tc b) := rfl
theorem fr_VF5 (c : Dev nD) (b : Ref sig .tc) : VF5 m c b = WF5 m c (Proc.devRef .tc b) := rfl

/-- At region 0's exit each of its arrays holds what the pipeline leaves: an input as entered, the output its blocks'
    write-backs folded over the grid. -/
theorem fr_WF2_arr (c : Dev nD) (w : Fin cfg0.W) :
    WF2 m c (Proc.devRef .tc (Pipeline.arrRef spec0 w)) = (dat0 (VF1 m) c).arrAt w cfg0.N :=
  W2_arr m dat0 c w
/-- Every other buffer is as at the region's entry. -/
theorem fr_WF2_of_ne (c : Dev nD) (b : Ref sig .tc) (hb : ∀ w, Pipeline.arrRef spec0 w ≠ b) :
    WF2 m c (Proc.devRef .tc b) = WF1 m c (Proc.devRef .tc b) :=
  W2_of_ne m dat0 c b hb
/-- The same at region 1's exit. -/
theorem fr_WF4_arr (c : Dev nD) (w : Fin cfg1.W) :
    WF4 m c (Proc.devRef .tc (Pipeline.arrRef spec1 w)) = (dat1 (VF3 m) c).arrAt w cfg1.N :=
  W4_arr m dat0 dat1 c w
theorem fr_WF4_of_ne (c : Dev nD) (b : Ref sig .tc) (hb : ∀ w, Pipeline.arrRef spec1 w ≠ b) :
    WF4 m c (Proc.devRef .tc b) = WF3 m c (Proc.devRef .tc b) :=
  W4_of_ne m dat0 dat1 c b hb
/-- The same at region 2's exit. -/
theorem fr_WF6_arr (c : Dev nD) (w : Fin cfg2.W) :
    WF6 m c (Proc.devRef .tc (Pipeline.arrRef spec2 w)) = (dat2 (VF5 m) c).arrAt w cfg2.N :=
  W6_arr m dat0 dat1 dat2 c w
theorem fr_WF6_of_ne (c : Dev nD) (b : Ref sig .tc) (hb : ∀ w, Pipeline.arrRef spec2 w ≠ b) :
    WF6 m c (Proc.devRef .tc b) = WF5 m c (Proc.devRef .tc b) :=
  W6_of_ne m dat0 dat1 dat2 c b hb

/-! ## The arguments end as launched -/

/-- `main_arg0` ends as launched. -/
theorem fr_arg0 (c : Dev nD) : WF7 m c (Proc.devRef .tc main_arg0) = m ((c : Thread nD τ).loc main_arg0) :=
  W7_main_arg0 (m := m) (dat0 := dat0) (dat1 := dat1) (dat2 := dat2) c
/-- `main_arg1` ends as launched. -/
theorem fr_arg1 (c : Dev nD) : WF7 m c (Proc.devRef .tc main_arg1) = m ((c : Thread nD τ).loc main_arg1) :=
  W7_main_arg1 (m := m) (dat0 := dat0) (dat1 := dat1) (dat2 := dat2) (hA1 := fun V c w => A_eq1 V c w) c
/-- `main_arg2` ends as launched. -/
theorem fr_arg2 (c : Dev nD) : WF7 m c (Proc.devRef .tc main_arg2) = m ((c : Thread nD τ).loc main_arg2) :=
  W7_main_arg2 (m := m) (dat0 := dat0) (dat1 := dat1) (dat2 := dat2) c
/-- `main_arg3` ends as launched. -/
theorem fr_arg3 (c : Dev nD) : WF7 m c (Proc.devRef .tc main_arg3) = m ((c : Thread nD τ).loc main_arg3) :=
  W7_main_arg3 (m := m) (dat0 := dat0) (dat1 := dat1) (dat2 := dat2) c
/-- `main_arg4` ends as launched. -/
theorem fr_arg4 (c : Dev nD) : WF7 m c (Proc.devRef .tc main_arg4) = m ((c : Thread nD τ).loc main_arg4) :=
  W7_main_arg4 (m := m) (dat0 := dat0) (dat1 := dat1) (dat2 := dat2) c
/-- `main_arg5` ends as launched. -/
theorem fr_arg5 (c : Dev nD) : WF7 m c (Proc.devRef .tc main_arg5) = m ((c : Thread nD τ).loc main_arg5) :=
  W7_main_arg5 (m := m) (dat0 := dat0) (dat1 := dat1) (dat2 := dat2) (hA2 := fun V c w => A_eq2 V c w) c
/-- `main_arg6` ends as launched. -/
theorem fr_arg6 (c : Dev nD) : WF7 m c (Proc.devRef .tc main_arg6) = m ((c : Thread nD τ).loc main_arg6) :=
  W7_main_arg6 (m := m) (dat0 := dat0) (dat1 := dat1) (dat2 := dat2) (hA1 := fun V c w => A_eq1 V c w) c
/-- `main_arg7` ends as launched. -/
theorem fr_arg7 (c : Dev nD) : WF7 m c (Proc.devRef .tc main_arg7) = m ((c : Thread nD τ).loc main_arg7) :=
  W7_main_arg7 (m := m) (dat0 := dat0) (dat1 := dat1) (dat2 := dat2) (hA1 := fun V c w => A_eq1 V c w) c

/-! ## The run, the frame and the kernel side of the value claim -/

/-- THE RUN at the instance: every weakly fair execution of @main on the TensorCores terminates, nothing faulting, and
    every final state has every unscoped buffer at the last boundary's contents. -/
theorem fr_run : θ_run defs (onTc (τ := τ) (main (F := F))) ⟨m, fun _ => 0, ρ⟩ (fun r => ∀ c : Dev nD,
      ∀ b ∈ Pipeline.ucRefs τ sig, r.2.mem ((c : Thread nD τ).1, b) = WF7 m c b) :=
  run (m := m) (ρ := ρ) (dat0 := dat0) (hA0 := fun V c w => A_eq0 V c w) (hq0 := fun _ _ _ => rfl) (ho0 := fun _ _ _ => rfl) (hr0 := fun V c => recorded0 V c)
    (hbody0 := fun V c => body_obligation0 V c) (hin0 := fun V c => hin0 V c) (hout0 := fun V c => hout0 V c)
    (dat1 := dat1) (hA1 := fun V c w => A_eq1 V c w) (hq1 := fun _ _ _ => rfl) (ho1 := fun _ _ _ => rfl) (hr1 := fun V c => recorded1 V c)
    (hbody1 := fun V c => body_obligation1 V c) (hin1 := fun _ _ => .rfl) (hout1 := fun _ _ => .rfl)
    (dat2 := dat2) (hA2 := fun V c w => A_eq2 V c w) (hq2 := fun _ _ _ => rfl) (ho2 := fun _ _ _ => rfl) (hr2 := fun V c => recorded2 V c)
    (hbody2 := fun V c => body_obligation2 V c) (hin2 := fun V c => hin2 V c) (hout2 := fun V c => hout2 V c)

/-- THE FRAME: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (fr_arg0 m c),
     (h c _ (mem_uc main_arg1 (by decide))).trans (fr_arg1 m c),
     (h c _ (mem_uc main_arg2 (by decide))).trans (fr_arg2 m c),
     (h c _ (mem_uc main_arg3 (by decide))).trans (fr_arg3 m c),
     (h c _ (mem_uc main_arg4 (by decide))).trans (fr_arg4 m c),
     (h c _ (mem_uc main_arg5 (by decide))).trans (fr_arg5 m c),
     (h c _ (mem_uc main_arg6 (by decide))).trans (fr_arg6 m c),
     (h c _ (mem_uc main_arg7 (by decide))).trans (fr_arg7 m c)⟩) (fr_run m ρ)

/-- The kernel side of the value claim: @main runs, its result array ends at the last boundary's contents there, and its
    argument arrays end unchanged. -/
theorem run_val : θ_run defs (onTc (τ := τ) (main (F := F))) ⟨m, fun _ => 0, ρ⟩ (fun r => ∀ c : Dev nD,
      r.2.mem ((c.tc : Thread nD τ).loc main_v17) = WF7 m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v17 (by decide)),
     (h c _ (mem_uc main_arg0 (by decide))).trans (fr_arg0 m c),
     (h c _ (mem_uc main_arg1 (by decide))).trans (fr_arg1 m c),
     (h c _ (mem_uc main_arg2 (by decide))).trans (fr_arg2 m c),
     (h c _ (mem_uc main_arg3 (by decide))).trans (fr_arg3 m c),
     (h c _ (mem_uc main_arg4 (by decide))).trans (fr_arg4 m c),
     (h c _ (mem_uc main_arg5 (by decide))).trans (fr_arg5 m c),
     (h c _ (mem_uc main_arg6 (by decide))).trans (fr_arg6 m c),
     (h c _ (mem_uc main_arg7 (by decide))).trans (fr_arg7 m c)⟩) (fr_run m ρ)

end Frame

end Cert.KernelIdeal.Hand

end
-- ==== Proof.Spec.lean ====
/-
  The two projections of the layer as whole-array functions on the extended reals: every row of the left array
  against every row of the right array (the weights are stored output-major), summed over the 4096 shared columns.
  `projQKV` is the fused query/key/value projection (6144 output columns), `projOut` the output projection.
-/
import proofs.«122228_j43301860278716_2_alg».proof.KernelIdeal
import Idealize.ShloMosaic.Lib.ValueIdx

noncomputable section

namespace Cert.Spec

open Idealize.ShloMosaic Idealize.ShloMosaic.ValueIdx Cert.KernelIdeal

/-- Row `r` of `A` (2048×4096) against row `o` of `B` (6144×4096): `∑ k, A[r,k]·B[o,k]`. -/
def projQKV (A : S2048x4096.Idx → EReal) (B : S6144x4096.Idx → EReal) : S2048x6144.Idx → EReal :=
  fun j => ∑ k : Fin 4096, A (ix2 (j 0) k) * B (ix2 (j 1) k)

/-- Row `r` of `A` (2048×4096) against row `o` of `B` (4096×4096): `∑ k, A[r,k]·B[o,k]`. -/
def projOut (A : S2048x4096.Idx → EReal) (B : S4096x4096.Idx → EReal) : S2048x4096.Idx → EReal :=
  fun j => ∑ k : Fin 4096, A (ix2 (j 0) k) * B (ix2 (j 1) k)

end Cert.Spec

end
-- ==== Proof.LibRowDot.lean ====
/-
  A matrix product whose right operand is contracted on its last axis, read at an index on the extended reals.

  For an `M×K` by `N×K` contraction (left axis 1 against right axis 1, no batch axis) the element at `(r, c)` of
  a matrix-unit product into a zero accumulator is the sum over `k : Fin K` of `l (r, k) * w (c, k)`: a row of the
  left operand against a ROW of the right operand. The contraction's one-axis index type is re-indexed by its
  single coordinate.
-/
import Idealize.ShloMosaic.PureOps.Ideal.Laws
import Idealize.ShloMosaic.Lib.ValueIdx

noncomputable section

namespace Cert.RowDot

open Idealize.ShloMosaic Idealize.ShloMosaic.ValueIdx

/-- The contraction sum of an `M×K` by `N×K` product (right operand contracted on its last axis) at output
    index `j`, over `Fin K`. -/
theorem contr_sum (M K N : Nat) (l : (⟨2, ![M, K]⟩ : Shape).Idx → EReal) (w : (⟨2, ![N, K]⟩ : Shape).Idx → EReal)
    (j : (⟨2, ![M, N]⟩ : Shape).Idx) :
    (∑ q : (DotDims.transposedRhs M K N).contr.Idx,
        l ((DotDims.transposedRhs M K N).lhsIdx j q) * w ((DotDims.transposedRhs M K N).rhsIdx j q))
      = ∑ k : Fin K, l (ix2 (j 0) k) * w (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => rfl
      | ⟨1, _⟩ => exact hk)
  have er : (DotDims.transposedRhs M K N).rhsIdx j ((contrEquiv1 (DotDims.transposedRhs M K N) K rfl rfl).symm k)
      = ix2 (j 1) k :=
    funext fun a => Fin.ext (by
      match a with
      | ⟨0, _⟩ => rfl
      | ⟨1, _⟩ => exact hk)
  rw [el, er]
  rfl

/-- A matrix-unit product of a left operand against the rows of the right operand, into the zero accumulator,
    at an index. -/
theorem matmul_zero_apply (M K N : Nat) {φ₁ φ₂ : FTy} (prec : Option ContractPrecision)
    (l : FVec Ideal (⟨2, ![M, K]⟩ : Shape) φ₁) (w : FVec Ideal (⟨2, ![N, K]⟩ : Shape) φ₂) (j : (⟨2, ![M, N]⟩ : Shape).Idx) :
    FloatOps.matmul (DotDims.transposedRhs M K N) prec l w (constant (⟨2, ![M, N]⟩ : Shape) .f32 0x00000000#32) j
      = ∑ k : Fin K, l (ix2 (j 0) k) * w (ix2 (j 1) k) :=
  (Ideal.matmul_constant_zero_apply (DotDims.transposedRhs M K N) prec l w j).trans (contr_sum M K N l w j)

end Cert.RowDot

end
-- ==== Proof.MatVal.lean ====
/-
  The value of the two K-blocked matrix products, on the extended reals.

  Each output block of 512 × 1024 is computed over four consecutive grid points: the scratch is zeroed at the first,
  and at each point the product of the current 512 × 1024 block of the left array with the transpose of the current
  1024 × 1024 block of the right array (a row of one against a row of the other, over 1024 shared columns) is added
  to it; at the fourth point the scratch is written back as the output block. Addition of extended reals is
  commutative and associative, so the four partial sums added in order from zero are the one sum over all 4096
  columns — no finiteness is needed. The blocks written back tile the output array, which therefore ends at the
  whole-array projection of the two input arrays.
-/
import proofs.«122228_j43301860278716_2_alg».proof.Proof.Gen.KernelIdeal.Skeleton
import proofs.«122228_j43301860278716_2_alg».proof.Proof.Gen.KernelIdeal.Launch
import proofs.«122228_j43301860278716_2_alg».proof.Proof.Gen.KernelIdeal.Points
import proofs.«122228_j43301860278716_2_alg».proof.Proof.Spec
import proofs.«122228_j43301860278716_2_alg».proof.Proof.LibRowDot
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.MatVal

open Cert.KernelIdeal Cert.KernelIdeal.Gen

/-! ## The payloads at an index -/

/-- The reset block is zero everywhere. -/
theorem pay1_apply (j : S512x1024.Idx) : k0_pay1 (F := Ideal) j = 0 := by
  unfold k0_pay1
  rw [shapeCast_self]
  exact Ideal.ofBits_zero_f32

/-- One accumulation step at an index: what was there plus the row of the left block against the row of the right
    block over the 1024 shared columns. -/
theorem pay2_apply (a : Vec Ideal S512x1024 .f32) (b : Vec Ideal S1024x1024 .f32) (s : Vec Ideal S512x1024 .f32)
    (j : S512x1024.Idx) : k0_pay2 a b s j = s j + ∑ k : Fin 1024, a (ix2 (j 0) k) * b (ix2 (j 1) k) := by
  unfold k0_pay2
  simp only [shapeCast_self]
  rw [addf_apply]
  congr 1
  exact Cert.RowDot.matmul_zero_apply 512 1024 1024 none _ _ j

theorem pay1_apply2 (j : S512x1024.Idx) : k2_pay1 (F := Ideal) j = 0 := by
  unfold k2_pay1
  rw [shapeCast_self]
  exact Ideal.ofBits_zero_f32

theorem pay2_apply2 (a : Vec Ideal S512x1024 .f32) (b : Vec Ideal S1024x1024 .f32) (s : Vec Ideal S512x1024 .f32)
    (j : S512x1024.Idx) : k2_pay2 a b s j = s j + ∑ k : Fin 1024, a (ix2 (j 0) k) * b (ix2 (j 1) k) := by
  unfold k2_pay2
  simp only [shapeCast_self]
  rw [addf_apply]
  congr 1
  exact Cert.RowDot.matmul_zero_apply 512 1024 1024 none _ _ j

/-! ## Four chunks of a sum -/

/-- A sum over four consecutive runs of `n` naturals, accumulated from zero run by run, is the sum over the `4n`. -/
theorem mv_sum4 {M : Type*} [AddCommMonoid M] (n : ℕ) (f : ℕ → M) :
    (((0 + ∑ k : Fin n, f (0 + k)) + ∑ k : Fin n, f (n + k)) + ∑ k : Fin n, f (n + n + k)) + ∑ k : Fin n, f (n + n + n + k)
      = ∑ k : Fin (n + n + n + n), f k := by
  simp only [Nat.zero_add]
  rw [zero_add, ← Finset.sum_range (fun k => f k), ← Finset.sum_range (fun k => f (n + k)),
    ← Finset.sum_range (fun k => f (n + n + k)), ← Finset.sum_range (fun k => f (n + n + n + k)),
    ← Finset.sum_range (fun k => f k), Finset.sum_range_add, Finset.sum_range_add, Finset.sum_range_add]

/-! ## Region 0: where a block's element sits in its array -/

section Region0

variable {Ix : Type} [DecidableEq Ix] {Name : Type} [DecidableEq Name] {U : Type} [Idealize.SL.RA.URA U] {Lvl : Type}

/-- The block indices of the three windows at point `t` of the 4 × 6 × 4 grid (last axis fastest). -/
theorem mv_idx0 : ∀ t : Fin cfg0.N,
    win0_0.index t (0 : Fin 2) = t.val / 24 ∧ win0_0.index t (1 : Fin 2) = t.val % 4
    ∧ win0_1.index t (0 : Fin 2) = t.val / 4 % 6 ∧ win0_1.index t (1 : Fin 2) = t.val % 4
    ∧ win0_2.index t (0 : Fin 2) = t.val / 24 ∧ win0_2.index t (1 : Fin 2) = t.val / 4 % 6 :=
  (by decide +kernel : ∀ t : Fin grid0.N, _)

/-- An element of the left operand's block at point `t`: row block `t / 24`, column block `t % 4`. -/
theorem mv_blk0_0 (c : Dev nD) (dat : Dat τ (Elt Ideal) Ix Name U Lvl cfg0 c) (t : Fin cfg0.N)
    (A0 : S2048x4096.Idx → EReal) (hA0 : dat.A 0 = A0) (a : S512x1024.Idx → EReal) (ha : dat.blockOf 0 t = a)
    (p : Fin 512) (k : Fin 1024) (r : Fin 2048) (q : Fin 4096)
    (hr : r.val = t.val / 24 * 512 + p.val) (hq : q.val = t.val % 4 * 1024 + k.val) :
    a (ix2 p k) = A0 (ix2 r q) := by
  obtain ⟨e0, e1, -⟩ := mv_idx0 t
  subst hA0 ha
  unfold Pipeline.Dat.blockOf
  rw [View.read_apply]
  show (dat.A 0 : S2048x4096.Idx → EReal) _ = (dat.A 0 : S2048x4096.Idx → EReal) _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = q.val; rw [e1, hq]; omega

/-- An element of the right operand's block at point `t`: row block `t / 4 % 6`, column block `t % 4`. -/
theorem mv_blk0_1 (c : Dev nD) (dat : Dat τ (Elt Ideal) Ix Name U Lvl cfg0 c) (t : Fin cfg0.N)
    (A1 : S6144x4096.Idx → EReal) (hA1 : dat.A 1 = A1) (b : S1024x1024.Idx → EReal) (hb : dat.blockOf 1 t = b)
    (p : Fin 1024) (k : Fin 1024) (r : Fin 6144) (q : Fin 4096)
    (hr : r.val = t.val / 4 % 6 * 1024 + p.val) (hq : q.val = t.val % 4 * 1024 + k.val) :
    b (ix2 p k) = A1 (ix2 r q) := by
  obtain ⟨-, -, e0, e1, -⟩ := mv_idx0 t
  subst hA1 hb
  unfold Pipeline.Dat.blockOf
  rw [View.read_apply]
  show (dat.A 1 : S6144x4096.Idx → EReal) _ = (dat.A 1 : S6144x4096.Idx → EReal) _
  congr 1
  funext a
  apply Fin.ext
  match a with
  | ⟨0, _⟩ => show win0_1.index t (0 : Fin 2) * 1024 + 1 * p.val = r.val; rw [e0, hr]; omega
  | ⟨1, _⟩ => show win0_1.index t (1 : Fin 2) * 1024 + 1 * k.val = q.val; rw [e1, hq]; omega

end Region0

/-- Four accumulation steps from the zero block, at an index, when each step's products are the values of one function
    of the column's number on that step's run of 1024 columns: the sum of that function over the 4096 columns. -/
theorem mv_acc_pure (a0 a1 a2 a3 : Vec Ideal S512x1024 .f32) (b0 b1 b2 b3 : Vec Ideal S1024x1024 .f32) (f : ℕ → EReal)
    (p : Fin 512) (o : Fin 1024)
    (h0 : ∀ k : Fin 1024, a0 (ix2 p k) * b0 (ix2 o k) = f (0 + k.val))
    (h1 : ∀ k : Fin 1024, a1 (ix2 p k) * b1 (ix2 o k) = f (1024 + k.val))
    (h2 : ∀ k : Fin 1024, a2 (ix2 p k) * b2 (ix2 o k) = f (1024 + 1024 + k.val))
    (h3 : ∀ k : Fin 1024, a3 (ix2 p k) * b3 (ix2 o k) = f (1024 + 1024 + 1024 + k.val)) :
    k0_pay2 a3 b3 (k0_pay2 a2 b2 (k0_pay2 a1 b1 (k0_pay2 a0 b0 (k0_pay1 (F := Ideal))))) (ix2 p o)
      = ∑ k : Fin (1024 + 1024 + 1024 + 1024), f k.val := by
  rw [pay2_apply, pay2_apply, pay2_apply, pay2_apply, pay1_apply]
  show (((0 + ∑ k : Fin 1024, a0 (ix2 p k) * b0 (ix2 o k)) + ∑ k : Fin 1024, a1 (ix2 p k) * b1 (ix2 o k))
      + ∑ k : Fin 1024, a2 (ix2 p k) * b2 (ix2 o k)) + ∑ k : Fin 1024, a3 (ix2 p k) * b3 (ix2 o k) = _
  rw [Finset.sum_congr rfl fun k _ => h0 k, Finset.sum_congr rfl fun k _ => h1 k, Finset.sum_congr rfl fun k _ => h2 k,
    Finset.sum_congr rfl fun k _ => h3 k]
  exact mv_sum4 1024 f

section Region0Val

variable {Ix : Type} [DecidableEq Ix] {Name : Type} [DecidableEq Name] {U : Type} [Idealize.SL.RA.URA U] {Lvl : Type}

/-- The accumulator at the last of a block's four points, at an index: the four chunks of 1024 columns, added from zero
    in order, are the whole row-against-row sum over the 4096 columns. -/
theorem mv_acc0 (c : Dev nD) (dat : Dat τ (Elt Ideal) Ix Name U Lvl cfg0 c)
    (A0 : S2048x4096.Idx → EReal) (hA0 : dat.A 0 = A0) (A1 : S6144x4096.Idx → EReal) (hA1 : dat.A 1 = A1)
    (acc : (n : ℕ) → n < cfg0.N → Vec Ideal S512x1024 .f32)
    (hfirst : ∀ t : Fin cfg0.N, t.val % 4 = 0 → acc t.val t.isLt = k0_pay2 (dat.blockOf 0 t) (dat.blockOf 1 t) (k0_pay1 (F := Ideal)))
    (hnext : ∀ t : Fin cfg0.N, t.val % 4 ≠ 0 → acc t.val t.isLt = k0_pay2 (dat.blockOf 0 t) (dat.blockOf 1 t) (acc (t.val - 1) (Nat.lt_of_le_of_lt (Nat.sub_le _ _) t.isLt)))
    (t : Fin cfg0.N) (h3 : t.val % 4 = 3) (p : Fin 512) (o : Fin 1024) (r : Fin 2048) (q : Fin 6144)
    (hr : r.val = t.val / 24 * 512 + p.val) (hq : q.val = t.val / 4 % 6 * 1024 + o.val) :
    acc t.val t.isLt (ix2 p o) = ∑ k : Fin 4096, A0 (ix2 r k) * A1 (ix2 q k) := by
  have hN : t.val < 96 := lt_of_lt_of_eq t.isLt (show cfg0.N = 96 from N_0)
  obtain ⟨t1, ht1⟩ : ∃ u : Fin cfg0.N, u.val = t.val - 1 := ⟨⟨t.val - 1, Nat.lt_of_le_of_lt (Nat.sub_le _ _) t.isLt⟩, rfl⟩
  obtain ⟨t2, ht2⟩ : ∃ u : Fin cfg0.N, u.val = t1.val - 1 := ⟨⟨t1.val - 1, Nat.lt_of_le_of_lt (Nat.sub_le _ _) t1.isLt⟩, rfl⟩
  obtain ⟨t3, ht3⟩ : ∃ u : Fin cfg0.N, u.val = t2.val - 1 := ⟨⟨t2.val - 1, Nat.lt_of_le_of_lt (Nat.sub_le _ _) t2.isLt⟩, rfl⟩
  have same : ∀ (n n' : ℕ) (h : n < cfg0.N) (h' : n' < cfg0.N), n = n' → acc n h = acc n' h' := fun n n' h h' e => by subst e; rfl
  have e3 := hnext t (by omega)
  have e2 := hnext t1 (by omega)
  have e1 := hnext t2 (by omega)
  have e0 := hfirst t3 (by omega)
  rw [same _ _ _ t1.isLt ht1.symm] at e3
  rw [same _ _ _ t2.isLt ht2.symm] at e2
  rw [same _ _ _ t3.isLt ht3.symm] at e1
  -- the eight blocks as vectors of extended reals
  obtain ⟨a0, ha0⟩ : ∃ a : S512x1024.Idx → EReal, dat.blockOf 0 t3 = a := ⟨_, rfl⟩
  obtain ⟨a1, ha1⟩ : ∃ a : S512x1024.Idx → EReal, dat.blockOf 0 t2 = a := ⟨_, rfl⟩
  obtain ⟨a2, ha2⟩ : ∃ a : S512x1024.Idx → EReal, dat.blockOf 0 t1 = a := ⟨_, rfl⟩
  obtain ⟨a3, ha3⟩ : ∃ a : S512x1024.Idx → EReal, dat.blockOf 0 t = a := ⟨_, rfl⟩
  obtain ⟨b0, hb0⟩ : ∃ b : S1024x1024.Idx → EReal, dat.blockOf 1 t3 = b := ⟨_, rfl⟩
  obtain ⟨b1, hb1⟩ : ∃ b : S1024x1024.Idx → EReal, dat.blockOf 1 t2 = b := ⟨_, rfl⟩
  obtain ⟨b2, hb2⟩ : ∃ b : S1024x1024.Idx → EReal, dat.blockOf 1 t1 = b := ⟨_, rfl⟩
  obtain ⟨b3, hb3⟩ : ∃ b : S1024x1024.Idx → EReal, dat.blockOf 1 t = b := ⟨_, rfl⟩
  rw [ha3, hb3] at e3
  rw [ha2, hb2] at e2
  rw [ha1, hb1] at e1
  rw [ha0, hb0] at e0
  rw [e3, e2, e1, e0]
  -- the summand as a function of the column's number
  let f : ℕ → EReal := fun n => if h : n < 4096 then A0 (ix2 r ⟨n, h⟩) * A1 (ix2 q ⟨n, h⟩) else 0
  have key : ∀ (off : ℕ) (u : Fin cfg0.N) (a : S512x1024.Idx → EReal) (b : S1024x1024.Idx → EReal),
      dat.blockOf 0 u = a → dat.blockOf 1 u = b → off = u.val % 4 * 1024 → u.val / 24 = t.val / 24 → u.val / 4 % 6 = t.val / 4 % 6 →
      ∀ k : Fin 1024, a (ix2 p k) * b (ix2 o k) = f (off + k.val) := by
    intro off u a b ha hb hoff hu0 hu1 k
    have hk : off + k.val < 4096 := by have := k.isLt; omega
    rw [show f (off + k.val) = _ from dif_pos hk,
      mv_blk0_0 c dat u A0 hA0 a ha p k r ⟨off + k.val, hk⟩ (by rw [hr, hu0]) (by show off + k.val = _; rw [hoff]),
      mv_blk0_1 c dat u A1 hA1 b hb o k q ⟨off + k.val, hk⟩ (by rw [hq, hu1]) (by show off + k.val = _; rw [hoff])]
  rw [mv_acc_pure a0 a1 a2 a3 b0 b1 b2 b3 f p o
    (key 0 t3 a0 b0 ha0 hb0 (by omega) (by omega) (by omega)) (key 1024 t2 a1 b1 ha1 hb1 (by omega) (by omega) (by omega))
    (key (1024 + 1024) t1 a2 b2 ha2 hb2 (by omega) (by omega) (by omega))
    (key (1024 + 1024 + 1024) t a3 b3 ha3 hb3 (by omega) (by omega) (by omega))]
  exact Finset.sum_congr rfl fun k _ => dif_pos k.isLt

/-- **Region 0.** When the scratch follows the kernel's recursion (zeroed at the first of a block's four points, one
    step at each) and the output's staging buffer holds it at the fourth, the output array ends at the fused
    projection of the two input arrays. -/
theorem region0_val (c : Dev nD) (dat : Dat τ (Elt Ideal) Ix Name U Lvl cfg0 c)
    (acc : (n : ℕ) → n < cfg0.N → Vec Ideal S512x1024 .f32)
    (hfirst : ∀ t : Fin cfg0.N, t.val % 4 = 0 → acc t.val t.isLt = k0_pay2 (dat.blockOf 0 t) (dat.blockOf 1 t) (k0_pay1 (F := Ideal)))
    (hnext : ∀ t : Fin cfg0.N, t.val % 4 ≠ 0 → acc t.val t.isLt = k0_pay2 (dat.blockOf 0 t) (dat.blockOf 1 t) (acc (t.val - 1) (Nat.lt_of_le_of_lt (Nat.sub_le _ _) t.isLt)))
    (hafter : ∀ t : Fin cfg0.N, t.val % 4 = 3 → dat.after 2 t = acc t.val t.isLt) :
    dat.arrAt 2 cfg0.N = Cert.Spec.projQKV (dat.A 0) (dat.A 1) := by
  obtain ⟨A0, hA0⟩ : ∃ A : S2048x4096.Idx → EReal, dat.A 0 = A := ⟨_, rfl⟩
  obtain ⟨A1, hA1⟩ : ∃ A : S6144x4096.Idx → EReal, dat.A 1 = A := ⟨_, rfl⟩
  rw [hA0, hA1]
  refine dat.arrAt_eq_of_cover 2 (Cert.Spec.projQKV A0 A1) (fun t hf => ?_) (fun (i : S2048x6144.Idx) => ?_)
  · have h3 : t.val % 4 = 3 := (flush0_2 t).mp hf
    have hN : t.val < 96 := lt_of_lt_of_eq t.isLt (show cfg0.N = 96 from N_0)
    obtain ⟨-, -, -, -, e0, e1⟩ := mv_idx0 t
    show (cfg0.win 2).cut (grid0.coords t) (dat.after 2 t) = _
    rw [hafter t h3]
    funext y
    obtain ⟨p, o, rfl⟩ : ∃ (p : Fin 512) (o : Fin 1024), (y : S512x1024.Idx) = ix2 p o := ⟨y 0, y 1, eq_ix2 y⟩
    have hp := p.isLt
    have ho := o.isLt
    rw [View.read_apply, cast_eq]
    show acc t.val t.isLt (ix2 p o) = Cert.Spec.projQKV A0 A1 (((cfg0.win 2).blk t).view.emb (ix2 p o))
    exact mv_acc0 c dat A0 hA0 A1 hA1 acc hfirst hnext t h3 p o _ _
      (by show win0_2.index t (0 : Fin 2) * 512 + 1 * p.val = _; rw [e0]; omega)
      (by show win0_2.index t (1 : Fin 2) * 1024 + 1 * o.val = _; rw [e1]; omega)
  · have hi0 : (i 0).val < 2048 := (i 0).isLt
    have hi1 : (i 1).val < 6144 := (i 1).isLt
    obtain ⟨t, ht⟩ : ∃ t : Fin cfg0.N, t.val = ((i 0).val / 512 * 6 + (i 1).val / 1024) * 4 + 3 :=
      ⟨⟨((i 0).val / 512 * 6 + (i 1).val / 1024) * 4 + 3, by rw [show cfg0.N = 96 from N_0]; omega⟩, rfl⟩
    obtain ⟨-, -, -, -, e0, e1⟩ := mv_idx0 t
    refine ⟨t, (flush0_2 t).mpr (by omega), ?_⟩
    show i ∈ ((View.whole main_v2).slice (win0_2.rect t)).set
    rw [View.set_slice_whole, Rect.mem_set_unit]
    intro a
    match a with
    | ⟨0, _⟩ =>
      show win0_2.index t (0 : Fin 2) * 512 ≤ (i 0).val ∧ (i 0).val < win0_2.index t (0 : Fin 2) * 512 + 512
      rw [e0]; omega
    | ⟨1, _⟩ =>
      show win0_2.index t (1 : Fin 2) * 1024 ≤ (i 1).val ∧ (i 1).val < win0_2.index t (1 : Fin 2) * 1024 + 1024
      rw [e1]; omega

end Region0Val

/-! ## Region 2: the same for the output projection (grid 4 × 4 × 4) -/

section Region2

variable {Ix : Type} [DecidableEq Ix] {Name : Type} [DecidableEq Name] {U : Type} [Idealize.SL.RA.URA U] {Lvl : Type}

/-- The block indices of the three windows at point `t` of the 4 × 4 × 4 grid (last axis fastest). -/
theorem mv_idx2 : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = t.val / 16 ∧ win2_2.index t (1 : Fin 2) = t.val / 4 % 4 :=
  (by decide +kernel : ∀ t : Fin grid2.N, _)

/-- An element of the left operand's block at point `t`: row block `t / 16`, column block `t % 4`. -/
theorem mv_blk2_0 (c : Dev nD) (dat : Dat τ (Elt Ideal) Ix Name U Lvl cfg2 c) (t : Fin cfg2.N)
    (A0 : S2048x4096.Idx → EReal) (hA0 : dat.A 0 = A0) (a : S512x1024.Idx → EReal) (ha : dat.blockOf 0 t = a)
    (p : Fin 512) (k : Fin 1024) (r : Fin 2048) (q : Fin 4096)
    (hr : r.val = t.val / 16 * 512 + p.val) (hq : q.val = t.val % 4 * 1024 + k.val) :
    a (ix2 p k) = A0 (ix2 r q) := by
  obtain ⟨e0, e1, -⟩ := mv_idx2 t
  subst hA0 ha
  unfold Pipeline.Dat.blockOf
  rw [View.read_apply]
  show (dat.A 0 : S2048x4096.Idx → EReal) _ = (dat.A 0 : S2048x4096.Idx → EReal) _
  congr 1
  funext a
  apply Fin.ext
  match a with
  | ⟨0, _⟩ => show win2_0.index t (0 : Fin 2) * 512 + 1 * p.val = r.val; rw [e0, hr]; omega
  | ⟨1, _⟩ => show win2_0.index t (1 : Fin 2) * 1024 + 1 * k.val = q.val; rw [e1, hq]; omega

/-- An element of the right operand's block at point `t`: row block `t / 4 % 4`, column block `t % 4`. -/
theorem mv_blk2_1 (c : Dev nD) (dat : Dat τ (Elt Ideal) Ix Name U Lvl cfg2 c) (t : Fin cfg2.N)
    (A1 : S4096x4096.Idx → EReal) (hA1 : dat.A 1 = A1) (b : S1024x1024.Idx → EReal) (hb : dat.blockOf 1 t = b)
    (p : Fin 1024) (k : Fin 1024) (r : Fin 4096) (q : Fin 4096)
    (hr : r.val = t.val / 4 % 4 * 1024 + p.val) (hq : q.val = t.val % 4 * 1024 + k.val) :
    b (ix2 p k) = A1 (ix2 r q) := by
  obtain ⟨-, -, e0, e1, -⟩ := mv_idx2 t
  subst hA1 hb
  unfold Pipeline.Dat.blockOf
  rw [View.read_apply]
  show (dat.A 1 : S4096x4096.Idx → EReal) _ = (dat.A 1 : S4096x4096.Idx → EReal) _
  congr 1
  funext a
  apply Fin.ext
  match a with
  | ⟨0, _⟩ => show win2_1.index t (0 : Fin 2) * 1024 + 1 * p.val = r.val; rw [e0, hr]; omega
  | ⟨1, _⟩ => show win2_1.index t (1 : Fin 2) * 1024 + 1 * k.val = q.val; rw [e1, hq]; omega

end Region2

/-- Four accumulation steps from the zero block, at an index, when each step's products are the values of one function
    of the column's number on that step's run of 1024 columns: the sum of that function over the 4096 columns. -/
theorem mv_acc_pure2 (a0 a1 a2 a3 : Vec Ideal S512x1024 .f32) (b0 b1 b2 b3 : Vec Ideal S1024x1024 .f32) (f : ℕ → EReal)
    (p : Fin 512) (o : Fin 1024)
    (h0 : ∀ k : Fin 1024, a0 (ix2 p k) * b0 (ix2 o k) = f (0 + k.val))
    (h1 : ∀ k : Fin 1024, a1 (ix2 p k) * b1 (ix2 o k) = f (1024 + k.val))
    (h2 : ∀ k : Fin 1024, a2 (ix2 p k) * b2 (ix2 o k) = f (1024 + 1024 + k.val))
    (h3 : ∀ k : Fin 1024, a3 (ix2 p k) * b3 (ix2 o k) = f (1024 + 1024 + 1024 + k.val)) :
    k2_pay2 a3 b3 (k2_pay2 a2 b2 (k2_pay2 a1 b1 (k2_pay2 a0 b0 (k2_pay1 (F := Ideal))))) (ix2 p o)
      = ∑ k : Fin (1024 + 1024 + 1024 + 1024), f k.val := by
  rw [pay2_apply2, pay2_apply2, pay2_apply2, pay2_apply2, pay1_apply2]
  show (((0 + ∑ k : Fin 1024, a0 (ix2 p k) * b0 (ix2 o k)) + ∑ k : Fin 1024, a1 (ix2 p k) * b1 (ix2 o k))
      + ∑ k : Fin 1024, a2 (ix2 p k) * b2 (ix2 o k)) + ∑ k : Fin 1024, a3 (ix2 p k) * b3 (ix2 o k) = _
  rw [Finset.sum_congr rfl fun k _ => h0 k, Finset.sum_congr rfl fun k _ => h1 k, Finset.sum_congr rfl fun k _ => h2 k,
    Finset.sum_congr rfl fun k _ => h3 k]
  exact mv_sum4 1024 f

section Region2Val

variable {Ix : Type} [DecidableEq Ix] {Name : Type} [DecidableEq Name] {U : Type} [Idealize.SL.RA.URA U] {Lvl : Type}

/-- The accumulator at the last of a block's four points, at an index: the four chunks of 1024 columns, added from zero
    in order, are the whole row-against-row sum over the 4096 columns. -/
theorem mv_acc2 (c : Dev nD) (dat : Dat τ (Elt Ideal) Ix Name U Lvl cfg2 c)
    (A0 : S2048x4096.Idx → EReal) (hA0 : dat.A 0 = A0) (A1 : S4096x4096.Idx → EReal) (hA1 : dat.A 1 = A1)
    (acc : (n : ℕ) → n < cfg2.N → Vec Ideal S512x1024 .f32)
    (hfirst : ∀ t : Fin cfg2.N, t.val % 4 = 0 → acc t.val t.isLt = k2_pay2 (dat.blockOf 0 t) (dat.blockOf 1 t) (k2_pay1 (F := Ideal)))
    (hnext : ∀ t : Fin cfg2.N, t.val % 4 ≠ 0 → acc t.val t.isLt = k2_pay2 (dat.blockOf 0 t) (dat.blockOf 1 t) (acc (t.val - 1) (Nat.lt_of_le_of_lt (Nat.sub_le _ _) t.isLt)))
    (t : Fin cfg2.N) (h3 : t.val % 4 = 3) (p : Fin 512) (o : Fin 1024) (r : Fin 2048) (q : Fin 4096)
    (hr : r.val = t.val / 16 * 512 + p.val) (hq : q.val = t.val / 4 % 4 * 1024 + o.val) :
    acc t.val t.isLt (ix2 p o) = ∑ k : Fin 4096, A0 (ix2 r k) * A1 (ix2 q k) := by
  have hN : t.val < 64 := lt_of_lt_of_eq t.isLt (show cfg2.N = 64 from N_2)
  obtain ⟨t1, ht1⟩ : ∃ u : Fin cfg2.N, u.val = t.val - 1 := ⟨⟨t.val - 1, Nat.lt_of_le_of_lt (Nat.sub_le _ _) t.isLt⟩, rfl⟩
  obtain ⟨t2, ht2⟩ : ∃ u : Fin cfg2.N, u.val = t1.val - 1 := ⟨⟨t1.val - 1, Nat.lt_of_le_of_lt (Nat.sub_le _ _) t1.isLt⟩, rfl⟩
  obtain ⟨t3, ht3⟩ : ∃ u : Fin cfg2.N, u.val = t2.val - 1 := ⟨⟨t2.val - 1, Nat.lt_of_le_of_lt (Nat.sub_le _ _) t2.isLt⟩, rfl⟩
  have same : ∀ (n n' : ℕ) (h : n < cfg2.N) (h' : n' < cfg2.N), n = n' → acc n h = acc n' h' := fun n n' h h' e => by subst e; rfl
  have e3 := hnext t (by omega)
  have e2 := hnext t1 (by omega)
  have e1 := hnext t2 (by omega)
  have e0 := hfirst t3 (by omega)
  rw [same _ _ _ t1.isLt ht1.symm] at e3
  rw [same _ _ _ t2.isLt ht2.symm] at e2
  rw [same _ _ _ t3.isLt ht3.symm] at e1
  -- the eight blocks as vectors of extended reals
  obtain ⟨a0, ha0⟩ : ∃ a : S512x1024.Idx → EReal, dat.blockOf 0 t3 = a := ⟨_, rfl⟩
  obtain ⟨a1, ha1⟩ : ∃ a : S512x1024.Idx → EReal, dat.blockOf 0 t2 = a := ⟨_, rfl⟩
  obtain ⟨a2, ha2⟩ : ∃ a : S512x1024.Idx → EReal, dat.blockOf 0 t1 = a := ⟨_, rfl⟩
  obtain ⟨a3, ha3⟩ : ∃ a : S512x1024.Idx → EReal, dat.blockOf 0 t = a := ⟨_, rfl⟩
  obtain ⟨b0, hb0⟩ : ∃ b : S1024x1024.Idx → EReal, dat.blockOf 1 t3 = b := ⟨_, rfl⟩
  obtain ⟨b1, hb1⟩ : ∃ b : S1024x1024.Idx → EReal, dat.blockOf 1 t2 = b := ⟨_, rfl⟩
  obtain ⟨b2, hb2⟩ : ∃ b : S1024x1024.Idx → EReal, dat.blockOf 1 t1 = b := ⟨_, rfl⟩
  obtain ⟨b3, hb3⟩ : ∃ b : S1024x1024.Idx → EReal, dat.blockOf 1 t = b := ⟨_, rfl⟩
  rw [ha3, hb3] at e3
  rw [ha2, hb2] at e2
  rw [ha1, hb1] at e1
  rw [ha0, hb0] at e0
  rw [e3, e2, e1, e0]
  -- the summand as a function of the column's number
  let f : ℕ → EReal := fun n => if h : n < 4096 then A0 (ix2 r ⟨n, h⟩) * A1 (ix2 q ⟨n, h⟩) else 0
  have key : ∀ (off : ℕ) (u : Fin cfg2.N) (a : S512x1024.Idx → EReal) (b : S1024x1024.Idx → EReal),
      dat.blockOf 0 u = a → dat.blockOf 1 u = b → off = u.val % 4 * 1024 → u.val / 16 = t.val / 16 → u.val / 4 % 4 = t.val / 4 % 4 →
      ∀ k : Fin 1024, a (ix2 p k) * b (ix2 o k) = f (off + k.val) := by
    intro off u a b ha hb hoff hu0 hu1 k
    have hk : off + k.val < 4096 := by have := k.isLt; omega
    rw [show f (off + k.val) = _ from dif_pos hk,
      mv_blk2_0 c dat u A0 hA0 a ha p k r ⟨off + k.val, hk⟩ (by rw [hr, hu0]) (by show off + k.val = _; rw [hoff]),
      mv_blk2_1 c dat u A1 hA1 b hb o k q ⟨off + k.val, hk⟩ (by rw [hq, hu1]) (by show off + k.val = _; rw [hoff])]
  rw [mv_acc_pure2 a0 a1 a2 a3 b0 b1 b2 b3 f p o
    (key 0 t3 a0 b0 ha0 hb0 (by omega) (by omega) (by omega)) (key 1024 t2 a1 b1 ha1 hb1 (by omega) (by omega) (by omega))
    (key (1024 + 1024) t1 a2 b2 ha2 hb2 (by omega) (by omega) (by omega))
    (key (1024 + 1024 + 1024) t a3 b3 ha3 hb3 (by omega) (by omega) (by omega))]
  exact Finset.sum_congr rfl fun k _ => dif_pos k.isLt

/-- **Region 2.** When the scratch follows the kernel's recursion (zeroed at the first of a block's four points, one
    step at each) and the output's staging buffer holds it at the fourth, the output array ends at the output
    projection of the two input arrays. -/
theorem region2_val (c : Dev nD) (dat : Dat τ (Elt Ideal) Ix Name U Lvl cfg2 c)
    (acc : (n : ℕ) → n < cfg2.N → Vec Ideal S512x1024 .f32)
    (hfirst : ∀ t : Fin cfg2.N, t.val % 4 = 0 → acc t.val t.isLt = k2_pay2 (dat.blockOf 0 t) (dat.blockOf 1 t) (k2_pay1 (F := Ideal)))
    (hnext : ∀ t : Fin cfg2.N, t.val % 4 ≠ 0 → acc t.val t.isLt = k2_pay2 (dat.blockOf 0 t) (dat.blockOf 1 t) (acc (t.val - 1) (Nat.lt_of_le_of_lt (Nat.sub_le _ _) t.isLt)))
    (hafter : ∀ t : Fin cfg2.N, t.val % 4 = 3 → dat.after 2 t = acc t.val t.isLt) :
    dat.arrAt 2 cfg2.N = Cert.Spec.projOut (dat.A 0) (dat.A 1) := by
  obtain ⟨A0, hA0⟩ : ∃ A : S2048x4096.Idx → EReal, dat.A 0 = A := ⟨_, rfl⟩
  obtain ⟨A1, hA1⟩ : ∃ A : S4096x4096.Idx → EReal, dat.A 1 = A := ⟨_, rfl⟩
  rw [hA0, hA1]
  refine dat.arrAt_eq_of_cover 2 (Cert.Spec.projOut A0 A1) (fun t hf => ?_) (fun (i : S2048x4096.Idx) => ?_)
  · have h3 : t.val % 4 = 3 := (flush2_2 t).mp hf
    have hN : t.val < 64 := lt_of_lt_of_eq t.isLt (show cfg2.N = 64 from N_2)
    obtain ⟨-, -, -, -, e0, e1⟩ := mv_idx2 t
    show (cfg2.win 2).cut (grid2.coords t) (dat.after 2 t) = _
    rw [hafter t h3]
    funext y
    obtain ⟨p, o, rfl⟩ : ∃ (p : Fin 512) (o : Fin 1024), (y : S512x1024.Idx) = ix2 p o := ⟨y 0, y 1, eq_ix2 y⟩
    have hp := p.isLt
    have ho := o.isLt
    rw [View.read_apply, cast_eq]
    show acc t.val t.isLt (ix2 p o) = Cert.Spec.projOut A0 A1 (((cfg2.win 2).blk t).view.emb (ix2 p o))
    exact mv_acc2 c dat A0 hA0 A1 hA1 acc hfirst hnext t h3 p o _ _
      (by show win2_2.index t (0 : Fin 2) * 512 + 1 * p.val = _; rw [e0]; omega)
      (by show win2_2.index t (1 : Fin 2) * 1024 + 1 * o.val = _; rw [e1]; omega)
  · have hi0 : (i 0).val < 2048 := (i 0).isLt
    have hi1 : (i 1).val < 4096 := (i 1).isLt
    obtain ⟨t, ht⟩ : ∃ t : Fin cfg2.N, t.val = ((i 0).val / 512 * 4 + (i 1).val / 1024) * 4 + 3 :=
      ⟨⟨((i 0).val / 512 * 4 + (i 1).val / 1024) * 4 + 3, by rw [show cfg2.N = 64 from N_2]; omega⟩, rfl⟩
    obtain ⟨-, -, -, -, e0, e1⟩ := mv_idx2 t
    refine ⟨t, (flush2_2 t).mpr (by omega), ?_⟩
    show i ∈ ((View.whole main_v16).slice (win2_2.rect t)).set
    rw [View.set_slice_whole, Rect.mem_set_unit]
    intro a
    match a with
    | ⟨0, _⟩ =>
      show win2_2.index t (0 : Fin 2) * 512 ≤ (i 0).val ∧ (i 0).val < win2_2.index t (0 : Fin 2) * 512 + 512
      rw [e0]; omega
    | ⟨1, _⟩ =>
      show win2_2.index t (1 : Fin 2) * 1024 ≤ (i 1).val ∧ (i 1).val < win2_2.index t (1 : Fin 2) * 1024 + 1024
      rw [e1]; omega

end Region2Val

end Cert.KernelIdeal.MatVal

end
-- ==== Proof.MatArr.lean ====
/-
  The two K-blocked matrix products joined to the regions' proof data: with the arrays as the region finds them, the
  output array of the first ends at the fused projection of the reshaped input and the stacked weights, and the output
  array of the last at the output projection of the attention result and its weight.
-/
import proofs.«122228_j43301860278716_2_alg».proof.Proof.MatVal
import proofs.«122228_j43301860278716_2_alg».proof.Proof.KI.Body0
import proofs.«122228_j43301860278716_2_alg».proof.Proof.KI.Body2

noncomputable section

open Idealize.ShloMosaic Idealize.ShloMosaic.TcCoe Idealize.SL.Sem Idealize.ShloMosaic.ValueIdx
open Idealize.ShloMosaic.Pipeline (Dat)

namespace Cert.KernelIdeal.MatVal

open Cert.KernelIdeal Cert.KernelIdeal.Gen Cert.KernelIdeal.Hand

variable (V : (c : Dev nD) → (b : Ref sig .tc) → Buf (Elt Ideal) ((c : Thread nD τ).loc b))

/-- What the first region's fetch reads at a point is the window's block of the array as the region finds it. -/
theorem mv_blockOf0 (c : Dev nD) (w : Fin cfg0.W) (t : Fin cfg0.N) : (dat0 V c).blockOf w t = iblk0 V c w t := by
  unfold Pipeline.Dat.blockOf iblk0
  rw [A_eq0]

/-- **The first region's output array**: the fused projection of its two input arrays as the region finds them. -/
theorem reg0_array (c : Dev nD) :
    (dat0 V c).arrAt 2 cfg0.N = Cert.Spec.projQKV (V c main_v0) (V c main_v1) := by
  have h := region0_val c (dat0 V c) (acc0 V c)
    (fun t ht => by rw [mv_blockOf0, mv_blockOf0]; exact acc0_first V c t ht)
    (fun t ht => by rw [mv_blockOf0, mv_blockOf0]; exact acc0_next V c t ht)
    (fun t _ => after0_2 V c t)
  rw [A_eq0, A_eq0] at h
  exact h

/-- What the last region's fetch reads at a point is the window's block of the array as the region finds it. -/
theorem mv_blockOf2 (c : Dev nD) (w : Fin cfg2.W) (t : Fin cfg2.N) : (dat2 V c).blockOf w t = iblk2 V c w t := by
  unfold Pipeline.Dat.blockOf iblk2
  rw [A_eq2]

/-- **The last region's output array**: the output projection of its two input arrays as the region finds them. -/
theorem reg2_array (c : Dev nD) :
    (dat2 V c).arrAt 2 cfg2.N = Cert.Spec.projOut (V c main_v15) (V c main_arg5) := by
  have h := region2_val c (dat2 V c) (acc2 V c)
    (fun t ht => by rw [mv_blockOf2, mv_blockOf2]; exact acc2_first V c t ht)
    (fun t ht => by rw [mv_blockOf2, mv_blockOf2]; exact acc2_next V c t ht)
    (fun t _ => after2_2 V c t)
  rw [A_eq2, A_eq2] at h
  exact h

end Cert.KernelIdeal.MatVal

end
-- ==== Proof.Val1.lean ====
/-
  Region 1's output array from its blocks. The attention call's output window tiles the 2×32×1024×128 array by its 64
  slabs (b, h, :, :): grid point t = 32·b + h writes slab (b, h) back, at every point. So if what each point leaves in
  the window's buffer is slab (t / 32, t % 32) of ONE whole-array function G, the array ends holding G.
-/
import proofs.«122228_j43301860278716_2_alg».proof.Proof.Gen.KernelIdeal.Launch
import proofs.«122228_j43301860278716_2_alg».proof.Proof.Gen.KernelIdeal.Points
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]

/-- The output window's block index at point t is (t / 32, t % 32, 0, 0): decided over the 64 points. -/
theorem slab_index : ∀ t : Fin cfg1.N, win1_6.index t (0 : Fin 4) = t.val / 32 ∧ win1_6.index t (1 : Fin 4) = t.val % 32
    ∧ win1_6.index t (2 : Fin 4) = 0 ∧ win1_6.index t (3 : Fin 4) = 0 :=
  (by decide +kernel : ∀ t : Fin grid1.N, _)

/-- Every slab (b, h) is some point's. -/
theorem slab_onto : ∀ (b : Fin 2) (h : Fin 32), ∃ t : Fin cfg1.N, win1_6.index t = ![b.val, h.val, 0, 0] :=
  (by decide +kernel : ∀ (b : Fin 2) (h : Fin 32), ∃ t : Fin grid1.N, win1_6.index t = ![b.val, h.val, 0, 0])

theorem t_lt_64 (t : Fin cfg1.N) : t.val < 64 := lt_of_lt_of_eq t.isLt (show cfg1.N = 64 from N_1)

/-- The whole-array index of entry y of point t's slab. -/
def slabIdx (t : Fin cfg1.N) (y : S1x1x1024x128.Idx) : S2x32x1024x128.Idx :=
  ix4 (⟨t.val / 32, by have := t_lt_64 t; omega⟩ : Fin 2) (⟨t.val % 32, Nat.mod_lt _ (by decide)⟩ : Fin 32) (y 2) (y 3)

/-! ## What the six input windows read at a point

The query window reads the same slab (t / 32, t % 32) as the output; the key and value windows read slab
(t / 32, (t % 32) / 4) of their 2×8×1024×128 arrays — four query heads share one key/value head —; the rotary table and
the two norm weights are read whole at every point. -/

/-- The input windows' block indices, decided over the 64 points. -/
theorem in_index : ∀ t : Fin cfg1.N,
    (win1_0.index t (0 : Fin 4) = t.val / 32 ∧ win1_0.index t (1 : Fin 4) = t.val % 32 ∧ win1_0.index t (2 : Fin 4) = 0 ∧ win1_0.index t (3 : Fin 4) = 0)
    ∧ (win1_1.index t (0 : Fin 4) = t.val / 32 ∧ win1_1.index t (1 : Fin 4) = t.val % 32 / 4 ∧ win1_1.index t (2 : Fin 4) = 0 ∧ win1_1.index t (3 : Fin 4) = 0)
    ∧ (win1_2.index t (0 : Fin 4) = t.val / 32 ∧ win1_2.index t (1 : Fin 4) = t.val % 32 / 4 ∧ win1_2.index t (2 : Fin 4) = 0 ∧ win1_2.index t (3 : Fin 4) = 0)
    ∧ (win1_3.index t (0 : Fin 3) = 0 ∧ win1_3.index t (1 : Fin 3) = 0 ∧ win1_3.index t (2 : Fin 3) = 0)
    ∧ win1_4.index t (0 : Fin 1) = 0 ∧ win1_5.index t (0 : Fin 1) = 0 :=
  (by decide +kernel : ∀ t : Fin grid1.N, _)

/-- The key/value array index of entry y of point t's key/value slab. -/
def kvIdx (t : Fin cfg1.N) (y : S1x1x1024x128.Idx) : S2x8x1024x128.Idx :=
  ix4 (⟨t.val / 32, by have := t_lt_64 t; omega⟩ : Fin 2) (⟨t.val % 32 / 4, by have := t_lt_64 t; omega⟩ : Fin 8) (y 2) (y 3)

theorem read_q (A : S2x32x1024x128.Idx → Elt F .f32) (t : Fin cfg1.N) (y : S1x1x1024x128.Idx) :
    ((cfg1.win 0).blk t).view.read (Elt F) A y = A (slabIdx t y) := by
  obtain ⟨⟨e0, e1, e2, e3⟩, -⟩ := in_index t
  show A (((cfg1.win 0).blk t).view.emb y) = A (slabIdx t y)
  refine congrArg A ?_
  funext a; apply Fin.ext
  match a with
  | ⟨0, _⟩ => show win1_0.index t (0 : Fin 4) * 1 + 1 * (y 0).val = t.val / 32; have hj : (y 0).val < 1 := (y 0).isLt; omega
  | ⟨1, _⟩ => show win1_0.index t (1 : Fin 4) * 1 + 1 * (y 1).val = t.val % 32; have hj : (y 1).val < 1 := (y 1).isLt; omega
  | ⟨2, _⟩ => show win1_0.index t (2 : Fin 4) * 1024 + 1 * (y 2).val = (y 2).val; omega
  | ⟨3, _⟩ => show win1_0.index t (3 : Fin 4) * 128 + 1 * (y 3).val = (y 3).val; omega

theorem read_k (A : S2x8x1024x128.Idx → Elt F .f32) (t : Fin cfg1.N) (y : S1x1x1024x128.Idx) :
    ((cfg1.win 1).blk t).view.read (Elt F) A y = A (kvIdx t y) := by
  obtain ⟨-, ⟨e0, e1, e2, e3⟩, -⟩ := in_index t
  show A (((cfg1.win 1).blk t).view.emb y) = A (kvIdx t y)
  refine congrArg A ?_
  funext a; apply Fin.ext
  match a with
  | ⟨0, _⟩ => show win1_1.index t (0 : Fin 4) * 1 + 1 * (y 0).val = t.val / 32; have hj : (y 0).val < 1 := (y 0).isLt; omega
  | ⟨1, _⟩ => show win1_1.index t (1 : Fin 4) * 1 + 1 * (y 1).val = t.val % 32 / 4; have hj : (y 1).val < 1 := (y 1).isLt; omega
  | ⟨2, _⟩ => show win1_1.index t (2 : Fin 4) * 1024 + 1 * (y 2).val = (y 2).val; omega
  | ⟨3, _⟩ => show win1_1.index t (3 : Fin 4) * 128 + 1 * (y 3).val = (y 3).val; omega

theorem read_v (A : S2x8x1024x128.Idx → Elt F .f32) (t : Fin cfg1.N) (y : S1x1x1024x128.Idx) :
    ((cfg1.win 2).blk t).view.read (Elt F) A y = A (kvIdx t y) := by
  obtain ⟨-, -, ⟨e0, e1, e2, e3⟩, -⟩ := in_index t
  show A (((cfg1.win 2).blk t).view.emb y) = A (kvIdx t y)
  refine congrArg A ?_
  funext a; apply Fin.ext
  match a with
  | ⟨0, _⟩ => show win1_2.index t (0 : Fin 4) * 1 + 1 * (y 0).val = t.val / 32; have hj : (y 0).val < 1 := (y 0).isLt; omega
  | ⟨1, _⟩ => show win1_2.index t (1 : Fin 4) * 1 + 1 * (y 1).val = t.val % 32 / 4; have hj : (y 1).val < 1 := (y 1).isLt; omega
  | ⟨2, _⟩ => show win1_2.index t (2 : Fin 4) * 1024 + 1 * (y 2).val = (y 2).val; omega
  | ⟨3, _⟩ => show win1_2.index t (3 : Fin 4) * 128 + 1 * (y 3).val = (y 3).val; omega

theorem read_tab (A : S3x1024x128.Idx → Elt F .f32) (t : Fin cfg1.N) (y : S3x1024x128.Idx) :
    ((cfg1.win 3).blk t).view.read (Elt F) A y = A y := by
  obtain ⟨-, -, -, ⟨e0, e1, e2⟩, -⟩ := in_index t
  show A (((cfg1.win 3).blk t).view.emb y) = A y
  refine congrArg A ?_
  funext a; apply Fin.ext
  match a with
  | ⟨0, _⟩ => show win1_3.index t (0 : Fin 3) * 3 + 1 * (y 0).val = (y 0).val; omega
  | ⟨1, _⟩ => show win1_3.index t (1 : Fin 3) * 1024 + 1 * (y 1).val = (y 1).val; omega
  | ⟨2, _⟩ => show win1_3.index t (2 : Fin 3) * 128 + 1 * (y 2).val = (y 2).val; omega

theorem read_qw (A : S128.Idx → Elt F .f32) (t : Fin cfg1.N) (y : S128.Idx) :
    ((cfg1.win 4).blk t).view.read (Elt F) A y = A y := by
  obtain ⟨-, -, -, -, e0, -⟩ := in_index t
  show A (((cfg1.win 4).blk t).view.emb y) = A y
  refine congrArg A ?_
  funext a; apply Fin.ext
  match a with
  | ⟨0, _⟩ => show win1_4.index t (0 : Fin 1) * 128 + 1 * (y 0).val = (y 0).val; omega

theorem read_kw (A : S128.Idx → Elt F .f32) (t : Fin cfg1.N) (y : S128.Idx) :
    ((cfg1.win 5).blk t).view.read (Elt F) A y = A y := by
  obtain ⟨-, -, -, -, -, e0⟩ := in_index t
  show A (((cfg1.win 5).blk t).view.emb y) = A y
  refine congrArg A ?_
  funext a; apply Fin.ext
  match a with
  | ⟨0, _⟩ => show win1_5.index t (0 : Fin 1) * 128 + 1 * (y 0).val = (y 0).val; omega

section
variable {c : Dev nD} (dat : Dat τ (Elt F) Unit ℕ (UR sig nD τ) ℕ cfg1 c)
  (G : S2x32x1024x128.Idx → Elt F .f32)
  (hafter : ∀ (t : Fin cfg1.N) (y : S1x1x1024x128.Idx), dat.after 6 t y = G (slabIdx t y))

include hafter in
/-- What point t writes back is slab t of G. -/
theorem slab_flushed (t : Fin cfg1.N) :
    dat.flushed 6 t = ((cfg1.win 6).blk t).view.read (Elt F) G := by
  show (cfg1.win 6).cut (grid1.coords t) (dat.after 6 t) = _
  obtain ⟨e0, e1, e2, e3⟩ := slab_index t
  funext j
  show dat.after 6 t j = G (((cfg1.win 6).blk t).view.emb j)
  rw [hafter t j]
  refine congrArg G ?_
  funext a; apply Fin.ext
  match a with
  | ⟨0, _⟩ => show t.val / 32 = win1_6.index t (0 : Fin 4) * 1 + 1 * (j 0).val; have hj : (j 0).val < 1 := (j 0).isLt; omega
  | ⟨1, _⟩ => show t.val % 32 = win1_6.index t (1 : Fin 4) * 1 + 1 * (j 1).val; have hj : (j 1).val < 1 := (j 1).isLt; omega
  | ⟨2, _⟩ => show (j 2).val = win1_6.index t (2 : Fin 4) * 1024 + 1 * (j 2).val; omega
  | ⟨3, _⟩ => show (j 3).val = win1_6.index t (3 : Fin 4) * 128 + 1 * (j 3).val; omega

/-- An index of the array is in point t's slab iff each coordinate is in the slab's range on its axis. -/
theorem mem_slab (t : Fin cfg1.N) (i : S2x32x1024x128.Idx) :
    i ∈ ((cfg1.win 6).blk t).view.set ↔ ∀ a : Fin 4, win1_6.index t a * S1x1x1024x128.size a ≤ (i a).val ∧ (i a).val < win1_6.index t a * S1x1x1024x128.size a + S1x1x1024x128.size a := by
  show i ∈ ((View.whole main_v13).slice (win1_6.rect t)).set ↔ _
  rw [View.set_slice_whole, Rect.mem_set_unit]
  exact Iff.rfl

/-- Every index of the array lies in the slab of the point 32·(i 0) + (i 1). -/
theorem slab_cover (i : S2x32x1024x128.Idx) :
    ∃ t : Fin cfg1.N, (cfg1.win 6).flush t = true ∧ i ∈ ((cfg1.win 6).blk t).view.set := by
  have hi0 : (i 0).val < 2 := (i 0).isLt
  have hi1 : (i 1).val < 32 := (i 1).isLt
  have hi2 : (i 2).val < 1024 := (i 2).isLt
  have hi3 : (i 3).val < 128 := (i 3).isLt
  obtain ⟨t, ht⟩ := slab_onto ⟨(i 0).val, hi0⟩ ⟨(i 1).val, hi1⟩
  have q0 : win1_6.index t (0 : Fin 4) = (i 0).val := congrFun ht 0
  have q1 : win1_6.index t (1 : Fin 4) = (i 1).val := congrFun ht 1
  have q2 : win1_6.index t (2 : Fin 4) = 0 := congrFun ht 2
  have q3 : win1_6.index t (3 : Fin 4) = 0 := congrFun ht 3
  refine ⟨t, flush1_6 t, ?_⟩
  rw [mem_slab]
  intro a
  match a with
  | ⟨0, _⟩ => show win1_6.index t (0 : Fin 4) * 1 ≤ (i 0).val ∧ (i 0).val < win1_6.index t (0 : Fin 4) * 1 + 1; omega
  | ⟨1, _⟩ => show win1_6.index t (1 : Fin 4) * 1 ≤ (i 1).val ∧ (i 1).val < win1_6.index t (1 : Fin 4) * 1 + 1; omega
  | ⟨2, _⟩ => show win1_6.index t (2 : Fin 4) * 1024 ≤ (i 2).val ∧ (i 2).val < win1_6.index t (2 : Fin 4) * 1024 + 1024; omega
  | ⟨3, _⟩ => show win1_6.index t (3 : Fin 4) * 128 ≤ (i 3).val ∧ (i 3).val < win1_6.index t (3 : Fin 4) * 128 + 128; omega

include hafter in
/-- The array after the region: G. -/
theorem region1_val : dat.arrAt 6 cfg1.N = G :=
  dat.arrAt_eq_of_cover 6 G (fun t _ => slab_flushed dat G hafter t) slab_cover

end

end Cert.KernelIdeal.Hand

end
-- ==== Proof.AttnDefs.lean ====
/-
  The attention body's arithmetic, cut at its mathematical joints. The generated payload `k1_pay9` is one term for
  the whole per-head computation: the key block's RMS normalisation, the rotary embedding of the normalised query and
  key blocks, the scaled scores q·kᵀ, the row softmax, and the product with the value block. Each joint is named
  here as a function of the blocks it reads, and `k1_pay9` is their composition by unfolding (`k1_pay9_eq`).
-/
import proofs.«122228_j43301860278716_2_alg».proof.Proof.Gen.KernelIdeal.Skeleton

set_option synthInstance.maxSize 4096

noncomputable section

namespace Cert.KernelIdeal.Hand

open Idealize.ShloMosaic Idealize.SL.Sem Cert.KernelIdeal Cert.KernelIdeal.Gen

variable {F : FTy → Type} [FloatOps F]

/-- RMS normalisation of the key block `x` (rows of 128): `x · rsqrt(ss / n + ε) · w`, with `ss` the kept-dims row sums of
    squares, `n` the divisor word and `w` the norm weight. -/
def kNormK (x : FVec F S1024x128 .f32) (w : Vec F S128 .f32) (ss : FVec F S1024x1 .f32) (n : F .f32) : FVec F S1024x128 .f32 :=
  have v30 : FVec F S1024x1 .f32 := broadcast S1024x1 n
  have v31 : FVec F S1024x1 .f32 := divf ss v30
  have cst_24 : F .f32 := Scalar.ofBits .f32 0x358637BD#32
  have v32 : FVec F S1024x1 .f32 := broadcast S1024x1 cst_24
  have v33 : FVec F S1024x1 .f32 := addf v31 v32
  have v34 : FVec F S1024x1 .f32 := rsqrt v33
  have v35 : FVec F S1024x128 .f32 := broadcastTo S1024x128 v34 broadcasts_S1024x1_S1024x128
  have v36 : FVec F S1024x128 .f32 := mulf x v35
  have v37 : FVec F S1x128 .f32 := shapeCast S1x128 w shapeCasts_S128_S1x128
  have v38 : FVec F S1024x128 .f32 := broadcastTo S1024x128 v37 broadcasts_S1x128_S1024x128
  mulf v36 v38

/-- The rotary embedding of a block `y` against the tables `cos`, `sin`, `nsin` (each 1024×128): with `e = y·cos`, the low
    half is `e[:, :64] + y[:, 64:]·nsin[:, :64]`, the high half `e[:, 64:] + y[:, :64]·sin[:, 64:]`. -/
def kRope (y cos sin nsin : FVec F S1024x128 .f32) : FVec F S1024x128 .f32 :=
  have e : FVec F S1024x128 .f32 := mulf y cos
  have e_lo : FVec F S1024x64 .f32 := extractStridedSlice S1024x64 ![0, 0] e slices_S1024x128_o0_0_S1024x64
  have y_hi : FVec F S1024x64 .f32 := extractStridedSlice S1024x64 ![0, 64] y slices_S1024x128_o0_64_S1024x64
  have n_lo : FVec F S1024x64 .f32 := extractStridedSlice S1024x64 ![0, 0] nsin slices_S1024x128_o0_0_S1024x64
  have lo : FVec F S1024x64 .f32 := addf e_lo (mulf y_hi n_lo)
  have e_hi : FVec F S1024x64 .f32 := extractStridedSlice S1024x64 ![0, 64] e slices_S1024x128_o0_64_S1024x64
  have y_lo : FVec F S1024x64 .f32 := extractStridedSlice S1024x64 ![0, 0] y slices_S1024x128_o0_0_S1024x64
  have s_hi : FVec F S1024x64 .f32 := extractStridedSlice S1024x64 ![0, 64] sin slices_S1024x128_o0_64_S1024x64
  have hi : FVec F S1024x64 .f32 := addf e_hi (mulf y_lo s_hi)
  concatenate S1024x128 1 [⟨S1024x64, lo⟩, ⟨S1024x64, hi⟩] concatenates_S1024x64_S1024x64_S1024x128_d1

/-- The scaled scores of a query block against a key block: `(q · kᵀ) · 128^(-1/2)` (the scale as its f32 word). -/
def kScores (q k : FVec F S1024x128 .f32) : FVec F S1024x1024 .f32 :=
  have v64 : FVec F S1024x128 .bf16 := truncf .bf16 q bitsLt_bf16_f32
  have v65 : FVec F S1024x128 .bf16 := truncf .bf16 k bitsLt_bf16_f32
  have cst_25 : FVec F S1024x1024 .f32 := constant S1024x1024 .f32 0x00000000#32
  have v66 : FVec F S1024x1024 .f32 := matmul dot_S1024x128_S1024x128_S1024x1024_1_1_0_0_n_n none v64 v65 cst_25
  have cst_26 : F .f32 := Scalar.ofBits .f32 0x3DB504F3#32
  have v67 : FVec F S1024x1024 .f32 := broadcast S1024x1024 cst_26
  mulf v66 v67

/-- The row softmax of a 1024×1024 score block: `exp(s − max(−∞, rowmax s)) / rowsum(exp(…))`. -/
def kSoftmax (s : FVec F S1024x1024 .f32) : FVec F S1024x1024 .f32 :=
  have v69 : FVec F S1024 .f32 := multiReduction .maximumf [1] S1024 s 0xFF800000#32 reduces_S1024x1024_S1024 (.inl rfl) rfl
  have cst_28 : F .f32 := Scalar.ofBits .f32 0xFF800000#32
  have v70 : FVec F S1024 .f32 := broadcast S1024 cst_28
  have v71 : FVec F S1024 .f32 := maximumf v70 v69
  have v72 : FVec F S1024x1 .f32 := shapeCast S1024x1 v71 shapeCasts_S1024_S1024x1
  have v73 : FVec F S1024x1024 .f32 := broadcastTo S1024x1024 v72 broadcasts_S1024x1_S1024x1024
  have v74 : FVec F S1024x1024 .f32 := subf s v73
  have v75 : FVec F S1024x1024 .f32 := exp v74
  have v76 : FVec F S1024 .f32 := multiReduction .add [1] S1024 v75 0x00000000#32 reduces_S1024x1024_S1024 (.inl rfl) rfl
  have v77 : FVec F S1024x1 .f32 := shapeCast S1024x1 v76 shapeCasts_S1024_S1024x1
  have v78 : FVec F S1024x1024 .f32 := broadcastTo S1024x1024 v77 broadcasts_S1024x1_S1024x1024
  divf v75 v78

/-- The probabilities against the value block: `p · v`. -/
def kPV (p : FVec F S1024x1024 .f32) (v : FVec F S1024x128 .f32) : FVec F S1024x128 .f32 :=
  have v80 : FVec F S1024x128 .bf16 := truncf .bf16 v bitsLt_bf16_f32
  have v81 : FVec F S1024x1024 .bf16 := truncf .bf16 p bitsLt_bf16_f32
  have cst_30 : FVec F S1024x128 .f32 := constant S1024x128 .f32 0x00000000#32
  matmul dot_S1024x1024_S1024x128_S1024x128_1_0_0_1_n_n none v81 v80 cst_30

/-- The generated payload of the attention body is the composition of the joints: the key block normalised, both
    blocks rotated, scored, soft-maxed, and multiplied into the value block. -/
theorem k1_pay9_eq (v3 v5 v7 v9 v11 : FVec F S1024x128 .f32) (v13 : Vec F S128 .f32) (v26 : FVec F S1024x128 .f32)
    (v29 : FVec F S1024x1 .f32) (cst_23 : F .f32) :
    k1_pay9 v3 v5 v7 v9 v11 v13 v26 v29 cst_23
      = kPV (kSoftmax (kScores (kRope v26 v7 v9 v11) (kRope (kNormK v3 v13 v29 cst_23) v7 v9 v11))) v5 := rfl

end Cert.KernelIdeal.Hand

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.Bridge.AttnA.lean ====
/-
  The first half of the attention bridge, at the ideal instance: at an index, the kernel's normalised-and-rotated query
  block, its normalised-and-rotated key block and its value block are the reference's stages, and the three loads of the
  frequency table hold its three slabs.

  The kernel side is stated over variable blocks with entrywise hypotheses (what the loaded query, key and value blocks, the
  two norm weights and the three slabs of the frequency table hold); the reference side is the value of a stage of the
  reference program as a function of the arguments of its entry function, read at an index.

  Both sides apply the same operations to the same numbers in the same order, so there is no algebra here beyond two
  remarks. The RMS normalisation is `x · rsqrt(Σₖ x² / 128 + ε) · w` along a row of 128 on both sides; the reference's sum
  starts from its initial value, the word of zero, where the kernel's lane sum starts from the neutral accumulator. The
  rotary embedding is a concatenation of two halves of 64 along the head dimension on both sides, so each statement splits
  once by the half the coordinate lies in: the low half reads `y·cos + y[d + 64]·nsin`, the high half
  `y·cos + y[d − 64]·sin`. The reference repeats each of the eight key/value heads four times (a broadcast over a new group
  axis merged into the head axis by a reshape), so head `h` reads key/value head `h / 4`.
-/
import proofs.«122228_j43301860278716_2_alg».proof.Proof.AttnDefs
import proofs.«122228_j43301860278716_2_alg».proof.Proof.Gen.KernelIdeal.Skeleton
import proofs.«122228_j43301860278716_2_alg».proof.Proof.Gen.ReferenceIdeal.Read
import proofs.«122228_j43301860278716_2_alg».proof.Proof.LibKeepdims
import proofs.«122228_j43301860278716_2_alg».proof.Proof.LibCat
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.Bridge.AttnA

open Idealize.ShloMosaic Idealize.ShloMosaic.ValueIdx Idealize.SL.Sem
open Cert.KernelIdeal Cert.KernelIdeal.Gen Cert.KernelIdeal.Hand
open Cert.ReferenceIdeal.Read
open scoped BigOperators

variable {α : Type}

/-- A `[1, 1, a, b]` array cast to `[a, b]` reads, at `(i, j)`, the operand at `(0, 0, i, j)`. -/
theorem aa_shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The types of the arguments of @main that the stages read. -/
abbrev aa_T0 := (⟨Cert.ReferenceIdeal.S2x1024x4096, .f32⟩ : BufTy).Contents (Elt Ideal)
abbrev aa_T1 := (⟨Cert.ReferenceIdeal.S3x1024x128, .f32⟩ : BufTy).Contents (Elt Ideal)
abbrev aa_T2 := (⟨Cert.ReferenceIdeal.S4096x4096, .f32⟩ : BufTy).Contents (Elt Ideal)
abbrev aa_T3 := (⟨Cert.ReferenceIdeal.S1024x4096, .f32⟩ : BufTy).Contents (Elt Ideal)
abbrev aa_T6 := (⟨Cert.ReferenceIdeal.S128, .f32⟩ : BufTy).Contents (Elt Ideal)

/-- The query block's normalisation is the key block's, applied to the query block: the same operations on the block as a
    matrix, its kept-dims row sums of squares and the divisor word 128. -/
theorem aa_k1_pay7_eq (qb : Vec Ideal S1x1x1024x128 .f32) (qw : Vec Ideal S128 .f32) :
    k1_pay7 qb qw = kNormK (k1_pay2 qb) qw (k1_pay8 qb) (Scalar.ofBits .f32 0x43000000#32) := rfl

/-- The RMS normalisation at `(j, d)`: `x · rsqrt(ss / n + ε) · w` on the entries. -/
theorem aa_kNormK_apply (x : FVec Ideal S1024x128 .f32) (w : Vec Ideal S128 .f32) (ss : FVec Ideal S1024x1 .f32)
    (n : Ideal .f32) (j : Fin 1024) (d : Fin 128) :
    kNormK x w ss n (ix2 j d)
      = x (ix2 j d) * Ideal.rsqrt (Ideal.div (ss (ix2 j (0 : Fin 1))) n + Ideal.ofBits .f32 0x358637BD#32) * w (ix1 d) := by
  have h1 := Cert.Keepdims.broadcastTo_a1_ab_apply
    (rsqrt (addf (divf ss (broadcast S1024x1 n)) (broadcast S1024x1 (Scalar.ofBits (F := Ideal) .f32 0x358637BD#32))))
    broadcasts_S1024x1_S1024x128 j d
  have h2 := (broadcastTo_1b_ab_apply (shapeCast S1x128 w shapeCasts_S128_S1x128) broadcasts_S1x128_S1024x128 j d).trans
    (shapeCast_a_1a_apply w shapeCasts_S128_S1x128 0 d)
  show (x (ix2 j d) * broadcastTo S1024x128 _ broadcasts_S1024x1_S1024x128 (ix2 j d))
      * broadcastTo S1024x128 _ broadcasts_S1x128_S1024x128 (ix2 j d) = _
  rw [h1, h2]
  rfl

/-- The kept-dims row sums of squares of a block, at row `j`: the sum over the row of the squared entries. -/
theorem aa_k1_pay8_apply (kb : Vec Ideal S1x1x1024x128 .f32) (j : Fin 1024) (u : Fin 1) :
    k1_pay8 kb (ix2 j u) = ∑ k : Fin 128, kb (ix4 0 0 j k) * kb (ix4 0 0 j k) := by
  unfold k1_pay8
  refine (Cert.Keepdims.shapeCast_a_a1_apply _ shapeCasts_S1024_S1024x1 j u).trans ?_
  refine (Cert.Keepdims.sum_axis1_apply _ _ reduces_S1024x128_S1024 (.inl rfl) rfl j).trans ?_
  refine Finset.sum_congr rfl fun k _ => ?_
  rw [mulf_apply]
  unfold k1_pay2
  rw [aa_shapeCast_11ab_ab_apply]

/-- The reference's normalised query array at `(b, h, i, d)`: `q · rsqrt(Σₖ q² / 128 + ε) · w` on the entries of head `(b, h)`,
    row `i`. The host's sum starts from its initial value, the word of zero. -/
theorem aa_v21_apply (x0 : aa_T0) (x2 : aa_T2) (x6 : aa_T6) (b : Fin 2) (h : Fin 32) (i : Fin 1024) (d : Fin 128) :
    val_main_v21 x0 x2 x6 (ix4 b h i d)
      = val_main_v2 x0 x2 (ix4 b h i d)
        * Ideal.rsqrt (Ideal.div (∑ k : Fin 128, val_main_v2 x0 x2 (ix4 b h i k) * val_main_v2 x0 x2 (ix4 b h i k))
            (Ideal.ofBits .f32 0x43000000#32) + Ideal.ofBits .f32 0x358637BD#32)
        * x6 (ix1 d) := by
  have e1 : ∀ k : Fin 128, idx_main_v10 (idx_main_v11 (idx_main_v17 (ix4 b h i d))) k = ix4 b h i k := fun k => by
    funext a
    match a with
    | ⟨0, _⟩ => rfl
    | ⟨1, _⟩ => rfl
    | ⟨2, _⟩ => rfl
    | ⟨3, _⟩ => rfl
  have e2 : idx_main_v19 (idx_main_v20 (ix4 b h i d)) = ix1 d := by
    funext a
    match a with
    | ⟨0, _⟩ => rfl
  rw [val_main_v21_apply, val_main_v18_apply, val_main_v20_apply, val_main_v19_apply, val_main_v17_apply,
    val_main_v16_apply, val_main_v15_apply, val_main_v13_apply, val_main_v14_apply, val_main_v12_apply,
    val_main_v11_apply, val_main_v10_apply, val_main_cst_apply, val_main_cst_0_apply, val_main_cst_1_apply, e2]
  simp only [val_main_v9_apply, e1, Ideal.mulf_def, Ideal.addf_def, Ideal.hostDivf_def, Ideal.hostUnary_rsqrt_def,
    Ideal.ofBits_def, Ideal.ofBits_zero_f32, zero_add]

/-- The reference's normalised key array at `(b, g, j, d)`, likewise, over the eight key heads. -/
theorem aa_v34_apply (x0 : aa_T0) (x3 : aa_T3) (x7 : aa_T6) (b : Fin 2) (g : Fin 8) (j : Fin 1024) (d : Fin 128) :
    val_main_v34 x0 x3 x7 (ix4 b g j d)
      = val_main_v5 x0 x3 (ix4 b g j d)
        * Ideal.rsqrt (Ideal.div (∑ k : Fin 128, val_main_v5 x0 x3 (ix4 b g j k) * val_main_v5 x0 x3 (ix4 b g j k))
            (Ideal.ofBits .f32 0x43000000#32) + Ideal.ofBits .f32 0x358637BD#32)
        * x7 (ix1 d) := by
  have e1 : ∀ k : Fin 128, idx_main_v23 (idx_main_v24 (idx_main_v30 (ix4 b g j d))) k = ix4 b g j k := fun k => by
    funext a
    match a with
    | ⟨0, _⟩ => rfl
    | ⟨1, _⟩ => rfl
    | ⟨2, _⟩ => rfl
    | ⟨3, _⟩ => rfl
  have e2 : idx_main_v32 (idx_main_v33 (ix4 b g j d)) = ix1 d := by
    funext a
    match a with
    | ⟨0, _⟩ => rfl
  rw [val_main_v34_apply, val_main_v31_apply, val_main_v33_apply, val_main_v32_apply, val_main_v30_apply,
    val_main_v29_apply, val_main_v28_apply, val_main_v26_apply, val_main_v27_apply, val_main_v25_apply,
    val_main_v24_apply, val_main_v23_apply, val_main_cst_2_apply, val_main_cst_3_apply, val_main_cst_4_apply, e2]
  simp only [val_main_v22_apply, e1, Ideal.mulf_def, Ideal.addf_def, Ideal.hostDivf_def, Ideal.hostUnary_rsqrt_def,
    Ideal.ofBits_def, Ideal.ofBits_zero_f32, zero_add]

/-- The rotary embedding at `(i, d)` in the low half (`d < 64`): `y·cos + y[d + 64]·nsin`. -/
theorem aa_kRope_lo (y cos sin nsin : FVec Ideal S1024x128 .f32) (i : Fin 1024) (d : Fin 128) (hd : d.val < 64) :
    kRope y cos sin nsin (ix2 i d)
      = y (ix2 i d) * cos (ix2 i d) + y (ix2 i (⟨64 + d.val, by omega⟩ : Fin 128)) * nsin (ix2 i d) := by
  unfold kRope
  refine Eq.trans (concatenate_pair_apply_left (t := S1024x128) (s₁ := S1024x64) (s₂ := S1024x64) 1 _ _
    concatenates_S1024x64_S1024x64_S1024x128_d1 (ix2 i d) rfl
    (ix2 i (⟨d.val, hd⟩ : Fin 64)) (fun b => match b with | ⟨0, _⟩ => rfl | ⟨1, _⟩ => rfl)) ?_
  rw [addf_apply, mulf_apply,
    slice2_axis1_apply 0 (mulf y cos) slices_S1024x128_o0_0_S1024x64 i ⟨d.val, hd⟩ d (by show d.val = 0 + d.val; omega),
    slice2_axis1_apply 64 y slices_S1024x128_o0_64_S1024x64 i ⟨d.val, hd⟩ ⟨64 + d.val, by omega⟩ rfl,
    slice2_axis1_apply 0 nsin slices_S1024x128_o0_0_S1024x64 i ⟨d.val, hd⟩ d (by show d.val = 0 + d.val; omega),
    mulf_apply]

/-- The rotary embedding at `(i, d)` in the high half (`64 ≤ d`): `y·cos + y[d − 64]·sin`. -/
theorem aa_kRope_hi (y cos sin nsin : FVec Ideal S1024x128 .f32) (i : Fin 1024) (d : Fin 128) (hd : 64 ≤ d.val) :
    kRope y cos sin nsin (ix2 i d)
      = y (ix2 i d) * cos (ix2 i d) + y (ix2 i (⟨d.val - 64, by omega⟩ : Fin 128)) * sin (ix2 i d) := by
  have hlt : d.val - 64 < 64 := by have := d.isLt; omega
  unfold kRope
  refine Eq.trans (concatenate_pair_apply_right (t := S1024x128) (s₁ := S1024x64) (s₂ := S1024x64) 1 _ _
    concatenates_S1024x64_S1024x64_S1024x128_d1 (ix2 i d) rfl rfl
    (ix2 i (⟨d.val - 64, hlt⟩ : Fin 64))
    (fun b => match b with | ⟨0, _⟩ => fun _ => rfl | ⟨1, _⟩ => fun hne => absurd rfl hne)
    (by show d.val - 64 + 64 = d.val; omega)) ?_
  rw [addf_apply, mulf_apply,
    slice2_axis1_apply 64 (mulf y cos) slices_S1024x128_o0_64_S1024x64 i ⟨d.val - 64, hlt⟩ d (by show d.val = 64 + (d.val - 64); omega),
    slice2_axis1_apply 0 y slices_S1024x128_o0_0_S1024x64 i ⟨d.val - 64, hlt⟩ ⟨d.val - 64, by omega⟩ (by show d.val - 64 = 0 + (d.val - 64); omega),
    slice2_axis1_apply 64 sin slices_S1024x128_o0_64_S1024x64 i ⟨d.val - 64, hlt⟩ d (by show d.val = 64 + (d.val - 64); omega),
    mulf_apply]

/-- The reference's cosine table at `(i, d)` is entry `(0, i, d)` of the frequency argument. -/
theorem aa_v36_apply (x1 : aa_T1) (i : Fin 1024) (d : Fin 128) : val_main_v36 x1 (ix2 i d) = x1 (ix3 0 i d) := by
  rw [val_main_v36_apply, val_main_v35_apply]
  refine congrArg x1 (funext fun a => ?_)
  have hi := i.isLt; have hd := d.isLt
  match a with
  | ⟨0, _⟩ => rfl
  | ⟨1, _⟩ => exact Fin.ext (by show (i.val * 128 + d.val) / 128 % 1024 = i.val; omega)
  | ⟨2, _⟩ => exact Fin.ext (by show (i.val * 128 + d.val) % 128 = d.val; omega)

/-- The reference's sine table at `(i, d)` is entry `(1, i, d)` of the frequency argument. -/
theorem aa_v38_apply (x1 : aa_T1) (i : Fin 1024) (d : Fin 128) : val_main_v38 x1 (ix2 i d) = x1 (ix3 1 i d) := by
  rw [val_main_v38_apply, val_main_v37_apply]
  refine congrArg x1 (funext fun a => ?_)
  have hi := i.isLt; have hd := d.isLt
  match a with
  | ⟨0, _⟩ => rfl
  | ⟨1, _⟩ => exact Fin.ext (by show (i.val * 128 + d.val) / 128 % 1024 = i.val; omega)
  | ⟨2, _⟩ => exact Fin.ext (by show (i.val * 128 + d.val) % 128 = d.val; omega)

/-- The reference's negated-sine table at `(i, d)` is entry `(2, i, d)` of the frequency argument. -/
theorem aa_v40_apply (x1 : aa_T1) (i : Fin 1024) (d : Fin 128) : val_main_v40 x1 (ix2 i d) = x1 (ix3 2 i d) := by
  rw [val_main_v40_apply, val_main_v39_apply]
  refine congrArg x1 (funext fun a => ?_)
  have hi := i.isLt; have hd := d.isLt
  match a with
  | ⟨0, _⟩ => rfl
  | ⟨1, _⟩ => exact Fin.ext (by show (i.val * 128 + d.val) / 128 % 1024 = i.val; omega)
  | ⟨2, _⟩ => exact Fin.ext (by show (i.val * 128 + d.val) % 128 = d.val; omega)

/-- The reference's rotated query array at `(b, h, i, d)` in the low half (`d < 64`): the first operand of the
    concatenate, `n·cos + n[d + 64]·nsin` with `n` the normalised query array. -/
theorem aa_v58_lo (x0 : aa_T0) (x1 : aa_T1) (x2 : aa_T2) (x6 : aa_T6) (b : Fin 2) (h : Fin 32) (i : Fin 1024) (d : Fin 128)
    (hd : d.val < 64) :
    val_main_v58 x0 x1 x2 x6 (ix4 b h i d)
      = val_main_v21 x0 x2 x6 (ix4 b h i d) * x1 (ix3 0 i d)
        + val_main_v21 x0 x2 x6 (ix4 b h i (⟨64 + d.val, by omega⟩ : Fin 128)) * x1 (ix3 2 i d) := by
  unfold val_main_v58
  refine Eq.trans (concatenate_pair_apply_left (t := Cert.ReferenceIdeal.S2x32x1024x128)
    (s₁ := Cert.ReferenceIdeal.S2x32x1024x64) (s₂ := Cert.ReferenceIdeal.S2x32x1024x64) 3 _ _
    _ (ix4 b h i d) rfl
    (ix4 b h i (⟨d.val, hd⟩ : Fin 64))
    (fun c => match c with | ⟨0, _⟩ => rfl | ⟨1, _⟩ => rfl | ⟨2, _⟩ => rfl | ⟨3, _⟩ => rfl)) ?_
  have e1 : idx_main_v44 (ix4 b h i (⟨d.val, hd⟩ : Fin 64)) = ix4 b h i d := by
    funext a; match a with | ⟨0, _⟩ => rfl | ⟨1, _⟩ => rfl | ⟨2, _⟩ => rfl | ⟨3, _⟩ => rfl
  have e2 : idx_main_v41 (idx_main_v42 (ix4 b h i d)) = ix2 i d := by
    funext a; match a with | ⟨0, _⟩ => rfl | ⟨1, _⟩ => rfl
  have e3 : idx_main_v45 (ix4 b h i (⟨d.val, hd⟩ : Fin 64)) = ix4 b h i (⟨64 + d.val, by omega⟩ : Fin 128) := by
    funext a; match a with | ⟨0, _⟩ => rfl | ⟨1, _⟩ => rfl | ⟨2, _⟩ => rfl | ⟨3, _⟩ => rfl
  have e4 : idx_main_v46 (idx_main_v47 (idx_main_v48 (ix4 b h i (⟨d.val, hd⟩ : Fin 64)))) = ix2 i d := by
    funext a; match a with | ⟨0, _⟩ => rfl | ⟨1, _⟩ => rfl
  rw [val_main_v50_apply, val_main_v44_apply, val_main_v43_apply, val_main_v42_apply, val_main_v41_apply,
    val_main_v49_apply, val_main_v45_apply, val_main_v48_apply, val_main_v47_apply, val_main_v46_apply,
    e1, e2, e3, e4, aa_v36_apply, aa_v40_apply]
  rfl

/-- The reference's rotated query array at `(b, h, i, d)` in the high half (`64 ≤ d`): the second operand of the
    concatenate, `n·cos + n[d − 64]·sin`. -/
theorem aa_v58_hi (x0 : aa_T0) (x1 : aa_T1) (x2 : aa_T2) (x6 : aa_T6) (b : Fin 2) (h : Fin 32) (i : Fin 1024) (d : Fin 128)
    (hd : 64 ≤ d.val) :
    val_main_v58 x0 x1 x2 x6 (ix4 b h i d)
      = val_main_v21 x0 x2 x6 (ix4 b h i d) * x1 (ix3 0 i d)
        + val_main_v21 x0 x2 x6 (ix4 b h i (⟨d.val - 64, by omega⟩ : Fin 128)) * x1 (ix3 1 i d) := by
  have hlt : d.val - 64 < 64 := by have := d.isLt; omega
  unfold val_main_v58
  refine Eq.trans (concatenate_pair_apply_right (t := Cert.ReferenceIdeal.S2x32x1024x128)
    (s₁ := Cert.ReferenceIdeal.S2x32x1024x64) (s₂ := Cert.ReferenceIdeal.S2x32x1024x64) 3 _ _
    _ (ix4 b h i d) rfl rfl
    (ix4 b h i (⟨d.val - 64, hlt⟩ : Fin 64))
    (fun c => match c with
      | ⟨0, _⟩ => fun _ => rfl | ⟨1, _⟩ => fun _ => rfl | ⟨2, _⟩ => fun _ => rfl | ⟨3, _⟩ => fun hne => absurd rfl hne)
    (by show d.val - 64 + 64 = d.val; omega)) ?_
  have e1 : idx_main_v51 (ix4 b h i (⟨d.val - 64, hlt⟩ : Fin 64)) = ix4 b h i d := by
    funext a
    match a with
    | ⟨0, _⟩ => rfl
    | ⟨1, _⟩ => rfl
    | ⟨2, _⟩ => rfl
    | ⟨3, _⟩ => exact Fin.ext (by show 64 + (d.val - 64) = d.val; omega)
  have e2 : idx_main_v41 (idx_main_v42 (ix4 b h i d)) = ix2 i d := by
    funext a; match a with | ⟨0, _⟩ => rfl | ⟨1, _⟩ => rfl
  have e3 : idx_main_v52 (ix4 b h i (⟨d.val - 64, hlt⟩ : Fin 64)) = ix4 b h i (⟨d.val - 64, by omega⟩ : Fin 128) := by
    funext a; match a with | ⟨0, _⟩ => rfl | ⟨1, _⟩ => rfl | ⟨2, _⟩ => rfl | ⟨3, _⟩ => rfl
  have e4 : idx_main_v53 (idx_main_v54 (idx_main_v55 (ix4 b h i (⟨d.val - 64, hlt⟩ : Fin 64)))) = ix2 i d := by
    funext a
    match a with
    | ⟨0, _⟩ => rfl
    | ⟨1, _⟩ => exact Fin.ext (by show 64 + (d.val - 64) = d.val; omega)
  rw [val_main_v57_apply, val_main_v51_apply, val_main_v43_apply, val_main_v42_apply, val_main_v41_apply,
    val_main_v56_apply, val_main_v52_apply, val_main_v55_apply, val_main_v54_apply, val_main_v53_apply,
    e1, e2, e3, e4, aa_v36_apply, aa_v38_apply]
  rfl

/-- The reference's rotated key array at `(b, g, i, d)` in the low half (`d < 64`): the first operand of the
    concatenate, `n·cos + n[d + 64]·nsin` with `n` the normalised key array. -/
theorem aa_v76_lo (x0 : aa_T0) (x1 : aa_T1) (x3 : aa_T3) (x7 : aa_T6) (b : Fin 2) (g : Fin 8) (i : Fin 1024) (d : Fin 128)
    (hd : d.val < 64) :
    val_main_v76 x0 x1 x3 x7 (ix4 b g i d)
      = val_main_v34 x0 x3 x7 (ix4 b g i d) * x1 (ix3 0 i d)
        + val_main_v34 x0 x3 x7 (ix4 b g i (⟨64 + d.val, by omega⟩ : Fin 128)) * x1 (ix3 2 i d) := by
  unfold val_main_v76
  refine Eq.trans (concatenate_pair_apply_left (t := Cert.ReferenceIdeal.S2x8x1024x128)
    (s₁ := Cert.ReferenceIdeal.S2x8x1024x64) (s₂ := Cert.ReferenceIdeal.S2x8x1024x64) 3 _ _
    _ (ix4 b g i d) rfl
    (ix4 b g i (⟨d.val, hd⟩ : Fin 64))
    (fun c => match c with | ⟨0, _⟩ => rfl | ⟨1, _⟩ => rfl | ⟨2, _⟩ => rfl | ⟨3, _⟩ => rfl)) ?_
  have e1 : idx_main_v62 (ix4 b g i (⟨d.val, hd⟩ : Fin 64)) = ix4 b g i d := by
    funext a; match a with | ⟨0, _⟩ => rfl | ⟨1, _⟩ => rfl | ⟨2, _⟩ => rfl | ⟨3, _⟩ => rfl
  have e2 : idx_main_v59 (idx_main_v60 (ix4 b g i d)) = ix2 i d := by
    funext a; match a with | ⟨0, _⟩ => rfl | ⟨1, _⟩ => rfl
  have e3 : idx_main_v63 (ix4 b g i (⟨d.val, hd⟩ : Fin 64)) = ix4 b g i (⟨64 + d.val, by omega⟩ : Fin 128) := by
    funext a; match a with | ⟨0, _⟩ => rfl | ⟨1, _⟩ => rfl | ⟨2, _⟩ => rfl | ⟨3, _⟩ => rfl
  have e4 : idx_main_v64 (idx_main_v65 (idx_main_v66 (ix4 b g i (⟨d.val, hd⟩ : Fin 64)))) = ix2 i d := by
    funext a; match a with | ⟨0, _⟩ => rfl | ⟨1, _⟩ => rfl
  rw [val_main_v68_apply, val_main_v62_apply, val_main_v61_apply, val_main_v60_apply, val_main_v59_apply,
    val_main_v67_apply, val_main_v63_apply, val_main_v66_apply, val_main_v65_apply, val_main_v64_apply,
    e1, e2, e3, e4, aa_v36_apply, aa_v40_apply]
  rfl

/-- The reference's rotated key array at `(b, g, i, d)` in the high half (`64 ≤ d`): the second operand of the
    concatenate, `n·cos + n[d − 64]·sin`. -/
theorem aa_v76_hi (x0 : aa_T0) (x1 : aa_T1) (x3 : aa_T3) (x7 : aa_T6) (b : Fin 2) (g : Fin 8) (i : Fin 1024) (d : Fin 128)
    (hd : 64 ≤ d.val) :
    val_main_v76 x0 x1 x3 x7 (ix4 b g i d)
      = val_main_v34 x0 x3 x7 (ix4 b g i d) * x1 (ix3 0 i d)
        + val_main_v34 x0 x3 x7 (ix4 b g i (⟨d.val - 64, by omega⟩ : Fin 128)) * x1 (ix3 1 i d) := by
  have hlt : d.val - 64 < 64 := by have := d.isLt; omega
  unfold val_main_v76
  refine Eq.trans (concatenate_pair_apply_right (t := Cert.ReferenceIdeal.S2x8x1024x128)
    (s₁ := Cert.ReferenceIdeal.S2x8x1024x64) (s₂ := Cert.ReferenceIdeal.S2x8x1024x64) 3 _ _
    _ (ix4 b g i d) rfl rfl
    (ix4 b g i (⟨d.val - 64, hlt⟩ : Fin 64))
    (fun c => match c with
      | ⟨0, _⟩ => fun _ => rfl | ⟨1, _⟩ => fun _ => rfl | ⟨2, _⟩ => fun _ => rfl | ⟨3, _⟩ => fun hne => absurd rfl hne)
    (by show d.val - 64 + 64 = d.val; omega)) ?_
  have e1 : idx_main_v69 (ix4 b g i (⟨d.val - 64, hlt⟩ : Fin 64)) = ix4 b g i d := by
    funext a
    match a with
    | ⟨0, _⟩ => rfl
    | ⟨1, _⟩ => rfl
    | ⟨2, _⟩ => rfl
    | ⟨3, _⟩ => exact Fin.ext (by show 64 + (d.val - 64) = d.val; omega)
  have e2 : idx_main_v59 (idx_main_v60 (ix4 b g i d)) = ix2 i d := by
    funext a; match a with | ⟨0, _⟩ => rfl | ⟨1, _⟩ => rfl
  have e3 : idx_main_v70 (ix4 b g i (⟨d.val - 64, hlt⟩ : Fin 64)) = ix4 b g i (⟨d.val - 64, by omega⟩ : Fin 128) := by
    funext a; match a with | ⟨0, _⟩ => rfl | ⟨1, _⟩ => rfl | ⟨2, _⟩ => rfl | ⟨3, _⟩ => rfl
  have e4 : idx_main_v71 (idx_main_v72 (idx_main_v73 (ix4 b g i (⟨d.val - 64, hlt⟩ : Fin 64)))) = ix2 i d := by
    funext a
    match a with
    | ⟨0, _⟩ => rfl
    | ⟨1, _⟩ => exact Fin.ext (by show 64 + (d.val - 64) = d.val; omega)
  rw [val_main_v75_apply, val_main_v69_apply, val_main_v61_apply, val_main_v60_apply, val_main_v59_apply,
    val_main_v74_apply, val_main_v70_apply, val_main_v73_apply, val_main_v72_apply, val_main_v71_apply,
    e1, e2, e3, e4, aa_v36_apply, aa_v38_apply]
  rfl

/-- The value block, as a 1024×128 matrix, is the reference's repeated value array at head `h`: head `h` reads
    key/value head `h / 4`. -/
theorem vblk_eq (x0 : (⟨Cert.ReferenceIdeal.S2x1024x4096, .f32⟩ : BufTy).Contents (Elt Ideal))
    (x4 : (⟨Cert.ReferenceIdeal.S1024x4096, .f32⟩ : BufTy).Contents (Elt Ideal)) (b : Fin 2) (h : Fin 32)
    (vb : Vec Ideal S1x1x1024x128 .f32)
    (hv : ∀ (j : Fin 1024) (d : Fin 128), vb (ix4 0 0 j d) = val_main_v8 x0 x4 (ix4 b ⟨h.val / 4, by omega⟩ j d))
    (j : Fin 1024) (d : Fin 128) :
    k1_pay3 vb (ix2 j d) = val_main_v80 x0 x4 (ix4 b h j d) := by
  unfold k1_pay3
  rw [val_main_v80_apply, val_main_v79_apply]
  refine (aa_shapeCast_11ab_ab_apply vb _ j d).trans ((hv j d).trans (congrArg _ ?_))
  funext a
  have hb := b.isLt; have hh := h.isLt; have hj := j.isLt; have hd := d.isLt
  match a with
  | ⟨0, _⟩ => exact Fin.ext (by show b.val = (((b.val * 32 + h.val) * 1024 + j.val) * 128 + d.val) / 4194304; omega)
  | ⟨1, _⟩ => exact Fin.ext (by show h.val / 4 = (((b.val * 32 + h.val) * 1024 + j.val) * 128 + d.val) / 524288 % 8; omega)
  | ⟨2, _⟩ => exact Fin.ext (by show j.val = (((b.val * 32 + h.val) * 1024 + j.val) * 128 + d.val) / 128 % 1024; omega)
  | ⟨3, _⟩ => exact Fin.ext (by show d.val = (((b.val * 32 + h.val) * 1024 + j.val) * 128 + d.val) % 128; omega)

/-- The reference's repeated key array at head `h` is its rotated key array at key head `h / 4`: the broadcast over the
    group axis and the reshape that merges it into the head axis. -/
theorem aa_v78_apply (x0 : aa_T0) (x1 : aa_T1) (x3 : aa_T3) (x7 : aa_T6) (b : Fin 2) (h : Fin 32) (j : Fin 1024) (d : Fin 128) :
    val_main_v78 x0 x1 x3 x7 (ix4 b h j d) = val_main_v76 x0 x1 x3 x7 (ix4 b ⟨h.val / 4, by omega⟩ j d) := by
  rw [val_main_v78_apply, val_main_v77_apply]
  refine congrArg _ ?_
  funext a
  have hb := b.isLt; have hh := h.isLt; have hj := j.isLt; have hd := d.isLt
  match a with
  | ⟨0, _⟩ => exact Fin.ext (by show (((b.val * 32 + h.val) * 1024 + j.val) * 128 + d.val) / 4194304 = b.val; omega)
  | ⟨1, _⟩ => exact Fin.ext (by show (((b.val * 32 + h.val) * 1024 + j.val) * 128 + d.val) / 524288 % 8 = h.val / 4; omega)
  | ⟨2, _⟩ => exact Fin.ext (by show (((b.val * 32 + h.val) * 1024 + j.val) * 128 + d.val) / 128 % 1024 = j.val; omega)
  | ⟨3, _⟩ => exact Fin.ext (by show (((b.val * 32 + h.val) * 1024 + j.val) * 128 + d.val) % 128 = d.val; omega)

/-- The normalised query block at `(i, d)` is the reference's normalised query array at `(b, h, i, d)`, when the loaded
    block holds head `(b, h)` of the query array and the loaded weight holds the query norm weight. -/
theorem aa_qnorm_eq (x0 : aa_T0) (x2 : aa_T2) (x6 : aa_T6) (b : Fin 2) (h : Fin 32)
    (qb : Vec Ideal S1x1x1024x128 .f32) (qw : Vec Ideal S128 .f32)
    (hq : ∀ (i : Fin 1024) (d : Fin 128), qb (ix4 0 0 i d) = val_main_v2 x0 x2 (ix4 b h i d))
    (hw : ∀ d : Fin 128, qw (ix1 d) = x6 (ix1 d)) (i : Fin 1024) (d : Fin 128) :
    k1_pay7 qb qw (ix2 i d) = val_main_v21 x0 x2 x6 (ix4 b h i d) := by
  have hx : k1_pay2 qb (ix2 i d) = qb (ix4 0 0 i d) := by
    unfold k1_pay2; exact aa_shapeCast_11ab_ab_apply qb _ i d
  rw [aa_k1_pay7_eq, aa_kNormK_apply, aa_k1_pay8_apply, aa_v21_apply, hx, hw]
  simp only [hq]
  rfl

/-- The normalised key block at `(j, d)` is the reference's normalised key array at `(b, g, j, d)`, when the loaded block
    holds key head `(b, g)` and the loaded weight holds the key norm weight. -/
theorem aa_knorm_eq (x0 : aa_T0) (x3 : aa_T3) (x7 : aa_T6) (b : Fin 2) (g : Fin 8)
    (kb : Vec Ideal S1x1x1024x128 .f32) (kw : Vec Ideal S128 .f32)
    (hk : ∀ (j : Fin 1024) (d : Fin 128), kb (ix4 0 0 j d) = val_main_v5 x0 x3 (ix4 b g j d))
    (hw : ∀ d : Fin 128, kw (ix1 d) = x7 (ix1 d)) (j : Fin 1024) (d : Fin 128) :
    kNormK (k1_pay2 kb) kw (k1_pay8 kb) (Scalar.ofBits .f32 0x43000000#32) (ix2 j d)
      = val_main_v34 x0 x3 x7 (ix4 b g j d) := by
  have hx : k1_pay2 kb (ix2 j d) = kb (ix4 0 0 j d) := by
    unfold k1_pay2; exact aa_shapeCast_11ab_ab_apply kb _ j d
  rw [aa_kNormK_apply, aa_k1_pay8_apply, aa_v34_apply, hx, hw]
  simp only [hk]
  rfl

/-- THE QUERY BRIDGE: the kernel's normalised-and-rotated query block at `(i, d)` is the reference's rotated query array
    at `(b, h, i, d)`, when the loaded block, weight and the three table slabs hold the reference's values entrywise. Both
    sides apply the same operations to the same numbers; the split is by the half of the head dimension `d` lies in. -/
theorem qrope_eq (x0 : (⟨Cert.ReferenceIdeal.S2x1024x4096, .f32⟩ : BufTy).Contents (Elt Ideal))
    (x1 : (⟨Cert.ReferenceIdeal.S3x1024x128, .f32⟩ : BufTy).Contents (Elt Ideal))
    (x2 : (⟨Cert.ReferenceIdeal.S4096x4096, .f32⟩ : BufTy).Contents (Elt Ideal))
    (x6 : (⟨Cert.ReferenceIdeal.S128, .f32⟩ : BufTy).Contents (Elt Ideal)) (b : Fin 2) (h : Fin 32)
    (qb : Vec Ideal S1x1x1024x128 .f32) (qw : Vec Ideal S128 .f32) (cos sin nsin : FVec Ideal S1024x128 .f32)
    (hq : ∀ (i : Fin 1024) (d : Fin 128), qb (ix4 0 0 i d) = val_main_v2 x0 x2 (ix4 b h i d))
    (hw : ∀ d : Fin 128, qw (ix1 d) = x6 (ix1 d))
    (hcos : ∀ (i : Fin 1024) (d : Fin 128), cos (ix2 i d) = x1 (ix3 0 i d))
    (hsin : ∀ (i : Fin 1024) (d : Fin 128), sin (ix2 i d) = x1 (ix3 1 i d))
    (hnsin : ∀ (i : Fin 1024) (d : Fin 128), nsin (ix2 i d) = x1 (ix3 2 i d))
    (i : Fin 1024) (d : Fin 128) :
    kRope (k1_pay7 qb qw) cos sin nsin (ix2 i d) = val_main_v58 x0 x1 x2 x6 (ix4 b h i d) := by
  by_cases hd : d.val < 64
  · rw [aa_kRope_lo _ _ _ _ i d hd, aa_v58_lo x0 x1 x2 x6 b h i d hd]
    simp only [aa_qnorm_eq x0 x2 x6 b h qb qw hq hw, hcos, hnsin]
  · have hd' : 64 ≤ d.val := by omega
    rw [aa_kRope_hi _ _ _ _ i d hd', aa_v58_hi x0 x1 x2 x6 b h i d hd']
    simp only [aa_qnorm_eq x0 x2 x6 b h qb qw hq hw, hcos, hsin]

/-- THE KEY BRIDGE: the kernel's normalised-and-rotated key block at `(j, d)` is the reference's repeated, rotated key
    array at `(b, h, j, d)`, when the loaded block holds key head `(b, h / 4)` and the weight and table slabs hold the
    reference's values entrywise. -/
theorem krope_eq (x0 : (⟨Cert.ReferenceIdeal.S2x1024x4096, .f32⟩ : BufTy).Contents (Elt Ideal))
    (x1 : (⟨Cert.ReferenceIdeal.S3x1024x128, .f32⟩ : BufTy).Contents (Elt Ideal))
    (x3 : (⟨Cert.ReferenceIdeal.S1024x4096, .f32⟩ : BufTy).Contents (Elt Ideal))
    (x7 : (⟨Cert.ReferenceIdeal.S128, .f32⟩ : BufTy).Contents (Elt Ideal)) (b : Fin 2) (h : Fin 32)
    (kb : Vec Ideal S1x1x1024x128 .f32) (kw : Vec Ideal S128 .f32) (cos sin nsin : FVec Ideal S1024x128 .f32)
    (hk : ∀ (j : Fin 1024) (d : Fin 128), kb (ix4 0 0 j d) = val_main_v5 x0 x3 (ix4 b ⟨h.val / 4, by omega⟩ j d))
    (hw : ∀ d : Fin 128, kw (ix1 d) = x7 (ix1 d))
    (hcos : ∀ (i : Fin 1024) (d : Fin 128), cos (ix2 i d) = x1 (ix3 0 i d))
    (hsin : ∀ (i : Fin 1024) (d : Fin 128), sin (ix2 i d) = x1 (ix3 1 i d))
    (hnsin : ∀ (i : Fin 1024) (d : Fin 128), nsin (ix2 i d) = x1 (ix3 2 i d))
    (j : Fin 1024) (d : Fin 128) :
    kRope (kNormK (k1_pay2 kb) kw (k1_pay8 kb) (Scalar.ofBits .f32 0x43000000#32)) cos sin nsin (ix2 j d)
      = val_main_v78 x0 x1 x3 x7 (ix4 b h j d) := by
  rw [aa_v78_apply]
  by_cases hd : d.val < 64
  · rw [aa_kRope_lo _ _ _ _ j d hd, aa_v76_lo x0 x1 x3 x7 b ⟨h.val / 4, by omega⟩ j d hd]
    simp only [aa_knorm_eq x0 x3 x7 b ⟨h.val / 4, by omega⟩ kb kw hk hw, hcos, hnsin]
  · have hd' : 64 ≤ d.val := by omega
    rw [aa_kRope_hi _ _ _ _ j d hd', aa_v76_hi x0 x1 x3 x7 b ⟨h.val / 4, by omega⟩ j d hd']
    simp only [aa_knorm_eq x0 x3 x7 b ⟨h.val / 4, by omega⟩ kb kw hk hw, hcos, hsin]

/-- What the first table load holds: the cosine slab, as a 1024×128 matrix, at `(i, d)` is entry `(0, i, d)` of the
    frequency block. The load is through the unit-stride rectangle at offsets `(0, 0, 0)` of sizes `1×1024×128`. -/
theorem slab0_eq (fb : Vec Ideal S3x1024x128 .f32) (i : Fin 1024) (d : Fin 128) :
    k1_pay4 (View.ld fb (Rect.unit (s := S3x1024x128) ![0, 0, 0] S1x1024x128.size inb_S3x1024x128_S1x1024x128_0_0_0)) (ix2 i d)
      = fb (ix3 0 i d) := by
  unfold k1_pay4
  refine (shapeCast_1ab_ab_apply _ _ i d).trans ?_
  refine congrArg fb (funext fun a => ?_)
  match a with
  | ⟨0, _⟩ => exact Fin.ext (by show 0 + 1 * 0 = 0; omega)
  | ⟨1, _⟩ => exact Fin.ext (by show 0 + 1 * i.val = i.val; omega)
  | ⟨2, _⟩ => exact Fin.ext (by show 0 + 1 * d.val = d.val; omega)

/-- What the second table load holds: the sine slab at `(i, d)` is entry `(1, i, d)` of the frequency block (offsets
    `(1, 0, 0)`). -/
theorem slab1_eq (fb : Vec Ideal S3x1024x128 .f32) (i : Fin 1024) (d : Fin 128) :
    k1_pay5 (View.ld fb (Rect.unit (s := S3x1024x128) ![1, 0, 0] S1x1024x128.size inb_S3x1024x128_S1x1024x128_1_0_0)) (ix2 i d)
      = fb (ix3 1 i d) := by
  unfold k1_pay5
  refine (shapeCast_1ab_ab_apply _ _ i d).trans ?_
  refine congrArg fb (funext fun a => ?_)
  match a with
  | ⟨0, _⟩ => exact Fin.ext (by show 1 + 1 * 0 = 1; omega)
  | ⟨1, _⟩ => exact Fin.ext (by show 0 + 1 * i.val = i.val; omega)
  | ⟨2, _⟩ => exact Fin.ext (by show 0 + 1 * d.val = d.val; omega)

/-- What the third table load holds: the negated-sine slab at `(i, d)` is entry `(2, i, d)` of the frequency block
    (offsets `(2, 0, 0)`). -/
theorem slab2_eq (fb : Vec Ideal S3x1024x128 .f32) (i : Fin 1024) (d : Fin 128) :
    k1_pay6 (View.ld fb (Rect.unit (s := S3x1024x128) ![2, 0, 0] S1x1024x128.size inb_S3x1024x128_S1x1024x128_2_0_0)) (ix2 i d)
      = fb (ix3 2 i d) := by
  unfold k1_pay6
  refine (shapeCast_1ab_ab_apply _ _ i d).trans ?_
  refine congrArg fb (funext fun a => ?_)
  match a with
  | ⟨0, _⟩ => exact Fin.ext (by show 2 + 1 * 0 = 2; omega)
  | ⟨1, _⟩ => exact Fin.ext (by show 0 + 1 * i.val = i.val; omega)
  | ⟨2, _⟩ => exact Fin.ext (by show 0 + 1 * d.val = d.val; omega)

end Cert.Bridge.AttnA

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibRowMax.lean ====
/-
  A maximum along the columns of a matrix, read at an index.

  A lane maximum of an `a × b` matrix over its columns (axis 1), taken from the accumulator's value (the word of −∞),
  reads at row `p` the fold of `max` from that value over the `b` entries of row `p`: the reduced index with each
  column coordinate inserted is the matrix index `(p, k)`.
-/
import Idealize.ShloMosaic.PureOps.Ideal.Laws
import Idealize.ShloMosaic.Lib.ValueIdx

noncomputable section

namespace Cert.RowMax

open Idealize.ShloMosaic Idealize.ShloMosaic.ValueIdx

/-- A lane maximum of a matrix over its columns (axis 1), at row `p`: the fold of `max` from the accumulator's value
    over that row. -/
theorem max_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (funext fun ax => Fin.ext (by
        match ax with
        | ⟨0, _⟩ => rfl
        | ⟨1, _⟩ => rfl))))

end Cert.RowMax

end
-- ==== Proof.Bridge.AttnB.lean ====
/-
  The second half of the attention bridge, per head `(b, h)`, on the extended reals.

  The kernel's per-head computation after the rotary embedding is three joints: the scaled scores
  `s = (q · kᵀ) · c` (`c` the value of the scale word), the row softmax
  `p (i, j) = exp (s (i, j) − m i) / ∑ j', exp (s (i, j') − m i)` with `m i = max (−∞, fold max (−∞) (s (i, ·)))`,
  and the product `p · v`. The reference computes the same three things on rank-4 arrays over all heads: a batched
  contraction and a multiplication by the same scale word, a maximum-reduction from the −∞ word followed by a maximum
  with it, two broadcasts, a subtraction, an exponential, a sum-reduction from the zero word, two broadcasts, a quotient,
  and a second batched contraction.

  Both sides are read at an index. Each side's contraction is a sum over `Fin 128` or `Fin 1024`; each side's row maximum
  is the same fold of `max` over `Finset.univ` from the value of the −∞ word, and is never evaluated; the reference's
  sum from the zero word is `0 + ∑`. A row's softmax is named once (`ab_softmaxRow`) as a function of the row, so that
  the two sides agree as soon as their rows do.
-/
import proofs.«122228_j43301860278716_2_alg».proof.Proof.AttnDefs
import proofs.«122228_j43301860278716_2_alg».proof.Proof.Gen.ReferenceIdeal.Read
import proofs.«122228_j43301860278716_2_alg».proof.Proof.LibRowDot
import proofs.«122228_j43301860278716_2_alg».proof.Proof.LibPlainDot
import proofs.«122228_j43301860278716_2_alg».proof.Proof.LibRowMax
import proofs.«122228_j43301860278716_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.Bridge.AttnB

open Idealize.ShloMosaic Idealize.ShloMosaic.ValueIdx Idealize.SL.Sem Cert.KernelIdeal Cert.KernelIdeal.Gen Cert.KernelIdeal.Hand

/-! ## The kernel's three joints read at an index -/

/-- The scaled scores at an index: the row of the query against the row of the key, times the scale. -/
theorem ab_kScores_apply (q k : FVec Ideal S1024x128 .f32) (i j : Fin 1024) :
    kScores q k (ix2 i j) = (∑ c : Fin 128, q (ix2 i c) * k (ix2 j c)) * Ideal.ofBits .f32 0x3DB504F3#32 := by
  unfold kScores
  show FloatOps.matmul dot_S1024x128_S1024x128_S1024x1024_1_1_0_0_n_n none (truncf .bf16 q bitsLt_bf16_f32) (truncf .bf16 k bitsLt_bf16_f32)
      (constant S1024x1024 .f32 0x00000000#32) (ix2 i j) * _ = _
  rw [show dot_S1024x128_S1024x128_S1024x1024_1_1_0_0_n_n = DotDims.transposedRhs 1024 128 1024 from rfl]
  rw [Cert.RowDot.matmul_zero_apply 1024 128 1024 none _ _ (ix2 i j)]
  rfl

/-- The probabilities against the value block at an index. -/
theorem ab_kPV_apply (p : FVec Ideal S1024x1024 .f32) (v : FVec Ideal S1024x128 .f32) (i : Fin 1024) (d : Fin 128) :
    kPV p v (ix2 i d) = ∑ c : Fin 1024, p (ix2 i c) * v (ix2 c d) := by
  unfold kPV
  show FloatOps.matmul dot_S1024x1024_S1024x128_S1024x128_1_0_0_1_n_n none (truncf .bf16 p bitsLt_bf16_f32) (truncf .bf16 v bitsLt_bf16_f32)
      (constant S1024x128 .f32 0x00000000#32) (ix2 i d) = _
  rw [show dot_S1024x1024_S1024x128_S1024x128_1_0_0_1_n_n = DotDims.plain 1024 1024 128 from rfl]
  rw [Cert.PlainDot.matmul_zero_apply 1024 1024 128 none _ _ (ix2 i d)]
  rfl

/-- The maximum a softmax row is shifted by: the larger of the −∞ word's value and the fold of `max` from it over the row. -/
def ab_rowMax (r : Fin 1024 → Ideal .f32) : Ideal .f32 :=
  max (Ideal.ofBits .f32 0xFF800000#32) ((Finset.univ : Finset (Fin 1024)).fold max (Ideal.ofBits .f32 0xFF800000#32) r)

/-- The softmax of a row at a column: the exponential of the shifted entry over the sum of the row's. -/
def ab_softmaxRow (r : Fin 1024 → Ideal .f32) (j : Fin 1024) : Ideal .f32 :=
  Ideal.div (Ideal.exp (r j - ab_rowMax r)) (∑ c : Fin 1024, Ideal.exp (r c - ab_rowMax r))

/-- The kernel's row maxima, as a vector over the rows. -/
def ab_kMax (s : FVec Ideal S1024x1024 .f32) : FVec Ideal S1024 .f32 :=
  maximumf (broadcast S1024 (Scalar.ofBits (F := Ideal) .f32 0xFF800000#32))
    (multiReduction (F := Ideal) .maximumf [1] S1024 s 0xFF800000#32 reduces_S1024x1024_S1024 (.inl rfl) rfl)

/-- The kernel's exponentials of the shifted scores. -/
def ab_kExp (s : FVec Ideal S1024x1024 .f32) : FVec Ideal S1024x1024 .f32 :=
  exp (subf s (broadcastTo S1024x1024 (shapeCast S1024x1 (ab_kMax s) shapeCasts_S1024_S1024x1) broadcasts_S1024x1_S1024x1024))

/-- The kernel's row sums of the exponentials, kept as a column and broadcast over the columns. -/
def ab_kSum (s : FVec Ideal S1024x1024 .f32) : FVec Ideal S1024x1024 .f32 :=
  broadcastTo S1024x1024 (shapeCast S1024x1
    (multiReduction (F := Ideal) .add [1] S1024 (ab_kExp s) 0x00000000#32 reduces_S1024x1024_S1024 (.inl rfl) rfl)
    shapeCasts_S1024_S1024x1) broadcasts_S1024x1_S1024x1024

/-- The kernel's softmax is the quotient of the exponentials by their kept row sums. -/
theorem ab_kSoftmax_unfold (s : FVec Ideal S1024x1024 .f32) : kSoftmax s = divf (ab_kExp s) (ab_kSum s) := rfl

/-- The larger of the −∞ word's value and a lane maximum over the columns from it, at a row. -/
theorem ab_max_keep (s : FVec Ideal S1024x1024 .f32) (hφ : FKind.Formats .f32)
    (hacc : (0xFF800000#32 : BitVec FTy.f32.bits) = FKind.maximumf.neutral .f32 hφ) (i : Fin 1024) :
    maximumf (broadcast S1024 (Scalar.ofBits (F := Ideal) .f32 0xFF800000#32))
        (multiReduction (F := Ideal) .maximumf [1] S1024 s 0xFF800000#32 reduces_S1024x1024_S1024 hφ hacc) (ix1 i)
      = ab_rowMax (fun c => s (ix2 i c)) := by
  unfold ab_rowMax
  rw [maximumf_apply, Cert.RowMax.max_axis1_apply s _ reduces_S1024x1024_S1024 hφ hacc i]
  rfl

/-- A lane sum over the columns from the zero word, kept as a column and broadcast over the columns, at an index. -/
theorem ab_sum_keep (e : FVec Ideal S1024x1024 .f32) (hφ : FKind.Formats .f32)
    (hacc : (0x00000000#32 : BitVec FTy.f32.bits) = FKind.add.neutral .f32 hφ) (i j : Fin 1024) :
    broadcastTo S1024x1024 (shapeCast S1024x1
        (multiReduction (F := Ideal) .add [1] S1024 e 0x00000000#32 reduces_S1024x1024_S1024 hφ hacc)
        shapeCasts_S1024_S1024x1) broadcasts_S1024x1_S1024x1024 (ix2 i j)
      = ∑ c : Fin 1024, e (ix2 i c) :=
  Cert.Keepdims.rowSum_keep_bcast_apply e _ reduces_S1024x1024_S1024 hφ hacc shapeCasts_S1024_S1024x1 broadcasts_S1024x1_S1024x1024 i j

/-- The kernel's row maximum at a row is the shift of that row. -/
theorem ab_kMax_apply (s : FVec Ideal S1024x1024 .f32) (i : Fin 1024) :
    ab_kMax s (ix1 i) = ab_rowMax (fun c => s (ix2 i c)) := by
  unfold ab_kMax
  exact ab_max_keep s _ _ i

/-- The kernel's exponential at an index: of the entry less the shift of its row. -/
theorem ab_kExp_apply (s : FVec Ideal S1024x1024 .f32) (i j : Fin 1024) :
    ab_kExp s (ix2 i j) = Ideal.exp (s (ix2 i j) - ab_rowMax (fun c => s (ix2 i c))) := by
  unfold ab_kExp
  show Ideal.exp (s (ix2 i j) - broadcastTo S1024x1024 (shapeCast S1024x1 (ab_kMax s) shapeCasts_S1024_S1024x1) broadcasts_S1024x1_S1024x1024 (ix2 i j)) = _
  rw [Cert.Keepdims.broadcastTo_a1_ab_apply, Cert.Keepdims.shapeCast_a_a1_apply, ab_kMax_apply]

/-- The kernel's kept row sum at an index: the sum of the row's exponentials, whatever the column. -/
theorem ab_kSum_apply (s : FVec Ideal S1024x1024 .f32) (i j : Fin 1024) :
    ab_kSum s (ix2 i j) = ∑ c : Fin 1024, ab_kExp s (ix2 i c) := by
  unfold ab_kSum
  exact ab_sum_keep (ab_kExp s) _ _ i j

/-- The kernel's softmax at an index is the softmax of that row of the scores. -/
theorem ab_kSoftmax_apply (s : FVec Ideal S1024x1024 .f32) (i j : Fin 1024) :
    kSoftmax s (ix2 i j) = ab_softmaxRow (fun c => s (ix2 i c)) j := by
  rw [ab_kSoftmax_unfold, divf_apply, ab_kSum_apply, ab_kExp_apply]
  unfold ab_softmaxRow
  exact congrArg (Ideal.div _) (Finset.sum_congr rfl fun c _ => ab_kExp_apply s i c)

/-! ## The reference's stages read at the head `(b, h)` -/

section Reference

open Cert.ReferenceIdeal.Read

variable (x0 : (⟨Cert.ReferenceIdeal.S2x1024x4096, .f32⟩ : BufTy).Contents (Elt Ideal))
  (x1 : (⟨Cert.ReferenceIdeal.S3x1024x128, .f32⟩ : BufTy).Contents (Elt Ideal))
  (x2 : (⟨Cert.ReferenceIdeal.S4096x4096, .f32⟩ : BufTy).Contents (Elt Ideal))
  (x3 x4 : (⟨Cert.ReferenceIdeal.S1024x4096, .f32⟩ : BufTy).Contents (Elt Ideal))
  (x6 x7 : (⟨Cert.ReferenceIdeal.S128, .f32⟩ : BufTy).Contents (Elt Ideal))

/-- The operand indices of the two batched contractions, the reduced indices and the broadcasts' source indices, at
    coordinates. -/
theorem ab_lidx81 (b : Fin 2) (h : Fin 32) (i j : Fin 1024) (c : Fin 128) :
    lidx_main_v81 (ix4 b h i j) c = ix4 b h i c :=
  funext fun a => Fin.ext (by
    match a with
    | ⟨0, _⟩ => rfl
    | ⟨1, _⟩ => rfl
    | ⟨2, _⟩ => rfl
    | ⟨3, _⟩ => rfl)

theorem ab_ridx81 (b : Fin 2) (h : Fin 32) (i j : Fin 1024) (c : Fin 128) :
    ridx_main_v81 (ix4 b h i j) c = ix4 b h j c :=
  funext fun a => Fin.ext (by
    match a with
    | ⟨0, _⟩ => rfl
    | ⟨1, _⟩ => rfl
    | ⟨2, _⟩ => rfl
    | ⟨3, _⟩ => rfl)

theorem ab_lidx95 (b : Fin 2) (h : Fin 32) (i : Fin 1024) (d : Fin 128) (c : Fin 1024) :
    lidx_main_v95 (ix4 b h i d) c = ix4 b h i c :=
  funext fun a => Fin.ext (by
    match a with
    | ⟨0, _⟩ => rfl
    | ⟨1, _⟩ => rfl
    | ⟨2, _⟩ => rfl
    | ⟨3, _⟩ => rfl)

theorem ab_ridx95 (b : Fin 2) (h : Fin 32) (i : Fin 1024) (d : Fin 128) (c : Fin 1024) :
    ridx_main_v95 (ix4 b h i d) c = ix4 b h c d :=
  funext fun a => Fin.ext (by
    match a with
    | ⟨0, _⟩ => rfl
    | ⟨1, _⟩ => rfl
    | ⟨2, _⟩ => rfl
    | ⟨3, _⟩ => rfl)

theorem ab_idx91 (b : Fin 2) (h : Fin 32) (i : Fin 1024) (c : Fin 1024) :
    idx_main_v91 (ix3 b h i) c = ix4 b h i c :=
  funext fun a => Fin.ext (by
    match a with
    | ⟨0, _⟩ => rfl
    | ⟨1, _⟩ => rfl
    | ⟨2, _⟩ => rfl
    | ⟨3, _⟩ => rfl)

theorem ab_idx8788 (b : Fin 2) (h : Fin 32) (i j : Fin 1024) :
    idx_main_v87 (idx_main_v88 (ix4 b h i j)) = ix3 b h i :=
  funext fun a => Fin.ext (by
    match a with
    | ⟨0, _⟩ => rfl
    | ⟨1, _⟩ => rfl
    | ⟨2, _⟩ => rfl)

theorem ab_idx9293 (b : Fin 2) (h : Fin 32) (i j : Fin 1024) :
    idx_main_v92 (idx_main_v93 (ix4 b h i j)) = ix3 b h i :=
  funext fun a => Fin.ext (by
    match a with
    | ⟨0, _⟩ => rfl
    | ⟨1, _⟩ => rfl
    | ⟨2, _⟩ => rfl)

/-- The reference's scaled scores at `(b, h, i, j)`. -/
theorem ab_v83_at (b : Fin 2) (h : Fin 32) (i j : Fin 1024) :
    val_main_v83 (F := Ideal) x0 x1 x2 x3 x6 x7 (ix4 b h i j)
      = (∑ c : Fin 128, val_main_v58 (F := Ideal) x0 x1 x2 x6 (ix4 b h i c) * val_main_v78 (F := Ideal) x0 x1 x3 x7 (ix4 b h j c))
          * Ideal.ofBits .f32 0x3DB504F3#32 := by
  rw [val_main_v83_apply, val_main_v81_apply, val_main_v82_apply, val_main_cst_5_apply]
  generalize val_main_v58 (F := Ideal) x0 x1 x2 x6 = y0
  generalize val_main_v78 (F := Ideal) x0 x1 x3 x7 = y1
  show (∑ c : Fin 128, y0 (lidx_main_v81 (ix4 b h i j) c) * y1 (ridx_main_v81 (ix4 b h i j) c)) * Ideal.ofBits .f32 0x3DB504F3#32 = _
  refine congrArg (· * Ideal.ofBits .f32 0x3DB504F3#32) (Finset.sum_congr rfl fun c _ => ?_)
  rw [ab_lidx81, ab_ridx81]

/-- The reference's row maximum at `(b, h, i)`: the fold of `max` from the −∞ word's value over the row of the scores. -/
theorem ab_v84_at (b : Fin 2) (h : Fin 32) (i : Fin 1024) :
    val_main_v84 (F := Ideal) x0 x1 x2 x3 x6 x7 (ix3 b h i)
      = (Finset.univ : Finset (Fin 1024)).fold max (Ideal.ofBits .f32 0xFF800000#32)
          (fun c => val_main_v83 (F := Ideal) x0 x1 x2 x3 x6 x7 (ix4 b h i c)) := by
  unfold val_main_v84
  generalize val_main_v83 (F := Ideal) x0 x1 x2 x3 x6 x7 = y
  refine (Host.reduce_eq_fold_single (α := Ideal .f32) (s := Cert.ReferenceIdeal.S2x32x1024x1024) (t := Cert.ReferenceIdeal.S2x32x1024)
    (a := (3 : Fin 4)) (u := Cert.ReferenceIdeal.S_) (FloatOps.maximumf (F := Ideal) (φ := .f32)) y (val_main_cst_6 (F := Ideal))
    Cert.ReferenceIdeal.Gen.reducesTo_S2x32x1024x1024_S2x32x1024_d3 (by decide) Cert.ReferenceIdeal.Gen.h_S_ (ix3 b h i)).trans ?_
  exact congrArg (fun f => Finset.fold max (Ideal.ofBits .f32 0xFF800000#32) f (Finset.univ : Finset (Fin 1024)))
    (funext fun c => congrArg y (funext fun a => Fin.ext (by
      match a with
      | ⟨0, _⟩ => rfl
      | ⟨1, _⟩ => rfl
      | ⟨2, _⟩ => rfl
      | ⟨3, _⟩ => rfl)))

/-- The reference's shift at `(b, h, i, j)`: the row maximum of row `i`, whatever the column. -/
theorem ab_v88_at (b : Fin 2) (h : Fin 32) (i j : Fin 1024) :
    val_main_v88 (F := Ideal) x0 x1 x2 x3 x6 x7 (ix4 b h i j)
      = ab_rowMax (fun c => val_main_v83 (F := Ideal) x0 x1 x2 x3 x6 x7 (ix4 b h i c)) := by
  rw [val_main_v88_apply, val_main_v87_apply, ab_idx8788, val_main_v86_apply, val_main_v85_apply, val_main_cst_7_apply, ab_v84_at]
  rfl

/-- The reference's exponential of the shifted score at `(b, h, i, j)`. -/
theorem ab_v90_at (b : Fin 2) (h : Fin 32) (i j : Fin 1024) :
    val_main_v90 (F := Ideal) x0 x1 x2 x3 x6 x7 (ix4 b h i j)
      = Ideal.exp (val_main_v83 (F := Ideal) x0 x1 x2 x3 x6 x7 (ix4 b h i j)
          - ab_rowMax (fun c => val_main_v83 (F := Ideal) x0 x1 x2 x3 x6 x7 (ix4 b h i c))) := by
  rw [val_main_v90_apply, val_main_v89_apply, ab_v88_at]
  rfl

/-- The reference's normaliser at `(b, h, i, j)`: the sum of row `i`'s exponentials, whatever the column. -/
theorem ab_v93_at (b : Fin 2) (h : Fin 32) (i j : Fin 1024) :
    val_main_v93 (F := Ideal) x0 x1 x2 x3 x6 x7 (ix4 b h i j)
      = ∑ c : Fin 1024, val_main_v90 (F := Ideal) x0 x1 x2 x3 x6 x7 (ix4 b h i c) := by
  rw [val_main_v93_apply, val_main_v92_apply, ab_idx9293, val_main_v91_apply, val_main_cst_8_apply]
  generalize val_main_v90 (F := Ideal) x0 x1 x2 x3 x6 x7 = y
  show Ideal.ofBits .f32 0x00000000#32 + ∑ c : Fin 1024, y (idx_main_v91 (ix3 b h i) c) = _
  rw [Ideal.ofBits_zero_f32, zero_add]
  exact Finset.sum_congr rfl fun c _ => by rw [ab_idx91]

/-- The reference's softmax at `(b, h, i, j)` is the softmax of row `i` of its scores. -/
theorem ab_v94_at (b : Fin 2) (h : Fin 32) (i j : Fin 1024) :
    val_main_v94 (F := Ideal) x0 x1 x2 x3 x6 x7 (ix4 b h i j)
      = ab_softmaxRow (fun c => val_main_v83 (F := Ideal) x0 x1 x2 x3 x6 x7 (ix4 b h i c)) j := by
  rw [val_main_v94_apply, ab_v93_at, ab_v90_at]
  unfold ab_softmaxRow
  exact congrArg (Ideal.div _) (Finset.sum_congr rfl fun c _ => ab_v90_at x0 x1 x2 x3 x6 x7 b h i c)

/-- The reference's output at `(b, h, i, d)`. -/
theorem ab_v95_at (b : Fin 2) (h : Fin 32) (i : Fin 1024) (d : Fin 128) :
    val_main_v95 (F := Ideal) x0 x1 x2 x3 x4 x6 x7 (ix4 b h i d)
      = ∑ c : Fin 1024, val_main_v94 (F := Ideal) x0 x1 x2 x3 x6 x7 (ix4 b h i c) * val_main_v80 (F := Ideal) x0 x4 (ix4 b h c d) := by
  rw [val_main_v95_apply]
  generalize val_main_v94 (F := Ideal) x0 x1 x2 x3 x6 x7 = y0
  generalize val_main_v80 (F := Ideal) x0 x4 = y1
  exact Finset.sum_congr rfl fun c _ => by rw [ab_lidx95, ab_ridx95]

/-! ## The bridge -/

/-- The kernel's scaled scores of the head's query and key blocks are the reference's, entry by entry. -/
theorem scores_eq (b : Fin 2) (h : Fin 32) (q k : FVec Ideal S1024x128 .f32)
    (hq : ∀ (i : Fin 1024) (d : Fin 128), q (ix2 i d) = val_main_v58 (F := Ideal) x0 x1 x2 x6 (ix4 b h i d))
    (hk : ∀ (j : Fin 1024) (d : Fin 128), k (ix2 j d) = val_main_v78 (F := Ideal) x0 x1 x3 x7 (ix4 b h j d))
    (i j : Fin 1024) :
    kScores q k (ix2 i j) = val_main_v83 (F := Ideal) x0 x1 x2 x3 x6 x7 (ix4 b h i j) := by
  rw [ab_kScores_apply, ab_v83_at]
  exact congrArg (· * Ideal.ofBits .f32 0x3DB504F3#32) (Finset.sum_congr rfl fun c _ => by rw [hq, hk])

/-- The kernel's softmax of a score block that is the reference's at the head is the reference's softmax there. -/
theorem softmax_eq (b : Fin 2) (h : Fin 32) (s : FVec Ideal S1024x1024 .f32)
    (hs : ∀ (i j : Fin 1024), s (ix2 i j) = val_main_v83 (F := Ideal) x0 x1 x2 x3 x6 x7 (ix4 b h i j))
    (i j : Fin 1024) :
    kSoftmax s (ix2 i j) = val_main_v94 (F := Ideal) x0 x1 x2 x3 x6 x7 (ix4 b h i j) := by
  rw [ab_kSoftmax_apply, ab_v94_at]
  exact congrArg (fun r => ab_softmaxRow r j) (funext fun c => hs i c)

/-- The kernel's product of a probability block and a value block that are the reference's at the head is the reference's
    output there. -/
theorem pv_eq (b : Fin 2) (h : Fin 32) (p : FVec Ideal S1024x1024 .f32) (v : FVec Ideal S1024x128 .f32)
    (hp : ∀ (i j : Fin 1024), p (ix2 i j) = val_main_v94 (F := Ideal) x0 x1 x2 x3 x6 x7 (ix4 b h i j))
    (hv : ∀ (j : Fin 1024) (d : Fin 128), v (ix2 j d) = val_main_v80 (F := Ideal) x0 x4 (ix4 b h j d))
    (i : Fin 1024) (d : Fin 128) :
    kPV p v (ix2 i d) = val_main_v95 (F := Ideal) x0 x1 x2 x3 x4 x6 x7 (ix4 b h i d) := by
  rw [ab_kPV_apply, ab_v95_at]
  exact Finset.sum_congr rfl fun c _ => by rw [hp, hv]

/-- Per head `(b, h)`: scores, softmax and the product with the value block, applied to blocks that are the reference's
    query, key and value at the head, give the reference's attention output at the head. -/
theorem tail_eq (b : Fin 2) (h : Fin 32) (q k v : FVec Ideal S1024x128 .f32)
    (hq : ∀ (i : Fin 1024) (d : Fin 128), q (ix2 i d) = val_main_v58 (F := Ideal) x0 x1 x2 x6 (ix4 b h i d))
    (hk : ∀ (j : Fin 1024) (d : Fin 128), k (ix2 j d) = val_main_v78 (F := Ideal) x0 x1 x3 x7 (ix4 b h j d))
    (hv : ∀ (j : Fin 1024) (d : Fin 128), v (ix2 j d) = val_main_v80 (F := Ideal) x0 x4 (ix4 b h j d))
    (i : Fin 1024) (d : Fin 128) :
    kPV (kSoftmax (kScores q k)) v (ix2 i d) = val_main_v95 (F := Ideal) x0 x1 x2 x3 x4 x6 x7 (ix4 b h i d) :=
  pv_eq x0 x1 x2 x3 x4 x6 x7 b h _ v
    (softmax_eq x0 x1 x2 x3 x6 x7 b h _ (scores_eq x0 x1 x2 x3 x6 x7 b h q k hq hk)) hv i d

end Reference

end Cert.Bridge.AttnB

end
-- ==== Proof.Bridge.AttnVal.lean ====
/- The attention region against the reference, at the ideal carrier. If on entry to the region the query, key and value
   arrays hold the reference's projected-and-transposed arrays and the rotary table and norm weights are @main's
   arguments, then at every grid point what the body leaves in the output window's buffer is the point's slab of the
   reference's attention output (`attn_after`), and so the output array after the region IS that output (`attn_array`).
   Grid point t serves batch b = t / 32 and head h = t % 32; its key and value blocks are those of head h / 4. The body's
   output is the composition: normalise and rotate the query and key blocks, score, soft-max, multiply into the value
   block; each joint equals the reference's stage entrywise, and the stored payload only adds two leading unit axes. -/
import proofs.«122228_j43301860278716_2_alg».proof.Proof.KI.Body1
import proofs.«122228_j43301860278716_2_alg».proof.Proof.Val1
import proofs.«122228_j43301860278716_2_alg».proof.Proof.AttnDefs
import proofs.«122228_j43301860278716_2_alg».proof.Proof.Bridge.AttnA
import proofs.«122228_j43301860278716_2_alg».proof.Proof.Bridge.AttnB
import proofs.«122228_j43301860278716_2_alg».proof.Proof.Gen.ReferenceIdeal.Read
import Idealize.ShloMosaic.Lib.ValueIdx
import Idealize.ShloMosaic.Lib.ValueLayout
import Idealize.ShloMosaic.Lib.Pipeline.Value

set_option maxRecDepth 16384

noncomputable section

namespace Cert.Bridge.AttnVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand
open Cert.ReferenceIdeal.Read (val_main_v2 val_main_v5 val_main_v8 val_main_v58 val_main_v78 val_main_v80 val_main_v95)

/-! ## The stored payload and the three table planes, at an index -/

/-- An `[a, b]` array cast to `[1, 1, a, b]` reads, at `(u, v, i, j)`, the operand at `(i, j)`, whatever the two unit
    coordinates: the two indices have the same row-major position. -/
theorem av_cast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.mul_one])

/-- The stored payload is the 1024 × 128 attention output under two leading unit axes: at `y` it reads the output at `(y 2, y 3)`. -/
theorem av_pay1_apply (z : FVec Ideal S1024x128 .f32) (y : S1x1x1024x128.Idx) :
    k1_pay1 z y = z (ix2 (y 2) (y 3)) := by
  exact (congrArg (k1_pay1 z) (eq_ix4 y)).trans
    (av_cast_ab_11ab_apply z shapeCasts_S1024x128_S1x1x1024x128 (y 0) (y 1) (y 2) (y 3))

/-- Plane 0 of the rotary table, loaded as a 1 × 1024 × 128 block and cast to 1024 × 128: at `(i, d)` it reads the
    table at `(0, i, d)` — the load's rectangle starts at `(0, 0, 0)` with unit strides. -/
theorem av_slab0 (fb : Vec Ideal S3x1024x128 .f32) (i : Fin 1024) (d : Fin 128) :
    k1_pay4 (View.ld fb r1_f0) (ix2 i d) = fb (ix3 0 i d) := by
  refine (shapeCast_1ab_ab_apply (View.ld fb r1_f0) shapeCasts_S1x1024x128_S1024x128 i d).trans ?_
  show fb (r1_f0.idx (ix3 0 i d)) = fb (ix3 0 i d)
  refine congrArg fb ?_
  funext a; apply Fin.ext
  match a with
  | ⟨0, _⟩ => show 0 + 1 * 0 = 0; omega
  | ⟨1, _⟩ => show 0 + 1 * i.val = i.val; omega
  | ⟨2, _⟩ => show 0 + 1 * d.val = d.val; omega

/-- Plane 1 of the rotary table, loaded as a 1 × 1024 × 128 block and cast to 1024 × 128: at `(i, d)` it reads the
    table at `(1, i, d)` — the load's rectangle starts at `(1, 0, 0)` with unit strides. -/
theorem av_slab1 (fb : Vec Ideal S3x1024x128 .f32) (i : Fin 1024) (d : Fin 128) :
    k1_pay5 (View.ld fb r1_f1) (ix2 i d) = fb (ix3 1 i d) := by
  refine (shapeCast_1ab_ab_apply (View.ld fb r1_f1) shapeCasts_S1x1024x128_S1024x128 i d).trans ?_
  show fb (r1_f1.idx (ix3 0 i d)) = fb (ix3 1 i d)
  refine congrArg fb ?_
  funext a; apply Fin.ext
  match a with
  | ⟨0, _⟩ => show 1 + 1 * 0 = 1; omega
  | ⟨1, _⟩ => show 0 + 1 * i.val = i.val; omega
  | ⟨2, _⟩ => show 0 + 1 * d.val = d.val; omega

/-- Plane 2 of the rotary table, loaded as a 1 × 1024 × 128 block and cast to 1024 × 128: at `(i, d)` it reads the
    table at `(2, i, d)` — the load's rectangle starts at `(2, 0, 0)` with unit strides. -/
theorem av_slab2 (fb : Vec Ideal S3x1024x128 .f32) (i : Fin 1024) (d : Fin 128) :
    k1_pay6 (View.ld fb r1_f2) (ix2 i d) = fb (ix3 2 i d) := by
  refine (shapeCast_1ab_ab_apply (View.ld fb r1_f2) shapeCasts_S1x1024x128_S1024x128 i d).trans ?_
  show fb (r1_f2.idx (ix3 0 i d)) = fb (ix3 2 i d)
  refine congrArg fb ?_
  funext a; apply Fin.ext
  match a with
  | ⟨0, _⟩ => show 2 + 1 * 0 = 2; omega
  | ⟨1, _⟩ => show 0 + 1 * i.val = i.val; omega
  | ⟨2, _⟩ => show 0 + 1 * d.val = d.val; omega

/-! ## Over variable blocks -/

/-- If the query, key and value blocks are slabs (b, h), (b, h / 4), (b, h / 4) of the reference's projected arrays,
    the table block is the rotary table and the two weight blocks are the norm weights, entrywise, then what the body
    leaves in the output buffer is slab (b, h) of the reference's attention output. -/
theorem av_core (x0 : (⟨S2x1024x4096, .f32⟩ : BufTy).Contents (Elt Ideal)) (x1 : (⟨S3x1024x128, .f32⟩ : BufTy).Contents (Elt Ideal)) (x2 : (⟨S4096x4096, .f32⟩ : BufTy).Contents (Elt Ideal)) (x3 x4 : (⟨S1024x4096, .f32⟩ : BufTy).Contents (Elt Ideal)) (x6 x7 : (⟨S128, .f32⟩ : BufTy).Contents (Elt Ideal)) (b : Fin 2) (h : Fin 32)
    (qb kb vb : Vec Ideal S1x1x1024x128 .f32) (fb : Vec Ideal S3x1024x128 .f32) (qw kw : Vec Ideal S128 .f32)
    (hq : ∀ (i : Fin 1024) (d : Fin 128), qb (ix4 0 0 i d) = val_main_v2 x0 x2 (ix4 b h i d))
    (hk : ∀ (j : Fin 1024) (d : Fin 128), kb (ix4 0 0 j d) = val_main_v5 x0 x3 (ix4 b (⟨h.val / 4, by omega⟩ : Fin 8) j d))
    (hv : ∀ (j : Fin 1024) (d : Fin 128), vb (ix4 0 0 j d) = val_main_v8 x0 x4 (ix4 b (⟨h.val / 4, by omega⟩ : Fin 8) j d))
    (hf : ∀ (p : Fin 3) (i : Fin 1024) (d : Fin 128), fb (ix3 p i d) = x1 (ix3 p i d))
    (hqw : ∀ d : Fin 128, qw (ix1 d) = x6 (ix1 d)) (hkw : ∀ d : Fin 128, kw (ix1 d) = x7 (ix1 d))
    (y : S1x1x1024x128.Idx) :
    out1_6 qb kb vb fb qw kw y = val_main_v95 x0 x1 x2 x3 x4 x6 x7 (ix4 b h (y 2) (y 3)) := by
  rw [out1_6_eq, k1_pay9_eq, av_pay1_apply]
  have hcos : ∀ (i : Fin 1024) (d : Fin 128), k1_pay4 (View.ld fb r1_f0) (ix2 i d) = x1 (ix3 0 i d) := fun i d => (av_slab0 fb i d).trans (hf 0 i d)
  have hsin : ∀ (i : Fin 1024) (d : Fin 128), k1_pay5 (View.ld fb r1_f1) (ix2 i d) = x1 (ix3 1 i d) := fun i d => (av_slab1 fb i d).trans (hf 1 i d)
  have hnsin : ∀ (i : Fin 1024) (d : Fin 128), k1_pay6 (View.ld fb r1_f2) (ix2 i d) = x1 (ix3 2 i d) := fun i d => (av_slab2 fb i d).trans (hf 2 i d)
  exact Cert.Bridge.AttnB.tail_eq x0 x1 x2 x3 x4 x6 x7 b h _ _ _
    (Cert.Bridge.AttnA.qrope_eq x0 x1 x2 x6 b h qb qw _ _ _ hq hqw hcos hsin hnsin)
    (Cert.Bridge.AttnA.krope_eq x0 x1 x3 x7 b h kb kw _ _ _ hk hkw hcos hsin hnsin)
    (Cert.Bridge.AttnA.vblk_eq x0 x4 b h vb hv) (y 2) (y 3)

/-! ## At the region's blocks -/

/-- At every point and entry, what the attention body leaves in the output window's buffer is the reference's
    attention output at that entry of the point's slab: the six input blocks at point t are slab (t / 32, t % 32) of the
    query array, slab (t / 32, (t % 32) / 4) of the key and value arrays, and the table and weights whole. -/
theorem attn_after (V : (c : Dev nD) → (b : Ref sig .tc) → Buf (Elt Ideal) ((c : Thread nD τ).loc b)) (c : Dev nD)
    (x0 : (⟨S2x1024x4096, .f32⟩ : BufTy).Contents (Elt Ideal)) (x1 : (⟨S3x1024x128, .f32⟩ : BufTy).Contents (Elt Ideal)) (x2 : (⟨S4096x4096, .f32⟩ : BufTy).Contents (Elt Ideal)) (x3 x4 : (⟨S1024x4096, .f32⟩ : BufTy).Contents (Elt Ideal)) (x6 x7 : (⟨S128, .f32⟩ : BufTy).Contents (Elt Ideal))
    (h6 : V c main_v6 = val_main_v2 x0 x2) (h9 : V c main_v9 = val_main_v5 x0 x3) (h12 : V c main_v12 = val_main_v8 x0 x4)
    (h1 : V c main_arg1 = x1) (hw6 : V c main_arg6 = x6) (hw7 : V c main_arg7 = x7)
    (t : Fin cfg1.N) (y : S1x1x1024x128.Idx) :
    (dat1 V c).after 6 t y = val_main_v95 x0 x1 x2 x3 x4 x6 x7 (slabIdx t y) := by
  rw [after1_6]
  exact av_core x0 x1 x2 x3 x4 x6 x7
    (⟨t.val / 32, by have := t_lt_64 t; omega⟩ : Fin 2) (⟨t.val % 32, Nat.mod_lt _ (by decide)⟩ : Fin 32)
    (iblk1 V c 0 t) (iblk1 V c 1 t) (iblk1 V c 2 t) (iblk1 V c 3 t) (iblk1 V c 4 t) (iblk1 V c 5 t)
    (fun i d => (read_q (V c main_v6) t (ix4 0 0 i d)).trans (congrFun h6 _))
    (fun j d => (read_k (V c main_v9) t (ix4 0 0 j d)).trans (congrFun h9 _))
    (fun j d => (read_v (V c main_v12) t (ix4 0 0 j d)).trans (congrFun h12 _))
    (fun p i d => (read_tab (V c main_arg1) t (ix3 p i d)).trans (congrFun h1 _))
    (fun d => (read_qw (V c main_arg6) t (ix1 d)).trans (congrFun hw6 _))
    (fun d => (read_kw (V c main_arg7) t (ix1 d)).trans (congrFun hw7 _)) y

/-- The output array after the region is the reference's attention output: the 64 slabs tile it. -/
theorem attn_array (V : (c : Dev nD) → (b : Ref sig .tc) → Buf (Elt Ideal) ((c : Thread nD τ).loc b)) (c : Dev nD)
    (x0 : (⟨S2x1024x4096, .f32⟩ : BufTy).Contents (Elt Ideal)) (x1 : (⟨S3x1024x128, .f32⟩ : BufTy).Contents (Elt Ideal)) (x2 : (⟨S4096x4096, .f32⟩ : BufTy).Contents (Elt Ideal)) (x3 x4 : (⟨S1024x4096, .f32⟩ : BufTy).Contents (Elt Ideal)) (x6 x7 : (⟨S128, .f32⟩ : BufTy).Contents (Elt Ideal))
    (h6 : V c main_v6 = val_main_v2 x0 x2) (h9 : V c main_v9 = val_main_v5 x0 x3) (h12 : V c main_v12 = val_main_v8 x0 x4)
    (h1 : V c main_arg1 = x1) (hw6 : V c main_arg6 = x6) (hw7 : V c main_arg7 = x7) :
    (dat1 V c).arrAt 6 cfg1.N = val_main_v95 x0 x1 x2 x3 x4 x6 x7 :=
  region1_val (dat1 V c) _ (fun t y => attn_after V c x0 x1 x2 x3 x4 x6 x7 h6 h9 h12 h1 hw6 hw7 t y)

end Cert.Bridge.AttnVal

end
-- ==== Proof.Bridge.Host.lean ====
/-
  The layout stretches of the fused-projection program, read at an index, and met with the reference's layout stages.

  Between its three blocked computations the program only moves entries: it flattens the input (2, 1024, 4096) to
  2048 rows, stacks the query, key and value weights into one 6144-row array, cuts the fused projection's 6144 columns
  into the three ranges [0, 4096), [4096, 5120), [5120, 6144), splits each range into heads of 128 and brings the head
  axis in front of the position axis; after the attention it brings the position axis back in front of the head axis,
  merges the heads into 4096 columns and flattens to 2048 rows; at the end it unflattens the 2048 rows to (2, 1024).
  Each such stretch is read here over an arbitrary valuation W of the buffers: the hypotheses say what W holds at the
  buffers the stretch reads, the conclusions what the stretch leaves at a buffer it writes.

  Every entry moved keeps its row-major position under a reshape, swaps two coordinates under a transpose, and shifts
  one coordinate under a slice or a join, so each reading is one equation between natural numbers per axis:
  row r = b·1024 + s of the flattened arrays is (batch b, position s); column h·128 + d of a range is (head h, lane d).
  The reference computes the three projections separately, row (b, s) of the input against row o of a weight summed
  over the 4096 shared columns, then splits heads and transposes; the two sides agree sum by sum, term by term.
-/
import proofs.«122228_j43301860278716_2_alg».proof.Proof.Gen.KernelIdeal.Launch
import proofs.«122228_j43301860278716_2_alg».proof.Proof.Spec
import proofs.«122228_j43301860278716_2_alg».proof.Proof.Gen.ReferenceIdeal.Read
import proofs.«122228_j43301860278716_2_alg».proof.Proof.LibCat
import Idealize.ShloMosaic.Lib.StableHlo.Run
import Idealize.ShloMosaic.Lib.ValueIdx
import Idealize.ShloMosaic.Lib.ValueLayout
import Idealize.ShloMosaic.Lib.Pipeline.Value

noncomputable section

namespace Cert.Bridge.Host

open Idealize.ShloMosaic Idealize.ShloMosaic.ValueIdx Idealize.SL.Sem Idealize.ShloMosaic.StableHlo
open Cert.KernelIdeal Cert.KernelIdeal.Gen
open Cert.ReferenceIdeal.Read (val_main_v0 val_main_v1 val_main_v2 val_main_v3 val_main_v4 val_main_v5 val_main_v6 val_main_v7 val_main_v8 val_main_v95 val_main_v96 val_main_v97 val_main_v98)

/-! ## The first stretch: the flattened input and the stacked weights -/

/-- The flattened input after the first host stretch: reshape of the input. -/
theorem hg_v0_term (W : Valuation τ sig (Elt Ideal)) :
    @Eq (FVec Ideal S2048x4096 .f32) (StableHlo.after (hostOps0 (F := Ideal)) W (Proc.devRef .tc main_v0))
      (shapeCast S2048x4096 (W (Proc.devRef .tc main_arg0)) shapeCasts_S2x1024x4096_S2048x4096) := by
  after_results_cat
  rfl

set_option maxHeartbeats 400000 in
/-- **The flattened input.** Row r of the flattened input is row (r / 1024, r % 1024) of the input. -/
theorem v0_apply (W : Valuation τ sig (Elt Ideal)) (r : Fin 2048) (k : Fin 4096) :
    @Eq EReal (StableHlo.after (hostOps0 (F := Ideal)) W (Proc.devRef .tc main_v0) (ix2 r k))
      ((W (Proc.devRef .tc main_arg0) : S2x1024x4096.Idx → EReal) (ix3 ⟨r.val / 1024, by omega⟩ ⟨r.val % 1024, by omega⟩ k)) := by
  rw [hg_v0_term]
  exact shapeCast_apply _ shapeCasts_S2x1024x4096_S2048x4096 (ix2 r k) (ix3 ⟨r.val / 1024, by omega⟩ ⟨r.val % 1024, by omega⟩ k)
    (by rewrite [Shape.rowMajor_val_three, Shape.rowMajor_val_two]
        show (r.val / 1024 * 1024 + r.val % 1024) * 4096 + k.val = r.val * 4096 + k.val
        omega)

/-- The stacked weights after the first host stretch: the three weights joined along the rows. -/
theorem hg_v1_term (W : Valuation τ sig (Elt Ideal)) :
    @Eq (FVec Ideal S6144x4096 .f32) (StableHlo.after (hostOps0 (F := Ideal)) W (Proc.devRef .tc main_v1))
      (concatenate S6144x4096 0 [⟨S4096x4096, (W (Proc.devRef .tc main_arg2) : S4096x4096.Idx → EReal)⟩,
          ⟨S1024x4096, (W (Proc.devRef .tc main_arg3) : S1024x4096.Idx → EReal)⟩,
          ⟨S1024x4096, (W (Proc.devRef .tc main_arg4) : S1024x4096.Idx → EReal)⟩]
        concatenates_S4096x4096_S1024x4096_S1024x4096_S6144x4096_d0) := by
  after_results_cat
  rfl

set_option maxHeartbeats 400000 in
/-- **The stacked weights.** Row o of the stacked weights is row o of the query weight below 4096, row o − 4096 of the
    key weight below 5120, row o − 5120 of the value weight from there on. -/
theorem v1_apply (W : Valuation τ sig (Elt Ideal)) (o : Fin 6144) (k : Fin 4096) :
    @Eq EReal (StableHlo.after (hostOps0 (F := Ideal)) W (Proc.devRef .tc main_v1) (ix2 o k))
      (if h : o.val < 4096 then (W (Proc.devRef .tc main_arg2) : S4096x4096.Idx → EReal) (ix2 ⟨o.val, h⟩ k)
        else if h' : o.val < 5120 then (W (Proc.devRef .tc main_arg3) : S1024x4096.Idx → EReal) (ix2 ⟨o.val - 4096, by omega⟩ k)
        else (W (Proc.devRef .tc main_arg4) : S1024x4096.Idx → EReal) (ix2 ⟨o.val - 5120, by omega⟩ k)) := by
  rw [hg_v1_term]
  by_cases h : o.val < 4096
  · rw [dif_pos h]
    exact concatenate_apply_piece (0 : Fin S6144x4096.rank)
        [⟨S4096x4096, (W (Proc.devRef .tc main_arg2) : S4096x4096.Idx → EReal)⟩, ⟨S1024x4096, (W (Proc.devRef .tc main_arg3) : S1024x4096.Idx → EReal)⟩, ⟨S1024x4096, (W (Proc.devRef .tc main_arg4) : S1024x4096.Idx → EReal)⟩]
        concatenates_S4096x4096_S1024x4096_S1024x4096_S6144x4096_d0 (ix2 o k)
      0 (by show (0 : Nat) < 3; omega) S4096x4096 _ rfl rfl 0 rfl (ix2 ⟨o.val, h⟩ k)
      (fun b => match b with | ⟨0, _⟩ => fun hb => (hb rfl).elim | ⟨1, _⟩ => fun _ => rfl)
      (by show 0 + o.val = o.val; omega)
  · rw [dif_neg h]
    by_cases h' : o.val < 5120
    · rw [dif_pos h']
      exact concatenate_apply_piece (0 : Fin S6144x4096.rank)
        [⟨S4096x4096, (W (Proc.devRef .tc main_arg2) : S4096x4096.Idx → EReal)⟩, ⟨S1024x4096, (W (Proc.devRef .tc main_arg3) : S1024x4096.Idx → EReal)⟩, ⟨S1024x4096, (W (Proc.devRef .tc main_arg4) : S1024x4096.Idx → EReal)⟩]
        concatenates_S4096x4096_S1024x4096_S1024x4096_S6144x4096_d0 (ix2 o k)
        1 (by show (1 : Nat) < 3; omega) S1024x4096 _ rfl rfl 4096 rfl (ix2 ⟨o.val - 4096, by omega⟩ k)
        (fun b => match b with | ⟨0, _⟩ => fun hb => (hb rfl).elim | ⟨1, _⟩ => fun _ => rfl)
        (by show 4096 + (o.val - 4096) = o.val; omega)
    · rw [dif_neg h']
      exact concatenate_apply_piece (0 : Fin S6144x4096.rank)
        [⟨S4096x4096, (W (Proc.devRef .tc main_arg2) : S4096x4096.Idx → EReal)⟩, ⟨S1024x4096, (W (Proc.devRef .tc main_arg3) : S1024x4096.Idx → EReal)⟩, ⟨S1024x4096, (W (Proc.devRef .tc main_arg4) : S1024x4096.Idx → EReal)⟩]
        concatenates_S4096x4096_S1024x4096_S1024x4096_S6144x4096_d0 (ix2 o k)
        2 (by show (2 : Nat) < 3; omega) S1024x4096 _ rfl rfl 5120 rfl (ix2 ⟨o.val - 5120, by omega⟩ k)
        (fun b => match b with | ⟨0, _⟩ => fun hb => (hb rfl).elim | ⟨1, _⟩ => fun _ => rfl)
        (by show 5120 + (o.val - 5120) = o.val; omega)

/-! ## The second stretch: the query, key and value arrays -/

/-- The query array after the second host stretch: transpose of reshape of slice of reshape of the fused projection. -/
theorem hg_v6_term (W : Valuation τ sig (Elt Ideal)) :
    @Eq (FVec Ideal S2x32x1024x128 .f32) (StableHlo.after (hostOps1 (F := Ideal)) W (Proc.devRef .tc main_v6))
      (transpose S2x32x1024x128 [0, 2, 1, 3]
        (shapeCast S2x1024x32x128
          (extractStridedSlice S2x1024x4096 ![0, 0, 0]
            (shapeCast S2x1024x6144 (W (Proc.devRef .tc main_v2)) shapeCasts_S2048x6144_S2x1024x6144)
            slices_S2x1024x6144_S2x1024x4096_0_0_0)
          shapeCasts_S2x1024x4096_S2x1024x32x128)
        transposes_S2x1024x32x128_S2x32x1024x128_0_2_1_3) := by
  after_results_simp
  rfl

set_option maxHeartbeats 400000 in
/-- Entry (b, h, s, d) of the query array is entry (b·1024 + s, h·128 + d) of the fused projection. -/
theorem hg_q_apply (W : Valuation τ sig (Elt Ideal)) (b : Fin 2) (h : Fin 32) (s : Fin 1024) (d : Fin 128) :
    @Eq EReal (StableHlo.after (hostOps1 (F := Ideal)) W (Proc.devRef .tc main_v6) (ix4 b h s d))
      ((W (Proc.devRef .tc main_v2) : S2048x6144.Idx → EReal) (ix2 ⟨b.val * 1024 + s.val, by omega⟩ ⟨h.val * 128 + d.val, by omega⟩)) := by
  rw [hg_v6_term]
  refine (transpose_apply [0, 2, 1, 3] _ transposes_S2x1024x32x128_S2x32x1024x128_0_2_1_3 (ix4 b h s d) (ix4 b s h d)
    (fun a => match a with | ⟨0, _⟩ => rfl | ⟨1, _⟩ => rfl | ⟨2, _⟩ => rfl | ⟨3, _⟩ => rfl)).trans ?_
  refine (shapeCast_apply _ shapeCasts_S2x1024x4096_S2x1024x32x128 (ix4 b s h d) (ix3 b s ⟨h.val * 128 + d.val, by omega⟩)
    (by rewrite [Shape.rowMajor_val_three, Shape.rowMajor_val_four]
        show (b.val * 1024 + s.val) * 4096 + (h.val * 128 + d.val) = ((b.val * 1024 + s.val) * 32 + h.val) * 128 + d.val
        omega)).trans ?_
  refine (extractStridedSlice_apply ![0, 0, 0] _ slices_S2x1024x6144_S2x1024x4096_0_0_0 (ix3 b s ⟨h.val * 128 + d.val, by omega⟩)
    (ix3 b s ⟨h.val * 128 + d.val, by omega⟩)
    (fun a => match a with
      | ⟨0, _⟩ => by show b.val = 0 + b.val; omega
      | ⟨1, _⟩ => by show s.val = 0 + s.val; omega
      | ⟨2, _⟩ => by show h.val * 128 + d.val = 0 + (h.val * 128 + d.val); omega)).trans ?_
  exact shapeCast_apply _ shapeCasts_S2048x6144_S2x1024x6144 (ix3 b s ⟨h.val * 128 + d.val, by omega⟩)
    (ix2 ⟨b.val * 1024 + s.val, by omega⟩ ⟨h.val * 128 + d.val, by omega⟩)
    (by rewrite [Shape.rowMajor_val_two, Shape.rowMajor_val_three]
        show (b.val * 1024 + s.val) * 6144 + (h.val * 128 + d.val) = (b.val * 1024 + s.val) * 6144 + (h.val * 128 + d.val)
        rfl)

theorem hg_k_term (W : Valuation τ sig (Elt Ideal)) :
    @Eq (FVec Ideal S2x8x1024x128 .f32) (StableHlo.after (hostOps1 (F := Ideal)) W (Proc.devRef .tc main_v9))
      (transpose S2x8x1024x128 [0, 2, 1, 3]
        (shapeCast S2x1024x8x128
          (extractStridedSlice S2x1024x1024 ![0, 0, 4096]
            (shapeCast S2x1024x6144 (W (Proc.devRef .tc main_v2)) shapeCasts_S2048x6144_S2x1024x6144)
            slices_S2x1024x6144_S2x1024x1024_0_0_4096)
          shapeCasts_S2x1024x1024_S2x1024x8x128)
        transposes_S2x1024x8x128_S2x8x1024x128_0_2_1_3) := by
  after_results_simp
  rfl

set_option maxHeartbeats 400000 in
/-- Entry (b, g, s, d) of this array is entry (b·1024 + s, 4096 + g·128 + d) of the fused projection. -/
theorem hg_k_apply (W : Valuation τ sig (Elt Ideal)) (b : Fin 2) (g : Fin 8) (s : Fin 1024) (d : Fin 128) :
    @Eq EReal (StableHlo.after (hostOps1 (F := Ideal)) W (Proc.devRef .tc main_v9) (ix4 b g s d))
      ((W (Proc.devRef .tc main_v2) : S2048x6144.Idx → EReal) (ix2 ⟨b.val * 1024 + s.val, by omega⟩ ⟨4096 + (g.val * 128 + d.val), by omega⟩)) := by
  rw [hg_k_term]
  refine (transpose_apply [0, 2, 1, 3] _ transposes_S2x1024x8x128_S2x8x1024x128_0_2_1_3 (ix4 b g s d) (ix4 b s g d)
    (fun a => match a with | ⟨0, _⟩ => rfl | ⟨1, _⟩ => rfl | ⟨2, _⟩ => rfl | ⟨3, _⟩ => rfl)).trans ?_
  refine (shapeCast_apply _ shapeCasts_S2x1024x1024_S2x1024x8x128 (ix4 b s g d) (ix3 b s ⟨g.val * 128 + d.val, by omega⟩)
    (by rewrite [Shape.rowMajor_val_three, Shape.rowMajor_val_four]
        show (b.val * 1024 + s.val) * 1024 + (g.val * 128 + d.val) = ((b.val * 1024 + s.val) * 8 + g.val) * 128 + d.val
        omega)).trans ?_
  refine (extractStridedSlice_apply ![0, 0, 4096] _ slices_S2x1024x6144_S2x1024x1024_0_0_4096 (ix3 b s ⟨g.val * 128 + d.val, by omega⟩)
    (ix3 b s ⟨4096 + (g.val * 128 + d.val), by omega⟩)
    (fun a => match a with
      | ⟨0, _⟩ => by show b.val = 0 + b.val; omega
      | ⟨1, _⟩ => by show s.val = 0 + s.val; omega
      | ⟨2, _⟩ => by show 4096 + (g.val * 128 + d.val) = 4096 + (g.val * 128 + d.val); rfl)).trans ?_
  exact shapeCast_apply _ shapeCasts_S2048x6144_S2x1024x6144 (ix3 b s ⟨4096 + (g.val * 128 + d.val), by omega⟩)
    (ix2 ⟨b.val * 1024 + s.val, by omega⟩ ⟨4096 + (g.val * 128 + d.val), by omega⟩)
    (by rewrite [Shape.rowMajor_val_two, Shape.rowMajor_val_three]
        show (b.val * 1024 + s.val) * 6144 + (4096 + (g.val * 128 + d.val)) = (b.val * 1024 + s.val) * 6144 + (4096 + (g.val * 128 + d.val))
        rfl)

theorem hg_v_term (W : Valuation τ sig (Elt Ideal)) :
    @Eq (FVec Ideal S2x8x1024x128 .f32) (StableHlo.after (hostOps1 (F := Ideal)) W (Proc.devRef .tc main_v12))
      (transpose S2x8x1024x128 [0, 2, 1, 3]
        (shapeCast S2x1024x8x128
          (extractStridedSlice S2x1024x1024 ![0, 0, 5120]
            (shapeCast S2x1024x6144 (W (Proc.devRef .tc main_v2)) shapeCasts_S2048x6144_S2x1024x6144)
            slices_S2x1024x6144_S2x1024x1024_0_0_5120)
          shapeCasts_S2x1024x1024_S2x1024x8x128)
        transposes_S2x1024x8x128_S2x8x1024x128_0_2_1_3) := by
  after_results_simp
  rfl

set_option maxHeartbeats 400000 in
/-- Entry (b, g, s, d) of this array is entry (b·1024 + s, 5120 + g·128 + d) of the fused projection. -/
theorem hg_v_apply (W : Valuation τ sig (Elt Ideal)) (b : Fin 2) (g : Fin 8) (s : Fin 1024) (d : Fin 128) :
    @Eq EReal (StableHlo.after (hostOps1 (F := Ideal)) W (Proc.devRef .tc main_v12) (ix4 b g s d))
      ((W (Proc.devRef .tc main_v2) : S2048x6144.Idx → EReal) (ix2 ⟨b.val * 1024 + s.val, by omega⟩ ⟨5120 + (g.val * 128 + d.val), by omega⟩)) := by
  rw [hg_v_term]
  refine (transpose_apply [0, 2, 1, 3] _ transposes_S2x1024x8x128_S2x8x1024x128_0_2_1_3 (ix4 b g s d) (ix4 b s g d)
    (fun a => match a with | ⟨0, _⟩ => rfl | ⟨1, _⟩ => rfl | ⟨2, _⟩ => rfl | ⟨3, _⟩ => rfl)).trans ?_
  refine (shapeCast_apply _ shapeCasts_S2x1024x1024_S2x1024x8x128 (ix4 b s g d) (ix3 b s ⟨g.val * 128 + d.val, by omega⟩)
    (by rewrite [Shape.rowMajor_val_three, Shape.rowMajor_val_four]
        show (b.val * 1024 + s.val) * 1024 + (g.val * 128 + d.val) = ((b.val * 1024 + s.val) * 8 + g.val) * 128 + d.val
        omega)).trans ?_
  refine (extractStridedSlice_apply ![0, 0, 5120] _ slices_S2x1024x6144_S2x1024x1024_0_0_5120 (ix3 b s ⟨g.val * 128 + d.val, by omega⟩)
    (ix3 b s ⟨5120 + (g.val * 128 + d.val), by omega⟩)
    (fun a => match a with
      | ⟨0, _⟩ => by show b.val = 0 + b.val; omega
      | ⟨1, _⟩ => by show s.val = 0 + s.val; omega
      | ⟨2, _⟩ => by show 5120 + (g.val * 128 + d.val) = 5120 + (g.val * 128 + d.val); rfl)).trans ?_
  exact shapeCast_apply _ shapeCasts_S2048x6144_S2x1024x6144 (ix3 b s ⟨5120 + (g.val * 128 + d.val), by omega⟩)
    (ix2 ⟨b.val * 1024 + s.val, by omega⟩ ⟨5120 + (g.val * 128 + d.val), by omega⟩)
    (by rewrite [Shape.rowMajor_val_two, Shape.rowMajor_val_three]
        show (b.val * 1024 + s.val) * 6144 + (5120 + (g.val * 128 + d.val)) = (b.val * 1024 + s.val) * 6144 + (5120 + (g.val * 128 + d.val))
        rfl)

set_option maxHeartbeats 400000 in
/-- The reference's query array at (b, h, s, d): row (b, s) of the input against row h·128 + d of the weight. -/
theorem hg_ref_q_apply (x0 : (⟨S2x1024x4096, .f32⟩ : BufTy).Contents (Elt Ideal)) (x2 : (⟨S4096x4096, .f32⟩ : BufTy).Contents (Elt Ideal))
    (b : Fin 2) (h : Fin 32) (s : Fin 1024) (d : Fin 128) :
    @Eq EReal (val_main_v2 (F := Ideal) x0 x2 (ix4 b h s d))
      (∑ k : Fin 4096, (x0 : S2x1024x4096.Idx → EReal) (ix3 b s k) * (x2 : S4096x4096.Idx → EReal) (ix2 ⟨h.val * 128 + d.val, by omega⟩ k)) := by
  rw [Cert.ReferenceIdeal.Read.val_main_v2_apply, Cert.ReferenceIdeal.Read.val_main_v1_apply, Cert.ReferenceIdeal.Read.val_main_v0_apply]
  refine Finset.sum_congr rfl fun k _ => ?_
  congr 1
  · exact congrArg x0 (funext fun a => Fin.ext (by
      match a with
      | ⟨0, _⟩ => show (((b.val * 1024 + s.val) * 32 + h.val) * 128 + d.val) / 4194304 = b.val; omega
      | ⟨1, _⟩ => show (((b.val * 1024 + s.val) * 32 + h.val) * 128 + d.val) / 4096 % 1024 = s.val; omega
      | ⟨2, _⟩ => rfl))
  · exact congrArg x2 (funext fun a => Fin.ext (by
      match a with
      | ⟨0, _⟩ => show (((b.val * 1024 + s.val) * 32 + h.val) * 128 + d.val) % 4096 = h.val * 128 + d.val; omega
      | ⟨1, _⟩ => rfl))

set_option maxHeartbeats 400000 in
/-- The reference's array at (b, g, s, d): row (b, s) of the input against row g·128 + d of the weight. -/
theorem hg_ref_k_apply (x0 : (⟨S2x1024x4096, .f32⟩ : BufTy).Contents (Elt Ideal)) (x3 : (⟨S1024x4096, .f32⟩ : BufTy).Contents (Elt Ideal))
    (b : Fin 2) (g : Fin 8) (s : Fin 1024) (d : Fin 128) :
    @Eq EReal (val_main_v5 (F := Ideal) x0 x3 (ix4 b g s d))
      (∑ k : Fin 4096, (x0 : S2x1024x4096.Idx → EReal) (ix3 b s k) * (x3 : S1024x4096.Idx → EReal) (ix2 ⟨g.val * 128 + d.val, by omega⟩ k)) := by
  rw [Cert.ReferenceIdeal.Read.val_main_v5_apply, Cert.ReferenceIdeal.Read.val_main_v4_apply, Cert.ReferenceIdeal.Read.val_main_v3_apply]
  refine Finset.sum_congr rfl fun k _ => ?_
  congr 1
  · exact congrArg x0 (funext fun a => Fin.ext (by
      match a with
      | ⟨0, _⟩ => show (((b.val * 1024 + s.val) * 8 + g.val) * 128 + d.val) / 1048576 = b.val; omega
      | ⟨1, _⟩ => show (((b.val * 1024 + s.val) * 8 + g.val) * 128 + d.val) / 1024 % 1024 = s.val; omega
      | ⟨2, _⟩ => rfl))
  · exact congrArg x3 (funext fun a => Fin.ext (by
      match a with
      | ⟨0, _⟩ => show (((b.val * 1024 + s.val) * 8 + g.val) * 128 + d.val) % 1024 = g.val * 128 + d.val; omega
      | ⟨1, _⟩ => rfl))

set_option maxHeartbeats 400000 in
/-- The reference's array at (b, g, s, d): row (b, s) of the input against row g·128 + d of the weight. -/
theorem hg_ref_v_apply (x0 : (⟨S2x1024x4096, .f32⟩ : BufTy).Contents (Elt Ideal)) (x4 : (⟨S1024x4096, .f32⟩ : BufTy).Contents (Elt Ideal))
    (b : Fin 2) (g : Fin 8) (s : Fin 1024) (d : Fin 128) :
    @Eq EReal (val_main_v8 (F := Ideal) x0 x4 (ix4 b g s d))
      (∑ k : Fin 4096, (x0 : S2x1024x4096.Idx → EReal) (ix3 b s k) * (x4 : S1024x4096.Idx → EReal) (ix2 ⟨g.val * 128 + d.val, by omega⟩ k)) := by
  rw [Cert.ReferenceIdeal.Read.val_main_v8_apply, Cert.ReferenceIdeal.Read.val_main_v7_apply, Cert.ReferenceIdeal.Read.val_main_v6_apply]
  refine Finset.sum_congr rfl fun k _ => ?_
  congr 1
  · exact congrArg x0 (funext fun a => Fin.ext (by
      match a with
      | ⟨0, _⟩ => show (((b.val * 1024 + s.val) * 8 + g.val) * 128 + d.val) / 1048576 = b.val; omega
      | ⟨1, _⟩ => show (((b.val * 1024 + s.val) * 8 + g.val) * 128 + d.val) / 1024 % 1024 = s.val; omega
      | ⟨2, _⟩ => rfl))
  · exact congrArg x4 (funext fun a => Fin.ext (by
      match a with
      | ⟨0, _⟩ => show (((b.val * 1024 + s.val) * 8 + g.val) * 128 + d.val) % 1024 = g.val * 128 + d.val; omega
      | ⟨1, _⟩ => rfl))

/-- The fused projection at (r, o) as a sum over the shared columns. -/
theorem hg_projQKV_apply (A : S2048x4096.Idx → EReal) (B : S6144x4096.Idx → EReal) (r : Fin 2048) (o : Fin 6144) :
    Cert.Spec.projQKV A B (ix2 r o) = ∑ k : Fin 4096, A (ix2 r k) * B (ix2 o k) := rfl

set_option maxHeartbeats 400000 in
/-- **The query, key and value arrays.** When the fused projection holds every row of the flattened input against every
    row of the three weights stacked, its three column ranges, split into heads and transposed, are the reference's
    three projections split into heads and transposed. -/
theorem qkv_bridge (W : Valuation τ sig (Elt Ideal))
    (x0 : (⟨S2x1024x4096, .f32⟩ : BufTy).Contents (Elt Ideal)) (x2 : (⟨S4096x4096, .f32⟩ : BufTy).Contents (Elt Ideal))
    (x3 x4 : (⟨S1024x4096, .f32⟩ : BufTy).Contents (Elt Ideal))
    (A : S2048x4096.Idx → EReal) (B : S6144x4096.Idx → EReal)
    (hA : ∀ (r : Fin 2048) (k : Fin 4096), A (ix2 r k)
      = (x0 : S2x1024x4096.Idx → EReal) (ix3 ⟨r.val / 1024, by omega⟩ ⟨r.val % 1024, by omega⟩ k))
    (hB : ∀ (o : Fin 6144) (k : Fin 4096), B (ix2 o k)
      = if h : o.val < 4096 then (x2 : S4096x4096.Idx → EReal) (ix2 ⟨o.val, h⟩ k)
        else if h' : o.val < 5120 then (x3 : S1024x4096.Idx → EReal) (ix2 ⟨o.val - 4096, by omega⟩ k)
        else (x4 : S1024x4096.Idx → EReal) (ix2 ⟨o.val - 5120, by omega⟩ k))
    (h2 : @Eq (FVec Ideal S2048x6144 .f32) (W (Proc.devRef .tc main_v2)) (Cert.Spec.projQKV A B)) :
    @Eq (FVec Ideal S2x32x1024x128 .f32) (StableHlo.after (hostOps1 (F := Ideal)) W (Proc.devRef .tc main_v6)) (val_main_v2 (F := Ideal) x0 x2)
    ∧ @Eq (FVec Ideal S2x8x1024x128 .f32) (StableHlo.after (hostOps1 (F := Ideal)) W (Proc.devRef .tc main_v9)) (val_main_v5 (F := Ideal) x0 x3)
    ∧ @Eq (FVec Ideal S2x8x1024x128 .f32) (StableHlo.after (hostOps1 (F := Ideal)) W (Proc.devRef .tc main_v12)) (val_main_v8 (F := Ideal) x0 x4) := by
  have hrow : ∀ (b : Fin 2) (s : Fin 1024) (k : Fin 4096),
      A (ix2 ⟨b.val * 1024 + s.val, by omega⟩ k) = (x0 : S2x1024x4096.Idx → EReal) (ix3 b s k) := fun b s k => by
    rw [hA]
    exact congrArg x0 (funext fun a => Fin.ext (by
      match a with
      | ⟨0, _⟩ => show (b.val * 1024 + s.val) / 1024 = b.val; omega
      | ⟨1, _⟩ => show (b.val * 1024 + s.val) % 1024 = s.val; omega
      | ⟨2, _⟩ => rfl))
  refine ⟨?_, ?_, ?_⟩
  · funext j
    obtain ⟨b, h, s, d, rfl⟩ : ∃ (b : Fin 2) (h : Fin 32) (s : Fin 1024) (d : Fin 128), j = ix4 b h s d := ⟨j 0, j 1, j 2, j 3, eq_ix4 j⟩
    rw [hg_q_apply, h2, hg_projQKV_apply, hg_ref_q_apply]
    show @Eq EReal _ _
    refine Finset.sum_congr rfl fun k _ => ?_
    rw [hrow, hB, dif_pos (show h.val * 128 + d.val < 4096 by omega)]
  · funext j
    obtain ⟨b, g, s, d, rfl⟩ : ∃ (b : Fin 2) (g : Fin 8) (s : Fin 1024) (d : Fin 128), j = ix4 b g s d := ⟨j 0, j 1, j 2, j 3, eq_ix4 j⟩
    rw [hg_k_apply, h2, hg_projQKV_apply, hg_ref_k_apply]
    show @Eq EReal _ _
    refine Finset.sum_congr rfl fun k _ => ?_
    rw [hrow, hB, dif_neg (show ¬ (4096 + (g.val * 128 + d.val) < 4096) by omega), dif_pos (show 4096 + (g.val * 128 + d.val) < 5120 by omega)]
    refine congrArg (HMul.hMul _) ?_
    exact congrArg x3 (funext fun a => Fin.ext (by
      match a with
      | ⟨0, _⟩ => show 4096 + (g.val * 128 + d.val) - 4096 = g.val * 128 + d.val; omega
      | ⟨1, _⟩ => rfl))
  · funext j
    obtain ⟨b, g, s, d, rfl⟩ : ∃ (b : Fin 2) (g : Fin 8) (s : Fin 1024) (d : Fin 128), j = ix4 b g s d := ⟨j 0, j 1, j 2, j 3, eq_ix4 j⟩
    rw [hg_v_apply, h2, hg_projQKV_apply, hg_ref_v_apply]
    show @Eq EReal _ _
    refine Finset.sum_congr rfl fun k _ => ?_
    rw [hrow, hB, dif_neg (show ¬ (5120 + (g.val * 128 + d.val) < 4096) by omega), dif_neg (show ¬ (5120 + (g.val * 128 + d.val) < 5120) by omega)]
    refine congrArg (HMul.hMul _) ?_
    exact congrArg x4 (funext fun a => Fin.ext (by
      match a with
      | ⟨0, _⟩ => show 5120 + (g.val * 128 + d.val) - 5120 = g.val * 128 + d.val; omega
      | ⟨1, _⟩ => rfl))

/-! ## The third and fourth stretches: the flattened attention output and the result -/

/-- The attention output after the third host stretch: reshape of transpose. -/
theorem hg_v15_term (W : Valuation τ sig (Elt Ideal)) :
    @Eq (FVec Ideal S2048x4096 .f32) (StableHlo.after (hostOps2 (F := Ideal)) W (Proc.devRef .tc main_v15))
      (shapeCast S2048x4096
        (transpose S2x1024x32x128 [0, 2, 1, 3] (W (Proc.devRef .tc main_v13)) transposes_S2x32x1024x128_S2x1024x32x128_0_2_1_3)
        shapeCasts_S2x1024x32x128_S2048x4096) := by
  after_results_simp
  rfl

set_option maxHeartbeats 400000 in
/-- Entry (r, k) of the flattened attention output is entry (r / 1024, k / 128, r % 1024, k % 128) of the per-head output. -/
theorem hg_v15_apply (W : Valuation τ sig (Elt Ideal)) (r : Fin 2048) (k : Fin 4096) :
    @Eq EReal (StableHlo.after (hostOps2 (F := Ideal)) W (Proc.devRef .tc main_v15) (ix2 r k))
      ((W (Proc.devRef .tc main_v13) : S2x32x1024x128.Idx → EReal)
        (ix4 ⟨r.val / 1024, by omega⟩ ⟨k.val / 128, by omega⟩ ⟨r.val % 1024, by omega⟩ ⟨k.val % 128, by omega⟩)) := by
  rw [hg_v15_term]
  refine (shapeCast_apply _ shapeCasts_S2x1024x32x128_S2048x4096 (ix2 r k)
    (ix4 ⟨r.val / 1024, by omega⟩ ⟨r.val % 1024, by omega⟩ ⟨k.val / 128, by omega⟩ ⟨k.val % 128, by omega⟩)
    (by rewrite [Shape.rowMajor_val_four, Shape.rowMajor_val_two]
        show ((r.val / 1024 * 1024 + r.val % 1024) * 32 + k.val / 128) * 128 + k.val % 128 = r.val * 4096 + k.val
        omega)).trans ?_
  exact transpose_apply [0, 2, 1, 3] _ transposes_S2x32x1024x128_S2x1024x32x128_0_2_1_3
    (ix4 ⟨r.val / 1024, by omega⟩ ⟨r.val % 1024, by omega⟩ ⟨k.val / 128, by omega⟩ ⟨k.val % 128, by omega⟩)
    (ix4 ⟨r.val / 1024, by omega⟩ ⟨k.val / 128, by omega⟩ ⟨r.val % 1024, by omega⟩ ⟨k.val % 128, by omega⟩)
    (fun a => match a with | ⟨0, _⟩ => rfl | ⟨1, _⟩ => rfl | ⟨2, _⟩ => rfl | ⟨3, _⟩ => rfl)

set_option maxHeartbeats 400000 in
/-- **The flattened attention output.** When the per-head output is the reference's, row r, column k of the flattened
    array is the reference's merged-heads array at (r / 1024, r % 1024, k). -/
theorem v15_bridge (W : Valuation τ sig (Elt Ideal))
    (x0 : (⟨S2x1024x4096, .f32⟩ : BufTy).Contents (Elt Ideal)) (x1 : (⟨S3x1024x128, .f32⟩ : BufTy).Contents (Elt Ideal))
    (x2 : (⟨S4096x4096, .f32⟩ : BufTy).Contents (Elt Ideal)) (x3 x4 : (⟨S1024x4096, .f32⟩ : BufTy).Contents (Elt Ideal)) (x6 x7 : (⟨S128, .f32⟩ : BufTy).Contents (Elt Ideal))
    (h13 : @Eq (FVec Ideal S2x32x1024x128 .f32) (W (Proc.devRef .tc main_v13)) (val_main_v95 (F := Ideal) x0 x1 x2 x3 x4 x6 x7))
    (r : Fin 2048) (k : Fin 4096) :
    @Eq EReal (StableHlo.after (hostOps2 (F := Ideal)) W (Proc.devRef .tc main_v15) (ix2 r k))
      (val_main_v97 (F := Ideal) x0 x1 x2 x3 x4 x6 x7 (ix3 ⟨r.val / 1024, by omega⟩ ⟨r.val % 1024, by omega⟩ k)) := by
  rw [hg_v15_apply, h13, Cert.ReferenceIdeal.Read.val_main_v97_apply, Cert.ReferenceIdeal.Read.val_main_v96_apply]
  exact congrArg (val_main_v95 (F := Ideal) x0 x1 x2 x3 x4 x6 x7) (funext fun a => Fin.ext (by
    match a with
    | ⟨0, _⟩ => show r.val / 1024 = ((r.val / 1024 * 1024 + r.val % 1024) * 4096 + k.val) / 4194304; omega
    | ⟨1, _⟩ => show k.val / 128 = ((r.val / 1024 * 1024 + r.val % 1024) * 4096 + k.val) / 128 % 32; omega
    | ⟨2, _⟩ => show r.val % 1024 = ((r.val / 1024 * 1024 + r.val % 1024) * 4096 + k.val) / 4096 % 1024; omega
    | ⟨3, _⟩ => show k.val % 128 = ((r.val / 1024 * 1024 + r.val % 1024) * 4096 + k.val) % 128; omega))

/-- The result after the last host stretch: reshape of the output projection. -/
theorem hg_v17_term (W : Valuation τ sig (Elt Ideal)) :
    @Eq (FVec Ideal S2x1024x4096 .f32) (StableHlo.after (hostOps3 (F := Ideal)) W (Proc.devRef .tc main_v17))
      (shapeCast S2x1024x4096 (W (Proc.devRef .tc main_v16)) shapeCasts_S2048x4096_S2x1024x4096) := by
  after_results_simp
  rfl

/-- The output projection at (r, o) as a sum over the shared columns. -/
theorem hg_projOut_apply (A : S2048x4096.Idx → EReal) (B : S4096x4096.Idx → EReal) (r : Fin 2048) (o : Fin 4096) :
    Cert.Spec.projOut A B (ix2 r o) = ∑ k : Fin 4096, A (ix2 r k) * B (ix2 o k) := rfl

set_option maxHeartbeats 400000 in
/-- **The result.** When the output projection holds every row of the flattened merged-heads array against every row of
    the output weight, reshaped to (batch, position, column) it is the reference's result. -/
theorem v17_bridge (W : Valuation τ sig (Elt Ideal))
    (x0 : (⟨S2x1024x4096, .f32⟩ : BufTy).Contents (Elt Ideal)) (x1 : (⟨S3x1024x128, .f32⟩ : BufTy).Contents (Elt Ideal))
    (x2 : (⟨S4096x4096, .f32⟩ : BufTy).Contents (Elt Ideal)) (x3 x4 : (⟨S1024x4096, .f32⟩ : BufTy).Contents (Elt Ideal)) (x5 : (⟨S4096x4096, .f32⟩ : BufTy).Contents (Elt Ideal)) (x6 x7 : (⟨S128, .f32⟩ : BufTy).Contents (Elt Ideal))
    (A : S2048x4096.Idx → EReal)
    (hA : ∀ (r : Fin 2048) (k : Fin 4096), A (ix2 r k)
      = val_main_v97 (F := Ideal) x0 x1 x2 x3 x4 x6 x7 (ix3 ⟨r.val / 1024, by omega⟩ ⟨r.val % 1024, by omega⟩ k))
    (h16 : @Eq (FVec Ideal S2048x4096 .f32) (W (Proc.devRef .tc main_v16)) (Cert.Spec.projOut A x5)) :
    @Eq (FVec Ideal S2x1024x4096 .f32) (StableHlo.after (hostOps3 (F := Ideal)) W (Proc.devRef .tc main_v17))
      (val_main_v98 (F := Ideal) x0 x1 x2 x3 x4 x5 x6 x7) := by
  funext j
  obtain ⟨b, s, o, rfl⟩ : ∃ (b : Fin 2) (s : Fin 1024) (o : Fin 4096), j = ix3 b s o := ⟨j 0, j 1, j 2, eq_ix3 j⟩
  rw [hg_v17_term]
  refine (shapeCast_apply _ shapeCasts_S2048x4096_S2x1024x4096 (ix3 b s o) (ix2 ⟨b.val * 1024 + s.val, by omega⟩ o)
    (by rewrite [Shape.rowMajor_val_two, Shape.rowMajor_val_three]
        show (b.val * 1024 + s.val) * 4096 + o.val = (b.val * 1024 + s.val) * 4096 + o.val
        rfl)).trans ?_
  rw [h16, hg_projOut_apply, Cert.ReferenceIdeal.Read.val_main_v98_apply]
  show @Eq EReal _ _
  refine Finset.sum_congr rfl fun k _ => ?_
  rw [hA]
  refine congrArg₂ (· * ·) ?_ ?_
  · exact congrArg (val_main_v97 (F := Ideal) x0 x1 x2 x3 x4 x6 x7) (funext fun a => Fin.ext (by
      match a with
      | ⟨0, _⟩ => show (b.val * 1024 + s.val) / 1024 = b.val; omega
      | ⟨1, _⟩ => show (b.val * 1024 + s.val) % 1024 = s.val; omega
      | ⟨2, _⟩ => rfl))
  · exact congrArg x5 (funext fun a => Fin.ext (by
      match a with
      | ⟨0, _⟩ => rfl
      | ⟨1, _⟩ => rfl))

end Cert.Bridge.Host

end
-- ==== Proof.Final.lean ====
/-
  The kernel program's result, at the extended reals, is the reference's last stage of the same arguments.

  Between the items of @main every buffer's contents are a fold from the launch memory. Read through that fold:
  the first host stretch lays the hidden states out as 2048 rows and stacks the three weight matrices; the first
  call's output array is every row against every stacked weight row (`projQKV`); the second stretch cuts that into
  the query, key and value arrays, which are the reference's three projections re-laid per head; the attention
  call's output array is the reference's attention output; the third stretch lays it out as 2048 rows again; the
  last call's output array is every such row against every output-weight row (`projOut`); and the last reshape of
  that is the reference's final product. The arguments are never written, so each stage reads them as launched.
-/
import proofs.«122228_j43301860278716_2_alg».proof.Proof.KI.Run
import proofs.«122228_j43301860278716_2_alg».proof.Proof.KI.Body0
import proofs.«122228_j43301860278716_2_alg».proof.Proof.KI.Body1
import proofs.«122228_j43301860278716_2_alg».proof.Proof.KI.Body2
import proofs.«122228_j43301860278716_2_alg».proof.Proof.MatArr
import proofs.«122228_j43301860278716_2_alg».proof.Proof.Bridge.AttnVal
import proofs.«122228_j43301860278716_2_alg».proof.Proof.Bridge.Host

noncomputable section

namespace Cert.Final

open Idealize.ShloMosaic Idealize.ShloMosaic.TcCoe Idealize.ShloMosaic.ValueIdx
open Idealize.SL Idealize.SL.Sem
open Cert.KernelIdeal Cert.KernelIdeal.Gen Cert.KernelIdeal.Hand
open Cert.ReferenceIdeal.Read (val_main_v2 val_main_v5 val_main_v8 val_main_v95 val_main_v97 val_main_v98)

variable (m : (ℓ : Loc nD τ sig) → Buf (Elt Ideal) ℓ) (c : Dev nD)

/-- The eight arguments as launched. -/
abbrev X0 : (⟨S2x1024x4096, .f32⟩ : BufTy).Contents (Elt Ideal) := m ((c : Thread nD τ).loc main_arg0)
abbrev X1 : (⟨S3x1024x128, .f32⟩ : BufTy).Contents (Elt Ideal) := m ((c : Thread nD τ).loc main_arg1)
abbrev X2 : (⟨S4096x4096, .f32⟩ : BufTy).Contents (Elt Ideal) := m ((c : Thread nD τ).loc main_arg2)
abbrev X3 : (⟨S1024x4096, .f32⟩ : BufTy).Contents (Elt Ideal) := m ((c : Thread nD τ).loc main_arg3)
abbrev X4 : (⟨S1024x4096, .f32⟩ : BufTy).Contents (Elt Ideal) := m ((c : Thread nD τ).loc main_arg4)
abbrev X5 : (⟨S4096x4096, .f32⟩ : BufTy).Contents (Elt Ideal) := m ((c : Thread nD τ).loc main_arg5)
abbrev X6 : (⟨S128, .f32⟩ : BufTy).Contents (Elt Ideal) := m ((c : Thread nD τ).loc main_arg6)
abbrev X7 : (⟨S128, .f32⟩ : BufTy).Contents (Elt Ideal) := m ((c : Thread nD τ).loc main_arg7)

/-! ## The arguments the later calls read are still as launched -/

theorem arg1_at3 : Hand.V3 m (dat0 (F := Ideal)) c main_arg1 = X1 m c :=
  (run_W3_of m dat0 c main_arg1 (by decide)).trans <| (W2_of_ne m dat0 c main_arg1 (by decide)).trans <|
    (run_W1_of m c main_arg1 (by decide)).trans rfl
theorem arg6_at3 : Hand.V3 m (dat0 (F := Ideal)) c main_arg6 = X6 m c :=
  (run_W3_of m dat0 c main_arg6 (by decide)).trans <| (W2_of_ne m dat0 c main_arg6 (by decide)).trans <|
    (run_W1_of m c main_arg6 (by decide)).trans rfl
theorem arg7_at3 : Hand.V3 m (dat0 (F := Ideal)) c main_arg7 = X7 m c :=
  (run_W3_of m dat0 c main_arg7 (by decide)).trans <| (W2_of_ne m dat0 c main_arg7 (by decide)).trans <|
    (run_W1_of m c main_arg7 (by decide)).trans rfl
theorem arg5_at5 : Hand.V5 m (dat0 (F := Ideal)) (dat1 (F := Ideal)) c main_arg5 = X5 m c :=
  (run_W5_of m dat0 dat1 c main_arg5 (by decide)).trans <| (W4_of_ne m dat0 dat1 c main_arg5 (by decide)).trans <|
    (run_W3_of m dat0 c main_arg5 (by decide)).trans <| (W2_of_ne m dat0 c main_arg5 (by decide)).trans <|
    (run_W1_of m c main_arg5 (by decide)).trans rfl

/-! ## The first stretch and the first call -/

/-- The hidden states as 2048 rows. -/
theorem rows_at1 (r : Fin 2048) (k : Fin 4096) :
    @Eq EReal ((Hand.V1 m c main_v0 : S2048x4096.Idx → EReal) (ix2 r k))
      ((X0 m c : S2x1024x4096.Idx → EReal) (ix3 ⟨r.val / 1024, by omega⟩ ⟨r.val % 1024, by omega⟩ k)) :=
  Cert.Bridge.Host.v0_apply (W0 m c) r k

/-- The three weight matrices stacked: rows 0–4095 the query weights, 4096–5119 the key weights, the rest the value weights. -/
theorem stack_at1 (o : Fin 6144) (k : Fin 4096) :
    @Eq EReal ((Hand.V1 m c main_v1 : S6144x4096.Idx → EReal) (ix2 o k))
      (if h : o.val < 4096 then (X2 m c : S4096x4096.Idx → EReal) (ix2 ⟨o.val, h⟩ k)
        else if h' : o.val < 5120 then (X3 m c : S1024x4096.Idx → EReal) (ix2 ⟨o.val - 4096, by omega⟩ k)
        else (X4 m c : S1024x4096.Idx → EReal) (ix2 ⟨o.val - 5120, by omega⟩ k)) :=
  Cert.Bridge.Host.v1_apply (W0 m c) o k

/-- After the first call: every row against every stacked weight row. -/
theorem qkv_at2 :
    @Eq (FVec Ideal S2048x6144 .f32) (W2 m (dat0 (F := Ideal)) c (Proc.devRef .tc main_v2))
      (Cert.Spec.projQKV (Hand.V1 m c main_v0) (Hand.V1 m c main_v1)) :=
  (W2_arr m dat0 c 2).trans (Cert.KernelIdeal.MatVal.reg0_array (Hand.V1 m) c)

/-! ## The second stretch and the attention call -/

/-- The query, key and value arrays the attention call reads are the reference's three projections per head. -/
theorem heads_at3 :
    @Eq (FVec Ideal S2x32x1024x128 .f32) (Hand.V3 m (dat0 (F := Ideal)) c main_v6) (val_main_v2 (F := Ideal) (X0 m c) (X2 m c))
    ∧ @Eq (FVec Ideal S2x8x1024x128 .f32) (Hand.V3 m (dat0 (F := Ideal)) c main_v9) (val_main_v5 (F := Ideal) (X0 m c) (X3 m c))
    ∧ @Eq (FVec Ideal S2x8x1024x128 .f32) (Hand.V3 m (dat0 (F := Ideal)) c main_v12) (val_main_v8 (F := Ideal) (X0 m c) (X4 m c)) :=
  Cert.Bridge.Host.qkv_bridge (W2 m dat0 c) (X0 m c) (X2 m c) (X3 m c) (X4 m c) (Hand.V1 m c main_v0) (Hand.V1 m c main_v1)
    (rows_at1 m c) (stack_at1 m c) (qkv_at2 m c)

/-- After the attention call: the reference's attention output. -/
theorem attn_at4 :
    @Eq (FVec Ideal S2x32x1024x128 .f32) (W4 m (dat0 (F := Ideal)) (dat1 (F := Ideal)) c (Proc.devRef .tc main_v13))
      (val_main_v95 (F := Ideal) (X0 m c) (X1 m c) (X2 m c) (X3 m c) (X4 m c) (X6 m c) (X7 m c)) :=
  (W4_arr m dat0 dat1 c 6).trans
    (Cert.Bridge.AttnVal.attn_array (Hand.V3 m dat0) c (X0 m c) (X1 m c) (X2 m c) (X3 m c) (X4 m c) (X6 m c) (X7 m c)
      (heads_at3 m c).1 (heads_at3 m c).2.1 (heads_at3 m c).2.2 (arg1_at3 m c) (arg6_at3 m c) (arg7_at3 m c))

/-! ## The third stretch, the last call and the last reshape -/

/-- The attention output as 2048 rows is the reference's re-laid attention output. -/
theorem rows_at5 (r : Fin 2048) (k : Fin 4096) :
    @Eq EReal ((Hand.V5 m (dat0 (F := Ideal)) (dat1 (F := Ideal)) c main_v15 : S2048x4096.Idx → EReal) (ix2 r k))
      (val_main_v97 (F := Ideal) (X0 m c) (X1 m c) (X2 m c) (X3 m c) (X4 m c) (X6 m c) (X7 m c)
        (ix3 ⟨r.val / 1024, by omega⟩ ⟨r.val % 1024, by omega⟩ k)) :=
  Cert.Bridge.Host.v15_bridge (W4 m dat0 dat1 c) (X0 m c) (X1 m c) (X2 m c) (X3 m c) (X4 m c) (X6 m c) (X7 m c) (attn_at4 m c) r k

/-- After the last call: every such row against every output-weight row. -/
theorem out_at6 :
    @Eq (FVec Ideal S2048x4096 .f32) (W6 m (dat0 (F := Ideal)) (dat1 (F := Ideal)) (dat2 (F := Ideal)) c (Proc.devRef .tc main_v16))
      (Cert.Spec.projOut (Hand.V5 m dat0 dat1 c main_v15) (X5 m c)) :=
  ((W6_arr m dat0 dat1 dat2 c 2).trans (Cert.KernelIdeal.MatVal.reg2_array (Hand.V5 m dat0 dat1) c)).trans
    (congrArg (Cert.Spec.projOut (Hand.V5 m dat0 dat1 c main_v15)) (arg5_at5 m c))

/-- THE RESULT: the kernel program's result buffer at the last boundary is the reference's last stage of the arguments. -/
theorem result :
    @Eq (FVec Ideal S2x1024x4096 .f32) (W7 m (dat0 (F := Ideal)) (dat1 (F := Ideal)) (dat2 (F := Ideal)) c (Proc.devRef .tc main_v17))
      (val_main_v98 (F := Ideal) (X0 m c) (X1 m c) (X2 m c) (X3 m c) (X4 m c) (X5 m c) (X6 m c) (X7 m c)) :=
  Cert.Bridge.Host.v17_bridge (W6 m dat0 dat1 dat2 c) (X0 m c) (X1 m c) (X2 m c) (X3 m c) (X4 m c) (X5 m c) (X6 m c) (X7 m c)
    (Hand.V5 m dat0 dat1 c main_v15) (rows_at5 m c) (out_at6 m c)

end Cert.Final

end
-- ==== Proof.lean ====
/-
  A grouped-query attention layer: the fused query/key/value projection, per-head RMS normalisation and rotary
  embedding, scaled dot-product attention with a row softmax, and the output projection.

  The kernel program computes it in three tiled calls with layout operations between them. The two projections
  accumulate a 4096-long contraction in four chunks of 1024 into a carried accumulator, written back after the last
  chunk; the attention call takes one (batch, head) slab per grid point, the key and value slabs shared by four query
  heads. The reference computes the same layer with three separate projections, an explicit repetition of the key and
  value heads, and one contraction per product.

  On the extended reals the two agree entry by entry with no appeal to finiteness: the chunked accumulation
  0 + Σ₀ + Σ₁ + Σ₂ + Σ₃ is the one sum over 4096 columns because addition is commutative and associative there; the
  stacked-weight projection cut into three column ranges is the three projections; a query head h reading key/value
  head h / 4 is the repetition; and every other operation — the division by 128, the ε and scale words, rsqrt, exp,
  the row maximum from −∞ and the row sums — is the same operation on the same numbers on both sides.

  The frames: each kernel program's run is its seven items in order, the three calls' bodies run point by point under
  an invariant that carries the accumulator between points; no item writes an argument. The reference is a straight
  line of host operations. The idealisation rewrote nothing, so `preserves` is trivial.
-/
import proofs.«122228_j43301860278716_2_alg».proof.Defs
import proofs.«122228_j43301860278716_2_alg».proof.Proof.Gen.Kernel
import proofs.«122228_j43301860278716_2_alg».proof.Proof.Gen.KernelIdeal
import proofs.«122228_j43301860278716_2_alg».proof.Proof.Gen.ReferenceIdeal
import proofs.«122228_j43301860278716_2_alg».proof.Proof.Gen.ReferenceIdeal.Run
import proofs.«122228_j43301860278716_2_alg».proof.Proof.Gen.ReferenceIdeal.Read
import proofs.«122228_j43301860278716_2_alg».proof.Proof.Gen.Pre_finite_inputs
import proofs.«122228_j43301860278716_2_alg».proof.Proof.K.Frame
import proofs.«122228_j43301860278716_2_alg».proof.Proof.KI.Frame
import proofs.«122228_j43301860278716_2_alg».proof.Proof.Final
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ => Cert.Kernel.Hand.frame m ρ

/-- The same of the idealised program. -/
theorem frame_ki : Cert.frame_KernelIdeal := fun m ρ _ => Cert.KernelIdeal.Hand.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both idealised programs end with the reference's last stage of the shared arguments in their result buffers. -/
theorem algebraic : Cert.algebraic_KernelIdeal_ReferenceIdeal := by
  intro m ρ m' ρ' _ hagree
  refine ⟨fun c => Cert.KernelIdeal.Hand.WF7 m c (Proc.devRef .tc Cert.KernelIdeal.main_v17), Cert.KernelIdeal.Hand.run_val m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Final.result m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
